-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S24x128 : Shape := ⟨2, ![24, 128]⟩
abbrev S2x512 : Shape := ⟨2, ![2, 512]⟩
abbrev S128x4 : Shape := ⟨2, ![128, 4]⟩
abbrev S4 : Shape := ⟨1, ![4]⟩
abbrev S4x4 : Shape := ⟨2, ![4, 4]⟩
abbrev S4x8 : Shape := ⟨2, ![4, 8]⟩
abbrev S8 : Shape := ⟨1, ![8]⟩
abbrev S8x8 : Shape := ⟨2, ![8, 8]⟩
abbrev S8x16 : Shape := ⟨2, ![8, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S768x128 : Shape := ⟨2, ![768, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S24x128 : S_.BroadcastsInDim S24x128 (![] : Fin 0 → Fin S24x128.rank)
  reducesTo_S24x128_S_d0_1 : S24x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x512 : S_.BroadcastsInDim S2x512 (![] : Fin 0 → Fin S2x512.rank)
  reducesTo_S2x512_S_d0_1 : S2x512.ReducesTo [0, 1] S_

variable [Facts]

def fn_part5 {F : FTy → Type} [FloatOps F] (main_arg1 : IVec S2x512 32) (main_arg19 : FVec F S2 .f32) (main_v83 : IVec S_ 1) (main_v84 : FVec F S128x2 .f32) (main_cst_32 : FVec F S_ .f32) : IVec S_ 1 :=
  let main_v85 : FVec F S128x2 .f32 := broadcastInDim S128x2 ![] bcast_S_S128x2 main_cst_32
  let main_v86 : IVec S128x2 1 := cmpf .olt main_v84 main_v85
  let main_c_33 : IVec S_ 1 := constantI S_ 1 1#1
  let main_v87 : IVec S_ 1 := (fun x v => Host.reduce IntOp.andi x v reducesTo_S128x2_S_d0_1 h_S_) main_v86 main_c_33
  let main_v88 : IVec S_ 1 := andi main_v83 main_v87
  let main_v89 : FVec F S2 .f32 := Host.absf main_arg19
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_c_36 : IVec S_ 32 := constantI S_ 32 0#32
  let main_v94 : IVec S2x512 32 := broadcastInDim S2x512 ![] bcast_S_S2x512 main_c_36
  let main_v95 : IVec S2x512 1 := cmpi .sge main_arg1 main_v94
  let main_c_37 : IVec S_ 32 := constantI S_ 32 23#32
  let main_v96 : IVec S2x512 32 := broadcastInDim S2x512 ![] bcast_S_S2x512 main_c_37
  let main_v97 : IVec S2x512 1 := cmpi .sle main_arg1 main_v96
  let main_v98 : IVec S2x512 1 := andi main_v95 main_v97
  let main_c_38 : IVec S_ 1 := constantI S_ 1 1#1
  let main_v99 : IVec S_ 1 := (fun x v => Host.reduce IntOp.andi x v reducesTo_S2x512_S_d0_1 h_S_) main_v98 main_c_38
  let main_v100 : IVec S_ 1 := andi main_v93 main_v99
  main_v100

def fn_part4 {F : FTy → Type} [FloatOps F] (main_arg1 : IVec S2x512 32) (main_arg15 : FVec F S32 .f32) (main_arg16 : FVec F S768x128 .f32) (main_arg17 : FVec F S128 .f32) (main_arg18 : FVec F S128x2 .f32) (main_arg19 : FVec F S2 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S768x128 .f32 := Host.absf main_arg16
  let main_cst_28 : FVec F S_ .f32 := constant S_ .f32 0x7F800000#32
  let main_v75 : FVec F S768x128 .f32 := broadcastInDim S768x128 ![] bcast_S_S768x128 main_cst_28
  let main_v76 : IVec S768x128 1 := cmpf .olt main_v74 main_v75
  let main_c_29 : IVec S_ 1 := constantI S_ 1 1#1
  let main_v77 : IVec S_ 1 := (fun x v => Host.reduce IntOp.andi x v reducesTo_S768x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x2 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S2x512 32) (main_arg12 : FVec F S16x16 .f32) (main_arg13 : FVec F S16 .f32) (main_arg14 : FVec F S16x32 .f32) (main_arg15 : FVec F S32 .f32) (main_arg16 : FVec F S768x128 .f32) (main_arg17 : FVec F S128 .f32) (main_arg18 : FVec F S128x2 .f32) (main_arg19 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x32 .f32 := Host.absf main_arg14
  let main_cst_24 : FVec F S_ .f32 := constant S_ .f32 0x7F800000#32
  let main_v65 : FVec F S16x32 .f32 := broadcastInDim S16x32 ![] bcast_S_S16x32 main_cst_24
  let main_v66 : IVec S16x32 1 := cmpf .olt main_v64 main_v65
  let main_c_25 : IVec S_ 1 := constantI S_ 1 1#1
  let main_v67 : IVec S_ 1 := (fun x v => Host.reduce IntOp.andi x v reducesTo_S16x32_S_d0_1 h_S_) main_v66 main_c_25
  fn_part4 (F := F) main_arg1 main_arg15 main_arg16 main_arg17 main_arg18 main_arg19 main_v63 main_v67

def fn_part2 {F : FTy → Type} [FloatOps F] (main_arg1 : IVec S2x512 32) (main_arg8 : FVec F S8x8 .f32) (main_arg9 : FVec F S8 .f32) (main_arg10 : FVec F S8x16 .f32) (main_arg11 : FVec F S16 .f32) (main_arg12 : FVec F S16x16 .f32) (main_arg13 : FVec F S16 .f32) (main_arg14 : FVec F S16x32 .f32) (main_arg15 : FVec F S32 .f32) (main_arg16 : FVec F S768x128 .f32) (main_arg17 : FVec F S128 .f32) (main_arg18 : FVec F S128x2 .f32) (main_arg19 : FVec F S2 .f32) (main_v33 : IVec S_ 1) : IVec S_ 1 :=
  let main_v34 : FVec F S8x8 .f32 := Host.absf main_arg8
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x16 .f32 := Host.absf main_arg10
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S2x512 32) (main_arg5 : FVec F S4 .f32) (main_arg6 : FVec F S4x8 .f32) (main_arg7 : FVec F S8 .f32) (main_arg8 : FVec F S8x8 .f32) (main_arg9 : FVec F S8 .f32) (main_arg10 : FVec F S8x16 .f32) (main_arg11 : FVec F S16 .f32) (main_arg12 : FVec F S16x16 .f32) (main_arg13 : FVec F S16 .f32) (main_arg14 : FVec F S16x32 .f32) (main_arg15 : FVec F S32 .f32) (main_arg16 : FVec F S768x128 .f32) (main_arg17 : FVec F S128 .f32) (main_arg18 : FVec F S128x2 .f32) (main_arg19 : FVec F S2 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x8 .f32 := Host.absf main_arg6
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S24x128 .f32) (main_arg1 : IVec S2x512 32) (main_arg2 : FVec F S128x4 .f32) (main_arg3 : FVec F S4 .f32) (main_arg4 : FVec F S4x4 .f32) (main_arg5 : FVec F S4 .f32) (main_arg6 : FVec F S4x8 .f32) (main_arg7 : FVec F S8 .f32) (main_arg8 : FVec F S8x8 .f32) (main_arg9 : FVec F S8 .f32) (main_arg10 : FVec F S8x16 .f32) (main_arg11 : FVec F S16 .f32) (main_arg12 : FVec F S16x16 .f32) (main_arg13 : FVec F S16 .f32) (main_arg14 : FVec F S16x32 .f32) (main_arg15 : FVec F S32 .f32) (main_arg16 : FVec F S768x128 .f32) (main_arg17 : FVec F S128 .f32) (main_arg18 : FVec F S128x2 .f32) (main_arg19 : FVec F S2 .f32) : IVec S_ 1 :=
  let main_v0 : FVec F S24x128 .f32 := Host.absf main_arg0
  let main_cst : FVec F S_ .f32 := constant S_ .f32 0x7F800000#32
  let main_v1 : FVec F S24x128 .f32 := broadcastInDim S24x128 ![] bcast_S_S24x128 main_cst
  let main_v2 : IVec S24x128 1 := cmpf .olt main_v0 main_v1
  let main_c : IVec S_ 1 := constantI S_ 1 1#1
  let main_v3 : IVec S_ 1 := (fun x v => Host.reduce IntOp.andi x v reducesTo_S24x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S24x128 : Shape := ⟨2, ![24, 128]⟩
abbrev S2x512 : Shape := ⟨2, ![2, 512]⟩
abbrev S128x4 : Shape := ⟨2, ![128, 4]⟩
abbrev S4 : Shape := ⟨1, ![4]⟩
abbrev S4x4 : Shape := ⟨2, ![4, 4]⟩
abbrev S4x8 : Shape := ⟨2, ![4, 8]⟩
abbrev S8 : Shape := ⟨1, ![8]⟩
abbrev S8x8 : Shape := ⟨2, ![8, 8]⟩
abbrev S8x16 : Shape := ⟨2, ![8, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S768x128 : Shape := ⟨2, ![768, 128]⟩
abbrev S128 : Shape := ⟨1, ![128]⟩
abbrev S128x2 : Shape := ⟨2, ![128, 2]⟩
abbrev S2 : Shape := ⟨1, ![2]⟩
abbrev S_ : Shape := ⟨0, ![]⟩
abbrev S9216 : Shape := ⟨1, ![9216]⟩
abbrev S3072 : Shape := ⟨1, ![3072]⟩
abbrev S1x16 : Shape := ⟨2, ![1, 16]⟩
abbrev S1x2 : Shape := ⟨2, ![1, 2]⟩
abbrev S24x24 : Shape := ⟨2, ![24, 24]⟩
abbrev S24 : Shape := ⟨1, ![24]⟩
abbrev S24x1 : Shape := ⟨2, ![24, 1]⟩
abbrev S24x4 : Shape := ⟨2, ![24, 4]⟩
abbrev S1x4 : Shape := ⟨2, ![1, 4]⟩
abbrev S24x8 : Shape := ⟨2, ![24, 8]⟩
abbrev S1x8 : Shape := ⟨2, ![1, 8]⟩
abbrev S24x16 : Shape := ⟨2, ![24, 16]⟩
abbrev S24x32 : Shape := ⟨2, ![24, 32]⟩
abbrev S1x32 : Shape := ⟨2, ![1, 32]⟩
abbrev S24x32x1 : Shape := ⟨3, ![24, 32, 1]⟩
abbrev S24x32x128 : Shape := ⟨3, ![24, 32, 128]⟩
abbrev S32x128 : Shape := ⟨2, ![32, 128]⟩
abbrev S1x128 : Shape := ⟨2, ![1, 128]⟩
abbrev S1 : Shape := ⟨1, ![1]⟩
abbrev S1x1 : Shape := ⟨2, ![1, 1]⟩

abbrev nBuf : Table → Nat
  | .hbm => 25
  | .local .tc .vmem => 21
  | .local .scVector .vmem => 3
  | _ => 0

abbrev bufTy : (tb : Table) → Fin (nBuf tb) → BufTy
  | .hbm, ⟨0, _⟩ => ⟨S24x128, .f32⟩
  | .hbm, ⟨1, _⟩ => ⟨S2x512, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x8, .f32⟩
  | .hbm, ⟨7, _⟩ => ⟨S8, .f32⟩
  | .hbm, ⟨8, _⟩ => ⟨S8x8, .f32⟩
  | .hbm, ⟨9, _⟩ => ⟨S8, .f32⟩
  | .hbm, ⟨10, _⟩ => ⟨S8x16, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S16x32, .f32⟩
  | .hbm, ⟨15, _⟩ => ⟨S32, .f32⟩
  | .hbm, ⟨16, _⟩ => ⟨S768x128, .f32⟩
  | .hbm, ⟨17, _⟩ => ⟨S128, .f32⟩
  | .hbm, ⟨18, _⟩ => ⟨S128x2, .f32⟩
  | .hbm, ⟨19, _⟩ => ⟨S2, .f32⟩
  | .hbm, ⟨20, _⟩ => ⟨S_, .f32⟩
  | .hbm, ⟨21, _⟩ => ⟨S9216, .f32⟩
  | .hbm, ⟨22, _⟩ => ⟨S3072, .f32⟩
  | .hbm, ⟨23, _⟩ => ⟨S24x128, .f32⟩
  | .hbm, ⟨24, _⟩ => ⟨S1x2, .f32⟩
  | .local .tc .vmem, ⟨0, _⟩ => ⟨S24x128, .f32⟩
  | .local .tc .vmem, ⟨1, _⟩ => ⟨S24x128, .f32⟩
  | .local .tc .vmem, ⟨2, _⟩ => ⟨S128x4, .f32⟩
  | .local .tc .vmem, ⟨3, _⟩ => ⟨S4, .f32⟩
  | .local .tc .vmem, ⟨4, _⟩ => ⟨S4x4, .f32⟩
  | .local .tc .vmem, ⟨5, _⟩ => ⟨S4, .f32⟩
  | .local .tc .vmem, ⟨6, _⟩ => ⟨S4x8, .f32⟩
  | .local .tc .vmem, ⟨7, _⟩ => ⟨S8, .f32⟩
  | .local .tc .vmem, ⟨8, _⟩ => ⟨S8x8, .f32⟩
  | .local .tc .vmem, ⟨9, _⟩ => ⟨S8, .f32⟩
  | .local .tc .vmem, ⟨10, _⟩ => ⟨S8x16, .f32⟩
  | .local .tc .vmem, ⟨11, _⟩ => ⟨S16, .f32⟩
  | .local .tc .vmem, ⟨12, _⟩ => ⟨S16x16, .f32⟩
  | .local .tc .vmem, ⟨13, _⟩ => ⟨S16, .f32⟩
  | .local .tc .vmem, ⟨14, _⟩ => ⟨S16x32, .f32⟩
  | .local .tc .vmem, ⟨15, _⟩ => ⟨S32, .f32⟩
  | .local .tc .vmem, ⟨16, _⟩ => ⟨S768x128, .f32⟩
  | .local .tc .vmem, ⟨17, _⟩ => ⟨S128, .f32⟩
  | .local .tc .vmem, ⟨18, _⟩ => ⟨S128x2, .f32⟩
  | .local .tc .vmem, ⟨19, _⟩ => ⟨S2, .f32⟩
  | .local .tc .vmem, ⟨20, _⟩ => ⟨S1x2, .f32⟩
  | .local .scVector .vmem, ⟨0, _⟩ => ⟨S2x512, .i32⟩
  | .local .scVector .vmem, ⟨1, _⟩ => ⟨S9216, .f32⟩
  | .local .scVector .vmem, ⟨2, _⟩ => ⟨S3072, .f32⟩
  | _, _ => ⟨S24x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_arg1_scv : Ref sig .scVector := ⟨.hbm, 1, rfl⟩
abbrev main_v0_scv : Ref sig .scVector := ⟨.hbm, 21, rfl⟩
abbrev main_v1_scv : Ref sig .scVector := ⟨.hbm, 22, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc1_stg18_0 : Ref sig .tc := ⟨.vmem, 18, rfl⟩
abbrev cc1_stg19_0 : Ref sig .tc := ⟨.vmem, 19, rfl⟩
abbrev cc1_stg20_0 : Ref sig .tc := ⟨.vmem, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev cc1_sem13_0 : DmaSem sig := 16
abbrev cc1_sem14_0 : DmaSem sig := 17
abbrev cc1_sem15_0 : DmaSem sig := 18
abbrev cc1_sem16_0 : DmaSem sig := 19
abbrev cc1_sem17_0 : DmaSem sig := 20
abbrev cc1_sem18_0 : DmaSem sig := 21
abbrev cc1_sem19_0 : DmaSem sig := 22
abbrev cc1_sem20_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c32_i32 : BitVec 32 := 32#32
  let v7 : BitVec 32 := Scalar.addi c0_i32_2 c32_i32
  let c1_i32 : BitVec 32 := 1#32
  ⟨c0_i32_2, v7, c1_i32⟩
def k0_off1 (k0_t1 : Fin k0_t1_loop.trips) : Fin 2 → Nat :=
  let c0_i32_8 : BitVec 32 := 0#32
  let v10 : Index := Scalar.indexCast c0_i32_8
  let c0_i32_2 : BitVec 32 := 0#32
  let c1_i32 : BitVec 32 := 1#32
  let arg10 : BitVec 32 := Scf.iv c0_i32_2 c1_i32 k0_t1
  let c16_i32 : BitVec 32 := 16#32
  let v9 : BitVec 32 := Scalar.muli arg10 c16_i32
  let v11 : Index := Scalar.indexCast v9
  ![0, v11.toNat]
def k0_off2 (k0_t1 : Fin k0_t1_loop.trips) : Fin 2 → Nat :=
  let c1_i32_10 : BitVec 32 := 1#32
  let v14 : Index := Scalar.indexCast c1_i32_10
  let c0_i32_2 : BitVec 32 := 0#32
  let c1_i32 : BitVec 32 := 1#32
  let arg10 : BitVec 32 := Scf.iv c0_i32_2 c1_i32 k0_t1
  let c16_i32_9 : BitVec 32 := 16#32
  let v13 : BitVec 32 := Scalar.muli arg10 c16_i32_9
  let v15 : Index := Scalar.indexCast v13
  ![1, v15.toNat]

def k0_chk1 (i : grid0.Coords) (v20 : IVec S16 32) : Prop :=
  (∀ (k0_h1 : k0_cond1 i = 1#1), ∀ a x, ((![v20] : Fin 1 → IVec S16 32) a x).toNat < S9216.size a)
instance k0_chk1.dec : ∀ (i : grid0.Coords) (v20 : IVec S16 32), Decidable (k0_chk1 i v20) := fun i v20 => decidable_of_iff' _ (Iff.of_eq (k0_chk1.eq_1 i v20))
theorem k0_idx1_inb : ∀ (i : grid0.Coords) (v20 : IVec S16 32) (k0_hw1 : k0_chk1 i v20), ∀ (k0_h1 : k0_cond1 i = 1#1), ∀ a x, ((![v20] : Fin 1 → IVec S16 32) a x).toNat < S9216.size a := fun i v20 k0_hw1 k0_h1 => k0_hw1 k0_h1
@[reducible] def k0_t2_loop : Scf.Loop 32 :=
  let c0_i32_5 : BitVec 32 := 0#32
  let c24_i32 : BitVec 32 := 24#32
  let v8 : BitVec 32 := Scalar.addi c0_i32_5 c24_i32
  let c1_i32_6 : BitVec 32 := 1#32
  ⟨c0_i32_5, v8, c1_i32_6⟩
def k0_off3 (k0_t2 : Fin k0_t2_loop.trips) (c0_i32_9 : BitVec 32) : Fin 1 → Nat :=
  let c0_i32_5 : BitVec 32 := 0#32
  let c1_i32_6 : BitVec 32 := 1#32
  let arg10 : BitVec 32 := Scf.iv c0_i32_5 c1_i32_6 k0_t2
  let c24_i32_8 : BitVec 32 := 24#32
  let v9 : BitVec 32 := Scalar.muli arg10 c24_i32_8
  let v10 : BitVec 32 := Scalar.addi v9 c0_i32_9
  let v11 : Index := Scalar.indexCast v10
  ![v11.toNat]
def k0_off4 (k0_t2 : Fin k0_t2_loop.trips) (c576_i32_11 : BitVec 32) (c0_i32_12 : BitVec 32) : Fin 1 → Nat :=
  let c0_i32_5 : BitVec 32 := 0#32
  let c1_i32_6 : BitVec 32 := 1#32
  let arg10 : BitVec 32 := Scf.iv c0_i32_5 c1_i32_6 k0_t2
  let c24_i32_10 : BitVec 32 := 24#32
  let v13 : BitVec 32 := Scalar.muli arg10 c24_i32_10
  let v14 : BitVec 32 := Scalar.addi c576_i32_11 v13
  let v15 : BitVec 32 := Scalar.addi v14 c0_i32_12
  let v16 : Index := Scalar.indexCast v15
  ![v16.toNat]
def k0_off5 (k0_t2 : Fin k0_t2_loop.trips) (c0_i32_41 : BitVec 32) : Fin 1 → Nat :=
  let c0_i32_5 : BitVec 32 := 0#32
  let c1_i32_6 : BitVec 32 := 1#32
  let arg10 : BitVec 32 := Scf.iv c0_i32_5 c1_i32_6 k0_t2
  let c128_i32 : BitVec 32 := 128#32
  let v103 : BitVec 32 := Scalar.muli arg10 c128_i32
  let v104 : BitVec 32 := Scalar.addi v103 c0_i32_41
  let v105 : Index := Scalar.indexCast v104
  ![v105.toNat]
abbrev grid1 : Pipeline.Grid := .none

abbrev stage1_0 : Fin 1 → Memref sig .tc .vmem S24x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S16x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S16x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S32 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S768x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S128x2 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S2 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S1x2 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S9216 : S_.BroadcastsInDim S9216 (![] : Fin 0 → Fin S9216.rank)
  iota_S16_d0_w32_scVector : S16.Iotas .scVector 32 [0]
  h_S1x16 : 0 < S1x16.numel
  shapeCasts_S1x16_S16 : S1x16.ShapeCasts S16
  h_S9216 : 0 < S9216.numel
  h_S16 : 0 < S16.numel
  shapeCasts_S3072_S24x128 : S3072.ShapeCasts S24x128
  inb_S24x128_S24x128_0_0 : ∀ a, (![0, 0] : Fin 2 → Nat) a + S24x128.size a ≤ S24x128.size a
  h_S24x128 : 0 < S24x128.numel
  shapeCasts_S24x128_S24x128 : S24x128.ShapeCasts S24x128
  slices_S24x128_o0_0_S24x24 : S24x128.Slices ![0, 0] S24x24
  reduces_S24x24_S24 : S24x24.Reduces [1] S24
  shapeCasts_S24_S24x1 : S24.ShapeCasts S24x1
  iota_S24x24_d0_w32 : S24x24.Iotas .tc 32 [0]
  iota_S24x24_d1_w32 : S24x24.Iotas .tc 32 [1]
  natLt_1_32 : 1 < 32
  inb_S128x4_S128x4_0_0 : ∀ a, (![0, 0] : Fin 2 → Nat) a + S128x4.size a ≤ S128x4.size a
  h_S128x4 : 0 < S128x4.numel
  broadcasts_S24x1_S24x4 : S24x1.Broadcasts S24x4
  inb_S4_S4_0 : ∀ a, (![0] : Fin 1 → Nat) a + S4.size a ≤ S4.size a
  h_S4 : 0 < S4.numel
  shapeCasts_S4_S1x4 : S4.ShapeCasts S1x4
  broadcasts_S1x4_S24x4 : S1x4.Broadcasts S24x4
  inb_S4x4_S4x4_0_0 : ∀ a, (![0, 0] : Fin 2 → Nat) a + S4x4.size a ≤ S4x4.size a
  h_S4x4 : 0 < S4x4.numel
  inb_S4x8_S4x8_0_0 : ∀ a, (![0, 0] : Fin 2 → Nat) a + S4x8.size a ≤ S4x8.size a
  h_S4x8 : 0 < S4x8.numel
  broadcasts_S24x1_S24x8 : S24x1.Broadcasts S24x8
  inb_S8_S8_0 : ∀ a, (![0] : Fin 1 → Nat) a + S8.size a ≤ S8.size a
  h_S8 : 0 < S8.numel
  shapeCasts_S8_S1x8 : S8.ShapeCasts S1x8
  broadcasts_S1x8_S24x8 : S1x8.Broadcasts S24x8
  inb_S8x8_S8x8_0_0 : ∀ a, (![0, 0] : Fin 2 → Nat) a + S8x8.size a ≤ S8x8.size a
  h_S8x8 : 0 < S8x8.numel
  inb_S8x16_S8x16_0_0 : ∀ a, (![0, 0] : Fin 2 → Nat) a + S8x16.size a ≤ S8x16.size a
  h_S8x16 : 0 < S8x16.numel
  broadcasts_S24x1_S24x16 : S24x1.Broadcasts S24x16
  inb_S16_S16_0 : ∀ a, (![0] : Fin 1 → Nat) a + S16.size a ≤ S16.size a
  shapeCasts_S16_S1x16 : S16.ShapeCasts S1x16
  broadcasts_S1x16_S24x16 : S1x16.Broadcasts S24x16
  inb_S16x16_S16x16_0_0 : ∀ a, (![0, 0] : Fin 2 → Nat) a + S16x16.size a ≤ S16x16.size a
  h_S16x16 : 0 < S16x16.numel
  inb_S16x32_S16x32_0_0 : ∀ a, (![0, 0] : Fin 2 → Nat) a + S16x32.size a ≤ S16x32.size a
  h_S16x32 : 0 < S16x32.numel
  broadcasts_S24x1_S24x32 : S24x1.Broadcasts S24x32
  inb_S32_S32_0 : ∀ a, (![0] : Fin 1 → Nat) a + S32.size a ≤ S32.size a
  h_S32 : 0 < S32.numel
  shapeCasts_S32_S1x32 : S32.ShapeCasts S1x32
  broadcasts_S1x32_S24x32 : S1x32.Broadcasts S24x32
  shapeCasts_S24x32_S24x32x1 : S24x32.ShapeCasts S24x32x1
  inb_S768x128_S768x128_0_0 : ∀ a, (![0, 0] : Fin 2 → Nat) a + S768x128.size a ≤ S768x128.size a
  h_S768x128 : 0 < S768x128.numel
  shapeCasts_S768x128_S24x32x128 : S768x128.ShapeCasts S24x32x128
  broadcasts_S24x32x1_S24x32x128 : S24x32x1.Broadcasts S24x32x128
  reduces_S24x32x128_S32x128 : S24x32x128.Reduces [0] S32x128
  reduces_S32x128_S128 : S32x128.Reduces [0] S128
  shapeCasts_S128_S1x128 : S128.ShapeCasts S1x128
  inb_S128_S128_0 : ∀ a, (![0] : Fin 1 → Nat) a + S128.size a ≤ S128.size a
  h_S128 : 0 < S128.numel
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  reduces_S1x2_S1 : S1x2.Reduces [1] S1
  shapeCasts_S1_S1x1 : S1.ShapeCasts S1x1
  broadcasts_S1x1_S1x2 : S1x1.Broadcasts S1x2
  inb_S1x2_S1x2_0_0 : ∀ a, (![0, 0] : Fin 2 → Nat) a + S1x2.size a ≤ S1x2.size a
  h_S1x2 : 0 < S1x2.numel
  dot_S24x128_S128x4_S24x4_1_0_0_1_n_n_wf : DotDims.WF S24x128 S128x4 S24x4 [1] [0] [0] [1] [] []
  dot_S24x24_S24x4_S24x4_1_0_0_1_n_n_wf : DotDims.WF S24x24 S24x4 S24x4 [1] [0] [0] [1] [] []
  dot_S24x4_S4x4_S24x4_1_0_0_1_n_n_wf : DotDims.WF S24x4 S4x4 S24x4 [1] [0] [0] [1] [] []
  dot_S24x4_S4x8_S24x8_1_0_0_1_n_n_wf : DotDims.WF S24x4 S4x8 S24x8 [1] [0] [0] [1] [] []
  dot_S24x24_S24x8_S24x8_1_0_0_1_n_n_wf : DotDims.WF S24x24 S24x8 S24x8 [1] [0] [0] [1] [] []
  dot_S24x8_S8x8_S24x8_1_0_0_1_n_n_wf : DotDims.WF S24x8 S8x8 S24x8 [1] [0] [0] [1] [] []
  dot_S24x8_S8x16_S24x16_1_0_0_1_n_n_wf : DotDims.WF S24x8 S8x16 S24x16 [1] [0] [0] [1] [] []
  dot_S24x24_S24x16_S24x16_1_0_0_1_n_n_wf : DotDims.WF S24x24 S24x16 S24x16 [1] [0] [0] [1] [] []
  dot_S24x16_S16x16_S24x16_1_0_0_1_n_n_wf : DotDims.WF S24x16 S16x16 S24x16 [1] [0] [0] [1] [] []
  dot_S24x16_S16x32_S24x32_1_0_0_1_n_n_wf : DotDims.WF S24x16 S16x32 S24x32 [1] [0] [0] [1] [] []
  dot_S24x24_S24x32_S24x32_1_0_0_1_n_n_wf : DotDims.WF S24x24 S24x32 S24x32 [1] [0] [0] [1] [] []
  dot_S1x128_S128x2_S1x2_1_0_0_1_n_n_wf : DotDims.WF S1x128 S128x2 S1x2 [1] [0] [0] [1] [] []
  hcc0_scratch3 : 0 + S_.numel ≤ 24
  hcc0_scratch4 : 1 + S_.numel ≤ 24
  hcc0_scoped0 : 2 + S_.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 k0_t1) a + S1x16.size a ≤ S2x512.size a
  k0_off2_inb : ∀ (i : grid0.Coords) (k0_t1 : Fin k0_t1_loop.trips), ∀ (k0_h1 : k0_cond1 i = 1#1), ∀ a, (k0_off2 k0_t1) a + S1x16.size a ≤ S2x512.size a
  k0_t2_ok : ∀ i : grid0.Coords, ∀ (k0_h1 : k0_cond1 i = 1#1), k0_t2_loop.OK
  k0_off3_inb : ∀ (i : grid0.Coords) (k0_t2 : Fin k0_t2_loop.trips), ∀ (k0_h1 : k0_cond1 i = 1#1), ∀ (r : Fin 2), ∀ a, (k0_off3 k0_t2 (BitVec.ofNat 32 (8 * r.val))) a + S16.size a ≤ S9216.size a
  k0_off4_inb : ∀ (i : grid0.Coords) (k0_t2 : Fin k0_t2_loop.trips), ∀ (k0_h1 : k0_cond1 i = 1#1), ∀ (r₁ : Fin 15) (r₂ : Fin 2), ∀ a, (k0_off4 k0_t2 (BitVec.ofNat 32 (576 + 576 * r₁.val)) (BitVec.ofNat 32 (8 * r₂.val))) a + S16.size a ≤ S9216.size a
  k0_off5_inb : ∀ (i : grid0.Coords) (k0_t2 : Fin k0_t2_loop.trips), ∀ (k0_h1 : k0_cond1 i = 1#1), ∀ (r : Fin 2), ∀ a, (k0_off5 k0_t2 (BitVec.ofNat 32 (8 * r.val))) a + S16.size a ≤ S3072.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage1_11 : ∀ j, (stage1_11 j).IsWhole
  hstage1_12 : ∀ j, (stage1_12 j).IsWhole
  hstage1_13 : ∀ j, (stage1_13 j).IsWhole
  hstage1_14 : ∀ j, (stage1_14 j).IsWhole
  hstage1_15 : ∀ j, (stage1_15 j).IsWhole
  hstage1_16 : ∀ j, (stage1_16 j).IsWhole
  hstage1_17 : ∀ j, (stage1_17 j).IsWhole
  hstage1_18 : ∀ j, (stage1_18 j).IsWhole
  hstage1_19 : ∀ j, (stage1_19 j).IsWhole
  hstage1_20 : ∀ j, (stage1_20 j).IsWhole

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
def dot_S24x128_S128x4_S24x4_1_0_0_1_n_n : DotDims S24x128 S128x4 S24x4 where
  lhsContracting := [1]
  rhsContracting := [0]
  lhsNonContracting := [0]
  rhsNonContracting := [1]
  lhsBatch := []
  rhsBatch := []
  wf := dot_S24x128_S128x4_S24x4_1_0_0_1_n_n_wf
def dot_S24x24_S24x4_S24x4_1_0_0_1_n_n : DotDims S24x24 S24x4 S24x4 where
  lhsContracting := [1]
  rhsContracting := [0]
  lhsNonContracting := [0]
  rhsNonContracting := [1]
  lhsBatch := []
  rhsBatch := []
  wf := dot_S24x24_S24x4_S24x4_1_0_0_1_n_n_wf
def dot_S24x4_S4x4_S24x4_1_0_0_1_n_n : DotDims S24x4 S4x4 S24x4 where
  lhsContracting := [1]
  rhsContracting := [0]
  lhsNonContracting := [0]
  rhsNonContracting := [1]
  lhsBatch := []
  rhsBatch := []
  wf := dot_S24x4_S4x4_S24x4_1_0_0_1_n_n_wf
def dot_S24x4_S4x8_S24x8_1_0_0_1_n_n : DotDims S24x4 S4x8 S24x8 where
  lhsContracting := [1]
  rhsContracting := [0]
  lhsNonContracting := [0]
  rhsNonContracting := [1]
  lhsBatch := []
  rhsBatch := []
  wf := dot_S24x4_S4x8_S24x8_1_0_0_1_n_n_wf
def dot_S24x24_S24x8_S24x8_1_0_0_1_n_n : DotDims S24x24 S24x8 S24x8 where
  lhsContracting := [1]
  rhsContracting := [0]
  lhsNonContracting := [0]
  rhsNonContracting := [1]
  lhsBatch := []
  rhsBatch := []
  wf := dot_S24x24_S24x8_S24x8_1_0_0_1_n_n_wf
def dot_S24x8_S8x8_S24x8_1_0_0_1_n_n : DotDims S24x8 S8x8 S24x8 where
  lhsContracting := [1]
  rhsContracting := [0]
  lhsNonContracting := [0]
  rhsNonContracting := [1]
  lhsBatch := []
  rhsBatch := []
  wf := dot_S24x8_S8x8_S24x8_1_0_0_1_n_n_wf
def dot_S24x8_S8x16_S24x16_1_0_0_1_n_n : DotDims S24x8 S8x16 S24x16 where
  lhsContracting := [1]
  rhsContracting := [0]
  lhsNonContracting := [0]
  rhsNonContracting := [1]
  lhsBatch := []
  rhsBatch := []
  wf := dot_S24x8_S8x16_S24x16_1_0_0_1_n_n_wf
def dot_S24x24_S24x16_S24x16_1_0_0_1_n_n : DotDims S24x24 S24x16 S24x16 where
  lhsContracting := [1]
  rhsContracting := [0]
  lhsNonContracting := [0]
  rhsNonContracting := [1]
  lhsBatch := []
  rhsBatch := []
  wf := dot_S24x24_S24x16_S24x16_1_0_0_1_n_n_wf
def dot_S24x16_S16x16_S24x16_1_0_0_1_n_n : DotDims S24x16 S16x16 S24x16 where
  lhsContracting := [1]
  rhsContracting := [0]
  lhsNonContracting := [0]
  rhsNonContracting := [1]
  lhsBatch := []
  rhsBatch := []
  wf := dot_S24x16_S16x16_S24x16_1_0_0_1_n_n_wf
def dot_S24x16_S16x32_S24x32_1_0_0_1_n_n : DotDims S24x16 S16x32 S24x32 where
  lhsContracting := [1]
  rhsContracting := [0]
  lhsNonContracting := [0]
  rhsNonContracting := [1]
  lhsBatch := []
  rhsBatch := []
  wf := dot_S24x16_S16x32_S24x32_1_0_0_1_n_n_wf
def dot_S24x24_S24x32_S24x32_1_0_0_1_n_n : DotDims S24x24 S24x32 S24x32 where
  lhsContracting := [1]
  rhsContracting := [0]
  lhsNonContracting := [0]
  rhsNonContracting := [1]
  lhsBatch := []
  rhsBatch := []
  wf := dot_S24x24_S24x32_S24x32_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_arg0) false false (stage1_1 0) (sem1_1 0) (Memref.isWhole_whole _) (hstage1_1 0)

abbrev win1_2 : Pipeline.Window sig grid1 :=
  Pipeline.Window.whole (Memref.whole main_arg2) false false (stage1_2 0) (sem1_2 0) (Memref.isWhole_whole _) (hstage1_2 0)

abbrev win1_3 : Pipeline.Window sig grid1 :=
  Pipeline.Window.whole (Memref.whole main_arg3) false false (stage1_3 0) (sem1_3 0) (Memref.isWhole_whole _) (hstage1_3 0)

abbrev win1_4 : Pipeline.Window sig grid1 :=
  Pipeline.Window.whole (Memref.whole main_arg4) false false (stage1_4 0) (sem1_4 0) (Memref.isWhole_whole _) (hstage1_4 0)

abbrev win1_5 : Pipeline.Window sig grid1 :=
  Pipeline.Window.whole (Memref.whole main_arg5) false false (stage1_5 0) (sem1_5 0) (Memref.isWhole_whole _) (hstage1_5 0)

abbrev win1_6 : Pipeline.Window sig grid1 :=
  Pipeline.Window.whole (Memref.whole main_arg6) false false (stage1_6 0) (sem1_6 0) (Memref.isWhole_whole _) (hstage1_6 0)

abbrev win1_7 : Pipeline.Window sig grid1 :=
  Pipeline.Window.whole (Memref.whole main_arg7) false false (stage1_7 0) (sem1_7 0) (Memref.isWhole_whole _) (hstage1_7 0)

abbrev win1_8 : Pipeline.Window sig grid1 :=
  Pipeline.Window.whole (Memref.whole main_arg8) false false (stage1_8 0) (sem1_8 0) (Memref.isWhole_whole _) (hstage1_8 0)

abbrev win1_9 : Pipeline.Window sig grid1 :=
  Pipeline.Window.whole (Memref.whole main_arg9) false false (stage1_9 0) (sem1_9 0) (Memref.isWhole_whole _) (hstage1_9 0)

abbrev win1_10 : Pipeline.Window sig grid1 :=
  Pipeline.Window.whole (Memref.whole main_arg10) false false (stage1_10 0) (sem1_10 0) (Memref.isWhole_whole _) (hstage1_10 0)

abbrev win1_11 : Pipeline.Window sig grid1 :=
  Pipeline.Window.whole (Memref.whole main_arg11) false false (stage1_11 0) (sem1_11 0) (Memref.isWhole_whole _) (hstage1_11 0)

abbrev win1_12 : Pipeline.Window sig grid1 :=
  Pipeline.Window.whole (Memref.whole main_arg12) false false (stage1_12 0) (sem1_12 0) (Memref.isWhole_whole _) (hstage1_12 0)

abbrev win1_13 : Pipeline.Window sig grid1 :=
  Pipeline.Window.whole (Memref.whole main_arg13) false false (stage1_13 0) (sem1_13 0) (Memref.isWhole_whole _) (hstage1_13 0)

abbrev win1_14 : Pipeline.Window sig grid1 :=
  Pipeline.Window.whole (Memref.whole main_arg14) false false (stage1_14 0) (sem1_14 0) (Memref.isWhole_whole _) (hstage1_14 0)

abbrev win1_15 : Pipeline.Window sig grid1 :=
  Pipeline.Window.whole (Memref.whole main_arg15) false false (stage1_15 0) (sem1_15 0) (Memref.isWhole_whole _) (hstage1_15 0)

abbrev win1_16 : Pipeline.Window sig grid1 :=
  Pipeline.Window.whole (Memref.whole main_arg16) false false (stage1_16 0) (sem1_16 0) (Memref.isWhole_whole _) (hstage1_16 0)

abbrev win1_17 : Pipeline.Window sig grid1 :=
  Pipeline.Window.whole (Memref.whole main_arg17) false false (stage1_17 0) (sem1_17 0) (Memref.isWhole_whole _) (hstage1_17 0)

abbrev win1_18 : Pipeline.Window sig grid1 :=
  Pipeline.Window.whole (Memref.whole main_arg18) false false (stage1_18 0) (sem1_18 0) (Memref.isWhole_whole _) (hstage1_18 0)

abbrev win1_19 : Pipeline.Window sig grid1 :=
  Pipeline.Window.whole (Memref.whole main_arg19) false false (stage1_19 0) (sem1_19 0) (Memref.isWhole_whole _) (hstage1_19 0)

abbrev win1_20 : Pipeline.Window sig grid1 :=
  Pipeline.Window.whole (Memref.whole main_v3) true false (stage1_20 0) (sem1_20 0) (Memref.isWhole_whole _) (hstage1_20 0)

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S24x128 : Shape := ⟨2, ![24, 128]⟩
abbrev S2x512 : Shape := ⟨2, ![2, 512]⟩
abbrev S128x4 : Shape := ⟨2, ![128, 4]⟩
abbrev S4 : Shape := ⟨1, ![4]⟩
abbrev S4x4 : Shape := ⟨2, ![4, 4]⟩
abbrev S4x8 : Shape := ⟨2, ![4, 8]⟩
abbrev S8 : Shape := ⟨1, ![8]⟩
abbrev S8x8 : Shape := ⟨2, ![8, 8]⟩
abbrev S8x16 : Shape := ⟨2, ![8, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S768x128 : Shape := ⟨2, ![768, 128]⟩
abbrev S128 : Shape := ⟨1, ![128]⟩
abbrev S128x2 : Shape := ⟨2, ![128, 2]⟩
abbrev S2 : Shape := ⟨1, ![2]⟩
abbrev S1x512 : Shape := ⟨2, ![1, 512]⟩
abbrev S512 : Shape := ⟨1, ![512]⟩
abbrev S24 : Shape := ⟨1, ![24]⟩
abbrev S536 : Shape := ⟨1, ![536]⟩
abbrev S_ : Shape := ⟨0, ![]⟩
abbrev S536x1 : Shape := ⟨2, ![536, 1]⟩
abbrev S24x4 : Shape := ⟨2, ![24, 4]⟩
abbrev S536x4 : Shape := ⟨2, ![536, 4]⟩
abbrev S1x4 : Shape := ⟨2, ![1, 4]⟩
abbrev S24x8 : Shape := ⟨2, ![24, 8]⟩
abbrev S536x8 : Shape := ⟨2, ![536, 8]⟩
abbrev S1x8 : Shape := ⟨2, ![1, 8]⟩
abbrev S24x16 : Shape := ⟨2, ![24, 16]⟩
abbrev S536x16 : Shape := ⟨2, ![536, 16]⟩
abbrev S1x16 : Shape := ⟨2, ![1, 16]⟩
abbrev S24x32 : Shape := ⟨2, ![24, 32]⟩
abbrev S536x32 : Shape := ⟨2, ![536, 32]⟩
abbrev S1x32 : Shape := ⟨2, ![1, 32]⟩
abbrev S768 : Shape := ⟨1, ![768]⟩
abbrev S1x2 : Shape := ⟨2, ![1, 2]⟩
abbrev S1 : Shape := ⟨1, ![1]⟩
abbrev S1x1 : Shape := ⟨2, ![1, 1]⟩

abbrev nBuf : Space → Nat
  | .hbm => 601
  | .vmem => 0
  | .smem => 0
  | _ => 0

abbrev hbmTy0_0 (i : Nat) : BufTy := match i % 128 with
  | 0 => ⟨S24x128, .f32⟩
  | 1 => ⟨S2x512, .i32⟩
  | 2 => ⟨S128x4, .f32⟩
  | 3 => ⟨S4, .f32⟩
  | 4 => ⟨S4x4, .f32⟩
  | 5 => ⟨S4, .f32⟩
  | 6 => ⟨S4x8, .f32⟩
  | 7 => ⟨S8, .f32⟩
  | 8 => ⟨S8x8, .f32⟩
  | 9 => ⟨S8, .f32⟩
  | 10 => ⟨S8x16, .f32⟩
  | 11 => ⟨S16, .f32⟩
  | 12 => ⟨S16x16, .f32⟩
  | 13 => ⟨S16, .f32⟩
  | 14 => ⟨S16x32, .f32⟩
  | 15 => ⟨S32, .f32⟩
  | 16 => ⟨S768x128, .f32⟩
  | 17 => ⟨S128, .f32⟩
  | 18 => ⟨S128x2, .f32⟩
  | 19 => ⟨S2, .f32⟩
  | 20 => ⟨S1x512, .i32⟩
  | 21 => ⟨S512, .i32⟩
  | 22 => ⟨S1x512, .i32⟩
  | 23 => ⟨S512, .i32⟩
  | 24 => ⟨S24, .i32⟩
  | 25 => ⟨S536, .i32⟩
  | 26 => ⟨S536, .i32⟩
  | 27 => ⟨S_, .f32⟩
  | 28 => ⟨S24, .f32⟩
  | 29 => ⟨S_, .i32⟩
  | 30 => ⟨S536, .i32⟩
  | 31 => ⟨S536, .i1⟩
  | 32 => ⟨S_, .i32⟩
  | 33 => ⟨S536, .i32⟩
  | 34 => ⟨S536, .i32⟩
  | 35 => ⟨S536, .i32⟩
  | 36 => ⟨S536x1, .i32⟩
  | 37 => ⟨S_, .f32⟩
  | 38 => ⟨S536, .f32⟩
  | 39 => ⟨S24, .f32⟩
  | 40 => ⟨S_, .f32⟩
  | 41 => ⟨S24, .f32⟩
  | 42 => ⟨S24, .i1⟩
  | 43 => ⟨S24, .f32⟩
  | 44 => ⟨S_, .f32⟩
  | 45 => ⟨S24, .f32⟩
  | 46 => ⟨S24, .f32⟩
  | 47 => ⟨S_, .f32⟩
  | 48 => ⟨S_, .f32⟩
  | 49 => ⟨S24, .f32⟩
  | 50 => ⟨S24, .f32⟩
  | 51 => ⟨S_, .i32⟩
  | 52 => ⟨S536, .i32⟩
  | 53 => ⟨S536, .i1⟩
  | 54 => ⟨S_, .i32⟩
  | 55 => ⟨S536, .i32⟩
  | 56 => ⟨S536, .i32⟩
  | 57 => ⟨S536, .i32⟩
  | 58 => ⟨S536x1, .i32⟩
  | 59 => ⟨S536, .f32⟩
  | 60 => ⟨S_, .i32⟩
  | 61 => ⟨S536, .i32⟩
  | 62 => ⟨S536, .i1⟩
  | 63 => ⟨S_, .i32⟩
  | 64 => ⟨S536, .i32⟩
  | 65 => ⟨S536, .i32⟩
  | 66 => ⟨S536, .i32⟩
  | 67 => ⟨S536x1, .i32⟩
  | 68 => ⟨S536, .f32⟩
  | 69 => ⟨S536, .f32⟩
  | 70 => ⟨S24x4, .f32⟩
  | 71 => ⟨S_, .i32⟩
  | 72 => ⟨S536, .i32⟩
  | 73 => ⟨S536, .i1⟩
  | 74 => ⟨S_, .i32⟩
  | 75 => ⟨S536, .i32⟩
  | 76 => ⟨S536, .i32⟩
  | 77 => ⟨S536, .i32⟩
  | 78 => ⟨S536x1, .i32⟩
  | 79 => ⟨S536x4, .f32⟩
  | 80 => ⟨S536x1, .f32⟩
  | 81 => ⟨S536x4, .f32⟩
  | 82 => ⟨S536x4, .f32⟩
  | 83 => ⟨S_, .f32⟩
  | 84 => ⟨S24x4, .f32⟩
  | 85 => ⟨S_, .i32⟩
  | 86 => ⟨S536, .i32⟩
  | 87 => ⟨S536, .i1⟩
  | 88 => ⟨S_, .i32⟩
  | 89 => ⟨S536, .i32⟩
  | 90 => ⟨S536, .i32⟩
  | 91 => ⟨S536, .i32⟩
  | 92 => ⟨S536x1, .i32⟩
  | 93 => ⟨S24x4, .f32⟩
  | 94 => ⟨S1x4, .f32⟩
  | 95 => ⟨S24x4, .f32⟩
  | 96 => ⟨S24x4, .f32⟩
  | 97 => ⟨S_, .f32⟩
  | 98 => ⟨S24x4, .f32⟩
  | 99 => ⟨S24x4, .f32⟩
  | 100 => ⟨S1x512, .i32⟩
  | 101 => ⟨S512, .i32⟩
  | 102 => ⟨S1x512, .i32⟩
  | 103 => ⟨S512, .i32⟩
  | 104 => ⟨S24, .i32⟩
  | 105 => ⟨S536, .i32⟩
  | 106 => ⟨S536, .i32⟩
  | 107 => ⟨S_, .f32⟩
  | 108 => ⟨S24, .f32⟩
  | 109 => ⟨S_, .i32⟩
  | 110 => ⟨S536, .i32⟩
  | 111 => ⟨S536, .i1⟩
  | 112 => ⟨S_, .i32⟩
  | 113 => ⟨S536, .i32⟩
  | 114 => ⟨S536, .i32⟩
  | 115 => ⟨S536, .i32⟩
  | 116 => ⟨S536x1, .i32⟩
  | 117 => ⟨S_, .f32⟩
  | 118 => ⟨S536, .f32⟩
  | 119 => ⟨S24, .f32⟩
  | 120 => ⟨S_, .f32⟩
  | 121 => ⟨S24, .f32⟩
  | 122 => ⟨S24, .i1⟩
  | 123 => ⟨S24, .f32⟩
  | 124 => ⟨S_, .f32⟩
  | 125 => ⟨S24, .f32⟩
  | 126 => ⟨S24, .f32⟩
  | 127 => ⟨S_, .f32⟩
  | _ => ⟨S24x128, .f32⟩

abbrev hbmTy0_1 (i : Nat) : BufTy := match i % 128 with
  | 0 => ⟨S_, .f32⟩
  | 1 => ⟨S24, .f32⟩
  | 2 => ⟨S24, .f32⟩
  | 3 => ⟨S_, .i32⟩
  | 4 => ⟨S536, .i32⟩
  | 5 => ⟨S536, .i1⟩
  | 6 => ⟨S_, .i32⟩
  | 7 => ⟨S536, .i32⟩
  | 8 => ⟨S536, .i32⟩
  | 9 => ⟨S536, .i32⟩
  | 10 => ⟨S536x1, .i32⟩
  | 11 => ⟨S536, .f32⟩
  | 12 => ⟨S_, .i32⟩
  | 13 => ⟨S536, .i32⟩
  | 14 => ⟨S536, .i1⟩
  | 15 => ⟨S_, .i32⟩
  | 16 => ⟨S536, .i32⟩
  | 17 => ⟨S536, .i32⟩
  | 18 => ⟨S536, .i32⟩
  | 19 => ⟨S536x1, .i32⟩
  | 20 => ⟨S536, .f32⟩
  | 21 => ⟨S536, .f32⟩
  | 22 => ⟨S24x4, .f32⟩
  | 23 => ⟨S_, .i32⟩
  | 24 => ⟨S536, .i32⟩
  | 25 => ⟨S536, .i1⟩
  | 26 => ⟨S_, .i32⟩
  | 27 => ⟨S536, .i32⟩
  | 28 => ⟨S536, .i32⟩
  | 29 => ⟨S536, .i32⟩
  | 30 => ⟨S536x1, .i32⟩
  | 31 => ⟨S536x4, .f32⟩
  | 32 => ⟨S536x1, .f32⟩
  | 33 => ⟨S536x4, .f32⟩
  | 34 => ⟨S536x4, .f32⟩
  | 35 => ⟨S_, .f32⟩
  | 36 => ⟨S24x4, .f32⟩
  | 37 => ⟨S_, .i32⟩
  | 38 => ⟨S536, .i32⟩
  | 39 => ⟨S536, .i1⟩
  | 40 => ⟨S_, .i32⟩
  | 41 => ⟨S536, .i32⟩
  | 42 => ⟨S536, .i32⟩
  | 43 => ⟨S536, .i32⟩
  | 44 => ⟨S536x1, .i32⟩
  | 45 => ⟨S24x4, .f32⟩
  | 46 => ⟨S1x4, .f32⟩
  | 47 => ⟨S24x4, .f32⟩
  | 48 => ⟨S24x4, .f32⟩
  | 49 => ⟨S_, .f32⟩
  | 50 => ⟨S24x4, .f32⟩
  | 51 => ⟨S24x4, .f32⟩
  | 52 => ⟨S1x512, .i32⟩
  | 53 => ⟨S512, .i32⟩
  | 54 => ⟨S1x512, .i32⟩
  | 55 => ⟨S512, .i32⟩
  | 56 => ⟨S24, .i32⟩
  | 57 => ⟨S536, .i32⟩
  | 58 => ⟨S536, .i32⟩
  | 59 => ⟨S_, .f32⟩
  | 60 => ⟨S24, .f32⟩
  | 61 => ⟨S_, .i32⟩
  | 62 => ⟨S536, .i32⟩
  | 63 => ⟨S536, .i1⟩
  | 64 => ⟨S_, .i32⟩
  | 65 => ⟨S536, .i32⟩
  | 66 => ⟨S536, .i32⟩
  | 67 => ⟨S536, .i32⟩
  | 68 => ⟨S536x1, .i32⟩
  | 69 => ⟨S_, .f32⟩
  | 70 => ⟨S536, .f32⟩
  | 71 => ⟨S24, .f32⟩
  | 72 => ⟨S_, .f32⟩
  | 73 => ⟨S24, .f32⟩
  | 74 => ⟨S24, .i1⟩
  | 75 => ⟨S24, .f32⟩
  | 76 => ⟨S_, .f32⟩
  | 77 => ⟨S24, .f32⟩
  | 78 => ⟨S24, .f32⟩
  | 79 => ⟨S_, .f32⟩
  | 80 => ⟨S_, .f32⟩
  | 81 => ⟨S24, .f32⟩
  | 82 => ⟨S24, .f32⟩
  | 83 => ⟨S_, .i32⟩
  | 84 => ⟨S536, .i32⟩
  | 85 => ⟨S536, .i1⟩
  | 86 => ⟨S_, .i32⟩
  | 87 => ⟨S536, .i32⟩
  | 88 => ⟨S536, .i32⟩
  | 89 => ⟨S536, .i32⟩
  | 90 => ⟨S536x1, .i32⟩
  | 91 => ⟨S536, .f32⟩
  | 92 => ⟨S_, .i32⟩
  | 93 => ⟨S536, .i32⟩
  | 94 => ⟨S536, .i1⟩
  | 95 => ⟨S_, .i32⟩
  | 96 => ⟨S536, .i32⟩
  | 97 => ⟨S536, .i32⟩
  | 98 => ⟨S536, .i32⟩
  | 99 => ⟨S536x1, .i32⟩
  | 100 => ⟨S536, .f32⟩
  | 101 => ⟨S536, .f32⟩
  | 102 => ⟨S24x8, .f32⟩
  | 103 => ⟨S_, .i32⟩
  | 104 => ⟨S536, .i32⟩
  | 105 => ⟨S536, .i1⟩
  | 106 => ⟨S_, .i32⟩
  | 107 => ⟨S536, .i32⟩
  | 108 => ⟨S536, .i32⟩
  | 109 => ⟨S536, .i32⟩
  | 110 => ⟨S536x1, .i32⟩
  | 111 => ⟨S536x8, .f32⟩
  | 112 => ⟨S536x1, .f32⟩
  | 113 => ⟨S536x8, .f32⟩
  | 114 => ⟨S536x8, .f32⟩
  | 115 => ⟨S_, .f32⟩
  | 116 => ⟨S24x8, .f32⟩
  | 117 => ⟨S_, .i32⟩
  | 118 => ⟨S536, .i32⟩
  | 119 => ⟨S536, .i1⟩
  | 120 => ⟨S_, .i32⟩
  | 121 => ⟨S536, .i32⟩
  | 122 => ⟨S536, .i32⟩
  | 123 => ⟨S536, .i32⟩
  | 124 => ⟨S536x1, .i32⟩
  | 125 => ⟨S24x8, .f32⟩
  | 126 => ⟨S1x8, .f32⟩
  | 127 => ⟨S24x8, .f32⟩
  | _ => ⟨S24x128, .f32⟩

abbrev hbmTy0_2 (i : Nat) : BufTy := match i % 128 with
  | 0 => ⟨S24x8, .f32⟩
  | 1 => ⟨S_, .f32⟩
  | 2 => ⟨S24x8, .f32⟩
  | 3 => ⟨S24x8, .f32⟩
  | 4 => ⟨S1x512, .i32⟩
  | 5 => ⟨S512, .i32⟩
  | 6 => ⟨S1x512, .i32⟩
  | 7 => ⟨S512, .i32⟩
  | 8 => ⟨S24, .i32⟩
  | 9 => ⟨S536, .i32⟩
  | 10 => ⟨S536, .i32⟩
  | 11 => ⟨S_, .f32⟩
  | 12 => ⟨S24, .f32⟩
  | 13 => ⟨S_, .i32⟩
  | 14 => ⟨S536, .i32⟩
  | 15 => ⟨S536, .i1⟩
  | 16 => ⟨S_, .i32⟩
  | 17 => ⟨S536, .i32⟩
  | 18 => ⟨S536, .i32⟩
  | 19 => ⟨S536, .i32⟩
  | 20 => ⟨S536x1, .i32⟩
  | 21 => ⟨S_, .f32⟩
  | 22 => ⟨S536, .f32⟩
  | 23 => ⟨S24, .f32⟩
  | 24 => ⟨S_, .f32⟩
  | 25 => ⟨S24, .f32⟩
  | 26 => ⟨S24, .i1⟩
  | 27 => ⟨S24, .f32⟩
  | 28 => ⟨S_, .f32⟩
  | 29 => ⟨S24, .f32⟩
  | 30 => ⟨S24, .f32⟩
  | 31 => ⟨S_, .f32⟩
  | 32 => ⟨S_, .f32⟩
  | 33 => ⟨S24, .f32⟩
  | 34 => ⟨S24, .f32⟩
  | 35 => ⟨S_, .i32⟩
  | 36 => ⟨S536, .i32⟩
  | 37 => ⟨S536, .i1⟩
  | 38 => ⟨S_, .i32⟩
  | 39 => ⟨S536, .i32⟩
  | 40 => ⟨S536, .i32⟩
  | 41 => ⟨S536, .i32⟩
  | 42 => ⟨S536x1, .i32⟩
  | 43 => ⟨S536, .f32⟩
  | 44 => ⟨S_, .i32⟩
  | 45 => ⟨S536, .i32⟩
  | 46 => ⟨S536, .i1⟩
  | 47 => ⟨S_, .i32⟩
  | 48 => ⟨S536, .i32⟩
  | 49 => ⟨S536, .i32⟩
  | 50 => ⟨S536, .i32⟩
  | 51 => ⟨S536x1, .i32⟩
  | 52 => ⟨S536, .f32⟩
  | 53 => ⟨S536, .f32⟩
  | 54 => ⟨S24x8, .f32⟩
  | 55 => ⟨S_, .i32⟩
  | 56 => ⟨S536, .i32⟩
  | 57 => ⟨S536, .i1⟩
  | 58 => ⟨S_, .i32⟩
  | 59 => ⟨S536, .i32⟩
  | 60 => ⟨S536, .i32⟩
  | 61 => ⟨S536, .i32⟩
  | 62 => ⟨S536x1, .i32⟩
  | 63 => ⟨S536x8, .f32⟩
  | 64 => ⟨S536x1, .f32⟩
  | 65 => ⟨S536x8, .f32⟩
  | 66 => ⟨S536x8, .f32⟩
  | 67 => ⟨S_, .f32⟩
  | 68 => ⟨S24x8, .f32⟩
  | 69 => ⟨S_, .i32⟩
  | 70 => ⟨S536, .i32⟩
  | 71 => ⟨S536, .i1⟩
  | 72 => ⟨S_, .i32⟩
  | 73 => ⟨S536, .i32⟩
  | 74 => ⟨S536, .i32⟩
  | 75 => ⟨S536, .i32⟩
  | 76 => ⟨S536x1, .i32⟩
  | 77 => ⟨S24x8, .f32⟩
  | 78 => ⟨S1x8, .f32⟩
  | 79 => ⟨S24x8, .f32⟩
  | 80 => ⟨S24x8, .f32⟩
  | 81 => ⟨S_, .f32⟩
  | 82 => ⟨S24x8, .f32⟩
  | 83 => ⟨S24x8, .f32⟩
  | 84 => ⟨S1x512, .i32⟩
  | 85 => ⟨S512, .i32⟩
  | 86 => ⟨S1x512, .i32⟩
  | 87 => ⟨S512, .i32⟩
  | 88 => ⟨S24, .i32⟩
  | 89 => ⟨S536, .i32⟩
  | 90 => ⟨S536, .i32⟩
  | 91 => ⟨S_, .f32⟩
  | 92 => ⟨S24, .f32⟩
  | 93 => ⟨S_, .i32⟩
  | 94 => ⟨S536, .i32⟩
  | 95 => ⟨S536, .i1⟩
  | 96 => ⟨S_, .i32⟩
  | 97 => ⟨S536, .i32⟩
  | 98 => ⟨S536, .i32⟩
  | 99 => ⟨S536, .i32⟩
  | 100 => ⟨S536x1, .i32⟩
  | 101 => ⟨S_, .f32⟩
  | 102 => ⟨S536, .f32⟩
  | 103 => ⟨S24, .f32⟩
  | 104 => ⟨S_, .f32⟩
  | 105 => ⟨S24, .f32⟩
  | 106 => ⟨S24, .i1⟩
  | 107 => ⟨S24, .f32⟩
  | 108 => ⟨S_, .f32⟩
  | 109 => ⟨S24, .f32⟩
  | 110 => ⟨S24, .f32⟩
  | 111 => ⟨S_, .f32⟩
  | 112 => ⟨S_, .f32⟩
  | 113 => ⟨S24, .f32⟩
  | 114 => ⟨S24, .f32⟩
  | 115 => ⟨S_, .i32⟩
  | 116 => ⟨S536, .i32⟩
  | 117 => ⟨S536, .i1⟩
  | 118 => ⟨S_, .i32⟩
  | 119 => ⟨S536, .i32⟩
  | 120 => ⟨S536, .i32⟩
  | 121 => ⟨S536, .i32⟩
  | 122 => ⟨S536x1, .i32⟩
  | 123 => ⟨S536, .f32⟩
  | 124 => ⟨S_, .i32⟩
  | 125 => ⟨S536, .i32⟩
  | 126 => ⟨S536, .i1⟩
  | 127 => ⟨S_, .i32⟩
  | _ => ⟨S24x128, .f32⟩

abbrev hbmTy0_3 (i : Nat) : BufTy := match i % 128 with
  | 0 => ⟨S536, .i32⟩
  | 1 => ⟨S536, .i32⟩
  | 2 => ⟨S536, .i32⟩
  | 3 => ⟨S536x1, .i32⟩
  | 4 => ⟨S536, .f32⟩
  | 5 => ⟨S536, .f32⟩
  | 6 => ⟨S24x16, .f32⟩
  | 7 => ⟨S_, .i32⟩
  | 8 => ⟨S536, .i32⟩
  | 9 => ⟨S536, .i1⟩
  | 10 => ⟨S_, .i32⟩
  | 11 => ⟨S536, .i32⟩
  | 12 => ⟨S536, .i32⟩
  | 13 => ⟨S536, .i32⟩
  | 14 => ⟨S536x1, .i32⟩
  | 15 => ⟨S536x16, .f32⟩
  | 16 => ⟨S536x1, .f32⟩
  | 17 => ⟨S536x16, .f32⟩
  | 18 => ⟨S536x16, .f32⟩
  | 19 => ⟨S_, .f32⟩
  | 20 => ⟨S24x16, .f32⟩
  | 21 => ⟨S_, .i32⟩
  | 22 => ⟨S536, .i32⟩
  | 23 => ⟨S536, .i1⟩
  | 24 => ⟨S_, .i32⟩
  | 25 => ⟨S536, .i32⟩
  | 26 => ⟨S536, .i32⟩
  | 27 => ⟨S536, .i32⟩
  | 28 => ⟨S536x1, .i32⟩
  | 29 => ⟨S24x16, .f32⟩
  | 30 => ⟨S1x16, .f32⟩
  | 31 => ⟨S24x16, .f32⟩
  | 32 => ⟨S24x16, .f32⟩
  | 33 => ⟨S_, .f32⟩
  | 34 => ⟨S24x16, .f32⟩
  | 35 => ⟨S24x16, .f32⟩
  | 36 => ⟨S1x512, .i32⟩
  | 37 => ⟨S512, .i32⟩
  | 38 => ⟨S1x512, .i32⟩
  | 39 => ⟨S512, .i32⟩
  | 40 => ⟨S24, .i32⟩
  | 41 => ⟨S536, .i32⟩
  | 42 => ⟨S536, .i32⟩
  | 43 => ⟨S_, .f32⟩
  | 44 => ⟨S24, .f32⟩
  | 45 => ⟨S_, .i32⟩
  | 46 => ⟨S536, .i32⟩
  | 47 => ⟨S536, .i1⟩
  | 48 => ⟨S_, .i32⟩
  | 49 => ⟨S536, .i32⟩
  | 50 => ⟨S536, .i32⟩
  | 51 => ⟨S536, .i32⟩
  | 52 => ⟨S536x1, .i32⟩
  | 53 => ⟨S_, .f32⟩
  | 54 => ⟨S536, .f32⟩
  | 55 => ⟨S24, .f32⟩
  | 56 => ⟨S_, .f32⟩
  | 57 => ⟨S24, .f32⟩
  | 58 => ⟨S24, .i1⟩
  | 59 => ⟨S24, .f32⟩
  | 60 => ⟨S_, .f32⟩
  | 61 => ⟨S24, .f32⟩
  | 62 => ⟨S24, .f32⟩
  | 63 => ⟨S_, .f32⟩
  | 64 => ⟨S_, .f32⟩
  | 65 => ⟨S24, .f32⟩
  | 66 => ⟨S24, .f32⟩
  | 67 => ⟨S_, .i32⟩
  | 68 => ⟨S536, .i32⟩
  | 69 => ⟨S536, .i1⟩
  | 70 => ⟨S_, .i32⟩
  | 71 => ⟨S536, .i32⟩
  | 72 => ⟨S536, .i32⟩
  | 73 => ⟨S536, .i32⟩
  | 74 => ⟨S536x1, .i32⟩
  | 75 => ⟨S536, .f32⟩
  | 76 => ⟨S_, .i32⟩
  | 77 => ⟨S536, .i32⟩
  | 78 => ⟨S536, .i1⟩
  | 79 => ⟨S_, .i32⟩
  | 80 => ⟨S536, .i32⟩
  | 81 => ⟨S536, .i32⟩
  | 82 => ⟨S536, .i32⟩
  | 83 => ⟨S536x1, .i32⟩
  | 84 => ⟨S536, .f32⟩
  | 85 => ⟨S536, .f32⟩
  | 86 => ⟨S24x16, .f32⟩
  | 87 => ⟨S_, .i32⟩
  | 88 => ⟨S536, .i32⟩
  | 89 => ⟨S536, .i1⟩
  | 90 => ⟨S_, .i32⟩
  | 91 => ⟨S536, .i32⟩
  | 92 => ⟨S536, .i32⟩
  | 93 => ⟨S536, .i32⟩
  | 94 => ⟨S536x1, .i32⟩
  | 95 => ⟨S536x16, .f32⟩
  | 96 => ⟨S536x1, .f32⟩
  | 97 => ⟨S536x16, .f32⟩
  | 98 => ⟨S536x16, .f32⟩
  | 99 => ⟨S_, .f32⟩
  | 100 => ⟨S24x16, .f32⟩
  | 101 => ⟨S_, .i32⟩
  | 102 => ⟨S536, .i32⟩
  | 103 => ⟨S536, .i1⟩
  | 104 => ⟨S_, .i32⟩
  | 105 => ⟨S536, .i32⟩
  | 106 => ⟨S536, .i32⟩
  | 107 => ⟨S536, .i32⟩
  | 108 => ⟨S536x1, .i32⟩
  | 109 => ⟨S24x16, .f32⟩
  | 110 => ⟨S1x16, .f32⟩
  | 111 => ⟨S24x16, .f32⟩
  | 112 => ⟨S24x16, .f32⟩
  | 113 => ⟨S_, .f32⟩
  | 114 => ⟨S24x16, .f32⟩
  | 115 => ⟨S24x16, .f32⟩
  | 116 => ⟨S1x512, .i32⟩
  | 117 => ⟨S512, .i32⟩
  | 118 => ⟨S1x512, .i32⟩
  | 119 => ⟨S512, .i32⟩
  | 120 => ⟨S24, .i32⟩
  | 121 => ⟨S536, .i32⟩
  | 122 => ⟨S536, .i32⟩
  | 123 => ⟨S_, .f32⟩
  | 124 => ⟨S24, .f32⟩
  | 125 => ⟨S_, .i32⟩
  | 126 => ⟨S536, .i32⟩
  | 127 => ⟨S536, .i1⟩
  | _ => ⟨S24x128, .f32⟩

abbrev hbmTy0_4 (i : Nat) : BufTy := match i % 128 with
  | 0 => ⟨S_, .i32⟩
  | 1 => ⟨S536, .i32⟩
  | 2 => ⟨S536, .i32⟩
  | 3 => ⟨S536, .i32⟩
  | 4 => ⟨S536x1, .i32⟩
  | 5 => ⟨S_, .f32⟩
  | 6 => ⟨S536, .f32⟩
  | 7 => ⟨S24, .f32⟩
  | 8 => ⟨S_, .f32⟩
  | 9 => ⟨S24, .f32⟩
  | 10 => ⟨S24, .i1⟩
  | 11 => ⟨S24, .f32⟩
  | 12 => ⟨S_, .f32⟩
  | 13 => ⟨S24, .f32⟩
  | 14 => ⟨S24, .f32⟩
  | 15 => ⟨S_, .f32⟩
  | 16 => ⟨S_, .f32⟩
  | 17 => ⟨S24, .f32⟩
  | 18 => ⟨S24, .f32⟩
  | 19 => ⟨S_, .i32⟩
  | 20 => ⟨S536, .i32⟩
  | 21 => ⟨S536, .i1⟩
  | 22 => ⟨S_, .i32⟩
  | 23 => ⟨S536, .i32⟩
  | 24 => ⟨S536, .i32⟩
  | 25 => ⟨S536, .i32⟩
  | 26 => ⟨S536x1, .i32⟩
  | 27 => ⟨S536, .f32⟩
  | 28 => ⟨S_, .i32⟩
  | 29 => ⟨S536, .i32⟩
  | 30 => ⟨S536, .i1⟩
  | 31 => ⟨S_, .i32⟩
  | 32 => ⟨S536, .i32⟩
  | 33 => ⟨S536, .i32⟩
  | 34 => ⟨S536, .i32⟩
  | 35 => ⟨S536x1, .i32⟩
  | 36 => ⟨S536, .f32⟩
  | 37 => ⟨S536, .f32⟩
  | 38 => ⟨S24x32, .f32⟩
  | 39 => ⟨S_, .i32⟩
  | 40 => ⟨S536, .i32⟩
  | 41 => ⟨S536, .i1⟩
  | 42 => ⟨S_, .i32⟩
  | 43 => ⟨S536, .i32⟩
  | 44 => ⟨S536, .i32⟩
  | 45 => ⟨S536, .i32⟩
  | 46 => ⟨S536x1, .i32⟩
  | 47 => ⟨S536x32, .f32⟩
  | 48 => ⟨S536x1, .f32⟩
  | 49 => ⟨S536x32, .f32⟩
  | 50 => ⟨S536x32, .f32⟩
  | 51 => ⟨S_, .f32⟩
  | 52 => ⟨S24x32, .f32⟩
  | 53 => ⟨S_, .i32⟩
  | 54 => ⟨S536, .i32⟩
  | 55 => ⟨S536, .i1⟩
  | 56 => ⟨S_, .i32⟩
  | 57 => ⟨S536, .i32⟩
  | 58 => ⟨S536, .i32⟩
  | 59 => ⟨S536, .i32⟩
  | 60 => ⟨S536x1, .i32⟩
  | 61 => ⟨S24x32, .f32⟩
  | 62 => ⟨S1x32, .f32⟩
  | 63 => ⟨S24x32, .f32⟩
  | 64 => ⟨S24x32, .f32⟩
  | 65 => ⟨S_, .f32⟩
  | 66 => ⟨S24x32, .f32⟩
  | 67 => ⟨S24x32, .f32⟩
  | 68 => ⟨S768, .f32⟩
  | 69 => ⟨S128, .f32⟩
  | 70 => ⟨S128, .f32⟩
  | 71 => ⟨S2, .f32⟩
  | 72 => ⟨S2, .f32⟩
  | 73 => ⟨S1x2, .f32⟩
  | 74 => ⟨S_, .f32⟩
  | 75 => ⟨S1, .f32⟩
  | 76 => ⟨S_, .f32⟩
  | 77 => ⟨S1, .f32⟩
  | 78 => ⟨S1, .f32⟩
  | 79 => ⟨S1x1, .f32⟩
  | 80 => ⟨S1x2, .f32⟩
  | 81 => ⟨S1x2, .f32⟩
  | 82 => ⟨S1x2, .f32⟩
  | 83 => ⟨S_, .f32⟩
  | 84 => ⟨S1, .f32⟩
  | 85 => ⟨S1x1, .f32⟩
  | 86 => ⟨S1x1, .f32⟩
  | 87 => ⟨S1x2, .f32⟩
  | 88 => ⟨S1x2, .f32⟩
  | _ => ⟨S24x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S24x128, .f32⟩

abbrev bufTy : (tb : Table) → Fin (tcTables nBuf tb) → BufTy
  | .hbm, ⟨i, _⟩ => hbmTy i
  | _, _ => ⟨S24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_11 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_c_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call1_cst : Ref sig .tc := ⟨.hbm, 97, rfl⟩
abbrev main_call1_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_c_15 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_cst_18 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_19 : Ref sig .tc := ⟨.hbm, 124, rfl⟩
abbrev main_v79 : Ref sig .tc := ⟨.hbm, 125, rfl⟩
abbrev main_v80 : Ref sig .tc := ⟨.hbm, 126, rfl⟩
abbrev main_cst_20 : Ref sig .tc := ⟨.hbm, 127, rfl⟩
abbrev main_call2_v0 : Ref sig .tc := ⟨.hbm, 128, rfl⟩
abbrev main_call2_v1 : Ref sig .tc := ⟨.hbm, 129, rfl⟩
abbrev main_v81 : Ref sig .tc := ⟨.hbm, 130, rfl⟩
abbrev main_c_21 : Ref sig .tc := ⟨.hbm, 131, rfl⟩
abbrev main_v82 : Ref sig .tc := ⟨.hbm, 132, rfl⟩
abbrev main_v83 : Ref sig .tc := ⟨.hbm, 133, rfl⟩
abbrev main_c_22 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_23 : Ref sig .tc := ⟨.hbm, 140, rfl⟩
abbrev main_v89 : Ref sig .tc := ⟨.hbm, 141, rfl⟩
abbrev main_v90 : Ref sig .tc := ⟨.hbm, 142, rfl⟩
abbrev main_c_24 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_25 : Ref sig .tc := ⟨.hbm, 151, rfl⟩
abbrev main_v98 : Ref sig .tc := ⟨.hbm, 152, rfl⟩
abbrev main_v99 : Ref sig .tc := ⟨.hbm, 153, rfl⟩
abbrev main_c_26 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_27 : Ref sig .tc := ⟨.hbm, 163, rfl⟩
abbrev main_v108 : Ref sig .tc := ⟨.hbm, 164, rfl⟩
abbrev main_c_28 : Ref sig .tc := ⟨.hbm, 165, rfl⟩
abbrev main_v109 : Ref sig .tc := ⟨.hbm, 166, rfl⟩
abbrev main_v110 : Ref sig .tc := ⟨.hbm, 167, rfl⟩
abbrev main_c_29 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_call3_cst : Ref sig .tc := ⟨.hbm, 177, rfl⟩
abbrev main_call3_v0 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_30 : Ref sig .tc := ⟨.hbm, 187, rfl⟩
abbrev main_v127 : Ref sig .tc := ⟨.hbm, 188, rfl⟩
abbrev main_c_31 : Ref sig .tc := ⟨.hbm, 189, rfl⟩
abbrev main_v128 : Ref sig .tc := ⟨.hbm, 190, rfl⟩
abbrev main_v129 : Ref sig .tc := ⟨.hbm, 191, rfl⟩
abbrev main_c_32 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_33 : Ref sig .tc := ⟨.hbm, 197, rfl⟩
abbrev main_v134 : Ref sig .tc := ⟨.hbm, 198, rfl⟩
abbrev main_v135 : Ref sig .tc := ⟨.hbm, 199, rfl⟩
abbrev main_cst_34 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_35 : Ref sig .tc := ⟨.hbm, 204, rfl⟩
abbrev main_v139 : Ref sig .tc := ⟨.hbm, 205, rfl⟩
abbrev main_v140 : Ref sig .tc := ⟨.hbm, 206, rfl⟩
abbrev main_cst_36 : Ref sig .tc := ⟨.hbm, 207, rfl⟩
abbrev main_call4_v0 : Ref sig .tc := ⟨.hbm, 208, rfl⟩
abbrev main_call4_v1 : Ref sig .tc := ⟨.hbm, 209, rfl⟩
abbrev main_v141 : Ref sig .tc := ⟨.hbm, 210, rfl⟩
abbrev main_c_37 : Ref sig .tc := ⟨.hbm, 211, rfl⟩
abbrev main_v142 : Ref sig .tc := ⟨.hbm, 212, rfl⟩
abbrev main_v143 : Ref sig .tc := ⟨.hbm, 213, rfl⟩
abbrev main_c_38 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_c_39 : Ref sig .tc := ⟨.hbm, 220, rfl⟩
abbrev main_v149 : Ref sig .tc := ⟨.hbm, 221, rfl⟩
abbrev main_v150 : Ref sig .tc := ⟨.hbm, 222, rfl⟩
abbrev main_c_40 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_c_41 : Ref sig .tc := ⟨.hbm, 231, rfl⟩
abbrev main_v158 : Ref sig .tc := ⟨.hbm, 232, rfl⟩
abbrev main_v159 : Ref sig .tc := ⟨.hbm, 233, rfl⟩
abbrev main_c_42 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_43 : Ref sig .tc := ⟨.hbm, 243, rfl⟩
abbrev main_v168 : Ref sig .tc := ⟨.hbm, 244, rfl⟩
abbrev main_c_44 : Ref sig .tc := ⟨.hbm, 245, rfl⟩
abbrev main_v169 : Ref sig .tc := ⟨.hbm, 246, rfl⟩
abbrev main_v170 : Ref sig .tc := ⟨.hbm, 247, rfl⟩
abbrev main_c_45 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_call5_cst : Ref sig .tc := ⟨.hbm, 257, rfl⟩
abbrev main_call5_v0 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_cst_46 : Ref sig .tc := ⟨.hbm, 267, rfl⟩
abbrev main_v187 : Ref sig .tc := ⟨.hbm, 268, rfl⟩
abbrev main_c_47 : Ref sig .tc := ⟨.hbm, 269, rfl⟩
abbrev main_v188 : Ref sig .tc := ⟨.hbm, 270, rfl⟩
abbrev main_v189 : Ref sig .tc := ⟨.hbm, 271, rfl⟩
abbrev main_c_48 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_cst_49 : Ref sig .tc := ⟨.hbm, 277, rfl⟩
abbrev main_v194 : Ref sig .tc := ⟨.hbm, 278, rfl⟩
abbrev main_v195 : Ref sig .tc := ⟨.hbm, 279, rfl⟩
abbrev main_cst_50 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_cst_51 : Ref sig .tc := ⟨.hbm, 284, rfl⟩
abbrev main_v199 : Ref sig .tc := ⟨.hbm, 285, rfl⟩
abbrev main_v200 : Ref sig .tc := ⟨.hbm, 286, rfl⟩
abbrev main_cst_52 : Ref sig .tc := ⟨.hbm, 287, rfl⟩
abbrev main_call6_v0 : Ref sig .tc := ⟨.hbm, 288, rfl⟩
abbrev main_call6_v1 : Ref sig .tc := ⟨.hbm, 289, rfl⟩
abbrev main_v201 : Ref sig .tc := ⟨.hbm, 290, rfl⟩
abbrev main_c_53 : Ref sig .tc := ⟨.hbm, 291, rfl⟩
abbrev main_v202 : Ref sig .tc := ⟨.hbm, 292, rfl⟩
abbrev main_v203 : Ref sig .tc := ⟨.hbm, 293, rfl⟩
abbrev main_c_54 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_c_55 : Ref sig .tc := ⟨.hbm, 300, rfl⟩
abbrev main_v209 : Ref sig .tc := ⟨.hbm, 301, rfl⟩
abbrev main_v210 : Ref sig .tc := ⟨.hbm, 302, rfl⟩
abbrev main_c_56 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_c_57 : Ref sig .tc := ⟨.hbm, 311, rfl⟩
abbrev main_v218 : Ref sig .tc := ⟨.hbm, 312, rfl⟩
abbrev main_v219 : Ref sig .tc := ⟨.hbm, 313, rfl⟩
abbrev main_c_58 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_cst_59 : Ref sig .tc := ⟨.hbm, 323, rfl⟩
abbrev main_v228 : Ref sig .tc := ⟨.hbm, 324, rfl⟩
abbrev main_c_60 : Ref sig .tc := ⟨.hbm, 325, rfl⟩
abbrev main_v229 : Ref sig .tc := ⟨.hbm, 326, rfl⟩
abbrev main_v230 : Ref sig .tc := ⟨.hbm, 327, rfl⟩
abbrev main_c_61 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_call7_cst : Ref sig .tc := ⟨.hbm, 337, rfl⟩
abbrev main_call7_v0 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_cst_62 : Ref sig .tc := ⟨.hbm, 347, rfl⟩
abbrev main_v247 : Ref sig .tc := ⟨.hbm, 348, rfl⟩
abbrev main_c_63 : Ref sig .tc := ⟨.hbm, 349, rfl⟩
abbrev main_v248 : Ref sig .tc := ⟨.hbm, 350, rfl⟩
abbrev main_v249 : Ref sig .tc := ⟨.hbm, 351, rfl⟩
abbrev main_c_64 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_cst_65 : Ref sig .tc := ⟨.hbm, 357, rfl⟩
abbrev main_v254 : Ref sig .tc := ⟨.hbm, 358, rfl⟩
abbrev main_v255 : Ref sig .tc := ⟨.hbm, 359, rfl⟩
abbrev main_cst_66 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_cst_67 : Ref sig .tc := ⟨.hbm, 364, rfl⟩
abbrev main_v259 : Ref sig .tc := ⟨.hbm, 365, rfl⟩
abbrev main_v260 : Ref sig .tc := ⟨.hbm, 366, rfl⟩
abbrev main_cst_68 : Ref sig .tc := ⟨.hbm, 367, rfl⟩
abbrev main_call8_v0 : Ref sig .tc := ⟨.hbm, 368, rfl⟩
abbrev main_call8_v1 : Ref sig .tc := ⟨.hbm, 369, rfl⟩
abbrev main_v261 : Ref sig .tc := ⟨.hbm, 370, rfl⟩
abbrev main_c_69 : Ref sig .tc := ⟨.hbm, 371, rfl⟩
abbrev main_v262 : Ref sig .tc := ⟨.hbm, 372, rfl⟩
abbrev main_v263 : Ref sig .tc := ⟨.hbm, 373, rfl⟩
abbrev main_c_70 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_c_71 : Ref sig .tc := ⟨.hbm, 380, rfl⟩
abbrev main_v269 : Ref sig .tc := ⟨.hbm, 381, rfl⟩
abbrev main_v270 : Ref sig .tc := ⟨.hbm, 382, rfl⟩
abbrev main_c_72 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_c_73 : Ref sig .tc := ⟨.hbm, 391, rfl⟩
abbrev main_v278 : Ref sig .tc := ⟨.hbm, 392, rfl⟩
abbrev main_v279 : Ref sig .tc := ⟨.hbm, 393, rfl⟩
abbrev main_c_74 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_v287 : Ref sig .tc := ⟨.hbm, 402, rfl⟩
abbrev main_cst_75 : Ref sig .tc := ⟨.hbm, 403, rfl⟩
abbrev main_v288 : Ref sig .tc := ⟨.hbm, 404, rfl⟩
abbrev main_c_76 : Ref sig .tc := ⟨.hbm, 405, rfl⟩
abbrev main_v289 : Ref sig .tc := ⟨.hbm, 406, rfl⟩
abbrev main_v290 : Ref sig .tc := ⟨.hbm, 407, rfl⟩
abbrev main_c_77 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_v294 : Ref sig .tc := ⟨.hbm, 412, rfl⟩
abbrev main_v295 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_call9_cst : Ref sig .tc := ⟨.hbm, 417, rfl⟩
abbrev main_call9_v0 : Ref sig .tc := ⟨.hbm, 418, rfl⟩
abbrev main_v299 : Ref sig .tc := ⟨.hbm, 419, rfl⟩
abbrev main_v300 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_cst_78 : Ref sig .tc := ⟨.hbm, 427, rfl⟩
abbrev main_v307 : Ref sig .tc := ⟨.hbm, 428, rfl⟩
abbrev main_c_79 : Ref sig .tc := ⟨.hbm, 429, rfl⟩
abbrev main_v308 : Ref sig .tc := ⟨.hbm, 430, rfl⟩
abbrev main_v309 : Ref sig .tc := ⟨.hbm, 431, rfl⟩
abbrev main_c_80 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_cst_81 : Ref sig .tc := ⟨.hbm, 437, rfl⟩
abbrev main_v314 : Ref sig .tc := ⟨.hbm, 438, rfl⟩
abbrev main_v315 : Ref sig .tc := ⟨.hbm, 439, rfl⟩
abbrev main_cst_82 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_cst_83 : Ref sig .tc := ⟨.hbm, 444, rfl⟩
abbrev main_v319 : Ref sig .tc := ⟨.hbm, 445, rfl⟩
abbrev main_v320 : Ref sig .tc := ⟨.hbm, 446, rfl⟩
abbrev main_cst_84 : Ref sig .tc := ⟨.hbm, 447, rfl⟩
abbrev main_call10_v0 : Ref sig .tc := ⟨.hbm, 448, rfl⟩
abbrev main_call10_v1 : Ref sig .tc := ⟨.hbm, 449, rfl⟩
abbrev main_v321 : Ref sig .tc := ⟨.hbm, 450, rfl⟩
abbrev main_c_85 : Ref sig .tc := ⟨.hbm, 451, rfl⟩
abbrev main_v322 : Ref sig .tc := ⟨.hbm, 452, rfl⟩
abbrev main_v323 : Ref sig .tc := ⟨.hbm, 453, rfl⟩
abbrev main_c_86 : Ref sig .tc := ⟨.hbm, 454, rfl⟩
abbrev main_v324 : Ref sig .tc := ⟨.hbm, 455, rfl⟩
abbrev main_v325 : Ref sig .tc := ⟨.hbm, 456, rfl⟩
abbrev main_v326 : Ref sig .tc := ⟨.hbm, 457, rfl⟩
abbrev main_v327 : Ref sig .tc := ⟨.hbm, 458, rfl⟩
abbrev main_v328 : Ref sig .tc := ⟨.hbm, 459, rfl⟩
abbrev main_c_87 : Ref sig .tc := ⟨.hbm, 460, rfl⟩
abbrev main_v329 : Ref sig .tc := ⟨.hbm, 461, rfl⟩
abbrev main_v330 : Ref sig .tc := ⟨.hbm, 462, rfl⟩
abbrev main_c_88 : Ref sig .tc := ⟨.hbm, 463, rfl⟩
abbrev main_v331 : Ref sig .tc := ⟨.hbm, 464, rfl⟩
abbrev main_v332 : Ref sig .tc := ⟨.hbm, 465, rfl⟩
abbrev main_v333 : Ref sig .tc := ⟨.hbm, 466, rfl⟩
abbrev main_v334 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_c_89 : Ref sig .tc := ⟨.hbm, 471, rfl⟩
abbrev main_v338 : Ref sig .tc := ⟨.hbm, 472, rfl⟩
abbrev main_v339 : Ref sig .tc := ⟨.hbm, 473, rfl⟩
abbrev main_c_90 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_v346 : Ref sig .tc := ⟨.hbm, 481, rfl⟩
abbrev main_v347 : Ref sig .tc := ⟨.hbm, 482, rfl⟩
abbrev main_cst_91 : Ref sig .tc := ⟨.hbm, 483, rfl⟩
abbrev main_v348 : Ref sig .tc := ⟨.hbm, 484, rfl⟩
abbrev main_c_92 : Ref sig .tc := ⟨.hbm, 485, rfl⟩
abbrev main_v349 : Ref sig .tc := ⟨.hbm, 486, rfl⟩
abbrev main_v350 : Ref sig .tc := ⟨.hbm, 487, rfl⟩
abbrev main_c_93 : Ref sig .tc := ⟨.hbm, 488, rfl⟩
abbrev main_v351 : Ref sig .tc := ⟨.hbm, 489, rfl⟩
abbrev main_v352 : Ref sig .tc := ⟨.hbm, 490, rfl⟩
abbrev main_v353 : Ref sig .tc := ⟨.hbm, 491, rfl⟩
abbrev main_v354 : Ref sig .tc := ⟨.hbm, 492, rfl⟩
abbrev main_v355 : Ref sig .tc := ⟨.hbm, 493, rfl⟩
abbrev main_v356 : Ref sig .tc := ⟨.hbm, 494, rfl⟩
abbrev main_v357 : Ref sig .tc := ⟨.hbm, 495, rfl⟩
abbrev main_v358 : Ref sig .tc := ⟨.hbm, 496, rfl⟩
abbrev main_call11_cst : Ref sig .tc := ⟨.hbm, 497, rfl⟩
abbrev main_call11_v0 : Ref sig .tc := ⟨.hbm, 498, rfl⟩
abbrev main_v359 : Ref sig .tc := ⟨.hbm, 499, rfl⟩
abbrev main_v360 : Ref sig .tc := ⟨.hbm, 500, rfl⟩
abbrev main_v361 : Ref sig .tc := ⟨.hbm, 501, rfl⟩
abbrev main_v362 : Ref sig .tc := ⟨.hbm, 502, rfl⟩
abbrev main_v363 : Ref sig .tc := ⟨.hbm, 503, rfl⟩
abbrev main_v364 : Ref sig .tc := ⟨.hbm, 504, rfl⟩
abbrev main_v365 : Ref sig .tc := ⟨.hbm, 505, rfl⟩
abbrev main_v366 : Ref sig .tc := ⟨.hbm, 506, rfl⟩
abbrev main_cst_94 : Ref sig .tc := ⟨.hbm, 507, rfl⟩
abbrev main_v367 : Ref sig .tc := ⟨.hbm, 508, rfl⟩
abbrev main_c_95 : Ref sig .tc := ⟨.hbm, 509, rfl⟩
abbrev main_v368 : Ref sig .tc := ⟨.hbm, 510, rfl⟩
abbrev main_v369 : Ref sig .tc := ⟨.hbm, 511, rfl⟩
abbrev main_c_96 : Ref sig .tc := ⟨.hbm, 512, rfl⟩
abbrev main_v370 : Ref sig .tc := ⟨.hbm, 513, rfl⟩
abbrev main_v371 : Ref sig .tc := ⟨.hbm, 514, rfl⟩
abbrev main_v372 : Ref sig .tc := ⟨.hbm, 515, rfl⟩
abbrev main_v373 : Ref sig .tc := ⟨.hbm, 516, rfl⟩
abbrev main_cst_97 : Ref sig .tc := ⟨.hbm, 517, rfl⟩
abbrev main_v374 : Ref sig .tc := ⟨.hbm, 518, rfl⟩
abbrev main_v375 : Ref sig .tc := ⟨.hbm, 519, rfl⟩
abbrev main_cst_98 : Ref sig .tc := ⟨.hbm, 520, rfl⟩
abbrev main_v376 : Ref sig .tc := ⟨.hbm, 521, rfl⟩
abbrev main_v377 : Ref sig .tc := ⟨.hbm, 522, rfl⟩
abbrev main_v378 : Ref sig .tc := ⟨.hbm, 523, rfl⟩
abbrev main_cst_99 : Ref sig .tc := ⟨.hbm, 524, rfl⟩
abbrev main_v379 : Ref sig .tc := ⟨.hbm, 525, rfl⟩
abbrev main_v380 : Ref sig .tc := ⟨.hbm, 526, rfl⟩
abbrev main_cst_100 : Ref sig .tc := ⟨.hbm, 527, rfl⟩
abbrev main_call12_v0 : Ref sig .tc := ⟨.hbm, 528, rfl⟩
abbrev main_call12_v1 : Ref sig .tc := ⟨.hbm, 529, rfl⟩
abbrev main_v381 : Ref sig .tc := ⟨.hbm, 530, rfl⟩
abbrev main_c_101 : Ref sig .tc := ⟨.hbm, 531, rfl⟩
abbrev main_v382 : Ref sig .tc := ⟨.hbm, 532, rfl⟩
abbrev main_v383 : Ref sig .tc := ⟨.hbm, 533, rfl⟩
abbrev main_c_102 : Ref sig .tc := ⟨.hbm, 534, rfl⟩
abbrev main_v384 : Ref sig .tc := ⟨.hbm, 535, rfl⟩
abbrev main_v385 : Ref sig .tc := ⟨.hbm, 536, rfl⟩
abbrev main_v386 : Ref sig .tc := ⟨.hbm, 537, rfl⟩
abbrev main_v387 : Ref sig .tc := ⟨.hbm, 538, rfl⟩
abbrev main_v388 : Ref sig .tc := ⟨.hbm, 539, rfl⟩
abbrev main_c_103 : Ref sig .tc := ⟨.hbm, 540, rfl⟩
abbrev main_v389 : Ref sig .tc := ⟨.hbm, 541, rfl⟩
abbrev main_v390 : Ref sig .tc := ⟨.hbm, 542, rfl⟩
abbrev main_c_104 : Ref sig .tc := ⟨.hbm, 543, rfl⟩
abbrev main_v391 : Ref sig .tc := ⟨.hbm, 544, rfl⟩
abbrev main_v392 : Ref sig .tc := ⟨.hbm, 545, rfl⟩
abbrev main_v393 : Ref sig .tc := ⟨.hbm, 546, rfl⟩
abbrev main_v394 : Ref sig .tc := ⟨.hbm, 547, rfl⟩
abbrev main_v395 : Ref sig .tc := ⟨.hbm, 548, rfl⟩
abbrev main_v396 : Ref sig .tc := ⟨.hbm, 549, rfl⟩
abbrev main_v397 : Ref sig .tc := ⟨.hbm, 550, rfl⟩
abbrev main_c_105 : Ref sig .tc := ⟨.hbm, 551, rfl⟩
abbrev main_v398 : Ref sig .tc := ⟨.hbm, 552, rfl⟩
abbrev main_v399 : Ref sig .tc := ⟨.hbm, 553, rfl⟩
abbrev main_c_106 : Ref sig .tc := ⟨.hbm, 554, rfl⟩
abbrev main_v400 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_cst_107 : Ref sig .tc := ⟨.hbm, 563, rfl⟩
abbrev main_v408 : Ref sig .tc := ⟨.hbm, 564, rfl⟩
abbrev main_c_108 : Ref sig .tc := ⟨.hbm, 565, rfl⟩
abbrev main_v409 : Ref sig .tc := ⟨.hbm, 566, rfl⟩
abbrev main_v410 : Ref sig .tc := ⟨.hbm, 567, rfl⟩
abbrev main_c_109 : Ref sig .tc := ⟨.hbm, 568, rfl⟩
abbrev main_v411 : Ref sig .tc := ⟨.hbm, 569, rfl⟩
abbrev main_v412 : Ref sig .tc := ⟨.hbm, 570, rfl⟩
abbrev main_v413 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_call13_cst : Ref sig .tc := ⟨.hbm, 577, rfl⟩
abbrev main_call13_v0 : Ref sig .tc := ⟨.hbm, 578, rfl⟩
abbrev main_v419 : Ref sig .tc := ⟨.hbm, 579, rfl⟩
abbrev main_v420 : Ref sig .tc := ⟨.hbm, 580, rfl⟩
abbrev main_v421 : Ref sig .tc := ⟨.hbm, 581, rfl⟩
abbrev main_v422 : Ref sig .tc := ⟨.hbm, 582, rfl⟩
abbrev main_v423 : Ref sig .tc := ⟨.hbm, 583, rfl⟩
abbrev main_v424 : Ref sig .tc := ⟨.hbm, 584, rfl⟩
abbrev main_v425 : Ref sig .tc := ⟨.hbm, 585, rfl⟩
abbrev main_call14_cst : Ref sig .tc := ⟨.hbm, 586, rfl⟩
abbrev main_call14_v0 : Ref sig .tc := ⟨.hbm, 587, rfl⟩
abbrev main_call14_cst_0 : Ref sig .tc := ⟨.hbm, 588, rfl⟩
abbrev main_call14_v1 : Ref sig .tc := ⟨.hbm, 589, rfl⟩
abbrev main_call14_v2 : Ref sig .tc := ⟨.hbm, 590, rfl⟩
abbrev main_call14_v3 : Ref sig .tc := ⟨.hbm, 591, rfl⟩
abbrev main_call14_v4 : Ref sig .tc := ⟨.hbm, 592, rfl⟩
abbrev main_call14_v5 : Ref sig .tc := ⟨.hbm, 593, rfl⟩
abbrev main_call14_v6 : Ref sig .tc := ⟨.hbm, 594, rfl⟩
abbrev main_call14_cst_1 : Ref sig .tc := ⟨.hbm, 595, rfl⟩
abbrev main_call14_v7 : Ref sig .tc := ⟨.hbm, 596, rfl⟩
abbrev main_call14_v8 : Ref sig .tc := ⟨.hbm, 597, rfl⟩
abbrev main_call14_v9 : Ref sig .tc := ⟨.hbm, 598, rfl⟩
abbrev main_call14_v10 : Ref sig .tc := ⟨.hbm, 599, rfl⟩
abbrev main_v426 : Ref sig .tc := ⟨.hbm, 600, rfl⟩

abbrev nD : Nat := 1
abbrev τ : Topo := Topo.v7x

variable {F : FTy → Type} [FloatOps F]

class Facts₀ : Prop where
  slices_S2x512_S1x512_0_0 : S2x512.Slices ![0, 0] S1x512
  shapeCasts_S1x512_S512 : S1x512.ShapeCasts S512
  slices_S2x512_S1x512_1_0 : S2x512.Slices ![1, 0] S1x512
  concatenates_S512_S24_S536_d0 : Shape.Concatenates [S512, S24] S536 0
  bcast_S_S24 : S_.BroadcastsInDim S24 (![] : Fin 0 → Fin S24.rank)
  bcast_S_S536 : S_.BroadcastsInDim S536 (![] : Fin 0 → Fin S536.rank)
  bcast_S536_S536x1_0 : S536.BroadcastsInDim S536x1 (![0] : Fin 1 → Fin S536x1.rank)
  bcast_S536x1_S536x4_0_1 : S536x1.BroadcastsInDim S536x4 (![0, 1] : Fin 2 → Fin S536x4.rank)
  bcast_S_S24x4 : S_.BroadcastsInDim S24x4 (![] : Fin 0 → Fin S24x4.rank)
  bcast_S4_S1x4_1 : S4.BroadcastsInDim S1x4 (![1] : Fin 1 → Fin S1x4.rank)
  bcast_S1x4_S24x4_0_1 : S1x4.BroadcastsInDim S24x4 (![0, 1] : Fin 2 → Fin S24x4.rank)
  bcast_S536x1_S536x8_0_1 : S536x1.BroadcastsInDim S536x8 (![0, 1] : Fin 2 → Fin S536x8.rank)
  bcast_S_S24x8 : S_.BroadcastsInDim S24x8 (![] : Fin 0 → Fin S24x8.rank)
  bcast_S8_S1x8_1 : S8.BroadcastsInDim S1x8 (![1] : Fin 1 → Fin S1x8.rank)
  bcast_S1x8_S24x8_0_1 : S1x8.BroadcastsInDim S24x8 (![0, 1] : Fin 2 → Fin S24x8.rank)
  bcast_S536x1_S536x16_0_1 : S536x1.BroadcastsInDim S536x16 (![0, 1] : Fin 2 → Fin S536x16.rank)
  bcast_S_S24x16 : S_.BroadcastsInDim S24x16 (![] : Fin 0 → Fin S24x16.rank)
  bcast_S16_S1x16_1 : S16.BroadcastsInDim S1x16 (![1] : Fin 1 → Fin S1x16.rank)
  bcast_S1x16_S24x16_0_1 : S1x16.BroadcastsInDim S24x16 (![0, 1] : Fin 2 → Fin S24x16.rank)
  bcast_S536x1_S536x32_0_1 : S536x1.BroadcastsInDim S536x32 (![0, 1] : Fin 2 → Fin S536x32.rank)
  bcast_S_S24x32 : S_.BroadcastsInDim S24x32 (![] : Fin 0 → Fin S24x32.rank)
  bcast_S32_S1x32_1 : S32.BroadcastsInDim S1x32 (![1] : Fin 1 → Fin S1x32.rank)
  bcast_S1x32_S24x32_0_1 : S1x32.BroadcastsInDim S24x32 (![0, 1] : Fin 2 → Fin S24x32.rank)
  shapeCasts_S24x32_S768 : S24x32.ShapeCasts S768
  shapeCasts_S2_S1x2 : S2.ShapeCasts S1x2
  reducesTo_S1x2_S1_d1 : S1x2.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S24_S536x1_S536_n_0_0_1_wf : ScatterDims.WF S24 S536x1 S536 [] [0] [0] 1
  gather_S24_S536x1_S536_n_0_n_n_0_1_1_wf : GatherDims.WF S24 S536x1 S536 [] [0] [] [0] [] 1 ![1]
  dot_S24x128_S128x4_S24x4_1_0_0_1_n_n_wf : DotDims.WF S24x128 S128x4 S24x4 [1] [0] [0] [1] [] []
  gather_S24x4_S536x1_S536x4_1_0_n_n_0_1_14_wf : GatherDims.WF S24x4 S536x1 S536x4 [1] [0] [] [0] [] 1 ![1, 4]
  scatter_S24x4_S536x1_S536x4_1_0_0_1_wf : ScatterDims.WF S24x4 S536x1 S536x4 [1] [0] [0] 1
  dot_S24x4_S4x4_S24x4_1_0_0_1_n_n_wf : DotDims.WF S24x4 S4x4 S24x4 [1] [0] [0] [1] [] []
  dot_S24x4_S4x8_S24x8_1_0_0_1_n_n_wf : DotDims.WF S24x4 S4x8 S24x8 [1] [0] [0] [1] [] []
  gather_S24x8_S536x1_S536x8_1_0_n_n_0_1_18_wf : GatherDims.WF S24x8 S536x1 S536x8 [1] [0] [] [0] [] 1 ![1, 8]
  scatter_S24x8_S536x1_S536x8_1_0_0_1_wf : ScatterDims.WF S24x8 S536x1 S536x8 [1] [0] [0] 1
  dot_S24x8_S8x8_S24x8_1_0_0_1_n_n_wf : DotDims.WF S24x8 S8x8 S24x8 [1] [0] [0] [1] [] []
  dot_S24x8_S8x16_S24x16_1_0_0_1_n_n_wf : DotDims.WF S24x8 S8x16 S24x16 [1] [0] [0] [1] [] []
  gather_S24x16_S536x1_S536x16_1_0_n_n_0_1_116_wf : GatherDims.WF S24x16 S536x1 S536x16 [1] [0] [] [0] [] 1 ![1, 16]
  scatter_S24x16_S536x1_S536x16_1_0_0_1_wf : ScatterDims.WF S24x16 S536x1 S536x16 [1] [0] [0] 1
  dot_S24x16_S16x16_S24x16_1_0_0_1_n_n_wf : DotDims.WF S24x16 S16x16 S24x16 [1] [0] [0] [1] [] []
  dot_S24x16_S16x32_S24x32_1_0_0_1_n_n_wf : DotDims.WF S24x16 S16x32 S24x32 [1] [0] [0] [1] [] []
  gather_S24x32_S536x1_S536x32_1_0_n_n_0_1_132_wf : GatherDims.WF S24x32 S536x1 S536x32 [1] [0] [] [0] [] 1 ![1, 32]
  scatter_S24x32_S536x1_S536x32_1_0_0_1_wf : ScatterDims.WF S24x32 S536x1 S536x32 [1] [0] [0] 1
  dot_S768_S768x128_S128_0_0_n_1_n_n_wf : DotDims.WF S768 S768x128 S128 [0] [0] [] [1] [] []
  dot_S128_S128x2_S2_0_0_n_1_n_n_wf : DotDims.WF S128 S128x2 S2 [0] [0] [] [1] [] []

variable [Facts₀]

def scatter_S24_S536x1_S536_n_0_0_1 : ScatterDims S24 S536x1 S536 where
  updateWindowDims := []
  insertedWindowDims := [0]
  scatterDimsToOperandDims := [0]
  indexVectorDim := 1
  wf := scatter_S24_S536x1_S536_n_0_0_1_wf
def gather_S24_S536x1_S536_n_0_n_n_0_1_1 : GatherDims S24 S536x1 S536 where
  offsetDims := []
  collapsedSliceDims := [0]
  operandBatchingDims := []
  startIndicesBatchingDims := []
  startIndexMap := [0]
  indexVectorDim := 1
  sliceSizes := ![1]
  wf := gather_S24_S536x1_S536_n_0_n_n_0_1_1_wf
def dot_S24x128_S128x4_S24x4_1_0_0_1_n_n : DotDims S24x128 S128x4 S24x4 where
  lhsContracting := [1]
  rhsContracting := [0]
  lhsNonContracting := [0]
  rhsNonContracting := [1]
  lhsBatch := []
  rhsBatch := []
  wf := dot_S24x128_S128x4_S24x4_1_0_0_1_n_n_wf
def gather_S24x4_S536x1_S536x4_1_0_n_n_0_1_14 : GatherDims S24x4 S536x1 S536x4 where
  offsetDims := [1]
  collapsedSliceDims := [0]
  operandBatchingDims := []
  startIndicesBatchingDims := []
  startIndexMap := [0]
  indexVectorDim := 1
  sliceSizes := ![1, 4]
  wf := gather_S24x4_S536x1_S536x4_1_0_n_n_0_1_14_wf
def scatter_S24x4_S536x1_S536x4_1_0_0_1 : ScatterDims S24x4 S536x1 S536x4 where
  updateWindowDims := [1]
  insertedWindowDims := [0]
  scatterDimsToOperandDims := [0]
  indexVectorDim := 1
  wf := scatter_S24x4_S536x1_S536x4_1_0_0_1_wf
def dot_S24x4_S4x4_S24x4_1_0_0_1_n_n : DotDims S24x4 S4x4 S24x4 where
  lhsContracting := [1]
  rhsContracting := [0]
  lhsNonContracting := [0]
  rhsNonContracting := [1]
  lhsBatch := []
  rhsBatch := []
  wf := dot_S24x4_S4x4_S24x4_1_0_0_1_n_n_wf
def dot_S24x4_S4x8_S24x8_1_0_0_1_n_n : DotDims S24x4 S4x8 S24x8 where
  lhsContracting := [1]
  rhsContracting := [0]
  lhsNonContracting := [0]
  rhsNonContracting := [1]
  lhsBatch := []
  rhsBatch := []
  wf := dot_S24x4_S4x8_S24x8_1_0_0_1_n_n_wf
def gather_S24x8_S536x1_S536x8_1_0_n_n_0_1_18 : GatherDims S24x8 S536x1 S536x8 where
  offsetDims := [1]
  collapsedSliceDims := [0]
  operandBatchingDims := []
  startIndicesBatchingDims := []
  startIndexMap := [0]
  indexVectorDim := 1
  sliceSizes := ![1, 8]
  wf := gather_S24x8_S536x1_S536x8_1_0_n_n_0_1_18_wf
def scatter_S24x8_S536x1_S536x8_1_0_0_1 : ScatterDims S24x8 S536x1 S536x8 where
  updateWindowDims := [1]
  insertedWindowDims := [0]
  scatterDimsToOperandDims := [0]
  indexVectorDim := 1
  wf := scatter_S24x8_S536x1_S536x8_1_0_0_1_wf
def dot_S24x8_S8x8_S24x8_1_0_0_1_n_n : DotDims S24x8 S8x8 S24x8 where
  lhsContracting := [1]
  rhsContracting := [0]
  lhsNonContracting := [0]
  rhsNonContracting := [1]
  lhsBatch := []
  rhsBatch := []
  wf := dot_S24x8_S8x8_S24x8_1_0_0_1_n_n_wf
def dot_S24x8_S8x16_S24x16_1_0_0_1_n_n : DotDims S24x8 S8x16 S24x16 where
  lhsContracting := [1]
  rhsContracting := [0]
  lhsNonContracting := [0]
  rhsNonContracting := [1]
  lhsBatch := []
  rhsBatch := []
  wf := dot_S24x8_S8x16_S24x16_1_0_0_1_n_n_wf
def gather_S24x16_S536x1_S536x16_1_0_n_n_0_1_116 : GatherDims S24x16 S536x1 S536x16 where
  offsetDims := [1]
  collapsedSliceDims := [0]
  operandBatchingDims := []
  startIndicesBatchingDims := []
  startIndexMap := [0]
  indexVectorDim := 1
  sliceSizes := ![1, 16]
  wf := gather_S24x16_S536x1_S536x16_1_0_n_n_0_1_116_wf
def scatter_S24x16_S536x1_S536x16_1_0_0_1 : ScatterDims S24x16 S536x1 S536x16 where
  updateWindowDims := [1]
  insertedWindowDims := [0]
  scatterDimsToOperandDims := [0]
  indexVectorDim := 1
  wf := scatter_S24x16_S536x1_S536x16_1_0_0_1_wf
def dot_S24x16_S16x16_S24x16_1_0_0_1_n_n : DotDims S24x16 S16x16 S24x16 where
  lhsContracting := [1]
  rhsContracting := [0]
  lhsNonContracting := [0]
  rhsNonContracting := [1]
  lhsBatch := []
  rhsBatch := []
  wf := dot_S24x16_S16x16_S24x16_1_0_0_1_n_n_wf
def dot_S24x16_S16x32_S24x32_1_0_0_1_n_n : DotDims S24x16 S16x32 S24x32 where
  lhsContracting := [1]
  rhsContracting := [0]
  lhsNonContracting := [0]
  rhsNonContracting := [1]
  lhsBatch := []
  rhsBatch := []
  wf := dot_S24x16_S16x32_S24x32_1_0_0_1_n_n_wf
def gather_S24x32_S536x1_S536x32_1_0_n_n_0_1_132 : GatherDims S24x32 S536x1 S536x32 where
  offsetDims := [1]
  collapsedSliceDims := [0]
  operandBatchingDims := []
  startIndicesBatchingDims := []
  startIndexMap := [0]
  indexVectorDim := 1
  sliceSizes := ![1, 32]
  wf := gather_S24x32_S536x1_S536x32_1_0_n_n_0_1_132_wf
def scatter_S24x32_S536x1_S536x32_1_0_0_1 : ScatterDims S24x32 S536x1 S536x32 where
  updateWindowDims := [1]
  insertedWindowDims := [0]
  scatterDimsToOperandDims := [0]
  indexVectorDim := 1
  wf := scatter_S24x32_S536x1_S536x32_1_0_0_1_wf
def dot_S768_S768x128_S128_0_0_n_1_n_n : DotDims S768 S768x128 S128 where
  lhsContracting := [0]
  rhsContracting := [0]
  lhsNonContracting := []
  rhsNonContracting := [1]
  lhsBatch := []
  rhsBatch := []
  wf := dot_S768_S768x128_S128_0_0_n_1_n_n_wf
def dot_S128_S128x2_S2_0_0_n_1_n_n : DotDims S128 S128x2 S2 where
  lhsContracting := [0]
  rhsContracting := [0]
  lhsNonContracting := []
  rhsNonContracting := [1]
  lhsBatch := []
  rhsBatch := []
  wf := dot_S128_S128x2_S2_0_0_n_1_n_n_wf

class Facts : Prop extends Facts₀ where

variable [Facts]
-- ==== Proof.RefFrame.lean ====
/-
  The reference program is a straight-line host computation: its run terminates with every result at the
  composed term of its operations, and in particular leaves its twenty argument arrays unchanged.
-/
import proofs.«207914_g72782515798130_cont_9to1c4b_353_41_alg».proof.Defs
import proofs.«207914_g72782515798130_cont_9to1c4b_353_41_alg».proof.Proof.RefRunP

noncomputable section

open Idealize.ShloMosaic Idealize.ShloMosaic.TcCoe Idealize.SL.Sem

namespace Cert.Proof.RefFrame

/-- The reference runs to the end, faults nowhere and keeps its arguments: its generated run with the result dropped. -/
theorem frame_ri [Cert.Pre_input_domain.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.LaunchDefs.lean ====
/-
  The program as the SparseCore launch theorem sees it, and the ghost state of its proof: the launch handshakes'
  rounds, the rounds of the dense stage's staging cells, and the counters of the sparse kernel's own copies
  (each of its three copies is issued and waited for on a semaphore of its own, so no schedule is needed for them).
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207914_g72782515798130_cont_9to1c4b_353_41_alg».proof.Proof.Gen.KernelIdeal
import proofs.«207914_g72782515798130_cont_9to1c4b_353_41_alg».proof.Proof.Gen.KernelIdeal.Skeleton
import proofs.«207914_g72782515798130_cont_9to1c4b_353_41_alg».proof.Proof.Gen.KernelIdeal.Launch
import proofs.«207914_g72782515798130_cont_9to1c4b_353_41_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 1 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the copies' counters. -/
abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL
def ER : Emb UR (MT nD τ sig (HIx 1) (Elt F) ℕ UU ℕ) :=
  (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER; infer_instance

end Cert.Proof.KI

end
-- ==== Proof.Pay.lean ====
/-
  What the one SparseCore call carries. The TensorCore hands the call's SparseCore the edge array (read only), the
  array of zeros the accumulator is filled from (read only) and the result array; it gets the three back, the
  result array at contents of which a pure property `Good` holds (at the ideal instance: the edge counts). The
  sequencer passes everything to vector subcore 0, the only one that works, and nothing to the fifteen others.
-/
import proofs.«207914_g72782515798130_cont_9to1c4b_353_41_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-- The edge array, the zeros, the counts, as locations of device `d`. -/
abbrev eLoc (d : Dev nD) : Loc nD τ sig := (SparseCore.T d).loc main_arg1
abbrev zLoc (d : Dev nD) : Loc nD τ sig := (SparseCore.T d).loc main_v0
abbrev cLoc (d : Dev nD) : Loc nD τ sig := (SparseCore.T d).loc main_v1

variable [FloatOps F]

/-- The array of zeros @main builds before the call. -/
def Z (d : Dev nD) : Buf (Elt F) (zLoc d) :=
  (broadcastInDim S9216 ![] bcast_S_S9216 (constant (F := F) S_ .f32 0x00000000#32) : FVec F S9216 .f32)

variable (Good : (d : Dev nD) → Buf (Elt F) (cLoc d) → Prop)

abbrev ePts (d : Dev nD) : sProp 𝕄 := eLoc d ↦{fullShare} m (eLoc d)
abbrev zPts (d : Dev nD) : sProp 𝕄 := zLoc d ↦{fullShare} Z d
abbrev cPts (d : Dev nD) (f : Buf (Elt F) (cLoc d)) : sProp 𝕄 := cLoc d ↦{fullShare} f

/-- What goes to the SparseCore, and to the one working subcore. -/
abbrev given (d : Dev nD) : sProp 𝕄 := iprop(ePts m d ∗ zPts d ∗ ∃ f, cPts d f)
/-- What comes back. -/
abbrev back (d : Dev nD) : sProp 𝕄 := iprop(ePts m d ∗ zPts d ∗ ∃ f, ⌜Good d f⌝ ∗ cPts d f)

/-- Subcore number `i` of the grid gets everything if it is subcore 0, nothing otherwise. -/
def forSub (X : sProp 𝕄) (i : ℕ) : sProp 𝕄 := if i = 0 then X else iprop(emp)

theorem forSub_zero (X : sProp 𝕄) : forSub X 0 = X := if_pos rfl
theorem forSub_succ (X : sProp 𝕄) (i : ℕ) : forSub X (i + 1) = iprop(emp) := if_neg (Nat.succ_ne_zero i)

instance forSub_storable (X : sProp 𝕄) [BI.Storable (upEmb : UEmb _ 𝕄) X] (i : ℕ) : BI.Storable (upEmb : UEmb _ 𝕄) (forSub X i) := by
  unfold forSub; split <;> infer_instance

def P : (K (F := F)).Pay (nD := nD) (Val := Elt F) (Name := ℕ) (U := UU) where
  st := fun _ d _ => given m d
  dn := fun _ d _ => back m Good d
  go := fun _ d _ i => forSub (given m d) i.val
  td := fun _ d _ i => forSub (back m Good d) i.val
  x := fun _ _ => iprop(emp)

instance P_storable : (P (F := F) m Good).IsStorable where
  st _ d c := by unfold P; infer_instance
  dn _ d c := by unfold P; infer_instance
  go _ _ _ _ := by unfold P; infer_instance
  td _ _ _ _ := by unfold P; infer_instance

end Cert.Proof.KI

end
-- ==== Proof.TilePay.lean ====
/-
  What one trip of the sparse kernel's second loop stores, as pure functions of the accumulator's contents.

  The accumulator holds sixteen copies (one per lane, 576 entries apart) of a 24 x 24 table. Trip `k` adds the
  sixteen copies' row `k`: first the sixteen entries from column 0 (`pay0`: the copy of lane 0 read at
  `24 k`, plus the fifteen others at `576 l + 24 k`), stored at `128 k` of the result; then the sixteen
  entries from column 8 (`pay8`), stored at `128 k + 8`. `redStep` is the result buffer after the trip: those
  two stores, the later one first.
-/
import proofs.«207914_g72782515798130_cont_9to1c4b_353_41_alg».proof.Proof.Gen.KernelIdeal.Skeleton

noncomputable section

namespace Cert.Proof.KI

open Cert.KernelIdeal Cert.KernelIdeal.Gen Idealize.ShloMosaic

variable {F : FTy → Type} [FloatOps F]

/-- The value of the first store of trip `k`: the sixteen lanes' entries `24 k .. 24 k + 15`, added up. -/
def pay0 (L : grid0.Coords) (k0_h1 : k0_cond1 L = 1#1) (k : Fin k0_t2_loop.trips) (f : S9216.Idx → Elt F .f32) :
    FVec F S16 .f32 :=
  k0_pay5
    (k0_pay4
      (k0_pay3
      ((Memref.whole cc0_scratch1 : Memref sig .scVector .vmem S9216 .f32).view.readAt (Elt F) (Rect.unit (s := S9216) (k0_off3 k 0#32) S16.size (k0_off3_inb L k k0_h1 0)).toLoadRect f)
      ((Memref.whole cc0_scratch1 : Memref sig .scVector .vmem S9216 .f32).view.readAt (Elt F) (Rect.unit (s := S9216) (k0_off4 k 576#32 0#32) S16.size (k0_off4_inb L k k0_h1 0 0)).toLoadRect f)
      ((Memref.whole cc0_scratch1 : Memref sig .scVector .vmem S9216 .f32).view.readAt (Elt F) (Rect.unit (s := S9216) (k0_off4 k 1152#32 0#32) S16.size (k0_off4_inb L k k0_h1 1 0)).toLoadRect f)
      ((Memref.whole cc0_scratch1 : Memref sig .scVector .vmem S9216 .f32).view.readAt (Elt F) (Rect.unit (s := S9216) (k0_off4 k 1728#32 0#32) S16.size (k0_off4_inb L k k0_h1 2 0)).toLoadRect f)
      ((Memref.whole cc0_scratch1 : Memref sig .scVector .vmem S9216 .f32).view.readAt (Elt F) (Rect.unit (s := S9216) (k0_off4 k 2304#32 0#32) S16.size (k0_off4_inb L k k0_h1 3 0)).toLoadRect f)
      ((Memref.whole cc0_scratch1 : Memref sig .scVector .vmem S9216 .f32).view.readAt (Elt F) (Rect.unit (s := S9216) (k0_off4 k 2880#32 0#32) S16.size (k0_off4_inb L k k0_h1 4 0)).toLoadRect f))
      ((Memref.whole cc0_scratch1 : Memref sig .scVector .vmem S9216 .f32).view.readAt (Elt F) (Rect.unit (s := S9216) (k0_off4 k 3456#32 0#32) S16.size (k0_off4_inb L k k0_h1 5 0)).toLoadRect f)
      ((Memref.whole cc0_scratch1 : Memref sig .scVector .vmem S9216 .f32).view.readAt (Elt F) (Rect.unit (s := S9216) (k0_off4 k 4032#32 0#32) S16.size (k0_off4_inb L k k0_h1 6 0)).toLoadRect f)
      ((Memref.whole cc0_scratch1 : Memref sig .scVector .vmem S9216 .f32).view.readAt (Elt F) (Rect.unit (s := S9216) (k0_off4 k 4608#32 0#32) S16.size (k0_off4_inb L k k0_h1 7 0)).toLoadRect f)
      ((Memref.whole cc0_scratch1 : Memref sig .scVector .vmem S9216 .f32).view.readAt (Elt F) (Rect.unit (s := S9216) (k0_off4 k 5184#32 0#32) S16.size (k0_off4_inb L k k0_h1 8 0)).toLoadRect f)
      ((Memref.whole cc0_scratch1 : Memref sig .scVector .vmem S9216 .f32).view.readAt (Elt F) (Rect.unit (s := S9216) (k0_off4 k 5760#32 0#32) S16.size (k0_off4_inb L k k0_h1 9 0)).toLoadRect f)
      ((Memref.whole cc0_scratch1 : Memref sig .scVector .vmem S9216 .f32).view.readAt (Elt F) (Rect.unit (s := S9216) (k0_off4 k 6336#32 0#32) S16.size (k0_off4_inb L k k0_h1 10 0)).toLoadRect f)
      ((Memref.whole cc0_scratch1 : Memref sig .scVector .vmem S9216 .f32).view.readAt (Elt F) (Rect.unit (s := S9216) (k0_off4 k 6912#32 0#32) S16.size (k0_off4_inb L k k0_h1 11 0)).toLoadRect f))
      ((Memref.whole cc0_scratch1 : Memref sig .scVector .vmem S9216 .f32).view.readAt (Elt F) (Rect.unit (s := S9216) (k0_off4 k 7488#32 0#32) S16.size (k0_off4_inb L k k0_h1 12 0)).toLoadRect f)
      ((Memref.whole cc0_scratch1 : Memref sig .scVector .vmem S9216 .f32).view.readAt (Elt F) (Rect.unit (s := S9216) (k0_off4 k 8064#32 0#32) S16.size (k0_off4_inb L k k0_h1 13 0)).toLoadRect f)
      ((Memref.whole cc0_scratch1 : Memref sig .scVector .vmem S9216 .f32).view.readAt (Elt F) (Rect.unit (s := S9216) (k0_off4 k 8640#32 0#32) S16.size (k0_off4_inb L k k0_h1 14 0)).toLoadRect f)

/-- The value of the second store of trip `k`: the sixteen lanes' entries `24 k + 8 .. 24 k + 23`, added up. -/
def pay8 (L : grid0.Coords) (k0_h1 : k0_cond1 L = 1#1) (k : Fin k0_t2_loop.trips) (f : S9216.Idx → Elt F .f32) :
    FVec F S16 .f32 :=
  k0_pay8
    (k0_pay7
      (k0_pay6
      ((Memref.whole cc0_scratch1 : Memref sig .scVector .vmem S9216 .f32).view.readAt (Elt F) (Rect.unit (s := S9216) (k0_off3 k 8#32) S16.size (k0_off3_inb L k k0_h1 1)).toLoadRect f)
      ((Memref.whole cc0_scratch1 : Memref sig .scVector .vmem S9216 .f32).view.readAt (Elt F) (Rect.unit (s := S9216) (k0_off4 k 576#32 8#32) S16.size (k0_off4_inb L k k0_h1 0 1)).toLoadRect f)
      ((Memref.whole cc0_scratch1 : Memref sig .scVector .vmem S9216 .f32).view.readAt (Elt F) (Rect.unit (s := S9216) (k0_off4 k 1152#32 8#32) S16.size (k0_off4_inb L k k0_h1 1 1)).toLoadRect f))
      ((Memref.whole cc0_scratch1 : Memref sig .scVector .vmem S9216 .f32).view.readAt (Elt F) (Rect.unit (s := S9216) (k0_off4 k 1728#32 8#32) S16.size (k0_off4_inb L k k0_h1 2 1)).toLoadRect f)
      ((Memref.whole cc0_scratch1 : Memref sig .scVector .vmem S9216 .f32).view.readAt (Elt F) (Rect.unit (s := S9216) (k0_off4 k 2304#32 8#32) S16.size (k0_off4_inb L k k0_h1 3 1)).toLoadRect f)
      ((Memref.whole cc0_scratch1 : Memref sig .scVector .vmem S9216 .f32).view.readAt (Elt F) (Rect.unit (s := S9216) (k0_off4 k 2880#32 8#32) S16.size (k0_off4_inb L k k0_h1 4 1)).toLoadRect f)
      ((Memref.whole cc0_scratch1 : Memref sig .scVector .vmem S9216 .f32).view.readAt (Elt F) (Rect.unit (s := S9216) (k0_off4 k 3456#32 8#32) S16.size (k0_off4_inb L k k0_h1 5 1)).toLoadRect f)
      ((Memref.whole cc0_scratch1 : Memref sig .scVector .vmem S9216 .f32).view.readAt (Elt F) (Rect.unit (s := S9216) (k0_off4 k 4032#32 8#32) S16.size (k0_off4_inb L k k0_h1 6 1)).toLoadRect f)
      ((Memref.whole cc0_scratch1 : Memref sig .scVector .vmem S9216 .f32).view.readAt (Elt F) (Rect.unit (s := S9216) (k0_off4 k 4608#32 8#32) S16.size (k0_off4_inb L k k0_h1 7 1)).toLoadRect f)
      ((Memref.whole cc0_scratch1 : Memref sig .scVector .vmem S9216 .f32).view.readAt (Elt F) (Rect.unit (s := S9216) (k0_off4 k 5184#32 8#32) S16.size (k0_off4_inb L k k0_h1 8 1)).toLoadRect f))
      ((Memref.whole cc0_scratch1 : Memref sig .scVector .vmem S9216 .f32).view.readAt (Elt F) (Rect.unit (s := S9216) (k0_off4 k 5760#32 8#32) S16.size (k0_off4_inb L k k0_h1 9 1)).toLoadRect f)
      ((Memref.whole cc0_scratch1 : Memref sig .scVector .vmem S9216 .f32).view.readAt (Elt F) (Rect.unit (s := S9216) (k0_off4 k 6336#32 8#32) S16.size (k0_off4_inb L k k0_h1 10 1)).toLoadRect f)
      ((Memref.whole cc0_scratch1 : Memref sig .scVector .vmem S9216 .f32).view.readAt (Elt F) (Rect.unit (s := S9216) (k0_off4 k 6912#32 8#32) S16.size (k0_off4_inb L k k0_h1 11 1)).toLoadRect f)
      ((Memref.whole cc0_scratch1 : Memref sig .scVector .vmem S9216 .f32).view.readAt (Elt F) (Rect.unit (s := S9216) (k0_off4 k 7488#32 8#32) S16.size (k0_off4_inb L k k0_h1 12 1)).toLoadRect f)
      ((Memref.whole cc0_scratch1 : Memref sig .scVector .vmem S9216 .f32).view.readAt (Elt F) (Rect.unit (s := S9216) (k0_off4 k 8064#32 8#32) S16.size (k0_off4_inb L k k0_h1 13 1)).toLoadRect f)
      ((Memref.whole cc0_scratch1 : Memref sig .scVector .vmem S9216 .f32).view.readAt (Elt F) (Rect.unit (s := S9216) (k0_off4 k 8640#32 8#32) S16.size (k0_off4_inb L k k0_h1 14 1)).toLoadRect f)

/-- The result buffer after trip `k`: `pay0` written at `128 k`, then `pay8` at `128 k + 8`. -/
def redStep (L : grid0.Coords) (k0_h1 : k0_cond1 L = 1#1) (k : Fin k0_t2_loop.trips) (f : S9216.Idx → Elt F .f32)
    (g : S3072.Idx → Elt F .f32) : S3072.Idx → Elt F .f32 :=
  (Memref.whole cc0_scratch2 : Memref sig .scVector .vmem S3072 .f32).view.writes (Elt F) g
    [⟨Rect.unit (s := S3072) (k0_off5 k 8#32) S16.size (k0_off5_inb L k k0_h1 1), pay8 L k0_h1 k f⟩,
     ⟨Rect.unit (s := S3072) (k0_off5 k 0#32) S16.size (k0_off5_inb L k k0_h1 0), pay0 L k0_h1 k f⟩]

end Cert.Proof.KI

end
-- ==== Proof.TileBody.lean ====
/-
  The sparse kernel on one vector subcore. Subcore 0 fetches the edge array and an array of zeros into its own
  memory (each fetch on a semaphore of its own, waited for before anything is read), walks the 512 edges sixteen at
  a time adding one to the accumulator at position lane · 576 + destination · 24 + source (sixteen distinct
  positions per step: each lane has a 576-element plane of its own), then for each of the 24 destinations sums the
  sixteen planes' rows into the result scratch and copies that scratch out. The other fifteen subcores skip the
  branch. What the accumulator and the result hold is carried as a parameter (an invariant of each loop's trips and a
  property of the result) so that one text serves every float instance.
-/
import proofs.«207914_g72782515798130_cont_9to1c4b_353_41_alg».proof.Proof.Pay
import proofs.«207914_g72782515798130_cont_9to1c4b_353_41_alg».proof.Proof.TilePay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "eW" => (Memref.whole Cert.KernelIdeal.main_arg1_scv : Memref Cert.KernelIdeal.sig Kind.scVector Space.hbm Cert.KernelIdeal.S2x512 EltTy.i32)
local notation "zW" => (Memref.whole Cert.KernelIdeal.main_v0_scv : Memref Cert.KernelIdeal.sig Kind.scVector Space.hbm Cert.KernelIdeal.S9216 EltTy.f32)
local notation "cW" => (Memref.whole Cert.KernelIdeal.main_v1_scv : Memref Cert.KernelIdeal.sig Kind.scVector Space.hbm Cert.KernelIdeal.S3072 EltTy.f32)
local notation "sE" => (Memref.whole Cert.KernelIdeal.cc0_scratch0 : Memref Cert.KernelIdeal.sig Kind.scVector Space.vmem Cert.KernelIdeal.S2x512 EltTy.i32)
local notation "sA" => (Memref.whole Cert.KernelIdeal.cc0_scratch1 : Memref Cert.KernelIdeal.sig Kind.scVector Space.vmem Cert.KernelIdeal.S9216 EltTy.f32)
local notation "sR" => (Memref.whole Cert.KernelIdeal.cc0_scratch2 : Memref Cert.KernelIdeal.sig Kind.scVector Space.vmem Cert.KernelIdeal.S3072 EltTy.f32)

variable [FloatOps F]
variable (Good : (d : Dev nD) → Buf (Elt F) (cLoc d) → Prop)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev c1cell (d : Dev nD) (L : grid0.Coords) : GSem nD τ sig := (thr d L, .dma cc0_scratch3.sem)
abbrev c2cell (d : Dev nD) (L : grid0.Coords) : GSem nD τ sig := (thr d L, .dma cc0_scratch4.sem)
abbrev c3cell (d : Dev nD) (L : grid0.Coords) : GSem nD τ sig := (thr d L, .dma cc0_scoped0.sem)

omit [FloatOps F] in
theorem pts_e (f : Buf (Elt F) (eLoc d)) : ((eW).view.loc (thr d L) ↦{fullShare} f : sProp 𝕄) = eLoc d ↦{fullShare} f := by
  simp only [Memref.view_whole, View.set_whole]
omit [FloatOps F] in
theorem pts_z (f : Buf (Elt F) (zLoc d)) : ((zW).view.loc (thr d L) ↦{fullShare} f : sProp 𝕄) = zLoc d ↦{fullShare} f := by
  simp only [Memref.view_whole, View.set_whole]
omit [FloatOps F] in
theorem pts_c (f : Buf (Elt F) (cLoc d)) : ((cW).view.loc (thr d L) ↦{fullShare} f : sProp 𝕄) = cLoc d ↦{fullShare} f := by
  simp only [Memref.view_whole, View.set_whole]

omit [FloatOps F] in
theorem ownSems0_V :
    (ownSems0 (thr d L) : sProp 𝕄)
      = iprop(semVal (c1cell d L) 0 ∗ semVal (c2cell d L) 0 ∗ semVal (c3cell d L) 0
          ∗ bigSep ((((ownCells (thr d L)).erase (c1cell d L)).erase (c2cell d L)).erase (c3cell d L)) fun g => semVal g 0) := by
  unfold SparseCore.Cfg.ownSems0
  rw [SparseCore.bigSep_erase' ((mem_ownCells (g := c1cell d L)).mpr ⟨rfl, by
      show (SemLoc.dma cc0_scratch3.sem : SemLoc sig).isScoped .scVector = true; decide⟩),
    SparseCore.bigSep_erase' (Finset.mem_erase.mpr ⟨by simp [c1cell, c2cell]; decide, (mem_ownCells (g := c2cell d L)).mpr ⟨rfl, by
      show (SemLoc.dma cc0_scratch4.sem : SemLoc sig).isScoped .scVector = true; decide⟩⟩),
    SparseCore.bigSep_erase' (Finset.mem_erase.mpr ⟨by simp [c2cell, c3cell]; decide, Finset.mem_erase.mpr ⟨by simp [c1cell, c3cell]; decide,
      (mem_ownCells (g := c3cell d L)).mpr ⟨rfl, by show (SemLoc.dma cc0_scoped0.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_sE (f : Buf (Elt F) ((thr d L).loc cc0_scratch0)) : ((sE).view.loc (thr d L) ↦{fullShare} f : sProp 𝕄) = (thr d L).loc cc0_scratch0 ↦{fullShare} f := rfl
omit [FloatOps F] in
theorem pts_sA (f : Buf (Elt F) ((thr d L).loc cc0_scratch1)) : ((sA).view.loc (thr d L) ↦{fullShare} f : sProp 𝕄) = (thr d L).loc cc0_scratch1 ↦{fullShare} f := rfl
omit [FloatOps F] in
theorem pts_sR (f : Buf (Elt F) ((thr d L).loc cc0_scratch2)) : ((sR).view.loc (thr d L) ↦{fullShare} f : sProp 𝕄) = (thr d L).loc cc0_scratch2 ↦{fullShare} f := rfl
omit [FloatOps F] in
/-- The accumulator held through its whole-array access is the accumulator held outright. -/
theorem pts_sA_whole (f : Buf (Elt F) ((thr d L).loc cc0_scratch1)) :
    ((((sA).access (.whole S9216)).loc (thr d L)) ↦[((sA).access (.whole S9216)).set]{fullShare} f : sProp 𝕄) = (thr d L).loc cc0_scratch1 ↦{fullShare} f := by
  rw [show ((sA).access (.whole S9216)).set = Finset.univ from Memref.set_access_whole (cc0_scratch1 : Ref sig .scVector)]

/-- The edge words as the fetch reads them, and the zeros as the second fetch reads them. -/
def E0 (d : Dev nD) : S2x512.Idx → Elt F .i32 := ReadAs.same.apply (View.read (Elt F) (eW).view (m (eLoc d)))
def Z0 (d : Dev nD) : S9216.Idx → Elt F .f32 := ReadAs.same.apply (View.read (Elt F) (zW).view (Z (F := F) d))

/-- The sixteen accumulator positions trip `k` of the first loop adds one to: lane · 576 + destination · 24 + source,
    of the sixteen edges 16 k … 16 k + 15. -/
def idxv (d : Dev nD) (L : grid0.Coords) (k0_h1 : k0_cond1 L = 1#1) (k : Fin k0_t1_loop.trips) : IVec S16 32 :=
  k0_pay2 (F := F)
    (View.readAt (Elt F) (sE).view (Rect.unit (s := S2x512) (k0_off1 k) S1x16.size (k0_off1_inb L k k0_h1)).toLoadRect (E0 m d))
    (View.readAt (Elt F) (sE).view (Rect.unit (s := S2x512) (k0_off2 k) S1x16.size (k0_off2_inb L k k0_h1)).toLoadRect (E0 m d))

/-- One trip of the first loop on the accumulator's contents. -/
def accStep (d : Dev nD) (L : grid0.Coords) (k0_h1 : k0_cond1 L = 1#1) (k : Fin k0_t1_loop.trips)
    (h : ∀ a x, ((![idxv m d L k0_h1 k] : Fin 1 → IVec S16 32) a x).toNat < S9216.size a)
    (f : Buf (Elt F) ((thr d L).loc cc0_scratch1)) : Buf (Elt F) ((thr d L).loc cc0_scratch1) :=
  ((sA).access (.whole S9216)).write (Elt F) f
    (storeIdx (((sA).access (.whole S9216)).read (Elt F) f) ![idxv m d L k0_h1 k] (k0_pay1 (F := F)) (fun _ => 1#1) true h) Finset.univ

/-- What the task's proof asks beyond the program text. -/
structure TileInv where
  A : (d : Dev nD) → (L : grid0.Coords) → ℕ → Buf (Elt F) ((thr d L).loc cc0_scratch1) → Prop
  chk : ∀ d L k0_h1 k, k0_chk1 L (idxv m d L k0_h1 k)
  a0 : ∀ d L, A d L 0 (Z0 d)
  astep : ∀ d L k0_h1 k h f, A d L k.val f → A d L (k.val + 1) (accStep m d L k0_h1 k h f)
  R : (d : Dev nD) → (L : grid0.Coords) → ℕ → Buf (Elt F) ((thr d L).loc cc0_scratch1) → Buf (Elt F) ((thr d L).loc cc0_scratch2) → Prop
  r0 : ∀ d L f g, R d L 0 f g
  rstep : ∀ d L k0_h1 (k : Fin k0_t2_loop.trips) f g, A d L k0_t1_loop.trips f → R d L k.val f g → R d L (k.val + 1) f (redStep L k0_h1 k f g)
  good : ∀ d L f g (fc : Buf (Elt F) (cLoc d)), A d L k0_t1_loop.trips f → R d L k0_t2_loop.trips f g →
    Good d (View.write (Elt F) (cW).view fc (ReadAs.same.apply (View.read (Elt F) (sR).view g)) Finset.univ)

theorem tile_work (hI : TileInv m Good) (hF : (K (F := F)).Facts) (k0_h1 : k0_cond1 L = 1#1) (O : CellTallies nD τ sig (HIx 1)) (W : Waits sig (HIx 1)) (hO : ∀ g, O g none = 0) :
    iprop(levAts (K (F := F)).L (K (F := F)).lev ∗ emp ∗ given m d
        ∗ scopedBufs (thr d L) ∗ scopedSems0 (thr d L) ∗ owes (thr d L) O W)
      ⊢ wp frame (wpE (defs₀ (F := F)) 𝒱₀ (thr d L) none) Set.univ
          (cc0_k L eW (Memref.isWhole_whole _) zW (Memref.isWhole_whole _) cW (Memref.isWhole_whole _)
            sE (Memref.isWhole_whole _) sA (Memref.isWhole_whole _) sR (Memref.isWhole_whole _) cc0_scratch3 cc0_scratch4 cc0_scoped0)
          fun _ => iprop(back m Good d ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨He, Hz, %fc, Hc⟩, ⟨⟨%fs, Hs⟩, ⟨%fa, Ha⟩, ⟨%fr, Hr⟩, Hbufs⟩, ⟨Hsem1, Hsem2, Hsem3, Hsems⟩, HO⟩
  ihave Hmw := ((K (F := F)).mayWaits_none (thr := thr d L) hO) $$ Hlv
  ihave He' := (Entails.of_eq (pts_e (F := F) d L _).symm) $$ He
  ihave Hz' := (Entails.of_eq (pts_z (F := F) d L _).symm) $$ Hz
  ihave Hc' := (Entails.of_eq (pts_c (F := F) d L _).symm) $$ Hc
  ihave Hs' := (Entails.of_eq (pts_sE (F := F) d L _).symm) $$ Hs
  ihave Ha' := (Entails.of_eq (pts_sA (F := F) d L _).symm) $$ Ha
  ihave Hr' := (Entails.of_eq (pts_sR (F := F) d L _).symm) $$ Hr
  sl_exec
  have hE : View.write (Elt F) (sE).view fs (tile_work.sl.dma0 m d) Finset.univ = E0 m d := View.write_whole_univ _ _ _
  have hZ : View.write (Elt F) (sA).view fa (tile_work.sl.dma0_1 (F := F) d) Finset.univ = Z0 (F := F) d := View.write_whole_univ _ _ _
  ihave Hs'' := (Entails.of_eq (congrArg (fun g => ((sE).view.loc (thr d L) ↦{fullShare} g : sProp 𝕄)) hE)) $$ Hs'
  ihave Ha'' := (Entails.of_eq (congrArg (fun g => ((sA).view.loc (thr d L) ↦{fullShare} g : sProp 𝕄)) hZ)) $$ Ha'
  sl_for (fun (k : Nat) (_ : PUnit) => iprop(
      ((sE).view.loc (thr d L) ↦{fullShare} E0 m d)
      ∗ ∃ f, ⌜hI.A d L k f⌝ ∗ (sA).view.loc (thr d L) ↦{fullShare} f)) $$ [Hs'' Ha'']
  case region =>
    intro k _
    iintro ⟨Hs, %f, %hA, Ha⟩
    sl_exec (disch := exact hI.chk d L k0_h1 k)
    ihave Ha2 := (Entails.of_eq ((pts_sA (F := F) d L _).trans (pts_sA_whole (F := F) d L _).symm)) $$ Ha
    iapply (SparseCore.wp_vectorStoreIdx 𝒱₀ (thr d L) none Set.univ (base := sA)) $$ Ha2; iintro Ha2
    ihave Ha3 := (Entails.of_eq ((pts_sA_whole (F := F) d L _).trans (pts_sA (F := F) d L _).symm)) $$ Ha2
    sl_step
    isplitl [Hs]; · iexact Hs
    iexists (accStep m d L k0_h1 k (k0_idx1_inb L _ (hI.chk d L k0_h1 k) k0_h1) f); isplitr
    · ipureintro; exact hI.astep d L k0_h1 k _ f hA
    · iexact Ha3
  · isplitl [Hs'']; · iexact Hs''
    iexists (Z0 (F := F) d); isplitr
    · ipureintro; exact hI.a0 d L
    · iexact Ha''
  iintro %_ HI
  icases HI with ⟨Hs, %f32, %hA32, Ha⟩

  sl_for (fun (k : Nat) (_ : PUnit) => iprop(
      ((sA).view.loc (thr d L) ↦{fullShare} f32)
      ∗ ∃ g, ⌜hI.R d L k f32 g⌝ ∗ (sR).view.loc (thr d L) ↦{fullShare} g)) $$ [Ha Hr']
  case region =>
    intro k _
    iintro ⟨Ha, %g, %hR, Hr⟩
    sl_exec
    sl_step
    isplitl [Ha]; · iexact Ha
    iexists (redStep L k0_h1 k f32 g); isplitr
    · ipureintro; exact hI.rstep d L k0_h1 k f32 g hA32 hR
    · iexact Hr
  · isplitl [Ha]; · iexact Ha
    iexists fr; isplitr
    · ipureintro; exact hI.r0 d L f32 fr
    · iexact Hr'
  iintro %_ HI
  icases HI with ⟨Ha, %g24, %hR24, Hr⟩
  sl_exec
  sl_step
  isplitl [He' Hz' Hc']
  · isplitl [He']; · iapply (Entails.of_eq (pts_e (F := F) d L _)); iexact He'
    isplitl [Hz']; · iapply (Entails.of_eq (pts_z (F := F) d L _)); iexact Hz'
    iexists (View.write (Elt F) (cW).view fc (tile_work.sl.dma0_2 (F := F) d L g24) Finset.univ); isplitr
    · ipureintro; exact hI.good d L f32 g24 fc hA32 hR24
    · iapply (Entails.of_eq (pts_c (F := F) d L _)); iexact Hc'
  isplitl [Hs Ha Hr Hbufs]
  · isplitl [Hs]; · iexists _; iexact Hs
    isplitl [Ha]; · iexists _; iexact Ha
    isplitl [Hr]; · iexists _; iexact Hr
    iexact Hbufs
  isplitl [Hsem1 Hsem2 Hsem3 Hsems]
  · isplitl [Hsem1]; · iexact Hsem1
    isplitl [Hsem2]; · iexact Hsem2
    isplitl [Hsem3]; · iexact Hsem3
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

/-- Subcores 1 … 15 skip the branch and end at once. -/
theorem tile_idle (k0_h1 : ¬ k0_cond1 L = 1#1) (O : CellTallies nD τ sig (HIx 1)) (W : Waits sig (HIx 1)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc0_k L eW (Memref.isWhole_whole _) zW (Memref.isWhole_whole _) cW (Memref.isWhole_whole _)
            sE (Memref.isWhole_whole _) sA (Memref.isWhole_whole _) sR (Memref.isWhole_whole _) cc0_scratch3 cc0_scratch4 cc0_scoped0)
          fun _ => iprop(emp ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligation for the sparse kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          eW (Memref.isWhole_whole _) zW (Memref.isWhole_whole _) cW (Memref.isWhole_whole _)
          sE (Memref.isWhole_whole _) sA (Memref.isWhole_whole _) sR (Memref.isWhole_whole _) cc0_scratch3 cc0_scratch4 cc0_scoped0) ⟨⟩ c s := rfl

/-- Only subcore 0 takes the branch. -/
theorem cond_iff (L : grid0.Coords) : k0_cond1 L = 1#1 ↔ (L 1).val = 0 := by
  have key : ∀ x : Fin 16, (Scalar.cmpi .ne (Scalar.extui (Scalar.cmpi .eq (BitVec.ofNat 32 x.val) 0#32) : BitVec 32) 0#32 = 1#1) ↔ x.val = 0 := by decide
  exact key (L 1)

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hI : TileInv m Good) : (K (F := F)).TileObl (D (F := F)) 𝒱 (P m Good) v₀ 0 := by
  intro d c i O W hO _ _
  simp only [show (P m Good).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ forSub (given m d) i.val ∗ _) ⊢ wp _ _ _ _ (fun _ => iprop(forSub (back m Good d) i.val ∗ _))
  by_cases hi : i.val = 0
  · have hcond : k0_cond1 (coordsV ⟨_, hc.1⟩ ⟨_, hc.2⟩) = 1#1 := (cond_iff _).mpr hi
    rw [hi, forSub_zero, forSub_zero]
    exact (tile_work m Good d (coordsV ⟨_, hc.1⟩ ⟨_, hc.2⟩) hI hF hcond O W hO).trans (wp_mono frame _ _ fun _ => obl_post)
  · have hcond : ¬ k0_cond1 (coordsV ⟨_, hc.1⟩ ⟨_, hc.2⟩) = 1#1 := fun h => hi ((cond_iff _).mp h)
    obtain ⟨j, hj⟩ : ∃ j, i.val = j + 1 := ⟨i.val - 1, by omega⟩
    rw [hj, forSub_succ, forSub_succ]
    exact (tile_idle d (coordsV ⟨_, hc.1⟩ ⟨_, hc.2⟩) hcond O W).trans (wp_mono frame _ _ fun _ => obl_post)

/-! ## How the call's operands go to the subcores: all to subcore 0 -/

omit [FloatOps F] in
theorem bigSep_forSub (X : sProp 𝕄) :
    (bigSep Finset.univ fun i : Fin ((K (F := F)).nSub 0) => forSub X i.val) = X := by
  show (bigSep (Finset.univ : Finset (Fin 16)) fun i => if i.val = 0 then X else (BI.emp : sProp 𝕄)) = X
  rw [← bigSep_filter, show (Finset.univ.filter fun i : Fin 16 => i.val = 0) = {0} from by decide, bigSep_singleton]

theorem vecSplit : (K (F := F)).VecSplit' (P m Good) 0 := by
  intro d c
  show given m d ⊢ |={Set.univ}=> iprop(
      (bigSep Finset.univ fun i : Fin ((K (F := F)).nSub 0) => forSub (given m d) i.val)
      ∗ ((bigSep Finset.univ fun i : Fin ((K (F := F)).nSub 0) => forSub (back m Good d) i.val) -∗ back m Good d))
  rw [bigSep_forSub (F := F), bigSep_forSub (F := F)]
  iintro H; imodintro
  isplitl [H]; · iexact H
  iintro H; iexact H

end Cert.Proof.KI

end
-- ==== Proof.Iface.lean ====
/-
  Two definitions shared by the parts of this proof.

  * `edgeCount ei d s`: the number of edges (columns e < 512 of the 2 × 512 edge array, row 0 the source word, row 1
    the destination word) that go from node `s` to node `d`. It is what the sparse kernel leaves at position
    (d, s) of its 24 × 128 result, and the adjacency count the dense stage works from.
  * `kerOut`: the value the dense stage stores, as one pure function of the twenty blocks it loads (the count
    block first, then the node features, the seven layers' weights and biases, the two output layers).
-/
import proofs.«207914_g72782515798130_cont_9to1c4b_353_41_alg».proof.Proof.Gen.KernelIdeal.Skeleton
import Idealize.ShloMosaic.Lib.ValueIdx

noncomputable section

namespace Cert.Proof.Iface

open Idealize.ShloMosaic Idealize.ShloMosaic.ValueIdx
open Cert.KernelIdeal Cert.KernelIdeal.Gen

/-- How many edges go from node `s` to node `d`. -/
def edgeCount (ei : IVec S2x512 32) (d s : Fin 24) : ℕ :=
  (Finset.univ.filter fun e : Fin 512 => (ei (ix2 (1 : Fin 2) e)).toNat = d.val ∧ (ei (ix2 (0 : Fin 2) e)).toNat = s.val).card

variable {F : FTy → Type} [FloatOps F]

/-- The dense stage's stored value, from the twenty blocks it loads, in the order it loads them. -/
def kerOut (v0 : Vec F S24x128 .f32) (v16 : Vec F S24x128 .f32) (v17 : Vec F S128x4 .f32) (v24 : Vec F S4 .f32)
    (v30 : Vec F S4x4 .f32) (v37 : Vec F S4 .f32) (v43 : Vec F S4x8 .f32) (v50 : Vec F S8 .f32) (v56 : Vec F S8x8 .f32)
    (v63 : Vec F S8 .f32) (v69 : Vec F S8x16 .f32) (v76 : Vec F S16 .f32) (v82 : Vec F S16x16 .f32) (v89 : Vec F S16 .f32)
    (v95 : Vec F S16x32 .f32) (v102 : Vec F S32 .f32) (v109 : Vec F S768x128 .f32) (v116 : Vec F S128 .f32)
    (v119 : Vec F S128x2 .f32) (v121 : Vec F S2 .f32) : FVec F S1x2 .f32 :=
  k1_pay1
    (k1_pay7 (k1_pay3 v0) (k1_pay4 v0)
      (k1_pay6 (k1_pay3 v0) (k1_pay4 v0) (k1_pay5 v0 v16 v17 v24 v30 v37) (Scalar.ofBits .f32 0x00000000#32) v43 v50 v56 v63 v69 v76)
      v82 v89 v95 v102 v109 v116 v119)
    v121

end Cert.Proof.Iface

end
-- ==== Proof.DenseBody.lean ====
/-
  The dense stage's kernel body, run once on whole staging buffers: it loads its twenty operand blocks whole, loads the
  result block, and stores ONE value over the whole result block. What the result buffer holds afterwards is the
  canonical contents of that one covering store: the interface function `kerOut` of the twenty loaded blocks.
-/
import proofs.«207914_g72782515798130_cont_9to1c4b_353_41_alg».proof.Proof.Pay
import proofs.«207914_g72782515798130_cont_9to1c4b_353_41_alg».proof.Proof.Iface
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

/-! ## The whole-block rectangles the body loads and stores through -/

abbrev rW_S24x128 : Rect S24x128 := Rect.unit (s := S24x128) ![0, 0] S24x128.size inb_S24x128_S24x128_0_0
abbrev rW_S128x4 : Rect S128x4 := Rect.unit (s := S128x4) ![0, 0] S128x4.size inb_S128x4_S128x4_0_0
abbrev rW_S4 : Rect S4 := Rect.unit (s := S4) ![0] S4.size inb_S4_S4_0
abbrev rW_S4x4 : Rect S4x4 := Rect.unit (s := S4x4) ![0, 0] S4x4.size inb_S4x4_S4x4_0_0
abbrev rW_S4x8 : Rect S4x8 := Rect.unit (s := S4x8) ![0, 0] S4x8.size inb_S4x8_S4x8_0_0
abbrev rW_S8 : Rect S8 := Rect.unit (s := S8) ![0] S8.size inb_S8_S8_0
abbrev rW_S8x8 : Rect S8x8 := Rect.unit (s := S8x8) ![0, 0] S8x8.size inb_S8x8_S8x8_0_0
abbrev rW_S8x16 : Rect S8x16 := Rect.unit (s := S8x16) ![0, 0] S8x16.size inb_S8x16_S8x16_0_0
abbrev rW_S16 : Rect S16 := Rect.unit (s := S16) ![0] S16.size inb_S16_S16_0
abbrev rW_S16x16 : Rect S16x16 := Rect.unit (s := S16x16) ![0, 0] S16x16.size inb_S16x16_S16x16_0_0
abbrev rW_S16x32 : Rect S16x32 := Rect.unit (s := S16x32) ![0, 0] S16x32.size inb_S16x32_S16x32_0_0
abbrev rW_S32 : Rect S32 := Rect.unit (s := S32) ![0] S32.size inb_S32_S32_0
abbrev rW_S768x128 : Rect S768x128 := Rect.unit (s := S768x128) ![0, 0] S768x128.size inb_S768x128_S768x128_0_0
abbrev rW_S128 : Rect S128 := Rect.unit (s := S128) ![0] S128.size inb_S128_S128_0
abbrev rW_S128x2 : Rect S128x2 := Rect.unit (s := S128x2) ![0, 0] S128x2.size inb_S128x2_S128x2_0_0
abbrev rW_S2 : Rect S2 := Rect.unit (s := S2) ![0] S2.size inb_S2_S2_0
abbrev rW_S1x2 : Rect S1x2 := Rect.unit (s := S1x2) ![0, 0] S1x2.size inb_S1x2_S1x2_0_0

theorem hz2 : (![0, 0] : Fin 2 → Nat) = fun _ => 0 := funext fun a => by fin_cases a <;> rfl
theorem hz1 : (![0] : Fin 1 → Nat) = fun _ => 0 := funext fun a => by fin_cases a <;> rfl

/-! ## What the body leaves in the result buffer -/

/-- The result buffer after the body, from the twenty operand blocks: its one store as a piece. -/
def out20 (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) : Vec F S1x2 .f32 :=
  View.canon [⟨rW_S1x2, Cert.Proof.Iface.kerOut (View.ld x0 rW_S24x128) (View.ld x1 rW_S24x128) (View.ld x2 rW_S128x4) (View.ld x3 rW_S4) (View.ld x4 rW_S4x4) (View.ld x5 rW_S4) (View.ld x6 rW_S4x8) (View.ld x7 rW_S8) (View.ld x8 rW_S8x8) (View.ld x9 rW_S8) (View.ld x10 rW_S8x16) (View.ld x11 rW_S16) (View.ld x12 rW_S16x16) (View.ld x13 rW_S16) (View.ld x14 rW_S16x32) (View.ld x15 rW_S32) (View.ld x16 rW_S768x128) (View.ld x17 rW_S128) (View.ld x18 rW_S128x2) (View.ld x19 rW_S2)⟩]

/-- The one store covers the block. -/
theorem cover20 (p0 : Vec F S1x2 .f32) (y : S1x2.Idx) :
    ∃ pc ∈ ([⟨rW_S1x2, p0⟩] : List (View.Piece (Elt F) S1x2 .f32)), y ∈ pc.1.set :=
  View.cover_of_tiled [⟨rW_S1x2, p0⟩] S1x2.size (by rfl) y

/-- Loads and the store being of whole blocks, the result buffer holds the interface function of the operand blocks. -/
theorem out20_eq (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) :
    out20 x0 x1 x2 x3 x4 x5 x6 x7 x8 x9 x10 x11 x12 x13 x14 x15 x16 x17 x18 x19 = Cert.Proof.Iface.kerOut x0 x1 x2 x3 x4 x5 x6 x7 x8 x9 x10 x11 x12 x13 x14 x15 x16 x17 x18 x19 := by
  unfold out20
  rw [View.canon_unit_zero hz2]
  simp only [View.ld_unit_zero (S := S24x128) hz2, View.ld_unit_zero (S := S128x4) hz2, View.ld_unit_zero (S := S4) hz1, View.ld_unit_zero (S := S4x4) hz2, View.ld_unit_zero (S := S4x8) hz2, View.ld_unit_zero (S := S8) hz1, View.ld_unit_zero (S := S8x8) hz2, View.ld_unit_zero (S := S8x16) hz2, View.ld_unit_zero (S := S16) hz1, View.ld_unit_zero (S := S16x16) hz2, View.ld_unit_zero (S := S16x32) hz2, View.ld_unit_zero (S := S32) hz1, View.ld_unit_zero (S := S768x128) hz2, View.ld_unit_zero (S := S128) hz1, View.ld_unit_zero (S := S128x2) hz2, View.ld_unit_zero (S := S2) hz1]

/-! ## The body's triple -/

set_option maxHeartbeats 4000000 in
/-- The kernel body on whole staging memrefs, the operands' at read contents `x0 … x19` and the result's at anything,
    runs to the continuation holding the operands' as they were and the result's at `out20` of the operands'. -/
theorem sound_kernel (c : Dev nD) (E : Set ℕ)
    (a0 : Memref sig .tc .vmem S24x128 .f32) (h0 : a0.IsWhole)
    (a1 : Memref sig .tc .vmem S24x128 .f32) (h1 : a1.IsWhole)
    (a2 : Memref sig .tc .vmem S128x4 .f32) (h2 : a2.IsWhole)
    (a3 : Memref sig .tc .vmem S4 .f32) (h3 : a3.IsWhole)
    (a4 : Memref sig .tc .vmem S4x4 .f32) (h4 : a4.IsWhole)
    (a5 : Memref sig .tc .vmem S4 .f32) (h5 : a5.IsWhole)
    (a6 : Memref sig .tc .vmem S4x8 .f32) (h6 : a6.IsWhole)
    (a7 : Memref sig .tc .vmem S8 .f32) (h7 : a7.IsWhole)
    (a8 : Memref sig .tc .vmem S8x8 .f32) (h8 : a8.IsWhole)
    (a9 : Memref sig .tc .vmem S8 .f32) (h9 : a9.IsWhole)
    (a10 : Memref sig .tc .vmem S8x16 .f32) (h10 : a10.IsWhole)
    (a11 : Memref sig .tc .vmem S16 .f32) (h11 : a11.IsWhole)
    (a12 : Memref sig .tc .vmem S16x16 .f32) (h12 : a12.IsWhole)
    (a13 : Memref sig .tc .vmem S16 .f32) (h13 : a13.IsWhole)
    (a14 : Memref sig .tc .vmem S16x32 .f32) (h14 : a14.IsWhole)
    (a15 : Memref sig .tc .vmem S32 .f32) (h15 : a15.IsWhole)
    (a16 : Memref sig .tc .vmem S768x128 .f32) (h16 : a16.IsWhole)
    (a17 : Memref sig .tc .vmem S128 .f32) (h17 : a17.IsWhole)
    (a18 : Memref sig .tc .vmem S128x2 .f32) (h18 : a18.IsWhole)
    (a19 : Memref sig .tc .vmem S2 .f32) (h19 : a19.IsWhole)
    (a20 : Memref sig .tc .vmem S1x2 .f32) (h20 : a20.IsWhole)
    (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) (Kont : PUnit → sProp 𝕄) :
    iprop(owns (SparseCore.T c) a0 fullShare x0 ∗ owns (SparseCore.T c) a1 fullShare x1 ∗ owns (SparseCore.T c) a2 fullShare x2 ∗ owns (SparseCore.T c) a3 fullShare x3 ∗ owns (SparseCore.T c) a4 fullShare x4 ∗ owns (SparseCore.T c) a5 fullShare x5 ∗ owns (SparseCore.T c) a6 fullShare x6 ∗ owns (SparseCore.T c) a7 fullShare x7 ∗ owns (SparseCore.T c) a8 fullShare x8 ∗ owns (SparseCore.T c) a9 fullShare x9 ∗ owns (SparseCore.T c) a10 fullShare x10 ∗ owns (SparseCore.T c) a11 fullShare x11 ∗ owns (SparseCore.T c) a12 fullShare x12 ∗ owns (SparseCore.T c) a13 fullShare x13 ∗ owns (SparseCore.T c) a14 fullShare x14 ∗ owns (SparseCore.T c) a15 fullShare x15 ∗ owns (SparseCore.T c) a16 fullShare x16 ∗ owns (SparseCore.T c) a17 fullShare x17 ∗ owns (SparseCore.T c) a18 fullShare x18 ∗ owns (SparseCore.T c) a19 fullShare x19
        ∗ (∃ d, owns (SparseCore.T c) a20 fullShare d)
        ∗ (iprop(owns (SparseCore.T c) a0 fullShare x0 ∗ owns (SparseCore.T c) a1 fullShare x1 ∗ owns (SparseCore.T c) a2 fullShare x2 ∗ owns (SparseCore.T c) a3 fullShare x3 ∗ owns (SparseCore.T c) a4 fullShare x4 ∗ owns (SparseCore.T c) a5 fullShare x5 ∗ owns (SparseCore.T c) a6 fullShare x6 ∗ owns (SparseCore.T c) a7 fullShare x7 ∗ owns (SparseCore.T c) a8 fullShare x8 ∗ owns (SparseCore.T c) a9 fullShare x9 ∗ owns (SparseCore.T c) a10 fullShare x10 ∗ owns (SparseCore.T c) a11 fullShare x11 ∗ owns (SparseCore.T c) a12 fullShare x12 ∗ owns (SparseCore.T c) a13 fullShare x13 ∗ owns (SparseCore.T c) a14 fullShare x14 ∗ owns (SparseCore.T c) a15 fullShare x15 ∗ owns (SparseCore.T c) a16 fullShare x16 ∗ owns (SparseCore.T c) a17 fullShare x17 ∗ owns (SparseCore.T c) a18 fullShare x18 ∗ owns (SparseCore.T c) a19 fullShare x19
            ∗ owns (SparseCore.T c) a20 fullShare (out20 x0 x1 x2 x3 x4 x5 x6 x7 x8 x9 x10 x11 x12 x13 x14 x15 x16 x17 x18 x19)) -∗ Kont ⟨⟩))
      ⊢ wp frame (wpE (defs₀ (F := F)) Variants.none (SparseCore.T c) none) E
          (cc1__dense_body a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20) Kont := by
  simp only [cc1__dense_body_eq_skeleton]; unfold cc1__dense_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover20 _)

end Cert.Proof.KI

end
-- ==== Proof.Dense.lean ====
/-
  The dense stage as ONE kernel region of @main. Its proof data: every window's array as the region finds it (the
  reshaped edge counts in the first, the launch contents in the others), every operand block kept in place, the
  result block left at the interface function of the twenty operand blocks; nothing owed, nothing carried between
  points (the grid has one point). The body obligation is the body's triple; the region's entry and exit hand the
  arrays over unchanged in spelling, so the region's step is the library's region rule at these data.
-/
import proofs.«207914_g72782515798130_cont_9to1c4b_353_41_alg».proof.Proof.DenseBody

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- No pipeline has a prefetched table. -/
abbrev adm : (p : Fin 1) → (pcfgs (F := F) p).Adm := fun p => (cfgs p).toPCfg_adm

/-- The sparse kernel's result at the shape the dense stage reads it in. -/
abbrev cnt (c : Dev nD) (f : Buf (Elt F) (cLoc c)) : Vec F S24x128 .f32 :=
  fun i => shapeCast S24x128 (f : Vec F S3072 .f32) shapeCasts_S3072_S24x128 i

-- The sparse kernel's result on every device (the proof data are stated for every device).
variable (fs : (c : Dev nD) → Buf (Elt F) (cLoc c))

/-- The TensorCore's buffers as the dense stage finds them: the reshaped counts in its first operand's array, every
    other buffer at its launch contents. -/
def VR (c : Dev nD) : (b : Ref sig .tc) → Buf (Elt F) ((SparseCore.T (τ := τ) c).loc b) :=
  Function.update (fun b : Ref sig .tc => m ((SparseCore.T (τ := τ) c).loc b)) main_v2 (cnt c (fs c) : Buf (Elt F) ((SparseCore.T (τ := τ) c).loc main_v2))

theorem VR_v2 (c : Dev nD) : VR m fs c main_v2 = (cnt c (fs c) : Buf (Elt F) ((SparseCore.T (τ := τ) c).loc main_v2)) := Function.update_self ..
theorem VR_ne (c : Dev nD) {b : Ref sig .tc} (h : b ≠ main_v2) : VR m fs c b = m ((SparseCore.T (τ := τ) c).loc b) := Function.update_of_ne h ..

/-- Window `w`'s block at the one point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VR m fs c (Pipeline.arrRef spec1 w))

/-- Levels of the pairs the TensorCore's waits may have recorded when the region is entered: at most the first call's. -/
abbrev recB (c : Dev nD) : Set (SemLoc sig × HIx 1) := {p | (K (F := F)).lev (SparseCore.T c, p.1) p.2 ≤ 8}

/-- The proof data of the dense stage on device `c`. -/
def dat (c : Dev nD) : Dat τ (Elt F) (HIx 1) ℕ UU ℕ cfg1 c where
  A w := VR m fs c (Pipeline.arrRef spec1 w)
  after w t := match w with
    | ⟨0, _⟩ => iblk m fs c 0 t
    | ⟨1, _⟩ => iblk m fs c 1 t
    | ⟨2, _⟩ => iblk m fs c 2 t
    | ⟨3, _⟩ => iblk m fs c 3 t
    | ⟨4, _⟩ => iblk m fs c 4 t
    | ⟨5, _⟩ => iblk m fs c 5 t
    | ⟨6, _⟩ => iblk m fs c 6 t
    | ⟨7, _⟩ => iblk m fs c 7 t
    | ⟨8, _⟩ => iblk m fs c 8 t
    | ⟨9, _⟩ => iblk m fs c 9 t
    | ⟨10, _⟩ => iblk m fs c 10 t
    | ⟨11, _⟩ => iblk m fs c 11 t
    | ⟨12, _⟩ => iblk m fs c 12 t
    | ⟨13, _⟩ => iblk m fs c 13 t
    | ⟨14, _⟩ => iblk m fs c 14 t
    | ⟨15, _⟩ => iblk m fs c 15 t
    | ⟨16, _⟩ => iblk m fs c 16 t
    | ⟨17, _⟩ => iblk m fs c 17 t
    | ⟨18, _⟩ => iblk m fs c 18 t
    | ⟨19, _⟩ => iblk m fs c 19 t
    | ⟨20, _⟩ => out20 (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t)
    | ⟨_ + 21, h⟩ => absurd h (Nat.not_lt.2 (Nat.le_add_left _ _))
  Φ _ := iprop(emp)
  q _ := fullShare
  owed _ := 0
  recorded _ := recB (F := F) c

/-- The family over the (one) pipeline. -/
abbrev pdats : (p : Fin 1) → (c : Dev nD) → Dat τ (Elt F) (HIx 1) ℕ UU ℕ (Pipeline.pin (pcfgs (F := F)) adm p) c :=
  fun _ c => dat m fs c

theorem A_eq (c : Dev nD) (w : Fin cfg1.W) : (dat m fs c).A w = VR m fs c (Pipeline.arrRef spec1 w) := by
  dsimp only [dat]

theorem after1_0 (c : Dev nD) (t : Fin cfg1.N) : (dat m fs c).after 0 t = iblk m fs c 0 t := by dsimp only [dat]
theorem after1_1 (c : Dev nD) (t : Fin cfg1.N) : (dat m fs c).after 1 t = iblk m fs c 1 t := by dsimp only [dat]
theorem after1_2 (c : Dev nD) (t : Fin cfg1.N) : (dat m fs c).after 2 t = iblk m fs c 2 t := by dsimp only [dat]
theorem after1_3 (c : Dev nD) (t : Fin cfg1.N) : (dat m fs c).after 3 t = iblk m fs c 3 t := by dsimp only [dat]
theorem after1_4 (c : Dev nD) (t : Fin cfg1.N) : (dat m fs c).after 4 t = iblk m fs c 4 t := by dsimp only [dat]
theorem after1_5 (c : Dev nD) (t : Fin cfg1.N) : (dat m fs c).after 5 t = iblk m fs c 5 t := by dsimp only [dat]
theorem after1_6 (c : Dev nD) (t : Fin cfg1.N) : (dat m fs c).after 6 t = iblk m fs c 6 t := by dsimp only [dat]
theorem after1_7 (c : Dev nD) (t : Fin cfg1.N) : (dat m fs c).after 7 t = iblk m fs c 7 t := by dsimp only [dat]
theorem after1_8 (c : Dev nD) (t : Fin cfg1.N) : (dat m fs c).after 8 t = iblk m fs c 8 t := by dsimp only [dat]
theorem after1_9 (c : Dev nD) (t : Fin cfg1.N) : (dat m fs c).after 9 t = iblk m fs c 9 t := by dsimp only [dat]
theorem after1_10 (c : Dev nD) (t : Fin cfg1.N) : (dat m fs c).after 10 t = iblk m fs c 10 t := by dsimp only [dat]
theorem after1_11 (c : Dev nD) (t : Fin cfg1.N) : (dat m fs c).after 11 t = iblk m fs c 11 t := by dsimp only [dat]
theorem after1_12 (c : Dev nD) (t : Fin cfg1.N) : (dat m fs c).after 12 t = iblk m fs c 12 t := by dsimp only [dat]
theorem after1_13 (c : Dev nD) (t : Fin cfg1.N) : (dat m fs c).after 13 t = iblk m fs c 13 t := by dsimp only [dat]
theorem after1_14 (c : Dev nD) (t : Fin cfg1.N) : (dat m fs c).after 14 t = iblk m fs c 14 t := by dsimp only [dat]
theorem after1_15 (c : Dev nD) (t : Fin cfg1.N) : (dat m fs c).after 15 t = iblk m fs c 15 t := by dsimp only [dat]
theorem after1_16 (c : Dev nD) (t : Fin cfg1.N) : (dat m fs c).after 16 t = iblk m fs c 16 t := by dsimp only [dat]
theorem after1_17 (c : Dev nD) (t : Fin cfg1.N) : (dat m fs c).after 17 t = iblk m fs c 17 t := by dsimp only [dat]
theorem after1_18 (c : Dev nD) (t : Fin cfg1.N) : (dat m fs c).after 18 t = iblk m fs c 18 t := by dsimp only [dat]
theorem after1_19 (c : Dev nD) (t : Fin cfg1.N) : (dat m fs c).after 19 t = iblk m fs c 19 t := by dsimp only [dat]
theorem after1_20 (c : Dev nD) (t : Fin cfg1.N) :
    (dat m fs c).after 20 t = out20 (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t) := by dsimp only [dat]

/-- Each operand's staging buffer holds its block when the body is called: it was fetched there. -/
theorem before1_0 (c : Dev nD) (t : Fin cfg1.N) (d) : (dat m fs c).before 0 t d = iblk m fs c 0 t :=
  ((dat m fs c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat m fs c).before 1 t d = iblk m fs c 1 t :=
  ((dat m fs c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat m fs c).before 2 t d = iblk m fs c 2 t :=
  ((dat m fs c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat m fs c).before 3 t d = iblk m fs c 3 t :=
  ((dat m fs c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat m fs c).before 4 t d = iblk m fs c 4 t :=
  ((dat m fs c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat m fs c).before 5 t d = iblk m fs c 5 t :=
  ((dat m fs c).before_in_eq_fetched 5 rfl (fun _ => rfl) (fun _ _ _ => rfl)
    (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat m fs c).before 6 t d = iblk m fs c 6 t :=
  ((dat m fs c).before_in_eq_fetched 6 rfl (fun _ => rfl) (fun _ _ _ => rfl)
    (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat m fs c).before 7 t d = iblk m fs c 7 t :=
  ((dat m fs c).before_in_eq_fetched 7 rfl (fun _ => rfl) (fun _ _ _ => rfl)
    (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dat m fs c).before 8 t d = iblk m fs c 8 t :=
  ((dat m fs c).before_in_eq_fetched 8 rfl (fun _ => rfl) (fun _ _ _ => rfl)
    (fun t => by rw [after1_8]; unfold Dat.blockOf iblk; rw [A_eq]; try rfl) t d).trans
    (by unfold Dat.fetched Dat.blockOf iblk; rw [A_eq]; try rfl)
theorem before1_9 (c : Dev nD) (t : Fin cfg1.N) (d) : (dat m fs c).before 9 t d = iblk m fs c 9 t :=
  ((dat m fs c).before_in_eq_fetched 9 rfl (fun _ => rfl) (fun _ _ _ => rfl)
    (fun t => by rw [after1_9]; unfold Dat.blockOf iblk; rw [A_eq]; try rfl) t d).trans
    (by unfold Dat.fetched Dat.blockOf iblk; rw [A_eq]; try rfl)
theorem before1_10 (c : Dev nD) (t : Fin cfg1.N) (d) : (dat m fs c).before 10 t d = iblk m fs c 10 t :=
  ((dat m fs c).before_in_eq_fetched 10 rfl (fun _ => rfl) (fun _ _ _ => rfl)
    (fun t => by rw [after1_10]; unfold Dat.blockOf iblk; rw [A_eq]; try rfl) t d).trans
    (by unfold Dat.fetched Dat.blockOf iblk; rw [A_eq]; try rfl)
theorem before1_11 (c : Dev nD) (t : Fin cfg1.N) (d) : (dat m fs c).before 11 t d = iblk m fs c 11 t :=
  ((dat m fs c).before_in_eq_fetched 11 rfl (fun _ => rfl) (fun _ _ _ => rfl)
    (fun t => by rw [after1_11]; unfold Dat.blockOf iblk; rw [A_eq]; try rfl) t d).trans
    (by unfold Dat.fetched Dat.blockOf iblk; rw [A_eq]; try rfl)
theorem before1_12 (c : Dev nD) (t : Fin cfg1.N) (d) : (dat m fs c).before 12 t d = iblk m fs c 12 t :=
  ((dat m fs c).before_in_eq_fetched 12 rfl (fun _ => rfl) (fun _ _ _ => rfl)
    (fun t => by rw [after1_12]; unfold Dat.blockOf iblk; rw [A_eq]; try rfl) t d).trans
    (by unfold Dat.fetched Dat.blockOf iblk; rw [A_eq]; try rfl)
theorem before1_13 (c : Dev nD) (t : Fin cfg1.N) (d) : (dat m fs c).before 13 t d = iblk m fs c 13 t :=
  ((dat m fs c).before_in_eq_fetched 13 rfl (fun _ => rfl) (fun _ _ _ => rfl)
    (fun t => by rw [after1_13]; unfold Dat.blockOf iblk; rw [A_eq]; try rfl) t d).trans
    (by unfold Dat.fetched Dat.blockOf iblk; rw [A_eq]; try rfl)
theorem before1_14 (c : Dev nD) (t : Fin cfg1.N) (d) : (dat m fs c).before 14 t d = iblk m fs c 14 t :=
  ((dat m fs c).before_in_eq_fetched 14 rfl (fun _ => rfl) (fun _ _ _ => rfl)
    (fun t => by rw [after1_14]; unfold Dat.blockOf iblk; rw [A_eq]; try rfl) t d).trans
    (by unfold Dat.fetched Dat.blockOf iblk; rw [A_eq]; try rfl)
theorem before1_15 (c : Dev nD) (t : Fin cfg1.N) (d) : (dat m fs c).before 15 t d = iblk m fs c 15 t :=
  ((dat m fs c).before_in_eq_fetched 15 rfl (fun _ => rfl) (fun _ _ _ => rfl)
    (fun t => by rw [after1_15]; unfold Dat.blockOf iblk; rw [A_eq]; try rfl) t d).trans
    (by unfold Dat.fetched Dat.blockOf iblk; rw [A_eq]; try rfl)
theorem before1_16 (c : Dev nD) (t : Fin cfg1.N) (d) : (dat m fs c).before 16 t d = iblk m fs c 16 t :=
  ((dat m fs c).before_in_eq_fetched 16 rfl (fun _ => rfl) (fun _ _ _ => rfl)
    (fun t => by rw [after1_16]; unfold Dat.blockOf iblk; rw [A_eq]; try rfl) t d).trans
    (by unfold Dat.fetched Dat.blockOf iblk; rw [A_eq]; try rfl)
theorem before1_17 (c : Dev nD) (t : Fin cfg1.N) (d) : (dat m fs c).before 17 t d = iblk m fs c 17 t :=
  ((dat m fs c).before_in_eq_fetched 17 rfl (fun _ => rfl) (fun _ _ _ => rfl)
    (fun t => by rw [after1_17]; unfold Dat.blockOf iblk; rw [A_eq]; try rfl) t d).trans
    (by unfold Dat.fetched Dat.blockOf iblk; rw [A_eq]; try rfl)
theorem before1_18 (c : Dev nD) (t : Fin cfg1.N) (d) : (dat m fs c).before 18 t d = iblk m fs c 18 t :=
  ((dat m fs c).before_in_eq_fetched 18 rfl (fun _ => rfl) (fun _ _ _ => rfl)
    (fun t => by rw [after1_18]; unfold Dat.blockOf iblk; rw [A_eq]; try rfl) t d).trans
    (by unfold Dat.fetched Dat.blockOf iblk; rw [A_eq]; try rfl)
theorem before1_19 (c : Dev nD) (t : Fin cfg1.N) (d) : (dat m fs c).before 19 t d = iblk m fs c 19 t :=
  ((dat m fs c).before_in_eq_fetched 19 rfl (fun _ => rfl) (fun _ _ _ => rfl)
    (fun t => by rw [after1_19]; unfold Dat.blockOf iblk; rw [A_eq]; try rfl) t d).trans
    (by unfold Dat.fetched Dat.blockOf iblk; rw [A_eq]; try rfl)

/-! ## The body obligation -/

theorem share_full (c : Dev nD) (w : Fin cfg1.W) : (dat m fs c).share w = fullShare :=
  (dat m fs c).share_full (fun _ => rfl) w

/-- What the body is called with at the point, -/
def bodyPre (c : Dev nD) (t : Fin cfg1.N) : sProp 𝕄 :=
  iprop((dat m fs c).Φ t.castSucc ∗ (dat m fs c).owesAt none t.castSucc
    ∗ (∃ d, owns (SparseCore.T (τ := τ) c) (st1_0 t) fullShare ((dat m fs c).before 0 t d))
    ∗ (∃ d, owns (SparseCore.T (τ := τ) c) (st1_1 t) fullShare ((dat m fs c).before 1 t d))
    ∗ (∃ d, owns (SparseCore.T (τ := τ) c) (st1_2 t) fullShare ((dat m fs c).before 2 t d))
    ∗ (∃ d, owns (SparseCore.T (τ := τ) c) (st1_3 t) fullShare ((dat m fs c).before 3 t d))
    ∗ (∃ d, owns (SparseCore.T (τ := τ) c) (st1_4 t) fullShare ((dat m fs c).before 4 t d))
    ∗ (∃ d, owns (SparseCore.T (τ := τ) c) (st1_5 t) fullShare ((dat m fs c).before 5 t d))
    ∗ (∃ d, owns (SparseCore.T (τ := τ) c) (st1_6 t) fullShare ((dat m fs c).before 6 t d))
    ∗ (∃ d, owns (SparseCore.T (τ := τ) c) (st1_7 t) fullShare ((dat m fs c).before 7 t d))
    ∗ (∃ d, owns (SparseCore.T (τ := τ) c) (st1_8 t) fullShare ((dat m fs c).before 8 t d))
    ∗ (∃ d, owns (SparseCore.T (τ := τ) c) (st1_9 t) fullShare ((dat m fs c).before 9 t d))
    ∗ (∃ d, owns (SparseCore.T (τ := τ) c) (st1_10 t) fullShare ((dat m fs c).before 10 t d))
    ∗ (∃ d, owns (SparseCore.T (τ := τ) c) (st1_11 t) fullShare ((dat m fs c).before 11 t d))
    ∗ (∃ d, owns (SparseCore.T (τ := τ) c) (st1_12 t) fullShare ((dat m fs c).before 12 t d))
    ∗ (∃ d, owns (SparseCore.T (τ := τ) c) (st1_13 t) fullShare ((dat m fs c).before 13 t d))
    ∗ (∃ d, owns (SparseCore.T (τ := τ) c) (st1_14 t) fullShare ((dat m fs c).before 14 t d))
    ∗ (∃ d, owns (SparseCore.T (τ := τ) c) (st1_15 t) fullShare ((dat m fs c).before 15 t d))
    ∗ (∃ d, owns (SparseCore.T (τ := τ) c) (st1_16 t) fullShare ((dat m fs c).before 16 t d))
    ∗ (∃ d, owns (SparseCore.T (τ := τ) c) (st1_17 t) fullShare ((dat m fs c).before 17 t d))
    ∗ (∃ d, owns (SparseCore.T (τ := τ) c) (st1_18 t) fullShare ((dat m fs c).before 18 t d))
    ∗ (∃ d, owns (SparseCore.T (τ := τ) c) (st1_19 t) fullShare ((dat m fs c).before 19 t d))
    ∗ (∃ d, owns (SparseCore.T (τ := τ) c) (st1_20 t) fullShare ((dat m fs c).before 20 t d)))

/-- and what it returns. -/
def bodyPost (c : Dev nD) (t : Fin cfg1.N) : sProp 𝕄 :=
  iprop((dat m fs c).Φ t.succ ∗ (dat m fs c).owesAt none t.succ
    ∗ owns (SparseCore.T (τ := τ) c) (st1_0 t) fullShare ((dat m fs c).after 0 t)
    ∗ owns (SparseCore.T (τ := τ) c) (st1_1 t) fullShare ((dat m fs c).after 1 t)
    ∗ owns (SparseCore.T (τ := τ) c) (st1_2 t) fullShare ((dat m fs c).after 2 t)
    ∗ owns (SparseCore.T (τ := τ) c) (st1_3 t) fullShare ((dat m fs c).after 3 t)
    ∗ owns (SparseCore.T (τ := τ) c) (st1_4 t) fullShare ((dat m fs c).after 4 t)
    ∗ owns (SparseCore.T (τ := τ) c) (st1_5 t) fullShare ((dat m fs c).after 5 t)
    ∗ owns (SparseCore.T (τ := τ) c) (st1_6 t) fullShare ((dat m fs c).after 6 t)
    ∗ owns (SparseCore.T (τ := τ) c) (st1_7 t) fullShare ((dat m fs c).after 7 t)
    ∗ owns (SparseCore.T (τ := τ) c) (st1_8 t) fullShare ((dat m fs c).after 8 t)
    ∗ owns (SparseCore.T (τ := τ) c) (st1_9 t) fullShare ((dat m fs c).after 9 t)
    ∗ owns (SparseCore.T (τ := τ) c) (st1_10 t) fullShare ((dat m fs c).after 10 t)
    ∗ owns (SparseCore.T (τ := τ) c) (st1_11 t) fullShare ((dat m fs c).after 11 t)
    ∗ owns (SparseCore.T (τ := τ) c) (st1_12 t) fullShare ((dat m fs c).after 12 t)
    ∗ owns (SparseCore.T (τ := τ) c) (st1_13 t) fullShare ((dat m fs c).after 13 t)
    ∗ owns (SparseCore.T (τ := τ) c) (st1_14 t) fullShare ((dat m fs c).after 14 t)
    ∗ owns (SparseCore.T (τ := τ) c) (st1_15 t) fullShare ((dat m fs c).after 15 t)
    ∗ owns (SparseCore.T (τ := τ) c) (st1_16 t) fullShare ((dat m fs c).after 16 t)
    ∗ owns (SparseCore.T (τ := τ) c) (st1_17 t) fullShare ((dat m fs c).after 17 t)
    ∗ owns (SparseCore.T (τ := τ) c) (st1_18 t) fullShare ((dat m fs c).after 18 t)
    ∗ owns (SparseCore.T (τ := τ) c) (st1_19 t) fullShare ((dat m fs c).after 19 t)
    ∗ owns (SparseCore.T (τ := τ) c) (st1_20 t) fullShare ((dat m fs c).after 20 t))

/-- The body at the point: the operands' memrefs hold their blocks, so the body's triple applies; the invariant and
    what the core owes pass through unread. -/
theorem sound_body (c : Dev nD) (t : Fin cfg1.N) :
    bodyPre m fs c t ⊢ wp frame (wpE (defs₀ (F := F)) Variants.none (SparseCore.T (τ := τ) c) none) Set.univ (bodyAt1 t) (fun _ => bodyPost m fs c t) := by
  unfold bodyPre bodyPost bodyAt1
  simp only [before1_0, before1_1, before1_2, before1_3, before1_4, before1_5, before1_6, before1_7, before1_8, before1_9, before1_10, before1_11, before1_12, before1_13, before1_14, before1_15, before1_16, before1_17, before1_18, before1_19]
  rw [show (dat m fs c).Φ t.succ = (dat m fs c).Φ t.castSucc from rfl,
    show (dat m fs c).owesAt none t.succ = (dat m fs c).owesAt none t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ _ _ _ _ _ _ _ _ _ _ _ _ _ _ _ _ _ _ _ _ _ _ _ _ _ _ _ _ _ _ _ _ _ _ _ _ _ _ _ _ _ _ (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at the point. -/
theorem body_obligation (c : Dev nD) : BodyObligation (dat (F := F) m fs c) (defs₀ (F := F)) Variants.none none Set.univ := fun t => by
  rw [bigSep_W1, bigSep_W1]
  exact sound_body m fs c t

/-! ## The region -/

/-- The TensorCore's debt and recorded pairs around the region: it owes nothing (its one start signal is paid), and
    every pair its waits have recorded sits at or below the first call's level; the pipeline's own waits record pairs
    at the lowest level. -/
abbrev owesTc (c : Dev nD) : sProp 𝕄 :=
  iprop(∃ W, ⌜(K (F := F)).WBelow (SparseCore.T (τ := τ) c) W 8⌝ ∗ owes (SparseCore.T (τ := τ) c) (0 : CellTallies nD τ sig (HIx 1)) W)

theorem bigSep_fin0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

theorem scopedRest_pin (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

theorem owesAt_intro (c : Dev nD) (t : Fin (cfg1.N + 1)) : owesTc (F := F) c ⊢ ((dat m fs c).owesAt none t : sProp 𝕄) := by
  unfold Pipeline.Dat.owesAt Pipeline.owesWithin Pipeline.Dat.bound
  have h1 : (dat m fs c).owed t = 0 := by dsimp only [dat]
  have h2 : (dat m fs c).recorded t = recB (F := F) c := by dsimp only [dat]
  rw [h1, h2]
  iintro ⟨%W, %hW, HO⟩
  iexists W; isplitr; · ipureintro; exact fun p hp => Or.inl (hW p (Finset.mem_coe.mp hp))
  iexact HO

theorem owesAt_elim (c : Dev nD) (t : Fin (cfg1.N + 1)) : ((dat m fs c).owesAt none t : sProp 𝕄) ⊢ owesTc (F := F) c := by
  unfold Pipeline.Dat.owesAt Pipeline.owesWithin Pipeline.Dat.bound
  have h1 : (dat m fs c).owed t = 0 := by dsimp only [dat]
  have h2 : (dat m fs c).recorded t = recB (F := F) c := by dsimp only [dat]
  rw [h1, h2]
  iintro ⟨%W, %hW, HO⟩
  iexists W; isplitr
  · ipureintro
    intro p hp
    rcases hW (Finset.mem_coe.mpr hp) with h | ⟨w, s, rfl⟩
    · exact h
    · first | exact Nat.zero_le _ | simp
  iexact HO

/-- The windows' arrays one by one, the nineteen launch operands and the counts at contents `V`, the result array at `r`. -/
abbrev chainV (c : Dev nD) (V : (b : Ref sig .tc) → Buf (Elt F) ((SparseCore.T (τ := τ) c).loc b)) (r : Buf (Elt F) ((SparseCore.T (τ := τ) c).loc main_v3)) : sProp 𝕄 :=
  iprop(((SparseCore.T (τ := τ) c).loc main_v2 ↦{fullShare} V main_v2)
    ∗ ((SparseCore.T (τ := τ) c).loc main_arg0 ↦{fullShare} V main_arg0)
    ∗ ((SparseCore.T (τ := τ) c).loc main_arg2 ↦{fullShare} V main_arg2)
    ∗ ((SparseCore.T (τ := τ) c).loc main_arg3 ↦{fullShare} V main_arg3)
    ∗ ((SparseCore.T (τ := τ) c).loc main_arg4 ↦{fullShare} V main_arg4)
    ∗ ((SparseCore.T (τ := τ) c).loc main_arg5 ↦{fullShare} V main_arg5)
    ∗ ((SparseCore.T (τ := τ) c).loc main_arg6 ↦{fullShare} V main_arg6)
    ∗ ((SparseCore.T (τ := τ) c).loc main_arg7 ↦{fullShare} V main_arg7)
    ∗ ((SparseCore.T (τ := τ) c).loc main_arg8 ↦{fullShare} V main_arg8)
    ∗ ((SparseCore.T (τ := τ) c).loc main_arg9 ↦{fullShare} V main_arg9)
    ∗ ((SparseCore.T (τ := τ) c).loc main_arg10 ↦{fullShare} V main_arg10)
    ∗ ((SparseCore.T (τ := τ) c).loc main_arg11 ↦{fullShare} V main_arg11)
    ∗ ((SparseCore.T (τ := τ) c).loc main_arg12 ↦{fullShare} V main_arg12)
    ∗ ((SparseCore.T (τ := τ) c).loc main_arg13 ↦{fullShare} V main_arg13)
    ∗ ((SparseCore.T (τ := τ) c).loc main_arg14 ↦{fullShare} V main_arg14)
    ∗ ((SparseCore.T (τ := τ) c).loc main_arg15 ↦{fullShare} V main_arg15)
    ∗ ((SparseCore.T (τ := τ) c).loc main_arg16 ↦{fullShare} V main_arg16)
    ∗ ((SparseCore.T (τ := τ) c).loc main_arg17 ↦{fullShare} V main_arg17)
    ∗ ((SparseCore.T (τ := τ) c).loc main_arg18 ↦{fullShare} V main_arg18)
    ∗ ((SparseCore.T (τ := τ) c).loc main_arg19 ↦{fullShare} V main_arg19)
    ∗ ((SparseCore.T (τ := τ) c).loc main_v3 ↦{fullShare} r))

set_option maxHeartbeats 1000000 in
/-- The pipeline's arrays at any contents are the windows' arrays one by one, each whole at the full share. -/
theorem arrays_chain (c : Dev nD) (Fa : (w : Fin cfg1.W) → Buf (Elt F) ((cfg1.win w).arr.view.loc (SparseCore.T (τ := τ) c))) :
    ((dat m fs c).arrays Fa : sProp 𝕄)
      = iprop(((SparseCore.T (τ := τ) c).loc main_v2 ↦{fullShare} (Fa 0 : Buf (Elt F) ((SparseCore.T (τ := τ) c).loc main_v2)))
        ∗ ((SparseCore.T (τ := τ) c).loc main_arg0 ↦{fullShare} (Fa 1 : Buf (Elt F) ((SparseCore.T (τ := τ) c).loc main_arg0)))
        ∗ ((SparseCore.T (τ := τ) c).loc main_arg2 ↦{fullShare} (Fa 2 : Buf (Elt F) ((SparseCore.T (τ := τ) c).loc main_arg2)))
        ∗ ((SparseCore.T (τ := τ) c).loc main_arg3 ↦{fullShare} (Fa 3 : Buf (Elt F) ((SparseCore.T (τ := τ) c).loc main_arg3)))
        ∗ ((SparseCore.T (τ := τ) c).loc main_arg4 ↦{fullShare} (Fa 4 : Buf (Elt F) ((SparseCore.T (τ := τ) c).loc main_arg4)))
        ∗ ((SparseCore.T (τ := τ) c).loc main_arg5 ↦{fullShare} (Fa 5 : Buf (Elt F) ((SparseCore.T (τ := τ) c).loc main_arg5)))
        ∗ ((SparseCore.T (τ := τ) c).loc main_arg6 ↦{fullShare} (Fa 6 : Buf (Elt F) ((SparseCore.T (τ := τ) c).loc main_arg6)))
        ∗ ((SparseCore.T (τ := τ) c).loc main_arg7 ↦{fullShare} (Fa 7 : Buf (Elt F) ((SparseCore.T (τ := τ) c).loc main_arg7)))
        ∗ ((SparseCore.T (τ := τ) c).loc main_arg8 ↦{fullShare} (Fa 8 : Buf (Elt F) ((SparseCore.T (τ := τ) c).loc main_arg8)))
        ∗ ((SparseCore.T (τ := τ) c).loc main_arg9 ↦{fullShare} (Fa 9 : Buf (Elt F) ((SparseCore.T (τ := τ) c).loc main_arg9)))
        ∗ ((SparseCore.T (τ := τ) c).loc main_arg10 ↦{fullShare} (Fa 10 : Buf (Elt F) ((SparseCore.T (τ := τ) c).loc main_arg10)))
        ∗ ((SparseCore.T (τ := τ) c).loc main_arg11 ↦{fullShare} (Fa 11 : Buf (Elt F) ((SparseCore.T (τ := τ) c).loc main_arg11)))
        ∗ ((SparseCore.T (τ := τ) c).loc main_arg12 ↦{fullShare} (Fa 12 : Buf (Elt F) ((SparseCore.T (τ := τ) c).loc main_arg12)))
        ∗ ((SparseCore.T (τ := τ) c).loc main_arg13 ↦{fullShare} (Fa 13 : Buf (Elt F) ((SparseCore.T (τ := τ) c).loc main_arg13)))
        ∗ ((SparseCore.T (τ := τ) c).loc main_arg14 ↦{fullShare} (Fa 14 : Buf (Elt F) ((SparseCore.T (τ := τ) c).loc main_arg14)))
        ∗ ((SparseCore.T (τ := τ) c).loc main_arg15 ↦{fullShare} (Fa 15 : Buf (Elt F) ((SparseCore.T (τ := τ) c).loc main_arg15)))
        ∗ ((SparseCore.T (τ := τ) c).loc main_arg16 ↦{fullShare} (Fa 16 : Buf (Elt F) ((SparseCore.T (τ := τ) c).loc main_arg16)))
        ∗ ((SparseCore.T (τ := τ) c).loc main_arg17 ↦{fullShare} (Fa 17 : Buf (Elt F) ((SparseCore.T (τ := τ) c).loc main_arg17)))
        ∗ ((SparseCore.T (τ := τ) c).loc main_arg18 ↦{fullShare} (Fa 18 : Buf (Elt F) ((SparseCore.T (τ := τ) c).loc main_arg18)))
        ∗ ((SparseCore.T (τ := τ) c).loc main_arg19 ↦{fullShare} (Fa 19 : Buf (Elt F) ((SparseCore.T (τ := τ) c).loc main_arg19)))
        ∗ ((SparseCore.T (τ := τ) c).loc main_v3 ↦{fullShare} (Fa 20 : Buf (Elt F) ((SparseCore.T (τ := τ) c).loc main_v3)))) := by
  have e := Pipeline.arrays_eq cfgs (fun _ c => dat m fs c) 0 c arr_whole1 (share_full m fs c) Fa
  rw [e, bigSep_W1]
  try rfl

/-- What the result array holds when the region is left: what the library computes from the proof data. -/
def denseOut (c : Dev nD) : Buf (Elt F) ((SparseCore.T (τ := τ) c).loc main_v3) := (dat m fs c).arrAt 20 cfg1.N

/-- Each window's array as the region finds it, by name. -/
theorem A1_0 (c : Dev nD) : (dat m fs c).A 0 = VR m fs c main_v2 := (A_eq m fs c 0).trans rfl
theorem A1_1 (c : Dev nD) : (dat m fs c).A 1 = VR m fs c main_arg0 := (A_eq m fs c 1).trans rfl
theorem A1_2 (c : Dev nD) : (dat m fs c).A 2 = VR m fs c main_arg2 := (A_eq m fs c 2).trans rfl
theorem A1_3 (c : Dev nD) : (dat m fs c).A 3 = VR m fs c main_arg3 := (A_eq m fs c 3).trans rfl
theorem A1_4 (c : Dev nD) : (dat m fs c).A 4 = VR m fs c main_arg4 := (A_eq m fs c 4).trans rfl
theorem A1_5 (c : Dev nD) : (dat m fs c).A 5 = VR m fs c main_arg5 := (A_eq m fs c 5).trans rfl
theorem A1_6 (c : Dev nD) : (dat m fs c).A 6 = VR m fs c main_arg6 := (A_eq m fs c 6).trans rfl
theorem A1_7 (c : Dev nD) : (dat m fs c).A 7 = VR m fs c main_arg7 := (A_eq m fs c 7).trans rfl
theorem A1_8 (c : Dev nD) : (dat m fs c).A 8 = VR m fs c main_arg8 := (A_eq m fs c 8).trans rfl
theorem A1_9 (c : Dev nD) : (dat m fs c).A 9 = VR m fs c main_arg9 := (A_eq m fs c 9).trans rfl
theorem A1_10 (c : Dev nD) : (dat m fs c).A 10 = VR m fs c main_arg10 := (A_eq m fs c 10).trans rfl
theorem A1_11 (c : Dev nD) : (dat m fs c).A 11 = VR m fs c main_arg11 := (A_eq m fs c 11).trans rfl
theorem A1_12 (c : Dev nD) : (dat m fs c).A 12 = VR m fs c main_arg12 := (A_eq m fs c 12).trans rfl
theorem A1_13 (c : Dev nD) : (dat m fs c).A 13 = VR m fs c main_arg13 := (A_eq m fs c 13).trans rfl
theorem A1_14 (c : Dev nD) : (dat m fs c).A 14 = VR m fs c main_arg14 := (A_eq m fs c 14).trans rfl
theorem A1_15 (c : Dev nD) : (dat m fs c).A 15 = VR m fs c main_arg15 := (A_eq m fs c 15).trans rfl
theorem A1_16 (c : Dev nD) : (dat m fs c).A 16 = VR m fs c main_arg16 := (A_eq m fs c 16).trans rfl
theorem A1_17 (c : Dev nD) : (dat m fs c).A 17 = VR m fs c main_arg17 := (A_eq m fs c 17).trans rfl
theorem A1_18 (c : Dev nD) : (dat m fs c).A 18 = VR m fs c main_arg18 := (A_eq m fs c 18).trans rfl
theorem A1_19 (c : Dev nD) : (dat m fs c).A 19 = VR m fs c main_arg19 := (A_eq m fs c 19).trans rfl
theorem A1_20 (c : Dev nD) : (dat m fs c).A 20 = VR m fs c main_v3 := (A_eq m fs c 20).trans rfl

/-- An operand's array is never written back. -/
theorem arrAtN_0 (c : Dev nD) : (dat m fs c).arrAt 0 cfg1.N = VR m fs c main_v2 :=
  ((dat m fs c).arrAt_in 0 (show win1_0.isOut = false from rfl) _).trans (A1_0 m fs c)
theorem arrAtN_1 (c : Dev nD) : (dat m fs c).arrAt 1 cfg1.N = VR m fs c main_arg0 :=
  ((dat m fs c).arrAt_in 1 (show win1_1.isOut = false from rfl) _).trans (A1_1 m fs c)
theorem arrAtN_2 (c : Dev nD) : (dat m fs c).arrAt 2 cfg1.N = VR m fs c main_arg2 :=
  ((dat m fs c).arrAt_in 2 (show win1_2.isOut = false from rfl) _).trans (A1_2 m fs c)
theorem arrAtN_3 (c : Dev nD) : (dat m fs c).arrAt 3 cfg1.N = VR m fs c main_arg3 :=
  ((dat m fs c).arrAt_in 3 (show win1_3.isOut = false from rfl) _).trans (A1_3 m fs c)
theorem arrAtN_4 (c : Dev nD) : (dat m fs c).arrAt 4 cfg1.N = VR m fs c main_arg4 :=
  ((dat m fs c).arrAt_in 4 (show win1_4.isOut = false from rfl) _).trans (A1_4 m fs c)
theorem arrAtN_5 (c : Dev nD) : (dat m fs c).arrAt 5 cfg1.N = VR m fs c main_arg5 :=
  ((dat m fs c).arrAt_in 5 (show win1_5.isOut = false from rfl) _).trans (A1_5 m fs c)
theorem arrAtN_6 (c : Dev nD) : (dat m fs c).arrAt 6 cfg1.N = VR m fs c main_arg6 :=
  ((dat m fs c).arrAt_in 6 (show win1_6.isOut = false from rfl) _).trans (A1_6 m fs c)
theorem arrAtN_7 (c : Dev nD) : (dat m fs c).arrAt 7 cfg1.N = VR m fs c main_arg7 :=
  ((dat m fs c).arrAt_in 7 (show win1_7.isOut = false from rfl) _).trans (A1_7 m fs c)
theorem arrAtN_8 (c : Dev nD) : (dat m fs c).arrAt 8 cfg1.N = VR m fs c main_arg8 :=
  ((dat m fs c).arrAt_in 8 (show win1_8.isOut = false from rfl) _).trans (A1_8 m fs c)
theorem arrAtN_9 (c : Dev nD) : (dat m fs c).arrAt 9 cfg1.N = VR m fs c main_arg9 :=
  ((dat m fs c).arrAt_in 9 (show win1_9.isOut = false from rfl) _).trans (A1_9 m fs c)
theorem arrAtN_10 (c : Dev nD) : (dat m fs c).arrAt 10 cfg1.N = VR m fs c main_arg10 :=
  ((dat m fs c).arrAt_in 10 (show win1_10.isOut = false from rfl) _).trans (A1_10 m fs c)
theorem arrAtN_11 (c : Dev nD) : (dat m fs c).arrAt 11 cfg1.N = VR m fs c main_arg11 :=
  ((dat m fs c).arrAt_in 11 (show win1_11.isOut = false from rfl) _).trans (A1_11 m fs c)
theorem arrAtN_12 (c : Dev nD) : (dat m fs c).arrAt 12 cfg1.N = VR m fs c main_arg12 :=
  ((dat m fs c).arrAt_in 12 (show win1_12.isOut = false from rfl) _).trans (A1_12 m fs c)
theorem arrAtN_13 (c : Dev nD) : (dat m fs c).arrAt 13 cfg1.N = VR m fs c main_arg13 :=
  ((dat m fs c).arrAt_in 13 (show win1_13.isOut = false from rfl) _).trans (A1_13 m fs c)
theorem arrAtN_14 (c : Dev nD) : (dat m fs c).arrAt 14 cfg1.N = VR m fs c main_arg14 :=
  ((dat m fs c).arrAt_in 14 (show win1_14.isOut = false from rfl) _).trans (A1_14 m fs c)
theorem arrAtN_15 (c : Dev nD) : (dat m fs c).arrAt 15 cfg1.N = VR m fs c main_arg15 :=
  ((dat m fs c).arrAt_in 15 (show win1_15.isOut = false from rfl) _).trans (A1_15 m fs c)
theorem arrAtN_16 (c : Dev nD) : (dat m fs c).arrAt 16 cfg1.N = VR m fs c main_arg16 :=
  ((dat m fs c).arrAt_in 16 (show win1_16.isOut = false from rfl) _).trans (A1_16 m fs c)
theorem arrAtN_17 (c : Dev nD) : (dat m fs c).arrAt 17 cfg1.N = VR m fs c main_arg17 :=
  ((dat m fs c).arrAt_in 17 (show win1_17.isOut = false from rfl) _).trans (A1_17 m fs c)
theorem arrAtN_18 (c : Dev nD) : (dat m fs c).arrAt 18 cfg1.N = VR m fs c main_arg18 :=
  ((dat m fs c).arrAt_in 18 (show win1_18.isOut = false from rfl) _).trans (A1_18 m fs c)
theorem arrAtN_19 (c : Dev nD) : (dat m fs c).arrAt 19 cfg1.N = VR m fs c main_arg19 :=
  ((dat m fs c).arrAt_in 19 (show win1_19.isOut = false from rfl) _).trans (A1_19 m fs c)

set_option maxHeartbeats 1000000 in
/-- ENTRY: the pipeline's arrays at the proof data's entry contents are the arrays as the region finds them. -/
theorem entry_eq (c : Dev nD) :
    ((dat m fs c).arrays ((dat m fs c).arrAt · 0) : sProp 𝕄) = chainV c (VR m fs c) (VR m fs c main_v3) := by
  rw [arrays_chain]
  simp only [show ∀ w, (dat m fs c).arrAt w 0 = (dat m fs c).A w from fun _ => rfl, A1_0, A1_1, A1_2, A1_3, A1_4, A1_5, A1_6, A1_7, A1_8, A1_9, A1_10, A1_11, A1_12, A1_13, A1_14, A1_15, A1_16, A1_17, A1_18, A1_19, A1_20]

set_option maxHeartbeats 1000000 in
/-- EXIT: the operands' arrays unchanged, the result array at what the proof data compute. -/
theorem exit_eq (c : Dev nD) :
    ((dat m fs c).arrays ((dat m fs c).arrAt · cfg1.N) : sProp 𝕄) = chainV c (VR m fs c) (denseOut m fs c) := by
  rw [arrays_chain]
  rw [arrAtN_0, arrAtN_1, arrAtN_2, arrAtN_3, arrAtN_4, arrAtN_5, arrAtN_6, arrAtN_7, arrAtN_8, arrAtN_9, arrAtN_10, arrAtN_11, arrAtN_12, arrAtN_13, arrAtN_14, arrAtN_15, arrAtN_16, arrAtN_17, arrAtN_18, arrAtN_19]
  rfl

theorem owed_zero (c : Dev nD) (t : Fin (cfg1.N + 1)) : (pdats m fs 0 c).owed t = 0 := by dsimp only [pdats, dat]

set_option maxHeartbeats 1000000 in
/-- The dense stage's region: entered from the windows' arrays as the region finds them and the core's debt, left
    with the operands' arrays unchanged, the result array at what the proof data compute, and the debt unchanged. -/
def reg : Pipeline.RegionSeg (pcfgs (F := F)) adm (pdats m fs) none (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m fs c).loose
  hwaits := Pipeline.hwaits_of_owed_zero _ _ _ _ (K (F := F)).L (K (F := F)).lev 0 fun c t => owed_zero m fs c t
  pre c := iprop(chainV c (VR m fs c) (VR m fs c main_v3) ∗ owesTc (F := F) c)
  post c := iprop(chainV c (VR m fs c) (denseOut m fs c) ∗ owesTc (F := F) c)
  X _ := iprop(emp)
  Y _ := iprop(emp)
  Z _ := iprop(emp)
  hentry c := by
    rw [Pipeline.ownSems0_none, prefHeld_emp]
    iintro ⟨⟨Ha, HO⟩, -, -⟩
    imodintro
    isplitl [Ha]
    · iapply (Entails.of_eq (entry_eq m fs c).symm); iexact Ha
    isplitr; · iempintro
    isplitl [HO]; · iapply (owesAt_intro m fs c 0); iexact HO
    try dsimp only
    isplitr <;> iempintro
  hin c := by
    dsimp only [pdats, dat]
    iintro -; iempintro
  hout c := by
    rw [Pipeline.ownSems0_none, scopedRest_pin]
    try dsimp only
    iintro -
    isplitr; · iempintro
    isplitr <;> iempintro
  hexit c := by
    iintro ⟨Ha, HO, -, -⟩
    imodintro
    isplitl [Ha]
    · iapply (Entails.of_eq (exit_eq m fs c)); iexact Ha
    iapply (owesAt_elim m fs c (Fin.last _)); iexact HO

end Cert.Proof.KI

end
-- ==== Proof.DenseVal.lean ====
/-
  The dense stage's result, read as ONE function of the launch contents: the windows being whole arrays, every
  operand block the body loads is its array as the region finds it, and the one block the pipeline writes back covers
  the result array; so the result array ends holding the interface function of the reshaped counts and the nineteen
  launch operands.
-/
import proofs.«207914_g72782515798130_cont_9to1c4b_353_41_alg».proof.Proof.Dense
import Idealize.ShloMosaic.Lib.Pipeline.Value

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- The dense stage's result from the counts `f` of device `c` and the launch contents of the nineteen other operands. -/
def outv (c : Dev nD) (f : Buf (Elt F) (cLoc c)) : FVec F S1x2 .f32 :=
  Cert.Proof.Iface.kerOut (cnt c f) (m ((SparseCore.T (τ := τ) c).loc main_arg0))
    (m ((SparseCore.T (τ := τ) c).loc main_arg2))
    (m ((SparseCore.T (τ := τ) c).loc main_arg3))
    (m ((SparseCore.T (τ := τ) c).loc main_arg4))
    (m ((SparseCore.T (τ := τ) c).loc main_arg5))
    (m ((SparseCore.T (τ := τ) c).loc main_arg6))
    (m ((SparseCore.T (τ := τ) c).loc main_arg7))
    (m ((SparseCore.T (τ := τ) c).loc main_arg8))
    (m ((SparseCore.T (τ := τ) c).loc main_arg9))
    (m ((SparseCore.T (τ := τ) c).loc main_arg10))
    (m ((SparseCore.T (τ := τ) c).loc main_arg11))
    (m ((SparseCore.T (τ := τ) c).loc main_arg12))
    (m ((SparseCore.T (τ := τ) c).loc main_arg13))
    (m ((SparseCore.T (τ := τ) c).loc main_arg14))
    (m ((SparseCore.T (τ := τ) c).loc main_arg15))
    (m ((SparseCore.T (τ := τ) c).loc main_arg16))
    (m ((SparseCore.T (τ := τ) c).loc main_arg17))
    (m ((SparseCore.T (τ := τ) c).loc main_arg18))
    (m ((SparseCore.T (τ := τ) c).loc main_arg19))

variable (fs : (c : Dev nD) → Buf (Elt F) (cLoc c))

/-! ## A whole window's block is its array -/

theorem emb1_0 (t : Fin cfg1.N) (j : ((cfg1.win 0).xblock (cfg1.grid.coords t)).Idx) : ((cfg1.win 0).blk t).view.emb j = j := by
  funext a; apply Fin.ext
  match a with
    | ⟨0, _⟩ => show win1_0.index t (0 : Fin 2) * 24 + 1 * (j 0).val = (j 0).val; have hx : win1_0.index t (0 : Fin 2) = 0 := rfl; rw [hx]; omega
    | ⟨1, _⟩ => show win1_0.index t (1 : Fin 2) * 128 + 1 * (j 1).val = (j 1).val; have hx : win1_0.index t (1 : Fin 2) = 0 := rfl; rw [hx]; omega

theorem iblk1_0 (c : Dev nD) (t : Fin cfg1.N) : iblk m fs c 0 t = (VR m fs c main_v2 : Vec F S24x128 .f32) := by
  funext j
  show VR m fs c main_v2 (((cfg1.win 0).blk t).view.emb j) = VR m fs c main_v2 j
  rw [emb1_0]

theorem emb1_1 (t : Fin cfg1.N) (j : ((cfg1.win 1).xblock (cfg1.grid.coords t)).Idx) : ((cfg1.win 1).blk t).view.emb j = j := by
  funext a; apply Fin.ext
  match a with
    | ⟨0, _⟩ => show win1_1.index t (0 : Fin 2) * 24 + 1 * (j 0).val = (j 0).val; have hx : win1_1.index t (0 : Fin 2) = 0 := rfl; rw [hx]; omega
    | ⟨1, _⟩ => show win1_1.index t (1 : Fin 2) * 128 + 1 * (j 1).val = (j 1).val; have hx : win1_1.index t (1 : Fin 2) = 0 := rfl; rw [hx]; omega

theorem iblk1_1 (c : Dev nD) (t : Fin cfg1.N) : iblk m fs c 1 t = (VR m fs c main_arg0 : Vec F S24x128 .f32) := by
  funext j
  show VR m fs c main_arg0 (((cfg1.win 1).blk t).view.emb j) = VR m fs c main_arg0 j
  rw [emb1_1]

theorem emb1_2 (t : Fin cfg1.N) (j : ((cfg1.win 2).xblock (cfg1.grid.coords t)).Idx) : ((cfg1.win 2).blk t).view.emb j = j := by
  funext a; apply Fin.ext
  match a with
    | ⟨0, _⟩ => show win1_2.index t (0 : Fin 2) * 128 + 1 * (j 0).val = (j 0).val; have hx : win1_2.index t (0 : Fin 2) = 0 := rfl; rw [hx]; omega
    | ⟨1, _⟩ => show win1_2.index t (1 : Fin 2) * 4 + 1 * (j 1).val = (j 1).val; have hx : win1_2.index t (1 : Fin 2) = 0 := rfl; rw [hx]; omega

theorem iblk1_2 (c : Dev nD) (t : Fin cfg1.N) : iblk m fs c 2 t = (VR m fs c main_arg2 : Vec F S128x4 .f32) := by
  funext j
  show VR m fs c main_arg2 (((cfg1.win 2).blk t).view.emb j) = VR m fs c main_arg2 j
  rw [emb1_2]

theorem emb1_3 (t : Fin cfg1.N) (j : ((cfg1.win 3).xblock (cfg1.grid.coords t)).Idx) : ((cfg1.win 3).blk t).view.emb j = j := by
  funext a; apply Fin.ext
  match a with
    | ⟨0, _⟩ => show win1_3.index t (0 : Fin 1) * 4 + 1 * (j 0).val = (j 0).val; have hx : win1_3.index t (0 : Fin 1) = 0 := rfl; rw [hx]; omega

theorem iblk1_3 (c : Dev nD) (t : Fin cfg1.N) : iblk m fs c 3 t = (VR m fs c main_arg3 : Vec F S4 .f32) := by
  funext j
  show VR m fs c main_arg3 (((cfg1.win 3).blk t).view.emb j) = VR m fs c main_arg3 j
  rw [emb1_3]

theorem emb1_4 (t : Fin cfg1.N) (j : ((cfg1.win 4).xblock (cfg1.grid.coords t)).Idx) : ((cfg1.win 4).blk t).view.emb j = j := by
  funext a; apply Fin.ext
  match a with
    | ⟨0, _⟩ => show win1_4.index t (0 : Fin 2) * 4 + 1 * (j 0).val = (j 0).val; have hx : win1_4.index t (0 : Fin 2) = 0 := rfl; rw [hx]; omega
    | ⟨1, _⟩ => show win1_4.index t (1 : Fin 2) * 4 + 1 * (j 1).val = (j 1).val; have hx : win1_4.index t (1 : Fin 2) = 0 := rfl; rw [hx]; omega

theorem iblk1_4 (c : Dev nD) (t : Fin cfg1.N) : iblk m fs c 4 t = (VR m fs c main_arg4 : Vec F S4x4 .f32) := by
  funext j
  show VR m fs c main_arg4 (((cfg1.win 4).blk t).view.emb j) = VR m fs c main_arg4 j
  rw [emb1_4]

theorem emb1_5 (t : Fin cfg1.N) (j : ((cfg1.win 5).xblock (cfg1.grid.coords t)).Idx) : ((cfg1.win 5).blk t).view.emb j = j := by
  funext a; apply Fin.ext
  match a with
    | ⟨0, _⟩ => show win1_5.index t (0 : Fin 1) * 4 + 1 * (j 0).val = (j 0).val; have hx : win1_5.index t (0 : Fin 1) = 0 := rfl; rw [hx]; omega

theorem iblk1_5 (c : Dev nD) (t : Fin cfg1.N) : iblk m fs c 5 t = (VR m fs c main_arg5 : Vec F S4 .f32) := by
  funext j
  show VR m fs c main_arg5 (((cfg1.win 5).blk t).view.emb j) = VR m fs c main_arg5 j
  rw [emb1_5]

theorem emb1_6 (t : Fin cfg1.N) (j : ((cfg1.win 6).xblock (cfg1.grid.coords t)).Idx) : ((cfg1.win 6).blk t).view.emb j = j := by
  funext a; apply Fin.ext
  match a with
    | ⟨0, _⟩ => show win1_6.index t (0 : Fin 2) * 4 + 1 * (j 0).val = (j 0).val; have hx : win1_6.index t (0 : Fin 2) = 0 := rfl; rw [hx]; omega
    | ⟨1, _⟩ => show win1_6.index t (1 : Fin 2) * 8 + 1 * (j 1).val = (j 1).val; have hx : win1_6.index t (1 : Fin 2) = 0 := rfl; rw [hx]; omega

theorem iblk1_6 (c : Dev nD) (t : Fin cfg1.N) : iblk m fs c 6 t = (VR m fs c main_arg6 : Vec F S4x8 .f32) := by
  funext j
  show VR m fs c main_arg6 (((cfg1.win 6).blk t).view.emb j) = VR m fs c main_arg6 j
  rw [emb1_6]

theorem emb1_7 (t : Fin cfg1.N) (j : ((cfg1.win 7).xblock (cfg1.grid.coords t)).Idx) : ((cfg1.win 7).blk t).view.emb j = j := by
  funext a; apply Fin.ext
  match a with
    | ⟨0, _⟩ => show win1_7.index t (0 : Fin 1) * 8 + 1 * (j 0).val = (j 0).val; have hx : win1_7.index t (0 : Fin 1) = 0 := rfl; rw [hx]; omega

theorem iblk1_7 (c : Dev nD) (t : Fin cfg1.N) : iblk m fs c 7 t = (VR m fs c main_arg7 : Vec F S8 .f32) := by
  funext j
  show VR m fs c main_arg7 (((cfg1.win 7).blk t).view.emb j) = VR m fs c main_arg7 j
  rw [emb1_7]

theorem emb1_8 (t : Fin cfg1.N) (j : ((cfg1.win 8).xblock (cfg1.grid.coords t)).Idx) : ((cfg1.win 8).blk t).view.emb j = j := by
  funext a; apply Fin.ext
  match a with
    | ⟨0, _⟩ => show win1_8.index t (0 : Fin 2) * 8 + 1 * (j 0).val = (j 0).val; have hx : win1_8.index t (0 : Fin 2) = 0 := rfl; rw [hx]; omega
    | ⟨1, _⟩ => show win1_8.index t (1 : Fin 2) * 8 + 1 * (j 1).val = (j 1).val; have hx : win1_8.index t (1 : Fin 2) = 0 := rfl; rw [hx]; omega

theorem iblk1_8 (c : Dev nD) (t : Fin cfg1.N) : iblk m fs c 8 t = (VR m fs c main_arg8 : Vec F S8x8 .f32) := by
  funext j
  show VR m fs c main_arg8 (((cfg1.win 8).blk t).view.emb j) = VR m fs c main_arg8 j
  rw [emb1_8]

theorem emb1_9 (t : Fin cfg1.N) (j : ((cfg1.win 9).xblock (cfg1.grid.coords t)).Idx) : ((cfg1.win 9).blk t).view.emb j = j := by
  funext a; apply Fin.ext
  match a with
    | ⟨0, _⟩ => show win1_9.index t (0 : Fin 1) * 8 + 1 * (j 0).val = (j 0).val; have hx : win1_9.index t (0 : Fin 1) = 0 := rfl; rw [hx]; omega

theorem iblk1_9 (c : Dev nD) (t : Fin cfg1.N) : iblk m fs c 9 t = (VR m fs c main_arg9 : Vec F S8 .f32) := by
  funext j
  show VR m fs c main_arg9 (((cfg1.win 9).blk t).view.emb j) = VR m fs c main_arg9 j
  rw [emb1_9]

theorem emb1_10 (t : Fin cfg1.N) (j : ((cfg1.win 10).xblock (cfg1.grid.coords t)).Idx) : ((cfg1.win 10).blk t).view.emb j = j := by
  funext a; apply Fin.ext
  match a with
    | ⟨0, _⟩ => show win1_10.index t (0 : Fin 2) * 8 + 1 * (j 0).val = (j 0).val; have hx : win1_10.index t (0 : Fin 2) = 0 := rfl; rw [hx]; omega
    | ⟨1, _⟩ => show win1_10.index t (1 : Fin 2) * 16 + 1 * (j 1).val = (j 1).val; have hx : win1_10.index t (1 : Fin 2) = 0 := rfl; rw [hx]; omega

theorem iblk1_10 (c : Dev nD) (t : Fin cfg1.N) : iblk m fs c 10 t = (VR m fs c main_arg10 : Vec F S8x16 .f32) := by
  funext j
  show VR m fs c main_arg10 (((cfg1.win 10).blk t).view.emb j) = VR m fs c main_arg10 j
  rw [emb1_10]

theorem emb1_11 (t : Fin cfg1.N) (j : ((cfg1.win 11).xblock (cfg1.grid.coords t)).Idx) : ((cfg1.win 11).blk t).view.emb j = j := by
  funext a; apply Fin.ext
  match a with
    | ⟨0, _⟩ => show win1_11.index t (0 : Fin 1) * 16 + 1 * (j 0).val = (j 0).val; have hx : win1_11.index t (0 : Fin 1) = 0 := rfl; rw [hx]; omega

theorem iblk1_11 (c : Dev nD) (t : Fin cfg1.N) : iblk m fs c 11 t = (VR m fs c main_arg11 : Vec F S16 .f32) := by
  funext j
  show VR m fs c main_arg11 (((cfg1.win 11).blk t).view.emb j) = VR m fs c main_arg11 j
  rw [emb1_11]

theorem emb1_12 (t : Fin cfg1.N) (j : ((cfg1.win 12).xblock (cfg1.grid.coords t)).Idx) : ((cfg1.win 12).blk t).view.emb j = j := by
  funext a; apply Fin.ext
  match a with
    | ⟨0, _⟩ => show win1_12.index t (0 : Fin 2) * 16 + 1 * (j 0).val = (j 0).val; have hx : win1_12.index t (0 : Fin 2) = 0 := rfl; rw [hx]; omega
    | ⟨1, _⟩ => show win1_12.index t (1 : Fin 2) * 16 + 1 * (j 1).val = (j 1).val; have hx : win1_12.index t (1 : Fin 2) = 0 := rfl; rw [hx]; omega

theorem iblk1_12 (c : Dev nD) (t : Fin cfg1.N) : iblk m fs c 12 t = (VR m fs c main_arg12 : Vec F S16x16 .f32) := by
  funext j
  show VR m fs c main_arg12 (((cfg1.win 12).blk t).view.emb j) = VR m fs c main_arg12 j
  rw [emb1_12]

theorem emb1_13 (t : Fin cfg1.N) (j : ((cfg1.win 13).xblock (cfg1.grid.coords t)).Idx) : ((cfg1.win 13).blk t).view.emb j = j := by
  funext a; apply Fin.ext
  match a with
    | ⟨0, _⟩ => show win1_13.index t (0 : Fin 1) * 16 + 1 * (j 0).val = (j 0).val; have hx : win1_13.index t (0 : Fin 1) = 0 := rfl; rw [hx]; omega

theorem iblk1_13 (c : Dev nD) (t : Fin cfg1.N) : iblk m fs c 13 t = (VR m fs c main_arg13 : Vec F S16 .f32) := by
  funext j
  show VR m fs c main_arg13 (((cfg1.win 13).blk t).view.emb j) = VR m fs c main_arg13 j
  rw [emb1_13]

theorem emb1_14 (t : Fin cfg1.N) (j : ((cfg1.win 14).xblock (cfg1.grid.coords t)).Idx) : ((cfg1.win 14).blk t).view.emb j = j := by
  funext a; apply Fin.ext
  match a with
    | ⟨0, _⟩ => show win1_14.index t (0 : Fin 2) * 16 + 1 * (j 0).val = (j 0).val; have hx : win1_14.index t (0 : Fin 2) = 0 := rfl; rw [hx]; omega
    | ⟨1, _⟩ => show win1_14.index t (1 : Fin 2) * 32 + 1 * (j 1).val = (j 1).val; have hx : win1_14.index t (1 : Fin 2) = 0 := rfl; rw [hx]; omega

theorem iblk1_14 (c : Dev nD) (t : Fin cfg1.N) : iblk m fs c 14 t = (VR m fs c main_arg14 : Vec F S16x32 .f32) := by
  funext j
  show VR m fs c main_arg14 (((cfg1.win 14).blk t).view.emb j) = VR m fs c main_arg14 j
  rw [emb1_14]

theorem emb1_15 (t : Fin cfg1.N) (j : ((cfg1.win 15).xblock (cfg1.grid.coords t)).Idx) : ((cfg1.win 15).blk t).view.emb j = j := by
  funext a; apply Fin.ext
  match a with
    | ⟨0, _⟩ => show win1_15.index t (0 : Fin 1) * 32 + 1 * (j 0).val = (j 0).val; have hx : win1_15.index t (0 : Fin 1) = 0 := rfl; rw [hx]; omega

theorem iblk1_15 (c : Dev nD) (t : Fin cfg1.N) : iblk m fs c 15 t = (VR m fs c main_arg15 : Vec F S32 .f32) := by
  funext j
  show VR m fs c main_arg15 (((cfg1.win 15).blk t).view.emb j) = VR m fs c main_arg15 j
  rw [emb1_15]

theorem emb1_16 (t : Fin cfg1.N) (j : ((cfg1.win 16).xblock (cfg1.grid.coords t)).Idx) : ((cfg1.win 16).blk t).view.emb j = j := by
  funext a; apply Fin.ext
  match a with
    | ⟨0, _⟩ => show win1_16.index t (0 : Fin 2) * 768 + 1 * (j 0).val = (j 0).val; have hx : win1_16.index t (0 : Fin 2) = 0 := rfl; rw [hx]; omega
    | ⟨1, _⟩ => show win1_16.index t (1 : Fin 2) * 128 + 1 * (j 1).val = (j 1).val; have hx : win1_16.index t (1 : Fin 2) = 0 := rfl; rw [hx]; omega

theorem iblk1_16 (c : Dev nD) (t : Fin cfg1.N) : iblk m fs c 16 t = (VR m fs c main_arg16 : Vec F S768x128 .f32) := by
  funext j
  show VR m fs c main_arg16 (((cfg1.win 16).blk t).view.emb j) = VR m fs c main_arg16 j
  rw [emb1_16]

theorem emb1_17 (t : Fin cfg1.N) (j : ((cfg1.win 17).xblock (cfg1.grid.coords t)).Idx) : ((cfg1.win 17).blk t).view.emb j = j := by
  funext a; apply Fin.ext
  match a with
    | ⟨0, _⟩ => show win1_17.index t (0 : Fin 1) * 128 + 1 * (j 0).val = (j 0).val; have hx : win1_17.index t (0 : Fin 1) = 0 := rfl; rw [hx]; omega

theorem iblk1_17 (c : Dev nD) (t : Fin cfg1.N) : iblk m fs c 17 t = (VR m fs c main_arg17 : Vec F S128 .f32) := by
  funext j
  show VR m fs c main_arg17 (((cfg1.win 17).blk t).view.emb j) = VR m fs c main_arg17 j
  rw [emb1_17]

theorem emb1_18 (t : Fin cfg1.N) (j : ((cfg1.win 18).xblock (cfg1.grid.coords t)).Idx) : ((cfg1.win 18).blk t).view.emb j = j := by
  funext a; apply Fin.ext
  match a with
    | ⟨0, _⟩ => show win1_18.index t (0 : Fin 2) * 128 + 1 * (j 0).val = (j 0).val; have hx : win1_18.index t (0 : Fin 2) = 0 := rfl; rw [hx]; omega
    | ⟨1, _⟩ => show win1_18.index t (1 : Fin 2) * 2 + 1 * (j 1).val = (j 1).val; have hx : win1_18.index t (1 : Fin 2) = 0 := rfl; rw [hx]; omega

theorem iblk1_18 (c : Dev nD) (t : Fin cfg1.N) : iblk m fs c 18 t = (VR m fs c main_arg18 : Vec F S128x2 .f32) := by
  funext j
  show VR m fs c main_arg18 (((cfg1.win 18).blk t).view.emb j) = VR m fs c main_arg18 j
  rw [emb1_18]

theorem emb1_19 (t : Fin cfg1.N) (j : ((cfg1.win 19).xblock (cfg1.grid.coords t)).Idx) : ((cfg1.win 19).blk t).view.emb j = j := by
  funext a; apply Fin.ext
  match a with
    | ⟨0, _⟩ => show win1_19.index t (0 : Fin 1) * 2 + 1 * (j 0).val = (j 0).val; have hx : win1_19.index t (0 : Fin 1) = 0 := rfl; rw [hx]; omega

theorem iblk1_19 (c : Dev nD) (t : Fin cfg1.N) : iblk m fs c 19 t = (VR m fs c main_arg19 : Vec F S2 .f32) := by
  funext j
  show VR m fs c main_arg19 (((cfg1.win 19).blk t).view.emb j) = VR m fs c main_arg19 j
  rw [emb1_19]

theorem emb1_20 (t : Fin cfg1.N) (j : ((cfg1.win 20).xblock (cfg1.grid.coords t)).Idx) : ((cfg1.win 20).blk t).view.emb j = j := by
  funext a; apply Fin.ext
  match a with
    | ⟨0, _⟩ => show win1_20.index t (0 : Fin 2) * 1 + 1 * (j 0).val = (j 0).val; have hx : win1_20.index t (0 : Fin 2) = 0 := rfl; rw [hx]; omega
    | ⟨1, _⟩ => show win1_20.index t (1 : Fin 2) * 2 + 1 * (j 1).val = (j 1).val; have hx : win1_20.index t (1 : Fin 2) = 0 := rfl; rw [hx]; omega

theorem iblk1_20 (c : Dev nD) (t : Fin cfg1.N) : iblk m fs c 20 t = (VR m fs c main_v3 : Vec F S1x2 .f32) := by
  funext j
  show VR m fs c main_v3 (((cfg1.win 20).blk t).view.emb j) = VR m fs c main_v3 j
  rw [emb1_20]

/-! ## What the one point writes back, and the result array -/

/-- The interface function of the arrays as the region finds them. -/
def GV (c : Dev nD) : Buf (Elt F) ((SparseCore.T (τ := τ) c).loc main_v3) :=
  Cert.Proof.Iface.kerOut (VR m fs c main_v2 : Vec F S24x128 .f32)
    (VR m fs c main_arg0 : Vec F S24x128 .f32)
    (VR m fs c main_arg2 : Vec F S128x4 .f32)
    (VR m fs c main_arg3 : Vec F S4 .f32)
    (VR m fs c main_arg4 : Vec F S4x4 .f32)
    (VR m fs c main_arg5 : Vec F S4 .f32)
    (VR m fs c main_arg6 : Vec F S4x8 .f32)
    (VR m fs c main_arg7 : Vec F S8 .f32)
    (VR m fs c main_arg8 : Vec F S8x8 .f32)
    (VR m fs c main_arg9 : Vec F S8 .f32)
    (VR m fs c main_arg10 : Vec F S8x16 .f32)
    (VR m fs c main_arg11 : Vec F S16 .f32)
    (VR m fs c main_arg12 : Vec F S16x16 .f32)
    (VR m fs c main_arg13 : Vec F S16 .f32)
    (VR m fs c main_arg14 : Vec F S16x32 .f32)
    (VR m fs c main_arg15 : Vec F S32 .f32)
    (VR m fs c main_arg16 : Vec F S768x128 .f32)
    (VR m fs c main_arg17 : Vec F S128 .f32)
    (VR m fs c main_arg18 : Vec F S128x2 .f32)
    (VR m fs c main_arg19 : Vec F S2 .f32)

theorem flushed20_eq (c : Dev nD) (t : Fin cfg1.N) :
    (dat m fs c).flushed 20 t = ((cfg1.win 20).blk t).view.read (Elt F) (GV m fs c) := by
  show (cfg1.win 20).cut (grid1.coords t) ((dat m fs c).after 20 t) = _
  rw [after1_20, out20_eq, iblk1_0, iblk1_1, iblk1_2, iblk1_3, iblk1_4, iblk1_5, iblk1_6, iblk1_7, iblk1_8, iblk1_9, iblk1_10, iblk1_11, iblk1_12, iblk1_13, iblk1_14, iblk1_15, iblk1_16, iblk1_17, iblk1_18, iblk1_19]
  funext j
  show GV m fs c j = GV m fs c (((cfg1.win 20).blk t).view.emb j)
  rw [emb1_20]

/-- Every index of the result array is in the one point's block. -/
theorem cover20_arr (i : S1x2.Idx) : ∃ t : Fin cfg1.N, (cfg1.win 20).flush t = true ∧ i ∈ ((cfg1.win 20).blk t).view.set := by
  refine ⟨t1_0, flush1_20 t1_0, ?_⟩
  show i ∈ ((View.whole main_v3).slice (win1_20.rect t1_0)).set
  rw [View.set_slice_whole, Rect.mem_set_unit]
  intro a
  match a with
  | ⟨0, _⟩ => show win1_20.index t1_0 (0 : Fin 2) * 1 ≤ (i 0).val ∧ (i 0).val < win1_20.index t1_0 (0 : Fin 2) * 1 + 1; have hx : win1_20.index t1_0 (0 : Fin 2) = 0 := rfl; have hi : (i 0).val < 1 := (i 0).isLt; rw [hx]; omega
  | ⟨1, _⟩ => show win1_20.index t1_0 (1 : Fin 2) * 2 ≤ (i 1).val ∧ (i 1).val < win1_20.index t1_0 (1 : Fin 2) * 2 + 2; have hx : win1_20.index t1_0 (1 : Fin 2) = 0 := rfl; have hi : (i 1).val < 2 := (i 1).isLt; rw [hx]; omega

/-- The result array when the region is left. -/
theorem denseOut_GV (c : Dev nD) : denseOut m fs c = GV m fs c :=
  (dat m fs c).arrAt_eq_of_cover 20 (GV m fs c) (fun t _ => flushed20_eq m fs c t) cover20_arr

/-- The same, over the launch contents. -/
theorem denseOut_eq (c : Dev nD) : denseOut m fs c = (outv m c (fs c) : Buf (Elt F) ((SparseCore.T (τ := τ) c).loc main_v3)) := by
  rw [denseOut_GV]
  unfold GV outv
  rw [VR_v2, VR_ne m fs c (show main_arg0 ≠ main_v2 by decide), VR_ne m fs c (show main_arg2 ≠ main_v2 by decide), VR_ne m fs c (show main_arg3 ≠ main_v2 by decide), VR_ne m fs c (show main_arg4 ≠ main_v2 by decide), VR_ne m fs c (show main_arg5 ≠ main_v2 by decide), VR_ne m fs c (show main_arg6 ≠ main_v2 by decide), VR_ne m fs c (show main_arg7 ≠ main_v2 by decide), VR_ne m fs c (show main_arg8 ≠ main_v2 by decide), VR_ne m fs c (show main_arg9 ≠ main_v2 by decide), VR_ne m fs c (show main_arg10 ≠ main_v2 by decide), VR_ne m fs c (show main_arg11 ≠ main_v2 by decide), VR_ne m fs c (show main_arg12 ≠ main_v2 by decide), VR_ne m fs c (show main_arg13 ≠ main_v2 by decide), VR_ne m fs c (show main_arg14 ≠ main_v2 by decide), VR_ne m fs c (show main_arg15 ≠ main_v2 by decide), VR_ne m fs c (show main_arg16 ≠ main_v2 by decide), VR_ne m fs c (show main_arg17 ≠ main_v2 by decide), VR_ne m fs c (show main_arg18 ≠ main_v2 by decide), VR_ne m fs c (show main_arg19 ≠ main_v2 by decide)]

end Cert.Proof.KI

end
-- ==== Proof.Main.lean ====
/-
  @main on the TensorCore of a device, the launch element that funds it, and how the final memory is read.

  @main builds an array of zeros (a constant, broadcast), calls the sparse kernel on the edge array and the zeros
  (the call hands the SparseCore the edge array, the zeros and the result array, and takes them back with the
  kernel's guarantee `Good` of the result), reshapes the result to 24 × 128, and runs the dense stage as one kernel
  region on the reshaped counts and the nineteen launch operands. The region's result array ends holding the
  interface function `kerOut` of those twenty arrays; every argument of @main is unchanged.
-/
import proofs.«207914_g72782515798130_cont_9to1c4b_353_41_alg».proof.Proof.DenseVal

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The pipelines at their (absent) prefetched tables. -/
abbrev cfgsP : Fin 1 → Pipeline.Cfg sig Λ₀ := Pipeline.pin (pcfgs (F := F)) adm

/-- The dense stage's staging cells are pairwise distinct. -/
theorem cellOf_inj' : Function.Injective (Pipeline.cellOf (nD := nD) (τ := τ) (cfgsP (F := F))) := cellOf_inj

/-- What the launch deals the TensorCore of `d` for the dense stage: its staging cells' ghost state and the duty
    tokens of its transfers. -/
def G (d : Dev nD) : sProp 𝕄 :=
  iprop(Pipeline.cellsGhost (cfgsP (F := F)) ER 0 d ∗ Pipeline.toksInit (cfgsP (F := F)) ER 0 d)

/-- The launch element: the handshakes' rounds, the staging cells' rounds, no counter yet. -/
def u₀ : UU := (initOf (K (F := F)).hsCells (K (F := F)).hsToks,
  (initOf (Pipeline.cells (cfgsP (F := F)) cellOf_inj') (Pipeline.launchToks (cfgsP (F := F)) cellOf_inj'), 1))

theorem bigSep_fin1 (Φ : Fin 1 → sProp 𝕄) : bigSep Finset.univ Φ = Φ 0 := by
  rw [show (Finset.univ : Finset (Fin 1)) = {0} from by decide, bigSep_singleton]

theorem bigSep_emp' {I : Type} (s : Finset I) : (bigSep s fun _ => iprop(emp)) = (iprop(emp) : sProp 𝕄) := bigSep_emp_const s

variable (Good : (d : Dev nD) → Buf (Elt F) (cLoc d) → Prop)

/-- The staging cells' rounds fund every device's share. -/
theorem ghost_deal :
    (BI.own (((Emb.inl : Emb UR (UR × Counters)).trans (embR : Emb (UR × Counters) 𝕄))
        (initOf (Pipeline.cells (cfgsP (F := F)) cellOf_inj') (Pipeline.launchToks (cfgsP (F := F)) cellOf_inj'))) : sProp 𝕄)
      ⊢ iprop(|==> bigSep Finset.univ fun d : Dev nD => G (F := F) d) := by
  show (BI.own (ER (initOf (Pipeline.cells (cfgsP (F := F)) cellOf_inj') (Pipeline.launchToks (cfgsP (F := F)) cellOf_inj'))) : sProp 𝕄) ⊢ _
  have e1 : (bigSep Finset.univ fun c : Dev nD => bigSep Finset.univ fun p : Fin 1 => Pipeline.cellsGhost (cfgsP (F := F)) ER p c : sProp 𝕄)
      = bigSep Finset.univ fun c : Dev nD => Pipeline.cellsGhost (cfgsP (F := F)) ER 0 c :=
    bigSep_congr fun c _ => bigSep_fin1 _
  have e2 : (bigSep Finset.univ fun c : Dev nD => bigSep Finset.univ fun p : Fin 1 => (Pipeline.toksInit (cfgsP (F := F)) ER p c : sProp 𝕄))
      = bigSep Finset.univ fun c : Dev nD => Pipeline.toksInit (cfgsP (F := F)) ER 0 c :=
    bigSep_congr fun c _ => bigSep_fin1 _
  iintro Hu
  imod (Pipeline.fund_ghost (cfgsP (F := F)) ER cellOf_inj') $$ Hu with ⟨Hg, Ht⟩
  imodintro
  unfold G
  rw [bigSep_sep']
  isplitl [Hg]
  · iapply (Entails.of_eq e1); iexact Hg
  · iapply (Entails.of_eq e2); iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Good).x q thr) := by
  unfold u₀
  iintro Hu
  ihave H := (ownU_pair _ _) $$ Hu
  icases H with ⟨HH, HR⟩
  ihave HR' := (own_pair_emb _ _ _) $$ HR
  icases HR' with ⟨HR, -⟩
  imod (ghost_deal (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- @main's twenty arguments. -/
abbrev argRefs : Finset (Ref sig .tc) := {main_arg0, main_arg1, main_arg2, main_arg3, main_arg4, main_arg5, main_arg6, main_arg7, main_arg8, main_arg9, main_arg10, main_arg11, main_arg12, main_arg13, main_arg14, main_arg15, main_arg16, main_arg17, main_arg18, main_arg19}

theorem argRefs_chain (Φ : Ref sig .tc → sProp 𝕄) :
    bigSep argRefs Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_arg10 ∗ Φ main_arg11 ∗ Φ main_arg12 ∗ Φ main_arg13 ∗ Φ main_arg14 ∗ Φ main_arg15 ∗ Φ main_arg16 ∗ Φ main_arg17 ∗ Φ main_arg18 ∗ Φ main_arg19) := by
  rw [bigSep_eq_bigSepL_of_eq [main_arg0, main_arg1, main_arg2, main_arg3, main_arg4, main_arg5, main_arg6, main_arg7, main_arg8, main_arg9, main_arg10, main_arg11, main_arg12, main_arg13, main_arg14, main_arg15, main_arg16, main_arg17, main_arg18, main_arg19] (by decide) (by decide)]
  rfl

/-- What @main leaves the claim on device `d`: the result array at the dense stage's function of the kernel's
    counts and the launch operands, the counts being as the kernel guarantees; every argument at its launch contents. -/
abbrev FIN (d : Dev nD) : sProp 𝕄 :=
  iprop(∃ f, ⌜Good d f⌝ ∗ ((SparseCore.T (τ := τ) d).loc main_v3 ↦{fullShare} (outv m d f : Buf (Elt F) ((SparseCore.T (τ := τ) d).loc main_v3)))
    ∗ bigSep argRefs fun b => (SparseCore.T (τ := τ) d).loc b ↦{fullShare} m ((SparseCore.T (τ := τ) d).loc b))

def fq (d : Dev nD) (s' : Phys nD τ sig (Elt F)) : Prop :=
  ∃ f, Good d f ∧ s'.mem.mem ((SparseCore.T (τ := τ) d).loc main_v3) = (outv m d f : Buf (Elt F) ((SparseCore.T (τ := τ) d).loc main_v3))
    ∧ ∀ b ∈ argRefs, s'.mem.mem ((SparseCore.T (τ := τ) d).loc b) = m ((SparseCore.T (τ := τ) d).loc b)

theorem hfin (d : Dev nD) (s' : Phys nD τ sig (Elt F)) : iprop(FIN m Good d ∗ SI s') ⊢ (⌜fq m Good d s'⌝ : sProp 𝕄) := by
  iintro ⟨⟨%f, %hG, Hv3, Hargs⟩, HSI⟩
  ihave Hr := (pointsTo_read_all argRefs (fun b => (SparseCore.T (τ := τ) d).loc b) (fun b => m ((SparseCore.T (τ := τ) d).loc b)) s') $$ [Hargs HSI]
  · isplitl [Hargs] <;> iassumption
  icases Hr with ⟨%ha, HSI⟩
  ihave H := (SI_pointsTo_agree (st := s') (ℓ := (SparseCore.T (τ := τ) d).loc main_v3) (I := Finset.univ) (q := fullShare)
      (f := (outv m d f : Buf (Elt F) ((SparseCore.T (τ := τ) d).loc main_v3)))) $$ [HSI Hv3]
  · isplitl [HSI] <;> iassumption
  icases H with %hv
  ipureintro
  exact ⟨f, hG, funext fun i => hv i (Finset.mem_univ i), fun b hb => ha b hb⟩

/-! ## @main's buffers and host operations -/

/-- The TensorCore's unscoped buffers one by one: the dense stage's windows' arrays, then the four others. -/
theorem tcBufs_eq (d : Dev nD) (W : (b : Ref sig .tc) → Buf (Elt F) ((SparseCore.T (τ := τ) d).loc b)) :
    (unscopedBufs d W : sProp 𝕄)
      = iprop((((SparseCore.T (τ := τ) d).loc main_v2 ↦{fullShare} W main_v2)
          ∗ ((SparseCore.T (τ := τ) d).loc main_arg0 ↦{fullShare} W main_arg0)
          ∗ ((SparseCore.T (τ := τ) d).loc main_arg2 ↦{fullShare} W main_arg2)
          ∗ ((SparseCore.T (τ := τ) d).loc main_arg3 ↦{fullShare} W main_arg3)
          ∗ ((SparseCore.T (τ := τ) d).loc main_arg4 ↦{fullShare} W main_arg4)
          ∗ ((SparseCore.T (τ := τ) d).loc main_arg5 ↦{fullShare} W main_arg5)
          ∗ ((SparseCore.T (τ := τ) d).loc main_arg6 ↦{fullShare} W main_arg6)
          ∗ ((SparseCore.T (τ := τ) d).loc main_arg7 ↦{fullShare} W main_arg7)
          ∗ ((SparseCore.T (τ := τ) d).loc main_arg8 ↦{fullShare} W main_arg8)
          ∗ ((SparseCore.T (τ := τ) d).loc main_arg9 ↦{fullShare} W main_arg9)
          ∗ ((SparseCore.T (τ := τ) d).loc main_arg10 ↦{fullShare} W main_arg10)
          ∗ ((SparseCore.T (τ := τ) d).loc main_arg11 ↦{fullShare} W main_arg11)
          ∗ ((SparseCore.T (τ := τ) d).loc main_arg12 ↦{fullShare} W main_arg12)
          ∗ ((SparseCore.T (τ := τ) d).loc main_arg13 ↦{fullShare} W main_arg13)
          ∗ ((SparseCore.T (τ := τ) d).loc main_arg14 ↦{fullShare} W main_arg14)
          ∗ ((SparseCore.T (τ := τ) d).loc main_arg15 ↦{fullShare} W main_arg15)
          ∗ ((SparseCore.T (τ := τ) d).loc main_arg16 ↦{fullShare} W main_arg16)
          ∗ ((SparseCore.T (τ := τ) d).loc main_arg17 ↦{fullShare} W main_arg17)
          ∗ ((SparseCore.T (τ := τ) d).loc main_arg18 ↦{fullShare} W main_arg18)
          ∗ ((SparseCore.T (τ := τ) d).loc main_arg19 ↦{fullShare} W main_arg19)
          ∗ ((SparseCore.T (τ := τ) d).loc main_v3 ↦{fullShare} W main_v3))
        ∗ (((SparseCore.T (τ := τ) d).loc main_arg1 ↦{fullShare} W main_arg1) ∗ ((SparseCore.T (τ := τ) d).loc main_cst ↦{fullShare} W main_cst) ∗ ((SparseCore.T (τ := τ) d).loc main_v0 ↦{fullShare} W main_v0) ∗ ((SparseCore.T (τ := τ) d).loc main_v1 ↦{fullShare} W main_v1))) := by
  have e1 : (unscopedBufs d W : sProp 𝕄) = _ := Pipeline.unscopedBufs_split cfgs 0 winFacts1.arr_unscoped winFacts1.arr_inj d W
  have e2 : (Pipeline.unscopedRest (Ix := HIx 1) (Name := ℕ) (U := UU) (Lvl := ℕ) (Val := Elt F) (cfgs 0).spec d W : sProp 𝕄) = _ :=
    unscopedRest1_eq (Ix := HIx 1) (Val := Elt F) (Name := ℕ) (U := UU) (Lvl := ℕ) d W
  rw [e1, e2, bigSep_W1]

abbrev cst' : DevRef τ sig := Proc.devRef .tc (main_cst : Ref sig .tc)
abbrev z' : DevRef τ sig := Proc.devRef .tc (main_v0 : Ref sig .tc)
abbrev c' : DevRef τ sig := Proc.devRef .tc (main_v1 : Ref sig .tc)
abbrev v2' : DevRef τ sig := Proc.devRef .tc (main_v2 : Ref sig .tc)

abbrev op1 : HloOp τ sig (Elt F) := StableHlo.nullary main_cst (constant (F := F) S_ .f32 0x00000000#32)
abbrev op2 : HloOp τ sig (Elt F) :=
  StableHlo.unary main_cst main_v0 (broadcastInDim S9216 ![] bcast_S_S9216 : (⟨S_, .f32⟩ : BufTy).Contents (Elt F) → (⟨S9216, .f32⟩ : BufTy).Contents (Elt F))
abbrev opR : HloOp τ sig (Elt F) := StableHlo.reshape main_v1 main_v2 rfl shapeCasts_S3072_S24x128

theorem held1 (d : Dev nD) (a : DevRef τ sig) (W : Valuation τ sig (Elt F)) :
    (held (T d) {a} W : sProp 𝕄) = ((d, a) ↦{fullShare} W a) := by
  unfold held; rw [bigSep_singleton]; try rfl

theorem held2 (d : Dev nD) {a b : DevRef τ sig} (h : a ≠ b) (W : Valuation τ sig (Elt F)) :
    (held (T d) {a, b} W : sProp 𝕄) = iprop(((d, a) ↦{fullShare} W a) ∗ ((d, b) ↦{fullShare} W b)) := by
  unfold held
  rw [SparseCore.bigSep_insert' (by rw [Finset.mem_singleton]; exact h), bigSep_singleton]; try rfl

theorem pt_congr (ℓ : Loc nD τ sig) {f g : Buf (Elt F) ℓ} (h : f = g) : (ℓ ↦{fullShare} f : sProp 𝕄) ⊢ ℓ ↦{fullShare} g := by
  subst h; exact .rfl

/-- The launch valuation; after the constant; after the broadcast; after the call, the result array at `f`. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)
def V3 (d : Dev nD) (f : Buf (Elt F) (cLoc d)) : Valuation τ sig (Elt F) := Function.update (V0 m d) c' f

theorem V1_z (d : Dev nD) : V1 m d z' = V0 m d z' := StableHlo.nullary_result_ne _ _ _ _ (show main_v0 ≠ main_cst by decide)
theorem V2_z (d : Dev nD) : V2 m d z' = (Z d : Buf (Elt F) (zLoc d)) := by
  show (op2 (F := F)).result ((op1 (F := F)).result (V0 m d)) (Proc.devRef .tc main_v0) = _
  rw [StableHlo.unary_result', StableHlo.nullary_result']
  rfl
theorem V3_c (d : Dev nD) (f : Buf (Elt F) (cLoc d)) : V3 m d f c' = f := Function.update_self ..
theorem V3_v2 (d : Dev nD) (f : Buf (Elt F) (cLoc d)) : V3 m d f v2' = V0 m d v2' := Function.update_of_ne (show v2' ≠ c' by decide) ..
theorem resh_v2 (d : Dev nD) (f : Buf (Elt F) (cLoc d)) :
    (opR (F := F)).result (V3 m d f) v2' = (cnt d f : Buf (Elt F) ((SparseCore.T (τ := τ) d).loc main_v2)) := by
  show (opR (F := F)).result (V3 m d f) (Proc.devRef .tc main_v2) = _
  rw [StableHlo.reshape_result', V3_c]
  rfl

/-- What the call takes for its one SparseCore, and what it hands back. -/
theorem st0_eq (d : Dev nD) : (bigSep Finset.univ fun c : Fin ((K (F := F)).nCore 0) => (P m Good).st 0 d c) = given m d := by
  show (bigSep (Finset.univ : Finset (Fin 1)) fun _ => given m d) = _
  rw [bigSep_fin1]
theorem dn0_eq (d : Dev nD) : (bigSep Finset.univ fun c : Fin ((K (F := F)).nCore 0) => (P m Good).dn 0 d c) = back m Good d := by
  show (bigSep (Finset.univ : Finset (Fin 1)) fun _ => back m Good d) = _
  rw [bigSep_fin1]

/-- After the call the TensorCore owes nothing: its state holds its debt at zero, and takes it back. -/
theorem tcSt_owes (d : Dev nD) (n : ℕ) (hn : n = 1) :
    ((K (F := F)).tcSt EH d n : sProp 𝕄) ⊢ iprop(owesTc (F := F) d ∗ (owesTc (F := F) d -∗ (K (F := F)).tcSt EH d 1)) := by
  subst hn
  unfold SparseCore.Cfg.tcSt
  rw [(K (F := F)).Otc_end d (le_refl 1)]
  iintro ⟨HO, Hrest⟩
  isplitl [HO]; · iexact HO
  iintro HO
  isplitl [HO]; · iexact HO
  iexact Hrest

/-! ## The dense stage's region inside @main -/

variable (fs : (c : Dev nD) → Buf (Elt F) (cLoc c))

/-- The windows' arrays one by one at the launch contents, the counts' at `g`, the result's at `r`. -/
abbrev plain (d : Dev nD) (g : Buf (Elt F) ((SparseCore.T (τ := τ) d).loc main_v2)) (r : Buf (Elt F) ((SparseCore.T (τ := τ) d).loc main_v3)) : sProp 𝕄 :=
  iprop(((SparseCore.T (τ := τ) d).loc main_v2 ↦{fullShare} g)
    ∗ ((SparseCore.T (τ := τ) d).loc main_arg0 ↦{fullShare} m ((SparseCore.T (τ := τ) d).loc main_arg0))
    ∗ ((SparseCore.T (τ := τ) d).loc main_arg2 ↦{fullShare} m ((SparseCore.T (τ := τ) d).loc main_arg2))
    ∗ ((SparseCore.T (τ := τ) d).loc main_arg3 ↦{fullShare} m ((SparseCore.T (τ := τ) d).loc main_arg3))
    ∗ ((SparseCore.T (τ := τ) d).loc main_arg4 ↦{fullShare} m ((SparseCore.T (τ := τ) d).loc main_arg4))
    ∗ ((SparseCore.T (τ := τ) d).loc main_arg5 ↦{fullShare} m ((SparseCore.T (τ := τ) d).loc main_arg5))
    ∗ ((SparseCore.T (τ := τ) d).loc main_arg6 ↦{fullShare} m ((SparseCore.T (τ := τ) d).loc main_arg6))
    ∗ ((SparseCore.T (τ := τ) d).loc main_arg7 ↦{fullShare} m ((SparseCore.T (τ := τ) d).loc main_arg7))
    ∗ ((SparseCore.T (τ := τ) d).loc main_arg8 ↦{fullShare} m ((SparseCore.T (τ := τ) d).loc main_arg8))
    ∗ ((SparseCore.T (τ := τ) d).loc main_arg9 ↦{fullShare} m ((SparseCore.T (τ := τ) d).loc main_arg9))
    ∗ ((SparseCore.T (τ := τ) d).loc main_arg10 ↦{fullShare} m ((SparseCore.T (τ := τ) d).loc main_arg10))
    ∗ ((SparseCore.T (τ := τ) d).loc main_arg11 ↦{fullShare} m ((SparseCore.T (τ := τ) d).loc main_arg11))
    ∗ ((SparseCore.T (τ := τ) d).loc main_arg12 ↦{fullShare} m ((SparseCore.T (τ := τ) d).loc main_arg12))
    ∗ ((SparseCore.T (τ := τ) d).loc main_arg13 ↦{fullShare} m ((SparseCore.T (τ := τ) d).loc main_arg13))
    ∗ ((SparseCore.T (τ := τ) d).loc main_arg14 ↦{fullShare} m ((SparseCore.T (τ := τ) d).loc main_arg14))
    ∗ ((SparseCore.T (τ := τ) d).loc main_arg15 ↦{fullShare} m ((SparseCore.T (τ := τ) d).loc main_arg15))
    ∗ ((SparseCore.T (τ := τ) d).loc main_arg16 ↦{fullShare} m ((SparseCore.T (τ := τ) d).loc main_arg16))
    ∗ ((SparseCore.T (τ := τ) d).loc main_arg17 ↦{fullShare} m ((SparseCore.T (τ := τ) d).loc main_arg17))
    ∗ ((SparseCore.T (τ := τ) d).loc main_arg18 ↦{fullShare} m ((SparseCore.T (τ := τ) d).loc main_arg18))
    ∗ ((SparseCore.T (τ := τ) d).loc main_arg19 ↦{fullShare} m ((SparseCore.T (τ := τ) d).loc main_arg19))
    ∗ ((SparseCore.T (τ := τ) d).loc main_v3 ↦{fullShare} r))

theorem chainV_VR (d : Dev nD) (r : Buf (Elt F) ((SparseCore.T (τ := τ) d).loc main_v3)) :
    (chainV d (VR m fs d) r : sProp 𝕄) = plain m d (cnt d (fs d)) r := by
  show iprop(((SparseCore.T (τ := τ) d).loc main_v2 ↦{fullShare} VR m fs d main_v2) ∗ ((SparseCore.T (τ := τ) d).loc main_arg0 ↦{fullShare} VR m fs d main_arg0) ∗ ((SparseCore.T (τ := τ) d).loc main_arg2 ↦{fullShare} VR m fs d main_arg2) ∗ ((SparseCore.T (τ := τ) d).loc main_arg3 ↦{fullShare} VR m fs d main_arg3) ∗ ((SparseCore.T (τ := τ) d).loc main_arg4 ↦{fullShare} VR m fs d main_arg4) ∗ ((SparseCore.T (τ := τ) d).loc main_arg5 ↦{fullShare} VR m fs d main_arg5) ∗ ((SparseCore.T (τ := τ) d).loc main_arg6 ↦{fullShare} VR m fs d main_arg6) ∗ ((SparseCore.T (τ := τ) d).loc main_arg7 ↦{fullShare} VR m fs d main_arg7) ∗ ((SparseCore.T (τ := τ) d).loc main_arg8 ↦{fullShare} VR m fs d main_arg8) ∗ ((SparseCore.T (τ := τ) d).loc main_arg9 ↦{fullShare} VR m fs d main_arg9) ∗ ((SparseCore.T (τ := τ) d).loc main_arg10 ↦{fullShare} VR m fs d main_arg10) ∗ ((SparseCore.T (τ := τ) d).loc main_arg11 ↦{fullShare} VR m fs d main_arg11) ∗ ((SparseCore.T (τ := τ) d).loc main_arg12 ↦{fullShare} VR m fs d main_arg12) ∗ ((SparseCore.T (τ := τ) d).loc main_arg13 ↦{fullShare} VR m fs d main_arg13) ∗ ((SparseCore.T (τ := τ) d).loc main_arg14 ↦{fullShare} VR m fs d main_arg14) ∗ ((SparseCore.T (τ := τ) d).loc main_arg15 ↦{fullShare} VR m fs d main_arg15) ∗ ((SparseCore.T (τ := τ) d).loc main_arg16 ↦{fullShare} VR m fs d main_arg16) ∗ ((SparseCore.T (τ := τ) d).loc main_arg17 ↦{fullShare} VR m fs d main_arg17) ∗ ((SparseCore.T (τ := τ) d).loc main_arg18 ↦{fullShare} VR m fs d main_arg18) ∗ ((SparseCore.T (τ := τ) d).loc main_arg19 ↦{fullShare} VR m fs d main_arg19) ∗ ((SparseCore.T (τ := τ) d).loc main_v3 ↦{fullShare} r)) = _
  rw [VR_v2, VR_ne m fs d (show main_arg0 ≠ main_v2 by decide), VR_ne m fs d (show main_arg2 ≠ main_v2 by decide), VR_ne m fs d (show main_arg3 ≠ main_v2 by decide), VR_ne m fs d (show main_arg4 ≠ main_v2 by decide), VR_ne m fs d (show main_arg5 ≠ main_v2 by decide), VR_ne m fs d (show main_arg6 ≠ main_v2 by decide), VR_ne m fs d (show main_arg7 ≠ main_v2 by decide), VR_ne m fs d (show main_arg8 ≠ main_v2 by decide), VR_ne m fs d (show main_arg9 ≠ main_v2 by decide), VR_ne m fs d (show main_arg10 ≠ main_v2 by decide), VR_ne m fs d (show main_arg11 ≠ main_v2 by decide), VR_ne m fs d (show main_arg12 ≠ main_v2 by decide), VR_ne m fs d (show main_arg13 ≠ main_v2 by decide), VR_ne m fs d (show main_arg14 ≠ main_v2 by decide), VR_ne m fs d (show main_arg15 ≠ main_v2 by decide), VR_ne m fs d (show main_arg16 ≠ main_v2 by decide), VR_ne m fs d (show main_arg17 ≠ main_v2 by decide), VR_ne m fs d (show main_arg18 ≠ main_v2 by decide), VR_ne m fs d (show main_arg19 ≠ main_v2 by decide)]

/-- The dense stage's call: the region rule at the dense stage's proof data, under the lifting of the program's
    signature to the launch's. -/
theorem wp_dense (κ : GSem nD τ sig → ℕ) (d : Dev nD) (Φ : PUnit → sProp 𝕄) :
    iprop((K (F := F)).ctx EH (P m Good) κ ∗ boundary (SparseCore.T (τ := τ) d) ∗ plain m d (cnt d (fs d)) (m ((SparseCore.T (τ := τ) d).loc main_v3)) ∗ owesTc (F := F) d ∗ G (F := F) d
        ∗ (iprop(boundary (SparseCore.T (τ := τ) d) ∗ plain m d (cnt d (fs d)) (outv m d (fs d) : Buf (Elt F) ((SparseCore.T (τ := τ) d).loc main_v3)) ∗ owesTc (F := F) d) -∗ Φ ⟨⟩))
      ⊢ wp frame (wpE ((K (F := F)).defs (D (F := F))) 𝒱 (SparseCore.T (τ := τ) d) none) Set.univ
          (Prog.lift (.customCall (SparseCore.inner (Pipeline.entry 0)) ())) Φ := by
  have epre : (chainV d (VR m fs d) (VR m fs d main_v3) : sProp 𝕄) = plain m d (cnt d (fs d)) (m ((SparseCore.T (τ := τ) d).loc main_v3)) := by
    rw [chainV_VR, VR_ne m fs d (show main_v3 ≠ main_v2 by decide)]
  have epost : (chainV d (VR m fs d) (denseOut m fs d) : sProp 𝕄) = plain m d (cnt d (fs d)) (outv m d (fs d) : Buf (Elt F) ((SparseCore.T (τ := τ) d).loc main_v3)) := by
    rw [chainV_VR, denseOut_eq]
  unfold G
  iintro ⟨#Hctx, Hb, Hpre, HO, ⟨Hcg, Htk⟩, Hk⟩
  ihave Hlev := (SparseCore.Cfg.ctx_levAts κ) $$ Hctx
  iapply ((K (F := F)).wp_liftProg (D (F := F)) 𝒱 (SparseCore.T (τ := τ) d) Set.univ none
      (Prog.op (TpuEff.customCall (Pipeline.entry 0) ()) (fun _ => Prog.ret PUnit.unit) : Prog (TpuEff nD τ sig (Elt F) (ΛP (F := F)) .tc) PUnit) Φ)
  iapply (Pipeline.RegionSeg.wp (pcfgs (F := F)) adm (pdats m fs) none cellOf_inj' ER (defs₀ (F := F)) 𝒱₀ (K (F := F)).L (K (F := F)).lev
      (reg m fs) d none (fun u hu => nomatch hu) (fun _ => Prog.ret PUnit.unit) Φ)
  isplitl [Hk]
  · iintro ⟨Hb, Hpost⟩
    ihave Hpost' := (show ((reg m fs).post d : sProp 𝕄) ⊢ iprop(chainV d (VR m fs d) (denseOut m fs d) ∗ owesTc (F := F) d) from .rfl) $$ Hpost
    icases Hpost' with ⟨Hch, HO⟩
    ihave Hch' := (Entails.of_eq epost) $$ Hch
    rw [wp_ret]; imodintro
    iapply Hk
    isplitl [Hb]; · iexact Hb
    isplitl [Hch']; · iexact Hch'
    iexact HO
  isplitl [Hb]; · iexact Hb
  isplitl [Hpre HO]
  · iapply (show iprop(chainV d (VR m fs d) (VR m fs d main_v3) ∗ owesTc (F := F) d) ⊢ ((reg m fs).pre d : sProp 𝕄) from .rfl)
    isplitl [Hpre]
    · iapply (Entails.of_eq epre.symm); iexact Hpre
    · iexact HO
  isplitl [Hlev]; · iexact Hlev
  isplitl [Hcg]; · iexact Hcg
  iexact Htk

/-! ## @main -/

/-- @main on device `d`'s TensorCore. -/
theorem hmain (κ : GSem nD τ sig → ℕ) (d : Dev nD) :
    iprop((K (F := F)).ctx EH (P m Good) κ ∗ (K (F := F)).tcSt EH d 0 ∗ (K (F := F)).tcRes m ρ d ∗ G (F := F) d)
      ⊢ wp frame (wpE ((K (F := F)).defs (D (F := F))) 𝒱 (SparseCore.T (τ := τ) d) none) Set.univ (main d)
          fun _ => iprop((K (F := F)).tcSt EH d 1 ∗ FIN m Good d) := by
  unfold SparseCore.Cfg.tcRes
  rw [tcBufs_eq d]
  simp only [main, wp_bind, wp_pure]
  iintro ⟨#Hctx, Hst, ⟨Hb, ⟨⟨Hw0, Hw1, Hw2, Hw3, Hw4, Hw5, Hw6, Hw7, Hw8, Hw9, Hw10, Hw11, Hw12, Hw13, Hw14, Hw15, Hw16, Hw17, Hw18, Hw19, Hw20⟩, He, Hcst, Hz, Hc⟩, -, -⟩, HG⟩
  -- the constant
  iapply (wp_hlo_within 𝒱 (SparseCore.T (τ := τ) d) none Set.univ (op := op1 (F := F)) (S := {cst'}) (Finset.Subset.refl _) (V := V0 m d)) $$ [Hb Hcst]
  · isplitl [Hb]; · iexact Hb
    rw [held1]; iexact Hcst
  iintro ⟨Hb, Hh⟩
  ihave Hcst := (Entails.of_eq (held1 d cst' _)) $$ Hh
  rw [wp_ret]; imodintro
  -- its broadcast: the zeros
  iapply (wp_hlo_within 𝒱 (SparseCore.T (τ := τ) d) none Set.univ (op := op2 (F := F)) (S := {cst', z'}) (Finset.Subset.refl _) (V := V1 m d)) $$ [Hb Hcst Hz]
  · isplitl [Hb]; · iexact Hb
    rw [held2 d (show cst' ≠ z' by decide), V1_z]
    isplitl [Hcst]; · iexact Hcst
    iexact Hz
  iintro ⟨Hb, Hh⟩
  ihave Hh' := (Entails.of_eq (held2 d (show cst' ≠ z' by decide) _)) $$ Hh
  icases Hh' with ⟨Hcst, Hz⟩
  ihave Hz := (pt_congr _ (V2_z m d)) $$ Hz
  rw [wp_ret]; imodintro
  -- the sparse kernel's call
  iapply ((K (F := F)).wp_run (D (F := F)) 𝒱 (EH := EH) (P := P m Good) κ d 0) $$ [Hst He Hz Hc Hb Hcst HG Hw0 Hw1 Hw2 Hw3 Hw4 Hw5 Hw6 Hw7 Hw8 Hw9 Hw10 Hw11 Hw12 Hw13 Hw14 Hw15 Hw16 Hw17 Hw18 Hw19 Hw20]
  isplitr; · iexact Hctx
  isplitl [Hst]; · iexact Hst
  isplitl [He Hz Hc]
  · rw [st0_eq]
    isplitl [He]; · iexact He
    isplitl [Hz]; · iexact Hz
    iexists _; iexact Hc
  iintro ⟨Hst, Hdn⟩
  ihave Hdn' := (Entails.of_eq (dn0_eq m Good d)) $$ Hdn
  icases Hdn' with ⟨He, Hz, %f, %hG, Hc⟩
  obtain ⟨fs, rfl⟩ : ∃ fs : (c : Dev nD) → Buf (Elt F) (cLoc c), fs d = f :=
    ⟨Function.update (fun c => m (cLoc c)) d f, Function.update_self ..⟩
  -- the reshape
  iapply (wp_hlo_within 𝒱 (SparseCore.T (τ := τ) d) none Set.univ (op := opR (F := F)) (S := {c', v2'}) (Finset.Subset.refl _) (V := V3 m d (fs d))) $$ [Hb Hc Hw0]
  · isplitl [Hb]; · iexact Hb
    rw [held2 d (show c' ≠ v2' by decide), V3_c, V3_v2]
    isplitl [Hc]; · iexact Hc
    iexact Hw0
  iintro ⟨Hb, Hh⟩
  ihave Hh' := (Entails.of_eq (held2 d (show c' ≠ v2' by decide) _)) $$ Hh
  icases Hh' with ⟨Hc, Hw0⟩
  ihave Hw0 := (pt_congr _ (resh_v2 m d (fs d))) $$ Hw0
  rw [wp_ret]; imodintro
  -- the dense stage
  ihave Hst' := (tcSt_owes (F := F) d ((0 : Fin 1).val + 1) rfl) $$ Hst
  icases Hst' with ⟨HO, Hback⟩
  iapply (wp_dense m Good fs κ d _) $$ [Hb HO HG Hback He Hz Hc Hcst Hw0 Hw1 Hw2 Hw3 Hw4 Hw5 Hw6 Hw7 Hw8 Hw9 Hw10 Hw11 Hw12 Hw13 Hw14 Hw15 Hw16 Hw17 Hw18 Hw19 Hw20]
  isplitr; · iexact Hctx
  isplitl [Hb]; · iexact Hb
  isplitl [Hw0 Hw1 Hw2 Hw3 Hw4 Hw5 Hw6 Hw7 Hw8 Hw9 Hw10 Hw11 Hw12 Hw13 Hw14 Hw15 Hw16 Hw17 Hw18 Hw19 Hw20]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    iexact Hw20
  isplitl [HO]; · iexact HO
  isplitl [HG]; · iexact HG
  iintro ⟨Hb, ⟨Hw0, Hw1, Hw2, Hw3, Hw4, Hw5, Hw6, Hw7, Hw8, Hw9, Hw10, Hw11, Hw12, Hw13, Hw14, Hw15, Hw16, Hw17, Hw18, Hw19, Hw20⟩, HO⟩
  imodintro
  isplitl [HO Hback]
  · iapply Hback; iexact HO
  iexists (fs d)
  isplitr; · ipureintro; exact hG
  isplitl [Hw20]; · iexact Hw20
  rw [argRefs_chain]
  isplitl [Hw1]; · iexact Hw1
  isplitl [He]; · iexact He
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  isplitl [Hw17]; · iexact Hw17
  isplitl [Hw18]; · iexact Hw18
  iexact Hw19

end Cert.Proof.KI

end
-- ==== Proof.KIRun.lean ====
/-
  The whole program's run, for any float instance: every weakly fair execution of the TensorCore's @main, the two
  sequencers and the thirty-two vector subcores terminates without a fault; the twenty argument arrays end as they
  began, and the result array ends at the dense stage's function of the sparse kernel's result array, of which the
  property `Good` holds.
-/
import proofs.«207914_g72782515798130_cont_9to1c4b_353_41_alg».proof.Proof.TileBody
import proofs.«207914_g72782515798130_cont_9to1c4b_353_41_alg».proof.Proof.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)
variable (Good : (d : Dev nD) → Buf (Elt F) (cLoc d) → Prop)

/-- What the run guarantees of the final memory, device by device. -/
def QC : PUnit × MemSt nD τ sig (Elt F) → Prop := fun r => ∀ d : Dev nD,
  ∃ f, Good d f ∧ r.2.mem ((SparseCore.T d).loc main_v3) = outv m d f
    ∧ ∀ b ∈ argRefs, r.2.mem ((SparseCore.T d).loc b) = m ((SparseCore.T d).loc b)

theorem run_main (hI : TileInv m Good) :
    θ_run (Cert.KernelIdeal.defs (F := F)) (Cert.KernelIdeal.threads (F := F)) ⟨m, fun _ => 0, ρ⟩ (QC m Good) :=
  SparseCore.Cfg.θ_run_sc (K := K (F := F)) (D := D (F := F)) (𝒱 := 𝒱) (EH := EH) (P := P m Good) facts v₀
    (fun q hq => match q with | 0 => nomatch hq)
    (fun q _ => match q with | 0 => tileObl m Good facts hI)
    (fun q _ => match q with | 0 => SparseCore.Cfg.VecSplit.of_plain (vecSplit m Good))
    m ρ main (G (F := F)) (FIN m Good) (u₀ (F := F)) (sep_elim_left.trans (hu₀ m Good)) (hmain m ρ Good) (fq m Good) (hfin m Good)
    (QC m Good) (fun _ h => h)

end Cert.Proof.KI

end
-- ==== Proof.LaunchDefsB.lean ====
/-
  The program as the SparseCore launch theorem sees it, and the ghost state of its proof: the launch handshakes'
  rounds, the rounds of the dense stage's staging cells, and the counters of the sparse kernel's own copies
  (each of its three copies is issued and waited for on a semaphore of its own, so no schedule is needed for them).
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207914_g72782515798130_cont_9to1c4b_353_41_alg».proof.Proof.Gen.Kernel
import proofs.«207914_g72782515798130_cont_9to1c4b_353_41_alg».proof.Proof.Gen.Kernel.Skeleton
import proofs.«207914_g72782515798130_cont_9to1c4b_353_41_alg».proof.Proof.Gen.Kernel.Launch
import proofs.«207914_g72782515798130_cont_9to1c4b_353_41_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 1 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the copies' counters. -/
abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL
def ER : Emb UR (MT nD τ sig (HIx 1) (Elt F) ℕ UU ℕ) :=
  (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER; infer_instance

end Cert.Proof.KB

end
-- ==== Proof.PayB.lean ====
/-
  What the one SparseCore call carries. The TensorCore hands the call's SparseCore the edge array (read only), the
  array of zeros the accumulator is filled from (read only) and the result array; it gets the three back, the
  result array at contents of which a pure property `Good` holds (at the ideal instance: the edge counts). The
  sequencer passes everything to vector subcore 0, the only one that works, and nothing to the fifteen others.
-/
import proofs.«207914_g72782515798130_cont_9to1c4b_353_41_alg».proof.Proof.LaunchDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-- The edge array, the zeros, the counts, as locations of device `d`. -/
abbrev eLoc (d : Dev nD) : Loc nD τ sig := (SparseCore.T d).loc main_arg1
abbrev zLoc (d : Dev nD) : Loc nD τ sig := (SparseCore.T d).loc main_v0
abbrev cLoc (d : Dev nD) : Loc nD τ sig := (SparseCore.T d).loc main_v1

variable [FloatOps F]

/-- The array of zeros @main builds before the call. -/
def Z (d : Dev nD) : Buf (Elt F) (zLoc d) :=
  (broadcastInDim S9216 ![] bcast_S_S9216 (constant (F := F) S_ .f32 0x00000000#32) : FVec F S9216 .f32)

variable (Good : (d : Dev nD) → Buf (Elt F) (cLoc d) → Prop)

abbrev ePts (d : Dev nD) : sProp 𝕄 := eLoc d ↦{fullShare} m (eLoc d)
abbrev zPts (d : Dev nD) : sProp 𝕄 := zLoc d ↦{fullShare} Z d
abbrev cPts (d : Dev nD) (f : Buf (Elt F) (cLoc d)) : sProp 𝕄 := cLoc d ↦{fullShare} f

/-- What goes to the SparseCore, and to the one working subcore. -/
abbrev given (d : Dev nD) : sProp 𝕄 := iprop(ePts m d ∗ zPts d ∗ ∃ f, cPts d f)
/-- What comes back. -/
abbrev back (d : Dev nD) : sProp 𝕄 := iprop(ePts m d ∗ zPts d ∗ ∃ f, ⌜Good d f⌝ ∗ cPts d f)

/-- Subcore number `i` of the grid gets everything if it is subcore 0, nothing otherwise. -/
def forSub (X : sProp 𝕄) (i : ℕ) : sProp 𝕄 := if i = 0 then X else iprop(emp)

theorem forSub_zero (X : sProp 𝕄) : forSub X 0 = X := if_pos rfl
theorem forSub_succ (X : sProp 𝕄) (i : ℕ) : forSub X (i + 1) = iprop(emp) := if_neg (Nat.succ_ne_zero i)

instance forSub_storable (X : sProp 𝕄) [BI.Storable (upEmb : UEmb _ 𝕄) X] (i : ℕ) : BI.Storable (upEmb : UEmb _ 𝕄) (forSub X i) := by
  unfold forSub; split <;> infer_instance

def P : (K (F := F)).Pay (nD := nD) (Val := Elt F) (Name := ℕ) (U := UU) where
  st := fun _ d _ => given m d
  dn := fun _ d _ => back m Good d
  go := fun _ d _ i => forSub (given m d) i.val
  td := fun _ d _ i => forSub (back m Good d) i.val
  x := fun _ _ => iprop(emp)

instance P_storable : (P (F := F) m Good).IsStorable where
  st _ d c := by unfold P; infer_instance
  dn _ d c := by unfold P; infer_instance
  go _ _ _ _ := by unfold P; infer_instance
  td _ _ _ _ := by unfold P; infer_instance

end Cert.Proof.KB

end
-- ==== Proof.TilePayB.lean ====
/-
  What one trip of the sparse kernel's second loop stores, as pure functions of the accumulator's contents.

  The accumulator holds sixteen copies (one per lane, 576 entries apart) of a 24 x 24 table. Trip `k` adds the
  sixteen copies' row `k`: first the sixteen entries from column 0 (`pay0`: the copy of lane 0 read at
  `24 k`, plus the fifteen others at `576 l + 24 k`), stored at `128 k` of the result; then the sixteen
  entries from column 8 (`pay8`), stored at `128 k + 8`. `redStep` is the result buffer after the trip: those
  two stores, the later one first.
-/
import proofs.«207914_g72782515798130_cont_9to1c4b_353_41_alg».proof.Proof.Gen.Kernel.Skeleton

noncomputable section

namespace Cert.Proof.KB

open Cert.Kernel Cert.Kernel.Gen Idealize.ShloMosaic

variable {F : FTy → Type} [FloatOps F]

/-- The value of the first store of trip `k`: the sixteen lanes' entries `24 k .. 24 k + 15`, added up. -/
def pay0 (L : grid0.Coords) (k0_h1 : k0_cond1 L = 1#1) (k : Fin k0_t2_loop.trips) (f : S9216.Idx → Elt F .f32) :
    FVec F S16 .f32 :=
  k0_pay5
    (k0_pay4
      (k0_pay3
      ((Memref.whole cc0_scratch1 : Memref sig .scVector .vmem S9216 .f32).view.readAt (Elt F) (Rect.unit (s := S9216) (k0_off3 k 0#32) S16.size (k0_off3_inb L k k0_h1 0)).toLoadRect f)
      ((Memref.whole cc0_scratch1 : Memref sig .scVector .vmem S9216 .f32).view.readAt (Elt F) (Rect.unit (s := S9216) (k0_off4 k 576#32 0#32) S16.size (k0_off4_inb L k k0_h1 0 0)).toLoadRect f)
      ((Memref.whole cc0_scratch1 : Memref sig .scVector .vmem S9216 .f32).view.readAt (Elt F) (Rect.unit (s := S9216) (k0_off4 k 1152#32 0#32) S16.size (k0_off4_inb L k k0_h1 1 0)).toLoadRect f)
      ((Memref.whole cc0_scratch1 : Memref sig .scVector .vmem S9216 .f32).view.readAt (Elt F) (Rect.unit (s := S9216) (k0_off4 k 1728#32 0#32) S16.size (k0_off4_inb L k k0_h1 2 0)).toLoadRect f)
      ((Memref.whole cc0_scratch1 : Memref sig .scVector .vmem S9216 .f32).view.readAt (Elt F) (Rect.unit (s := S9216) (k0_off4 k 2304#32 0#32) S16.size (k0_off4_inb L k k0_h1 3 0)).toLoadRect f)
      ((Memref.whole cc0_scratch1 : Memref sig .scVector .vmem S9216 .f32).view.readAt (Elt F) (Rect.unit (s := S9216) (k0_off4 k 2880#32 0#32) S16.size (k0_off4_inb L k k0_h1 4 0)).toLoadRect f))
      ((Memref.whole cc0_scratch1 : Memref sig .scVector .vmem S9216 .f32).view.readAt (Elt F) (Rect.unit (s := S9216) (k0_off4 k 3456#32 0#32) S16.size (k0_off4_inb L k k0_h1 5 0)).toLoadRect f)
      ((Memref.whole cc0_scratch1 : Memref sig .scVector .vmem S9216 .f32).view.readAt (Elt F) (Rect.unit (s := S9216) (k0_off4 k 4032#32 0#32) S16.size (k0_off4_inb L k k0_h1 6 0)).toLoadRect f)
      ((Memref.whole cc0_scratch1 : Memref sig .scVector .vmem S9216 .f32).view.readAt (Elt F) (Rect.unit (s := S9216) (k0_off4 k 4608#32 0#32) S16.size (k0_off4_inb L k k0_h1 7 0)).toLoadRect f)
      ((Memref.whole cc0_scratch1 : Memref sig .scVector .vmem S9216 .f32).view.readAt (Elt F) (Rect.unit (s := S9216) (k0_off4 k 5184#32 0#32) S16.size (k0_off4_inb L k k0_h1 8 0)).toLoadRect f)
      ((Memref.whole cc0_scratch1 : Memref sig .scVector .vmem S9216 .f32).view.readAt (Elt F) (Rect.unit (s := S9216) (k0_off4 k 5760#32 0#32) S16.size (k0_off4_inb L k k0_h1 9 0)).toLoadRect f)
      ((Memref.whole cc0_scratch1 : Memref sig .scVector .vmem S9216 .f32).view.readAt (Elt F) (Rect.unit (s := S9216) (k0_off4 k 6336#32 0#32) S16.size (k0_off4_inb L k k0_h1 10 0)).toLoadRect f)
      ((Memref.whole cc0_scratch1 : Memref sig .scVector .vmem S9216 .f32).view.readAt (Elt F) (Rect.unit (s := S9216) (k0_off4 k 6912#32 0#32) S16.size (k0_off4_inb L k k0_h1 11 0)).toLoadRect f))
      ((Memref.whole cc0_scratch1 : Memref sig .scVector .vmem S9216 .f32).view.readAt (Elt F) (Rect.unit (s := S9216) (k0_off4 k 7488#32 0#32) S16.size (k0_off4_inb L k k0_h1 12 0)).toLoadRect f)
      ((Memref.whole cc0_scratch1 : Memref sig .scVector .vmem S9216 .f32).view.readAt (Elt F) (Rect.unit (s := S9216) (k0_off4 k 8064#32 0#32) S16.size (k0_off4_inb L k k0_h1 13 0)).toLoadRect f)
      ((Memref.whole cc0_scratch1 : Memref sig .scVector .vmem S9216 .f32).view.readAt (Elt F) (Rect.unit (s := S9216) (k0_off4 k 8640#32 0#32) S16.size (k0_off4_inb L k k0_h1 14 0)).toLoadRect f)

/-- The value of the second store of trip `k`: the sixteen lanes' entries `24 k + 8 .. 24 k + 23`, added up. -/
def pay8 (L : grid0.Coords) (k0_h1 : k0_cond1 L = 1#1) (k : Fin k0_t2_loop.trips) (f : S9216.Idx → Elt F .f32) :
    FVec F S16 .f32 :=
  k0_pay8
    (k0_pay7
      (k0_pay6
      ((Memref.whole cc0_scratch1 : Memref sig .scVector .vmem S9216 .f32).view.readAt (Elt F) (Rect.unit (s := S9216) (k0_off3 k 8#32) S16.size (k0_off3_inb L k k0_h1 1)).toLoadRect f)
      ((Memref.whole cc0_scratch1 : Memref sig .scVector .vmem S9216 .f32).view.readAt (Elt F) (Rect.unit (s := S9216) (k0_off4 k 576#32 8#32) S16.size (k0_off4_inb L k k0_h1 0 1)).toLoadRect f)
      ((Memref.whole cc0_scratch1 : Memref sig .scVector .vmem S9216 .f32).view.readAt (Elt F) (Rect.unit (s := S9216) (k0_off4 k 1152#32 8#32) S16.size (k0_off4_inb L k k0_h1 1 1)).toLoadRect f))
      ((Memref.whole cc0_scratch1 : Memref sig .scVector .vmem S9216 .f32).view.readAt (Elt F) (Rect.unit (s := S9216) (k0_off4 k 1728#32 8#32) S16.size (k0_off4_inb L k k0_h1 2 1)).toLoadRect f)
      ((Memref.whole cc0_scratch1 : Memref sig .scVector .vmem S9216 .f32).view.readAt (Elt F) (Rect.unit (s := S9216) (k0_off4 k 2304#32 8#32) S16.size (k0_off4_inb L k k0_h1 3 1)).toLoadRect f)
      ((Memref.whole cc0_scratch1 : Memref sig .scVector .vmem S9216 .f32).view.readAt (Elt F) (Rect.unit (s := S9216) (k0_off4 k 2880#32 8#32) S16.size (k0_off4_inb L k k0_h1 4 1)).toLoadRect f)
      ((Memref.whole cc0_scratch1 : Memref sig .scVector .vmem S9216 .f32).view.readAt (Elt F) (Rect.unit (s := S9216) (k0_off4 k 3456#32 8#32) S16.size (k0_off4_inb L k k0_h1 5 1)).toLoadRect f)
      ((Memref.whole cc0_scratch1 : Memref sig .scVector .vmem S9216 .f32).view.readAt (Elt F) (Rect.unit (s := S9216) (k0_off4 k 4032#32 8#32) S16.size (k0_off4_inb L k k0_h1 6 1)).toLoadRect f)
      ((Memref.whole cc0_scratch1 : Memref sig .scVector .vmem S9216 .f32).view.readAt (Elt F) (Rect.unit (s := S9216) (k0_off4 k 4608#32 8#32) S16.size (k0_off4_inb L k k0_h1 7 1)).toLoadRect f)
      ((Memref.whole cc0_scratch1 : Memref sig .scVector .vmem S9216 .f32).view.readAt (Elt F) (Rect.unit (s := S9216) (k0_off4 k 5184#32 8#32) S16.size (k0_off4_inb L k k0_h1 8 1)).toLoadRect f))
      ((Memref.whole cc0_scratch1 : Memref sig .scVector .vmem S9216 .f32).view.readAt (Elt F) (Rect.unit (s := S9216) (k0_off4 k 5760#32 8#32) S16.size (k0_off4_inb L k k0_h1 9 1)).toLoadRect f)
      ((Memref.whole cc0_scratch1 : Memref sig .scVector .vmem S9216 .f32).view.readAt (Elt F) (Rect.unit (s := S9216) (k0_off4 k 6336#32 8#32) S16.size (k0_off4_inb L k k0_h1 10 1)).toLoadRect f)
      ((Memref.whole cc0_scratch1 : Memref sig .scVector .vmem S9216 .f32).view.readAt (Elt F) (Rect.unit (s := S9216) (k0_off4 k 6912#32 8#32) S16.size (k0_off4_inb L k k0_h1 11 1)).toLoadRect f)
      ((Memref.whole cc0_scratch1 : Memref sig .scVector .vmem S9216 .f32).view.readAt (Elt F) (Rect.unit (s := S9216) (k0_off4 k 7488#32 8#32) S16.size (k0_off4_inb L k k0_h1 12 1)).toLoadRect f)
      ((Memref.whole cc0_scratch1 : Memref sig .scVector .vmem S9216 .f32).view.readAt (Elt F) (Rect.unit (s := S9216) (k0_off4 k 8064#32 8#32) S16.size (k0_off4_inb L k k0_h1 13 1)).toLoadRect f)
      ((Memref.whole cc0_scratch1 : Memref sig .scVector .vmem S9216 .f32).view.readAt (Elt F) (Rect.unit (s := S9216) (k0_off4 k 8640#32 8#32) S16.size (k0_off4_inb L k k0_h1 14 1)).toLoadRect f)

/-- The result buffer after trip `k`: `pay0` written at `128 k`, then `pay8` at `128 k + 8`. -/
def redStep (L : grid0.Coords) (k0_h1 : k0_cond1 L = 1#1) (k : Fin k0_t2_loop.trips) (f : S9216.Idx → Elt F .f32)
    (g : S3072.Idx → Elt F .f32) : S3072.Idx → Elt F .f32 :=
  (Memref.whole cc0_scratch2 : Memref sig .scVector .vmem S3072 .f32).view.writes (Elt F) g
    [⟨Rect.unit (s := S3072) (k0_off5 k 8#32) S16.size (k0_off5_inb L k k0_h1 1), pay8 L k0_h1 k f⟩,
     ⟨Rect.unit (s := S3072) (k0_off5 k 0#32) S16.size (k0_off5_inb L k k0_h1 0), pay0 L k0_h1 k f⟩]

end Cert.Proof.KB

end
-- ==== Proof.TileBodyB.lean ====
/-
  The sparse kernel on one vector subcore. Subcore 0 fetches the edge array and an array of zeros into its own
  memory (each fetch on a semaphore of its own, waited for before anything is read), walks the 512 edges sixteen at
  a time adding one to the accumulator at position lane · 576 + destination · 24 + source (sixteen distinct
  positions per step: each lane has a 576-element plane of its own), then for each of the 24 destinations sums the
  sixteen planes' rows into the result scratch and copies that scratch out. The other fifteen subcores skip the
  branch. What the accumulator and the result hold is carried as a parameter (an invariant of each loop's trips and a
  property of the result) so that one text serves every float instance.
-/
import proofs.«207914_g72782515798130_cont_9to1c4b_353_41_alg».proof.Proof.PayB
import proofs.«207914_g72782515798130_cont_9to1c4b_353_41_alg».proof.Proof.TilePayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "eW" => (Memref.whole Cert.Kernel.main_arg1_scv : Memref Cert.Kernel.sig Kind.scVector Space.hbm Cert.Kernel.S2x512 EltTy.i32)
local notation "zW" => (Memref.whole Cert.Kernel.main_v0_scv : Memref Cert.Kernel.sig Kind.scVector Space.hbm Cert.Kernel.S9216 EltTy.f32)
local notation "cW" => (Memref.whole Cert.Kernel.main_v1_scv : Memref Cert.Kernel.sig Kind.scVector Space.hbm Cert.Kernel.S3072 EltTy.f32)
local notation "sE" => (Memref.whole Cert.Kernel.cc0_scratch0 : Memref Cert.Kernel.sig Kind.scVector Space.vmem Cert.Kernel.S2x512 EltTy.i32)
local notation "sA" => (Memref.whole Cert.Kernel.cc0_scratch1 : Memref Cert.Kernel.sig Kind.scVector Space.vmem Cert.Kernel.S9216 EltTy.f32)
local notation "sR" => (Memref.whole Cert.Kernel.cc0_scratch2 : Memref Cert.Kernel.sig Kind.scVector Space.vmem Cert.Kernel.S3072 EltTy.f32)

variable [FloatOps F]
variable (Good : (d : Dev nD) → Buf (Elt F) (cLoc d) → Prop)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev c1cell (d : Dev nD) (L : grid0.Coords) : GSem nD τ sig := (thr d L, .dma cc0_scratch3.sem)
abbrev c2cell (d : Dev nD) (L : grid0.Coords) : GSem nD τ sig := (thr d L, .dma cc0_scratch4.sem)
abbrev c3cell (d : Dev nD) (L : grid0.Coords) : GSem nD τ sig := (thr d L, .dma cc0_scoped0.sem)

omit [FloatOps F] in
theorem pts_e (f : Buf (Elt F) (eLoc d)) : ((eW).view.loc (thr d L) ↦{fullShare} f : sProp 𝕄) = eLoc d ↦{fullShare} f := by
  simp only [Memref.view_whole, View.set_whole]
omit [FloatOps F] in
theorem pts_z (f : Buf (Elt F) (zLoc d)) : ((zW).view.loc (thr d L) ↦{fullShare} f : sProp 𝕄) = zLoc d ↦{fullShare} f := by
  simp only [Memref.view_whole, View.set_whole]
omit [FloatOps F] in
theorem pts_c (f : Buf (Elt F) (cLoc d)) : ((cW).view.loc (thr d L) ↦{fullShare} f : sProp 𝕄) = cLoc d ↦{fullShare} f := by
  simp only [Memref.view_whole, View.set_whole]

omit [FloatOps F] in
theorem ownSems0_V :
    (ownSems0 (thr d L) : sProp 𝕄)
      = iprop(semVal (c1cell d L) 0 ∗ semVal (c2cell d L) 0 ∗ semVal (c3cell d L) 0
          ∗ bigSep ((((ownCells (thr d L)).erase (c1cell d L)).erase (c2cell d L)).erase (c3cell d L)) fun g => semVal g 0) := by
  unfold SparseCore.Cfg.ownSems0
  rw [SparseCore.bigSep_erase' ((mem_ownCells (g := c1cell d L)).mpr ⟨rfl, by
      show (SemLoc.dma cc0_scratch3.sem : SemLoc sig).isScoped .scVector = true; decide⟩),
    SparseCore.bigSep_erase' (Finset.mem_erase.mpr ⟨by simp [c1cell, c2cell]; decide, (mem_ownCells (g := c2cell d L)).mpr ⟨rfl, by
      show (SemLoc.dma cc0_scratch4.sem : SemLoc sig).isScoped .scVector = true; decide⟩⟩),
    SparseCore.bigSep_erase' (Finset.mem_erase.mpr ⟨by simp [c2cell, c3cell]; decide, Finset.mem_erase.mpr ⟨by simp [c1cell, c3cell]; decide,
      (mem_ownCells (g := c3cell d L)).mpr ⟨rfl, by show (SemLoc.dma cc0_scoped0.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_sE (f : Buf (Elt F) ((thr d L).loc cc0_scratch0)) : ((sE).view.loc (thr d L) ↦{fullShare} f : sProp 𝕄) = (thr d L).loc cc0_scratch0 ↦{fullShare} f := rfl
omit [FloatOps F] in
theorem pts_sA (f : Buf (Elt F) ((thr d L).loc cc0_scratch1)) : ((sA).view.loc (thr d L) ↦{fullShare} f : sProp 𝕄) = (thr d L).loc cc0_scratch1 ↦{fullShare} f := rfl
omit [FloatOps F] in
theorem pts_sR (f : Buf (Elt F) ((thr d L).loc cc0_scratch2)) : ((sR).view.loc (thr d L) ↦{fullShare} f : sProp 𝕄) = (thr d L).loc cc0_scratch2 ↦{fullShare} f := rfl
omit [FloatOps F] in
/-- The accumulator held through its whole-array access is the accumulator held outright. -/
theorem pts_sA_whole (f : Buf (Elt F) ((thr d L).loc cc0_scratch1)) :
    ((((sA).access (.whole S9216)).loc (thr d L)) ↦[((sA).access (.whole S9216)).set]{fullShare} f : sProp 𝕄) = (thr d L).loc cc0_scratch1 ↦{fullShare} f := by
  rw [show ((sA).access (.whole S9216)).set = Finset.univ from Memref.set_access_whole (cc0_scratch1 : Ref sig .scVector)]

/-- The edge words as the fetch reads them, and the zeros as the second fetch reads them. -/
def E0 (d : Dev nD) : S2x512.Idx → Elt F .i32 := ReadAs.same.apply (View.read (Elt F) (eW).view (m (eLoc d)))
def Z0 (d : Dev nD) : S9216.Idx → Elt F .f32 := ReadAs.same.apply (View.read (Elt F) (zW).view (Z (F := F) d))

/-- The sixteen accumulator positions trip `k` of the first loop adds one to: lane · 576 + destination · 24 + source,
    of the sixteen edges 16 k … 16 k + 15. -/
def idxv (d : Dev nD) (L : grid0.Coords) (k0_h1 : k0_cond1 L = 1#1) (k : Fin k0_t1_loop.trips) : IVec S16 32 :=
  k0_pay2 (F := F)
    (View.readAt (Elt F) (sE).view (Rect.unit (s := S2x512) (k0_off1 k) S1x16.size (k0_off1_inb L k k0_h1)).toLoadRect (E0 m d))
    (View.readAt (Elt F) (sE).view (Rect.unit (s := S2x512) (k0_off2 k) S1x16.size (k0_off2_inb L k k0_h1)).toLoadRect (E0 m d))

/-- One trip of the first loop on the accumulator's contents. -/
def accStep (d : Dev nD) (L : grid0.Coords) (k0_h1 : k0_cond1 L = 1#1) (k : Fin k0_t1_loop.trips)
    (h : ∀ a x, ((![idxv m d L k0_h1 k] : Fin 1 → IVec S16 32) a x).toNat < S9216.size a)
    (f : Buf (Elt F) ((thr d L).loc cc0_scratch1)) : Buf (Elt F) ((thr d L).loc cc0_scratch1) :=
  ((sA).access (.whole S9216)).write (Elt F) f
    (storeIdx (((sA).access (.whole S9216)).read (Elt F) f) ![idxv m d L k0_h1 k] (k0_pay1 (F := F)) (fun _ => 1#1) true h) Finset.univ

/-- What the task's proof asks beyond the program text. -/
structure TileInv where
  A : (d : Dev nD) → (L : grid0.Coords) → ℕ → Buf (Elt F) ((thr d L).loc cc0_scratch1) → Prop
  chk : ∀ d L k0_h1 k, k0_chk1 L (idxv m d L k0_h1 k)
  a0 : ∀ d L, A d L 0 (Z0 d)
  astep : ∀ d L k0_h1 k h f, A d L k.val f → A d L (k.val + 1) (accStep m d L k0_h1 k h f)
  R : (d : Dev nD) → (L : grid0.Coords) → ℕ → Buf (Elt F) ((thr d L).loc cc0_scratch1) → Buf (Elt F) ((thr d L).loc cc0_scratch2) → Prop
  r0 : ∀ d L f g, R d L 0 f g
  rstep : ∀ d L k0_h1 (k : Fin k0_t2_loop.trips) f g, A d L k0_t1_loop.trips f → R d L k.val f g → R d L (k.val + 1) f (redStep L k0_h1 k f g)
  good : ∀ d L f g (fc : Buf (Elt F) (cLoc d)), A d L k0_t1_loop.trips f → R d L k0_t2_loop.trips f g →
    Good d (View.write (Elt F) (cW).view fc (ReadAs.same.apply (View.read (Elt F) (sR).view g)) Finset.univ)

theorem tile_work (hI : TileInv m Good) (hF : (K (F := F)).Facts) (k0_h1 : k0_cond1 L = 1#1) (O : CellTallies nD τ sig (HIx 1)) (W : Waits sig (HIx 1)) (hO : ∀ g, O g none = 0) :
    iprop(levAts (K (F := F)).L (K (F := F)).lev ∗ emp ∗ given m d
        ∗ scopedBufs (thr d L) ∗ scopedSems0 (thr d L) ∗ owes (thr d L) O W)
      ⊢ wp frame (wpE (defs₀ (F := F)) 𝒱₀ (thr d L) none) Set.univ
          (cc0_k L eW (Memref.isWhole_whole _) zW (Memref.isWhole_whole _) cW (Memref.isWhole_whole _)
            sE (Memref.isWhole_whole _) sA (Memref.isWhole_whole _) sR (Memref.isWhole_whole _) cc0_scratch3 cc0_scratch4 cc0_scoped0)
          fun _ => iprop(back m Good d ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨He, Hz, %fc, Hc⟩, ⟨⟨%fs, Hs⟩, ⟨%fa, Ha⟩, ⟨%fr, Hr⟩, Hbufs⟩, ⟨Hsem1, Hsem2, Hsem3, Hsems⟩, HO⟩
  ihave Hmw := ((K (F := F)).mayWaits_none (thr := thr d L) hO) $$ Hlv
  ihave He' := (Entails.of_eq (pts_e (F := F) d L _).symm) $$ He
  ihave Hz' := (Entails.of_eq (pts_z (F := F) d L _).symm) $$ Hz
  ihave Hc' := (Entails.of_eq (pts_c (F := F) d L _).symm) $$ Hc
  ihave Hs' := (Entails.of_eq (pts_sE (F := F) d L _).symm) $$ Hs
  ihave Ha' := (Entails.of_eq (pts_sA (F := F) d L _).symm) $$ Ha
  ihave Hr' := (Entails.of_eq (pts_sR (F := F) d L _).symm) $$ Hr
  sl_exec
  have hE : View.write (Elt F) (sE).view fs (tile_work.sl.dma0 m d) Finset.univ = E0 m d := View.write_whole_univ _ _ _
  have hZ : View.write (Elt F) (sA).view fa (tile_work.sl.dma0_1 (F := F) d) Finset.univ = Z0 (F := F) d := View.write_whole_univ _ _ _
  ihave Hs'' := (Entails.of_eq (congrArg (fun g => ((sE).view.loc (thr d L) ↦{fullShare} g : sProp 𝕄)) hE)) $$ Hs'
  ihave Ha'' := (Entails.of_eq (congrArg (fun g => ((sA).view.loc (thr d L) ↦{fullShare} g : sProp 𝕄)) hZ)) $$ Ha'
  sl_for (fun (k : Nat) (_ : PUnit) => iprop(
      ((sE).view.loc (thr d L) ↦{fullShare} E0 m d)
      ∗ ∃ f, ⌜hI.A d L k f⌝ ∗ (sA).view.loc (thr d L) ↦{fullShare} f)) $$ [Hs'' Ha'']
  case region =>
    intro k _
    iintro ⟨Hs, %f, %hA, Ha⟩
    sl_exec (disch := exact hI.chk d L k0_h1 k)
    ihave Ha2 := (Entails.of_eq ((pts_sA (F := F) d L _).trans (pts_sA_whole (F := F) d L _).symm)) $$ Ha
    iapply (SparseCore.wp_vectorStoreIdx 𝒱₀ (thr d L) none Set.univ (base := sA)) $$ Ha2; iintro Ha2
    ihave Ha3 := (Entails.of_eq ((pts_sA_whole (F := F) d L _).trans (pts_sA (F := F) d L _).symm)) $$ Ha2
    sl_step
    isplitl [Hs]; · iexact Hs
    iexists (accStep m d L k0_h1 k (k0_idx1_inb L _ (hI.chk d L k0_h1 k) k0_h1) f); isplitr
    · ipureintro; exact hI.astep d L k0_h1 k _ f hA
    · iexact Ha3
  · isplitl [Hs'']; · iexact Hs''
    iexists (Z0 (F := F) d); isplitr
    · ipureintro; exact hI.a0 d L
    · iexact Ha''
  iintro %_ HI
  icases HI with ⟨Hs, %f32, %hA32, Ha⟩

  sl_for (fun (k : Nat) (_ : PUnit) => iprop(
      ((sA).view.loc (thr d L) ↦{fullShare} f32)
      ∗ ∃ g, ⌜hI.R d L k f32 g⌝ ∗ (sR).view.loc (thr d L) ↦{fullShare} g)) $$ [Ha Hr']
  case region =>
    intro k _
    iintro ⟨Ha, %g, %hR, Hr⟩
    sl_exec
    sl_step
    isplitl [Ha]; · iexact Ha
    iexists (redStep L k0_h1 k f32 g); isplitr
    · ipureintro; exact hI.rstep d L k0_h1 k f32 g hA32 hR
    · iexact Hr
  · isplitl [Ha]; · iexact Ha
    iexists fr; isplitr
    · ipureintro; exact hI.r0 d L f32 fr
    · iexact Hr'
  iintro %_ HI
  icases HI with ⟨Ha, %g24, %hR24, Hr⟩
  sl_exec
  sl_step
  isplitl [He' Hz' Hc']
  · isplitl [He']; · iapply (Entails.of_eq (pts_e (F := F) d L _)); iexact He'
    isplitl [Hz']; · iapply (Entails.of_eq (pts_z (F := F) d L _)); iexact Hz'
    iexists (View.write (Elt F) (cW).view fc (tile_work.sl.dma0_2 (F := F) d L g24) Finset.univ); isplitr
    · ipureintro; exact hI.good d L f32 g24 fc hA32 hR24
    · iapply (Entails.of_eq (pts_c (F := F) d L _)); iexact Hc'
  isplitl [Hs Ha Hr Hbufs]
  · isplitl [Hs]; · iexists _; iexact Hs
    isplitl [Ha]; · iexists _; iexact Ha
    isplitl [Hr]; · iexists _; iexact Hr
    iexact Hbufs
  isplitl [Hsem1 Hsem2 Hsem3 Hsems]
  · isplitl [Hsem1]; · iexact Hsem1
    isplitl [Hsem2]; · iexact Hsem2
    isplitl [Hsem3]; · iexact Hsem3
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

/-- Subcores 1 … 15 skip the branch and end at once. -/
theorem tile_idle (k0_h1 : ¬ k0_cond1 L = 1#1) (O : CellTallies nD τ sig (HIx 1)) (W : Waits sig (HIx 1)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc0_k L eW (Memref.isWhole_whole _) zW (Memref.isWhole_whole _) cW (Memref.isWhole_whole _)
            sE (Memref.isWhole_whole _) sA (Memref.isWhole_whole _) sR (Memref.isWhole_whole _) cc0_scratch3 cc0_scratch4 cc0_scoped0)
          fun _ => iprop(emp ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligation for the sparse kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          eW (Memref.isWhole_whole _) zW (Memref.isWhole_whole _) cW (Memref.isWhole_whole _)
          sE (Memref.isWhole_whole _) sA (Memref.isWhole_whole _) sR (Memref.isWhole_whole _) cc0_scratch3 cc0_scratch4 cc0_scoped0) ⟨⟩ c s := rfl

/-- Only subcore 0 takes the branch. -/
theorem cond_iff (L : grid0.Coords) : k0_cond1 L = 1#1 ↔ (L 1).val = 0 := by
  have key : ∀ x : Fin 16, (Scalar.cmpi .ne (Scalar.extui (Scalar.cmpi .eq (BitVec.ofNat 32 x.val) 0#32) : BitVec 32) 0#32 = 1#1) ↔ x.val = 0 := by decide
  exact key (L 1)

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hI : TileInv m Good) : (K (F := F)).TileObl (D (F := F)) 𝒱 (P m Good) v₀ 0 := by
  intro d c i O W hO _ _
  simp only [show (P m Good).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ forSub (given m d) i.val ∗ _) ⊢ wp _ _ _ _ (fun _ => iprop(forSub (back m Good d) i.val ∗ _))
  by_cases hi : i.val = 0
  · have hcond : k0_cond1 (coordsV ⟨_, hc.1⟩ ⟨_, hc.2⟩) = 1#1 := (cond_iff _).mpr hi
    rw [hi, forSub_zero, forSub_zero]
    exact (tile_work m Good d (coordsV ⟨_, hc.1⟩ ⟨_, hc.2⟩) hI hF hcond O W hO).trans (wp_mono frame _ _ fun _ => obl_post)
  · have hcond : ¬ k0_cond1 (coordsV ⟨_, hc.1⟩ ⟨_, hc.2⟩) = 1#1 := fun h => hi ((cond_iff _).mp h)
    obtain ⟨j, hj⟩ : ∃ j, i.val = j + 1 := ⟨i.val - 1, by omega⟩
    rw [hj, forSub_succ, forSub_succ]
    exact (tile_idle d (coordsV ⟨_, hc.1⟩ ⟨_, hc.2⟩) hcond O W).trans (wp_mono frame _ _ fun _ => obl_post)

/-! ## How the call's operands go to the subcores: all to subcore 0 -/

omit [FloatOps F] in
theorem bigSep_forSub (X : sProp 𝕄) :
    (bigSep Finset.univ fun i : Fin ((K (F := F)).nSub 0) => forSub X i.val) = X := by
  show (bigSep (Finset.univ : Finset (Fin 16)) fun i => if i.val = 0 then X else (BI.emp : sProp 𝕄)) = X
  rw [← bigSep_filter, show (Finset.univ.filter fun i : Fin 16 => i.val = 0) = {0} from by decide, bigSep_singleton]

theorem vecSplit : (K (F := F)).VecSplit' (P m Good) 0 := by
  intro d c
  show given m d ⊢ |={Set.univ}=> iprop(
      (bigSep Finset.univ fun i : Fin ((K (F := F)).nSub 0) => forSub (given m d) i.val)
      ∗ ((bigSep Finset.univ fun i : Fin ((K (F := F)).nSub 0) => forSub (back m Good d) i.val) -∗ back m Good d))
  rw [bigSep_forSub (F := F), bigSep_forSub (F := F)]
  iintro H; imodintro
  isplitl [H]; · iexact H
  iintro H; iexact H

end Cert.Proof.KB

end
-- ==== Proof.IfaceB.lean ====
/-
  Two definitions shared by the parts of this proof.

  * `edgeCount ei d s`: the number of edges (columns e < 512 of the 2 × 512 edge array, row 0 the source word, row 1
    the destination word) that go from node `s` to node `d`. It is what the sparse kernel leaves at position
    (d, s) of its 24 × 128 result, and the adjacency count the dense stage works from.
  * `kerOut`: the value the dense stage stores, as one pure function of the twenty blocks it loads (the count
    block first, then the node features, the seven layers' weights and biases, the two output layers).
-/
import proofs.«207914_g72782515798130_cont_9to1c4b_353_41_alg».proof.Proof.Gen.Kernel.Skeleton
import Idealize.ShloMosaic.Lib.ValueIdx

noncomputable section

namespace Cert.Proof.IfaceB

open Idealize.ShloMosaic Idealize.ShloMosaic.ValueIdx
open Cert.Kernel Cert.Kernel.Gen

/-- How many edges go from node `s` to node `d`. -/
def edgeCount (ei : IVec S2x512 32) (d s : Fin 24) : ℕ :=
  (Finset.univ.filter fun e : Fin 512 => (ei (ix2 (1 : Fin 2) e)).toNat = d.val ∧ (ei (ix2 (0 : Fin 2) e)).toNat = s.val).card

variable {F : FTy → Type} [FloatOps F]

/-- The dense stage's stored value, from the twenty blocks it loads, in the order it loads them. -/
def kerOut (v0 : Vec F S24x128 .f32) (v16 : Vec F S24x128 .f32) (v17 : Vec F S128x4 .f32) (v24 : Vec F S4 .f32)
    (v30 : Vec F S4x4 .f32) (v37 : Vec F S4 .f32) (v43 : Vec F S4x8 .f32) (v50 : Vec F S8 .f32) (v56 : Vec F S8x8 .f32)
    (v63 : Vec F S8 .f32) (v69 : Vec F S8x16 .f32) (v76 : Vec F S16 .f32) (v82 : Vec F S16x16 .f32) (v89 : Vec F S16 .f32)
    (v95 : Vec F S16x32 .f32) (v102 : Vec F S32 .f32) (v109 : Vec F S768x128 .f32) (v116 : Vec F S128 .f32)
    (v119 : Vec F S128x2 .f32) (v121 : Vec F S2 .f32) : FVec F S1x2 .f32 :=
  k1_pay1
    (k1_pay7 (k1_pay3 v0) (k1_pay4 v0)
      (k1_pay6 (k1_pay3 v0) (k1_pay4 v0) (k1_pay5 v0 v16 v17 v24 v30 v37) (Scalar.ofBits .f32 0x00000000#32) v43 v50 v56 v63 v69 v76)
      v82 v89 v95 v102 v109 v116 v119)
    v121

end Cert.Proof.IfaceB

end
-- ==== Proof.DenseBodyB.lean ====
/-
  The dense stage's kernel body, run once on whole staging buffers: it loads its twenty operand blocks whole, loads the
  result block, and stores ONE value over the whole result block. What the result buffer holds afterwards is the
  canonical contents of that one covering store: the interface function `kerOut` of the twenty loaded blocks.
-/
import proofs.«207914_g72782515798130_cont_9to1c4b_353_41_alg».proof.Proof.PayB
import proofs.«207914_g72782515798130_cont_9to1c4b_353_41_alg».proof.Proof.IfaceB
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

/-! ## The whole-block rectangles the body loads and stores through -/

abbrev rW_S24x128 : Rect S24x128 := Rect.unit (s := S24x128) ![0, 0] S24x128.size inb_S24x128_S24x128_0_0
abbrev rW_S128x4 : Rect S128x4 := Rect.unit (s := S128x4) ![0, 0] S128x4.size inb_S128x4_S128x4_0_0
abbrev rW_S4 : Rect S4 := Rect.unit (s := S4) ![0] S4.size inb_S4_S4_0
abbrev rW_S4x4 : Rect S4x4 := Rect.unit (s := S4x4) ![0, 0] S4x4.size inb_S4x4_S4x4_0_0
abbrev rW_S4x8 : Rect S4x8 := Rect.unit (s := S4x8) ![0, 0] S4x8.size inb_S4x8_S4x8_0_0
abbrev rW_S8 : Rect S8 := Rect.unit (s := S8) ![0] S8.size inb_S8_S8_0
abbrev rW_S8x8 : Rect S8x8 := Rect.unit (s := S8x8) ![0, 0] S8x8.size inb_S8x8_S8x8_0_0
abbrev rW_S8x16 : Rect S8x16 := Rect.unit (s := S8x16) ![0, 0] S8x16.size inb_S8x16_S8x16_0_0
abbrev rW_S16 : Rect S16 := Rect.unit (s := S16) ![0] S16.size inb_S16_S16_0
abbrev rW_S16x16 : Rect S16x16 := Rect.unit (s := S16x16) ![0, 0] S16x16.size inb_S16x16_S16x16_0_0
abbrev rW_S16x32 : Rect S16x32 := Rect.unit (s := S16x32) ![0, 0] S16x32.size inb_S16x32_S16x32_0_0
abbrev rW_S32 : Rect S32 := Rect.unit (s := S32) ![0] S32.size inb_S32_S32_0
abbrev rW_S768x128 : Rect S768x128 := Rect.unit (s := S768x128) ![0, 0] S768x128.size inb_S768x128_S768x128_0_0
abbrev rW_S128 : Rect S128 := Rect.unit (s := S128) ![0] S128.size inb_S128_S128_0
abbrev rW_S128x2 : Rect S128x2 := Rect.unit (s := S128x2) ![0, 0] S128x2.size inb_S128x2_S128x2_0_0
abbrev rW_S2 : Rect S2 := Rect.unit (s := S2) ![0] S2.size inb_S2_S2_0
abbrev rW_S1x2 : Rect S1x2 := Rect.unit (s := S1x2) ![0, 0] S1x2.size inb_S1x2_S1x2_0_0

theorem hz2 : (![0, 0] : Fin 2 → Nat) = fun _ => 0 := funext fun a => by fin_cases a <;> rfl
theorem hz1 : (![0] : Fin 1 → Nat) = fun _ => 0 := funext fun a => by fin_cases a <;> rfl

/-! ## What the body leaves in the result buffer -/

/-- The result buffer after the body, from the twenty operand blocks: its one store as a piece. -/
def out20 (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) : Vec F S1x2 .f32 :=
  View.canon [⟨rW_S1x2, Cert.Proof.IfaceB.kerOut (View.ld x0 rW_S24x128) (View.ld x1 rW_S24x128) (View.ld x2 rW_S128x4) (View.ld x3 rW_S4) (View.ld x4 rW_S4x4) (View.ld x5 rW_S4) (View.ld x6 rW_S4x8) (View.ld x7 rW_S8) (View.ld x8 rW_S8x8) (View.ld x9 rW_S8) (View.ld x10 rW_S8x16) (View.ld x11 rW_S16) (View.ld x12 rW_S16x16) (View.ld x13 rW_S16) (View.ld x14 rW_S16x32) (View.ld x15 rW_S32) (View.ld x16 rW_S768x128) (View.ld x17 rW_S128) (View.ld x18 rW_S128x2) (View.ld x19 rW_S2)⟩]

/-- The one store covers the block. -/
theorem cover20 (p0 : Vec F S1x2 .f32) (y : S1x2.Idx) :
    ∃ pc ∈ ([⟨rW_S1x2, p0⟩] : List (View.Piece (Elt F) S1x2 .f32)), y ∈ pc.1.set :=
  View.cover_of_tiled [⟨rW_S1x2, p0⟩] S1x2.size (by rfl) y

/-- Loads and the store being of whole blocks, the result buffer holds the interface function of the operand blocks. -/
theorem out20_eq (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) :
    out20 x0 x1 x2 x3 x4 x5 x6 x7 x8 x9 x10 x11 x12 x13 x14 x15 x16 x17 x18 x19 = Cert.Proof.IfaceB.kerOut x0 x1 x2 x3 x4 x5 x6 x7 x8 x9 x10 x11 x12 x13 x14 x15 x16 x17 x18 x19 := by
  unfold out20
  rw [View.canon_unit_zero hz2]
  simp only [View.ld_unit_zero (S := S24x128) hz2, View.ld_unit_zero (S := S128x4) hz2, View.ld_unit_zero (S := S4) hz1, View.ld_unit_zero (S := S4x4) hz2, View.ld_unit_zero (S := S4x8) hz2, View.ld_unit_zero (S := S8) hz1, View.ld_unit_zero (S := S8x8) hz2, View.ld_unit_zero (S := S8x16) hz2, View.ld_unit_zero (S := S16) hz1, View.ld_unit_zero (S := S16x16) hz2, View.ld_unit_zero (S := S16x32) hz2, View.ld_unit_zero (S := S32) hz1, View.ld_unit_zero (S := S768x128) hz2, View.ld_unit_zero (S := S128) hz1, View.ld_unit_zero (S := S128x2) hz2, View.ld_unit_zero (S := S2) hz1]

/-! ## The body's triple -/

set_option maxHeartbeats 4000000 in
/-- The kernel body on whole staging memrefs, the operands' at read contents `x0 … x19` and the result's at anything,
    runs to the continuation holding the operands' as they were and the result's at `out20` of the operands'. -/
theorem sound_kernel (c : Dev nD) (E : Set ℕ)
    (a0 : Memref sig .tc .vmem S24x128 .f32) (h0 : a0.IsWhole)
    (a1 : Memref sig .tc .vmem S24x128 .f32) (h1 : a1.IsWhole)
    (a2 : Memref sig .tc .vmem S128x4 .f32) (h2 : a2.IsWhole)
    (a3 : Memref sig .tc .vmem S4 .f32) (h3 : a3.IsWhole)
    (a4 : Memref sig .tc .vmem S4x4 .f32) (h4 : a4.IsWhole)
    (a5 : Memref sig .tc .vmem S4 .f32) (h5 : a5.IsWhole)
    (a6 : Memref sig .tc .vmem S4x8 .f32) (h6 : a6.IsWhole)
    (a7 : Memref sig .tc .vmem S8 .f32) (h7 : a7.IsWhole)
    (a8 : Memref sig .tc .vmem S8x8 .f32) (h8 : a8.IsWhole)
    (a9 : Memref sig .tc .vmem S8 .f32) (h9 : a9.IsWhole)
    (a10 : Memref sig .tc .vmem S8x16 .f32) (h10 : a10.IsWhole)
    (a11 : Memref sig .tc .vmem S16 .f32) (h11 : a11.IsWhole)
    (a12 : Memref sig .tc .vmem S16x16 .f32) (h12 : a12.IsWhole)
    (a13 : Memref sig .tc .vmem S16 .f32) (h13 : a13.IsWhole)
    (a14 : Memref sig .tc .vmem S16x32 .f32) (h14 : a14.IsWhole)
    (a15 : Memref sig .tc .vmem S32 .f32) (h15 : a15.IsWhole)
    (a16 : Memref sig .tc .vmem S768x128 .f32) (h16 : a16.IsWhole)
    (a17 : Memref sig .tc .vmem S128 .f32) (h17 : a17.IsWhole)
    (a18 : Memref sig .tc .vmem S128x2 .f32) (h18 : a18.IsWhole)
    (a19 : Memref sig .tc .vmem S2 .f32) (h19 : a19.IsWhole)
    (a20 : Memref sig .tc .vmem S1x2 .f32) (h20 : a20.IsWhole)
    (x0 : Vec F S24x128 .f32) (x1 : Vec F S24x128 .f32) (x2 : Vec F S128x4 .f32) (x3 : Vec F S4 .f32) (x4 : Vec F S4x4 .f32) (x5 : Vec F S4 .f32) (x6 : Vec F S4x8 .f32) (x7 : Vec F S8 .f32) (x8 : Vec F S8x8 .f32) (x9 : Vec F S8 .f32) (x10 : Vec F S8x16 .f32) (x11 : Vec F S16 .f32) (x12 : Vec F S16x16 .f32) (x13 : Vec F S16 .f32) (x14 : Vec F S16x32 .f32) (x15 : Vec F S32 .f32) (x16 : Vec F S768x128 .f32) (x17 : Vec F S128 .f32) (x18 : Vec F S128x2 .f32) (x19 : Vec F S2 .f32) (Kont : PUnit → sProp 𝕄) :
    iprop(owns (SparseCore.T c) a0 fullShare x0 ∗ owns (SparseCore.T c) a1 fullShare x1 ∗ owns (SparseCore.T c) a2 fullShare x2 ∗ owns (SparseCore.T c) a3 fullShare x3 ∗ owns (SparseCore.T c) a4 fullShare x4 ∗ owns (SparseCore.T c) a5 fullShare x5 ∗ owns (SparseCore.T c) a6 fullShare x6 ∗ owns (SparseCore.T c) a7 fullShare x7 ∗ owns (SparseCore.T c) a8 fullShare x8 ∗ owns (SparseCore.T c) a9 fullShare x9 ∗ owns (SparseCore.T c) a10 fullShare x10 ∗ owns (SparseCore.T c) a11 fullShare x11 ∗ owns (SparseCore.T c) a12 fullShare x12 ∗ owns (SparseCore.T c) a13 fullShare x13 ∗ owns (SparseCore.T c) a14 fullShare x14 ∗ owns (SparseCore.T c) a15 fullShare x15 ∗ owns (SparseCore.T c) a16 fullShare x16 ∗ owns (SparseCore.T c) a17 fullShare x17 ∗ owns (SparseCore.T c) a18 fullShare x18 ∗ owns (SparseCore.T c) a19 fullShare x19
        ∗ (∃ d, owns (SparseCore.T c) a20 fullShare d)
        ∗ (iprop(owns (SparseCore.T c) a0 fullShare x0 ∗ owns (SparseCore.T c) a1 fullShare x1 ∗ owns (SparseCore.T c) a2 fullShare x2 ∗ owns (SparseCore.T c) a3 fullShare x3 ∗ owns (SparseCore.T c) a4 fullShare x4 ∗ owns (SparseCore.T c) a5 fullShare x5 ∗ owns (SparseCore.T c) a6 fullShare x6 ∗ owns (SparseCore.T c) a7 fullShare x7 ∗ owns (SparseCore.T c) a8 fullShare x8 ∗ owns (SparseCore.T c) a9 fullShare x9 ∗ owns (SparseCore.T c) a10 fullShare x10 ∗ owns (SparseCore.T c) a11 fullShare x11 ∗ owns (SparseCore.T c) a12 fullShare x12 ∗ owns (SparseCore.T c) a13 fullShare x13 ∗ owns (SparseCore.T c) a14 fullShare x14 ∗ owns (SparseCore.T c) a15 fullShare x15 ∗ owns (SparseCore.T c) a16 fullShare x16 ∗ owns (SparseCore.T c) a17 fullShare x17 ∗ owns (SparseCore.T c) a18 fullShare x18 ∗ owns (SparseCore.T c) a19 fullShare x19
            ∗ owns (SparseCore.T c) a20 fullShare (out20 x0 x1 x2 x3 x4 x5 x6 x7 x8 x9 x10 x11 x12 x13 x14 x15 x16 x17 x18 x19)) -∗ Kont ⟨⟩))
      ⊢ wp frame (wpE (defs₀ (F := F)) Variants.none (SparseCore.T c) none) E
          (cc1__dense_body a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20) Kont := by
  simp only [cc1__dense_body_eq_skeleton]; unfold cc1__dense_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover20 _)

end Cert.Proof.KB

end
-- ==== Proof.DenseB.lean ====
/-
  The dense stage as ONE kernel region of @main. Its proof data: every window's array as the region finds it (the
  reshaped edge counts in the first, the launch contents in the others), every operand block kept in place, the
  result block left at the interface function of the twenty operand blocks; nothing owed, nothing carried between
  points (the grid has one point). The body obligation is the body's triple; the region's entry and exit hand the
  arrays over unchanged in spelling, so the region's step is the library's region rule at these data.
-/
import proofs.«207914_g72782515798130_cont_9to1c4b_353_41_alg».proof.Proof.DenseBodyB
set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- No pipeline has a prefetched table. -/
abbrev adm : (p : Fin 1) → (pcfgs (F := F) p).Adm := fun p => (cfgs p).toPCfg_adm

/-- The sparse kernel's result at the shape the dense stage reads it in. -/
abbrev cnt (c : Dev nD) (f : Buf (Elt F) (cLoc c)) : Vec F S24x128 .f32 :=
  fun i => shapeCast S24x128 (f : Vec F S3072 .f32) shapeCasts_S3072_S24x128 i

-- The sparse kernel's result on every device (the proof data are stated for every device).
variable (fs : (c : Dev nD) → Buf (Elt F) (cLoc c))

/-- The TensorCore's buffers as the dense stage finds them: the reshaped counts in its first operand's array, every
    other buffer at its launch contents. -/
def VR (c : Dev nD) : (b : Ref sig .tc) → Buf (Elt F) ((SparseCore.T (τ := τ) c).loc b) :=
  Function.update (fun b : Ref sig .tc => m ((SparseCore.T (τ := τ) c).loc b)) main_v2 (cnt c (fs c) : Buf (Elt F) ((SparseCore.T (τ := τ) c).loc main_v2))

theorem VR_v2 (c : Dev nD) : VR m fs c main_v2 = (cnt c (fs c) : Buf (Elt F) ((SparseCore.T (τ := τ) c).loc main_v2)) := Function.update_self ..
theorem VR_ne (c : Dev nD) {b : Ref sig .tc} (h : b ≠ main_v2) : VR m fs c b = m ((SparseCore.T (τ := τ) c).loc b) := Function.update_of_ne h ..

/-- Window `w`'s block at the one point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VR m fs c (Pipeline.arrRef spec1 w))

/-- Levels of the pairs the TensorCore's waits may have recorded when the region is entered: at most the first call's. -/
abbrev recB (c : Dev nD) : Set (SemLoc sig × HIx 1) := {p | (K (F := F)).lev (SparseCore.T c, p.1) p.2 ≤ 8}

/-- The proof data of the dense stage on device `c`. -/
def dat (c : Dev nD) : Dat τ (Elt F) (HIx 1) ℕ UU ℕ cfg1 c where
  A w := VR m fs c (Pipeline.arrRef spec1 w)
  after w t := match w with
    | ⟨0, _⟩ => iblk m fs c 0 t
    | ⟨1, _⟩ => iblk m fs c 1 t
    | ⟨2, _⟩ => iblk m fs c 2 t
    | ⟨3, _⟩ => iblk m fs c 3 t
    | ⟨4, _⟩ => iblk m fs c 4 t
    | ⟨5, _⟩ => iblk m fs c 5 t
    | ⟨6, _⟩ => iblk m fs c 6 t
    | ⟨7, _⟩ => iblk m fs c 7 t
    | ⟨8, _⟩ => iblk m fs c 8 t
    | ⟨9, _⟩ => iblk m fs c 9 t
    | ⟨10, _⟩ => iblk m fs c 10 t
    | ⟨11, _⟩ => iblk m fs c 11 t
    | ⟨12, _⟩ => iblk m fs c 12 t
    | ⟨13, _⟩ => iblk m fs c 13 t
    | ⟨14, _⟩ => iblk m fs c 14 t
    | ⟨15, _⟩ => iblk m fs c 15 t
    | ⟨16, _⟩ => iblk m fs c 16 t
    | ⟨17, _⟩ => iblk m fs c 17 t
    | ⟨18, _⟩ => iblk m fs c 18 t
    | ⟨19, _⟩ => iblk m fs c 19 t
    | ⟨20, _⟩ => out20 (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t)
    | ⟨_ + 21, h⟩ => absurd h (Nat.not_lt.2 (Nat.le_add_left _ _))
  Φ _ := iprop(emp)
  q _ := fullShare
  owed _ := 0
  recorded _ := recB (F := F) c

/-- The family over the (one) pipeline. -/
abbrev pdats : (p : Fin 1) → (c : Dev nD) → Dat τ (Elt F) (HIx 1) ℕ UU ℕ (Pipeline.pin (pcfgs (F := F)) adm p) c :=
  fun _ c => dat m fs c

theorem A_eq (c : Dev nD) (w : Fin cfg1.W) : (dat m fs c).A w = VR m fs c (Pipeline.arrRef spec1 w) := by
  dsimp only [dat]

theorem after1_0 (c : Dev nD) (t : Fin cfg1.N) : (dat m fs c).after 0 t = iblk m fs c 0 t := by dsimp only [dat]
theorem after1_1 (c : Dev nD) (t : Fin cfg1.N) : (dat m fs c).after 1 t = iblk m fs c 1 t := by dsimp only [dat]
theorem after1_2 (c : Dev nD) (t : Fin cfg1.N) : (dat m fs c).after 2 t = iblk m fs c 2 t := by dsimp only [dat]
theorem after1_3 (c : Dev nD) (t : Fin cfg1.N) : (dat m fs c).after 3 t = iblk m fs c 3 t := by dsimp only [dat]
theorem after1_4 (c : Dev nD) (t : Fin cfg1.N) : (dat m fs c).after 4 t = iblk m fs c 4 t := by dsimp only [dat]
theorem after1_5 (c : Dev nD) (t : Fin cfg1.N) : (dat m fs c).after 5 t = iblk m fs c 5 t := by dsimp only [dat]
theorem after1_6 (c : Dev nD) (t : Fin cfg1.N) : (dat m fs c).after 6 t = iblk m fs c 6 t := by dsimp only [dat]
theorem after1_7 (c : Dev nD) (t : Fin cfg1.N) : (dat m fs c).after 7 t = iblk m fs c 7 t := by dsimp only [dat]
theorem after1_8 (c : Dev nD) (t : Fin cfg1.N) : (dat m fs c).after 8 t = iblk m fs c 8 t := by dsimp only [dat]
theorem after1_9 (c : Dev nD) (t : Fin cfg1.N) : (dat m fs c).after 9 t = iblk m fs c 9 t := by dsimp only [dat]
theorem after1_10 (c : Dev nD) (t : Fin cfg1.N) : (dat m fs c).after 10 t = iblk m fs c 10 t := by dsimp only [dat]
theorem after1_11 (c : Dev nD) (t : Fin cfg1.N) : (dat m fs c).after 11 t = iblk m fs c 11 t := by dsimp only [dat]
theorem after1_12 (c : Dev nD) (t : Fin cfg1.N) : (dat m fs c).after 12 t = iblk m fs c 12 t := by dsimp only [dat]
theorem after1_13 (c : Dev nD) (t : Fin cfg1.N) : (dat m fs c).after 13 t = iblk m fs c 13 t := by dsimp only [dat]
theorem after1_14 (c : Dev nD) (t : Fin cfg1.N) : (dat m fs c).after 14 t = iblk m fs c 14 t := by dsimp only [dat]
theorem after1_15 (c : Dev nD) (t : Fin cfg1.N) : (dat m fs c).after 15 t = iblk m fs c 15 t := by dsimp only [dat]
theorem after1_16 (c : Dev nD) (t : Fin cfg1.N) : (dat m fs c).after 16 t = iblk m fs c 16 t := by dsimp only [dat]
theorem after1_17 (c : Dev nD) (t : Fin cfg1.N) : (dat m fs c).after 17 t = iblk m fs c 17 t := by dsimp only [dat]
theorem after1_18 (c : Dev nD) (t : Fin cfg1.N) : (dat m fs c).after 18 t = iblk m fs c 18 t := by dsimp only [dat]
theorem after1_19 (c : Dev nD) (t : Fin cfg1.N) : (dat m fs c).after 19 t = iblk m fs c 19 t := by dsimp only [dat]
theorem after1_20 (c : Dev nD) (t : Fin cfg1.N) :
    (dat m fs c).after 20 t = out20 (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t) := by dsimp only [dat]

/-- Each operand's staging buffer holds its block when the body is called: it was fetched there. -/
theorem before1_0 (c : Dev nD) (t : Fin cfg1.N) (d) : (dat m fs c).before 0 t d = iblk m fs c 0 t :=
  ((dat m fs c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat m fs c).before 1 t d = iblk m fs c 1 t :=
  ((dat m fs c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat m fs c).before 2 t d = iblk m fs c 2 t :=
  ((dat m fs c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat m fs c).before 3 t d = iblk m fs c 3 t :=
  ((dat m fs c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat m fs c).before 4 t d = iblk m fs c 4 t :=
  ((dat m fs c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat m fs c).before 5 t d = iblk m fs c 5 t :=
  ((dat m fs c).before_in_eq_fetched 5 rfl (fun _ => rfl) (fun _ _ _ => rfl)
    (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat m fs c).before 6 t d = iblk m fs c 6 t :=
  ((dat m fs c).before_in_eq_fetched 6 rfl (fun _ => rfl) (fun _ _ _ => rfl)
    (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat m fs c).before 7 t d = iblk m fs c 7 t :=
  ((dat m fs c).before_in_eq_fetched 7 rfl (fun _ => rfl) (fun _ _ _ => rfl)
    (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dat m fs c).before 8 t d = iblk m fs c 8 t :=
  ((dat m fs c).before_in_eq_fetched 8 rfl (fun _ => rfl) (fun _ _ _ => rfl)
    (fun t => by rw [after1_8]; unfold Dat.blockOf iblk; rw [A_eq]; try rfl) t d).trans
    (by unfold Dat.fetched Dat.blockOf iblk; rw [A_eq]; try rfl)
theorem before1_9 (c : Dev nD) (t : Fin cfg1.N) (d) : (dat m fs c).before 9 t d = iblk m fs c 9 t :=
  ((dat m fs c).before_in_eq_fetched 9 rfl (fun _ => rfl) (fun _ _ _ => rfl)
    (fun t => by rw [after1_9]; unfold Dat.blockOf iblk; rw [A_eq]; try rfl) t d).trans
    (by unfold Dat.fetched Dat.blockOf iblk; rw [A_eq]; try rfl)
theorem before1_10 (c : Dev nD) (t : Fin cfg1.N) (d) : (dat m fs c).before 10 t d = iblk m fs c 10 t :=
  ((dat m fs c).before_in_eq_fetched 10 rfl (fun _ => rfl) (fun _ _ _ => rfl)
    (fun t => by rw [after1_10]; unfold Dat.blockOf iblk; rw [A_eq]; try rfl) t d).trans
    (by unfold Dat.fetched Dat.blockOf iblk; rw [A_eq]; try rfl)
theorem before1_11 (c : Dev nD) (t : Fin cfg1.N) (d) : (dat m fs c).before 11 t d = iblk m fs c 11 t :=
  ((dat m fs c).before_in_eq_fetched 11 rfl (fun _ => rfl) (fun _ _ _ => rfl)
    (fun t => by rw [after1_11]; unfold Dat.blockOf iblk; rw [A_eq]; try rfl) t d).trans
    (by unfold Dat.fetched Dat.blockOf iblk; rw [A_eq]; try rfl)
theorem before1_12 (c : Dev nD) (t : Fin cfg1.N) (d) : (dat m fs c).before 12 t d = iblk m fs c 12 t :=
  ((dat m fs c).before_in_eq_fetched 12 rfl (fun _ => rfl) (fun _ _ _ => rfl)
    (fun t => by rw [after1_12]; unfold Dat.blockOf iblk; rw [A_eq]; try rfl) t d).trans
    (by unfold Dat.fetched Dat.blockOf iblk; rw [A_eq]; try rfl)
theorem before1_13 (c : Dev nD) (t : Fin cfg1.N) (d) : (dat m fs c).before 13 t d = iblk m fs c 13 t :=
  ((dat m fs c).before_in_eq_fetched 13 rfl (fun _ => rfl) (fun _ _ _ => rfl)
    (fun t => by rw [after1_13]; unfold Dat.blockOf iblk; rw [A_eq]; try rfl) t d).trans
    (by unfold Dat.fetched Dat.blockOf iblk; rw [A_eq]; try rfl)
theorem before1_14 (c : Dev nD) (t : Fin cfg1.N) (d) : (dat m fs c).before 14 t d = iblk m fs c 14 t :=
  ((dat m fs c).before_in_eq_fetched 14 rfl (fun _ => rfl) (fun _ _ _ => rfl)
    (fun t => by rw [after1_14]; unfold Dat.blockOf iblk; rw [A_eq]; try rfl) t d).trans
    (by unfold Dat.fetched Dat.blockOf iblk; rw [A_eq]; try rfl)
theorem before1_15 (c : Dev nD) (t : Fin cfg1.N) (d) : (dat m fs c).before 15 t d = iblk m fs c 15 t :=
  ((dat m fs c).before_in_eq_fetched 15 rfl (fun _ => rfl) (fun _ _ _ => rfl)
    (fun t => by rw [after1_15]; unfold Dat.blockOf iblk; rw [A_eq]; try rfl) t d).trans
    (by unfold Dat.fetched Dat.blockOf iblk; rw [A_eq]; try rfl)
theorem before1_16 (c : Dev nD) (t : Fin cfg1.N) (d) : (dat m fs c).before 16 t d = iblk m fs c 16 t :=
  ((dat m fs c).before_in_eq_fetched 16 rfl (fun _ => rfl) (fun _ _ _ => rfl)
    (fun t => by rw [after1_16]; unfold Dat.blockOf iblk; rw [A_eq]; try rfl) t d).trans
    (by unfold Dat.fetched Dat.blockOf iblk; rw [A_eq]; try rfl)
theorem before1_17 (c : Dev nD) (t : Fin cfg1.N) (d) : (dat m fs c).before 17 t d = iblk m fs c 17 t :=
  ((dat m fs c).before_in_eq_fetched 17 rfl (fun _ => rfl) (fun _ _ _ => rfl)
    (fun t => by rw [after1_17]; unfold Dat.blockOf iblk; rw [A_eq]; try rfl) t d).trans
    (by unfold Dat.fetched Dat.blockOf iblk; rw [A_eq]; try rfl)
theorem before1_18 (c : Dev nD) (t : Fin cfg1.N) (d) : (dat m fs c).before 18 t d = iblk m fs c 18 t :=
  ((dat m fs c).before_in_eq_fetched 18 rfl (fun _ => rfl) (fun _ _ _ => rfl)
    (fun t => by rw [after1_18]; unfold Dat.blockOf iblk; rw [A_eq]; try rfl) t d).trans
    (by unfold Dat.fetched Dat.blockOf iblk; rw [A_eq]; try rfl)
theorem before1_19 (c : Dev nD) (t : Fin cfg1.N) (d) : (dat m fs c).before 19 t d = iblk m fs c 19 t :=
  ((dat m fs c).before_in_eq_fetched 19 rfl (fun _ => rfl) (fun _ _ _ => rfl)
    (fun t => by rw [after1_19]; unfold Dat.blockOf iblk; rw [A_eq]; try rfl) t d).trans
    (by unfold Dat.fetched Dat.blockOf iblk; rw [A_eq]; try rfl)

/-! ## The body obligation -/

theorem share_full (c : Dev nD) (w : Fin cfg1.W) : (dat m fs c).share w = fullShare :=
  (dat m fs c).share_full (fun _ => rfl) w

/-- What the body is called with at the point, -/
def bodyPre (c : Dev nD) (t : Fin cfg1.N) : sProp 𝕄 :=
  iprop((dat m fs c).Φ t.castSucc ∗ (dat m fs c).owesAt none t.castSucc
    ∗ (∃ d, owns (SparseCore.T (τ := τ) c) (st1_0 t) fullShare ((dat m fs c).before 0 t d))
    ∗ (∃ d, owns (SparseCore.T (τ := τ) c) (st1_1 t) fullShare ((dat m fs c).before 1 t d))
    ∗ (∃ d, owns (SparseCore.T (τ := τ) c) (st1_2 t) fullShare ((dat m fs c).before 2 t d))
    ∗ (∃ d, owns (SparseCore.T (τ := τ) c) (st1_3 t) fullShare ((dat m fs c).before 3 t d))
    ∗ (∃ d, owns (SparseCore.T (τ := τ) c) (st1_4 t) fullShare ((dat m fs c).before 4 t d))
    ∗ (∃ d, owns (SparseCore.T (τ := τ) c) (st1_5 t) fullShare ((dat m fs c).before 5 t d))
    ∗ (∃ d, owns (SparseCore.T (τ := τ) c) (st1_6 t) fullShare ((dat m fs c).before 6 t d))
    ∗ (∃ d, owns (SparseCore.T (τ := τ) c) (st1_7 t) fullShare ((dat m fs c).before 7 t d))
    ∗ (∃ d, owns (SparseCore.T (τ := τ) c) (st1_8 t) fullShare ((dat m fs c).before 8 t d))
    ∗ (∃ d, owns (SparseCore.T (τ := τ) c) (st1_9 t) fullShare ((dat m fs c).before 9 t d))
    ∗ (∃ d, owns (SparseCore.T (τ := τ) c) (st1_10 t) fullShare ((dat m fs c).before 10 t d))
    ∗ (∃ d, owns (SparseCore.T (τ := τ) c) (st1_11 t) fullShare ((dat m fs c).before 11 t d))
    ∗ (∃ d, owns (SparseCore.T (τ := τ) c) (st1_12 t) fullShare ((dat m fs c).before 12 t d))
    ∗ (∃ d, owns (SparseCore.T (τ := τ) c) (st1_13 t) fullShare ((dat m fs c).before 13 t d))
    ∗ (∃ d, owns (SparseCore.T (τ := τ) c) (st1_14 t) fullShare ((dat m fs c).before 14 t d))
    ∗ (∃ d, owns (SparseCore.T (τ := τ) c) (st1_15 t) fullShare ((dat m fs c).before 15 t d))
    ∗ (∃ d, owns (SparseCore.T (τ := τ) c) (st1_16 t) fullShare ((dat m fs c).before 16 t d))
    ∗ (∃ d, owns (SparseCore.T (τ := τ) c) (st1_17 t) fullShare ((dat m fs c).before 17 t d))
    ∗ (∃ d, owns (SparseCore.T (τ := τ) c) (st1_18 t) fullShare ((dat m fs c).before 18 t d))
    ∗ (∃ d, owns (SparseCore.T (τ := τ) c) (st1_19 t) fullShare ((dat m fs c).before 19 t d))
    ∗ (∃ d, owns (SparseCore.T (τ := τ) c) (st1_20 t) fullShare ((dat m fs c).before 20 t d)))

/-- and what it returns. -/
def bodyPost (c : Dev nD) (t : Fin cfg1.N) : sProp 𝕄 :=
  iprop((dat m fs c).Φ t.succ ∗ (dat m fs c).owesAt none t.succ
    ∗ owns (SparseCore.T (τ := τ) c) (st1_0 t) fullShare ((dat m fs c).after 0 t)
    ∗ owns (SparseCore.T (τ := τ) c) (st1_1 t) fullShare ((dat m fs c).after 1 t)
    ∗ owns (SparseCore.T (τ := τ) c) (st1_2 t) fullShare ((dat m fs c).after 2 t)
    ∗ owns (SparseCore.T (τ := τ) c) (st1_3 t) fullShare ((dat m fs c).after 3 t)
    ∗ owns (SparseCore.T (τ := τ) c) (st1_4 t) fullShare ((dat m fs c).after 4 t)
    ∗ owns (SparseCore.T (τ := τ) c) (st1_5 t) fullShare ((dat m fs c).after 5 t)
    ∗ owns (SparseCore.T (τ := τ) c) (st1_6 t) fullShare ((dat m fs c).after 6 t)
    ∗ owns (SparseCore.T (τ := τ) c) (st1_7 t) fullShare ((dat m fs c).after 7 t)
    ∗ owns (SparseCore.T (τ := τ) c) (st1_8 t) fullShare ((dat m fs c).after 8 t)
    ∗ owns (SparseCore.T (τ := τ) c) (st1_9 t) fullShare ((dat m fs c).after 9 t)
    ∗ owns (SparseCore.T (τ := τ) c) (st1_10 t) fullShare ((dat m fs c).after 10 t)
    ∗ owns (SparseCore.T (τ := τ) c) (st1_11 t) fullShare ((dat m fs c).after 11 t)
    ∗ owns (SparseCore.T (τ := τ) c) (st1_12 t) fullShare ((dat m fs c).after 12 t)
    ∗ owns (SparseCore.T (τ := τ) c) (st1_13 t) fullShare ((dat m fs c).after 13 t)
    ∗ owns (SparseCore.T (τ := τ) c) (st1_14 t) fullShare ((dat m fs c).after 14 t)
    ∗ owns (SparseCore.T (τ := τ) c) (st1_15 t) fullShare ((dat m fs c).after 15 t)
    ∗ owns (SparseCore.T (τ := τ) c) (st1_16 t) fullShare ((dat m fs c).after 16 t)
    ∗ owns (SparseCore.T (τ := τ) c) (st1_17 t) fullShare ((dat m fs c).after 17 t)
    ∗ owns (SparseCore.T (τ := τ) c) (st1_18 t) fullShare ((dat m fs c).after 18 t)
    ∗ owns (SparseCore.T (τ := τ) c) (st1_19 t) fullShare ((dat m fs c).after 19 t)
    ∗ owns (SparseCore.T (τ := τ) c) (st1_20 t) fullShare ((dat m fs c).after 20 t))

/-- The body at the point: the operands' memrefs hold their blocks, so the body's triple applies; the invariant and
    what the core owes pass through unread. -/
theorem sound_body (c : Dev nD) (t : Fin cfg1.N) :
    bodyPre m fs c t ⊢ wp frame (wpE (defs₀ (F := F)) Variants.none (SparseCore.T (τ := τ) c) none) Set.univ (bodyAt1 t) (fun _ => bodyPost m fs c t) := by
  unfold bodyPre bodyPost bodyAt1
  simp only [before1_0, before1_1, before1_2, before1_3, before1_4, before1_5, before1_6, before1_7, before1_8, before1_9, before1_10, before1_11, before1_12, before1_13, before1_14, before1_15, before1_16, before1_17, before1_18, before1_19]
  rw [show (dat m fs c).Φ t.succ = (dat m fs c).Φ t.castSucc from rfl,
    show (dat m fs c).owesAt none t.succ = (dat m fs c).owesAt none t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ _ _ _ _ _ _ _ _ _ _ _ _ _ _ _ _ _ _ _ _ _ _ _ _ _ _ _ _ _ _ _ _ _ _ _ _ _ _ _ _ _ _ (iblk m fs c 0 t) (iblk m fs c 1 t) (iblk m fs c 2 t) (iblk m fs c 3 t) (iblk m fs c 4 t) (iblk m fs c 5 t) (iblk m fs c 6 t) (iblk m fs c 7 t) (iblk m fs c 8 t) (iblk m fs c 9 t) (iblk m fs c 10 t) (iblk m fs c 11 t) (iblk m fs c 12 t) (iblk m fs c 13 t) (iblk m fs c 14 t) (iblk m fs c 15 t) (iblk m fs c 16 t) (iblk m fs c 17 t) (iblk m fs c 18 t) (iblk m fs c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at the point. -/
theorem body_obligation (c : Dev nD) : BodyObligation (dat (F := F) m fs c) (defs₀ (F := F)) Variants.none none Set.univ := fun t => by
  rw [bigSep_W1, bigSep_W1]
  exact sound_body m fs c t

/-! ## The region -/

/-- The TensorCore's debt and recorded pairs around the region: it owes nothing (its one start signal is paid), and
    every pair its waits have recorded sits at or below the first call's level; the pipeline's own waits record pairs
    at the lowest level. -/
abbrev owesTc (c : Dev nD) : sProp 𝕄 :=
  iprop(∃ W, ⌜(K (F := F)).WBelow (SparseCore.T (τ := τ) c) W 8⌝ ∗ owes (SparseCore.T (τ := τ) c) (0 : CellTallies nD τ sig (HIx 1)) W)

theorem bigSep_fin0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

theorem scopedRest_pin (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

theorem owesAt_intro (c : Dev nD) (t : Fin (cfg1.N + 1)) : owesTc (F := F) c ⊢ ((dat m fs c).owesAt none t : sProp 𝕄) := by
  unfold Pipeline.Dat.owesAt Pipeline.owesWithin Pipeline.Dat.bound
  have h1 : (dat m fs c).owed t = 0 := by dsimp only [dat]
  have h2 : (dat m fs c).recorded t = recB (F := F) c := by dsimp only [dat]
  rw [h1, h2]
  iintro ⟨%W, %hW, HO⟩
  iexists W; isplitr; · ipureintro; exact fun p hp => Or.inl (hW p (Finset.mem_coe.mp hp))
  iexact HO

theorem owesAt_elim (c : Dev nD) (t : Fin (cfg1.N + 1)) : ((dat m fs c).owesAt none t : sProp 𝕄) ⊢ owesTc (F := F) c := by
  unfold Pipeline.Dat.owesAt Pipeline.owesWithin Pipeline.Dat.bound
  have h1 : (dat m fs c).owed t = 0 := by dsimp only [dat]
  have h2 : (dat m fs c).recorded t = recB (F := F) c := by dsimp only [dat]
  rw [h1, h2]
  iintro ⟨%W, %hW, HO⟩
  iexists W; isplitr
  · ipureintro
    intro p hp
    rcases hW (Finset.mem_coe.mpr hp) with h | ⟨w, s, rfl⟩
    · exact h
    · first | exact Nat.zero_le _ | simp
  iexact HO

/-- The windows' arrays one by one, the nineteen launch operands and the counts at contents `V`, the result array at `r`. -/
abbrev chainV (c : Dev nD) (V : (b : Ref sig .tc) → Buf (Elt F) ((SparseCore.T (τ := τ) c).loc b)) (r : Buf (Elt F) ((SparseCore.T (τ := τ) c).loc main_v3)) : sProp 𝕄 :=
  iprop(((SparseCore.T (τ := τ) c).loc main_v2 ↦{fullShare} V main_v2)
    ∗ ((SparseCore.T (τ := τ) c).loc main_arg0 ↦{fullShare} V main_arg0)
    ∗ ((SparseCore.T (τ := τ) c).loc main_arg2 ↦{fullShare} V main_arg2)
    ∗ ((SparseCore.T (τ := τ) c).loc main_arg3 ↦{fullShare} V main_arg3)
    ∗ ((SparseCore.T (τ := τ) c).loc main_arg4 ↦{fullShare} V main_arg4)
    ∗ ((SparseCore.T (τ := τ) c).loc main_arg5 ↦{fullShare} V main_arg5)
    ∗ ((SparseCore.T (τ := τ) c).loc main_arg6 ↦{fullShare} V main_arg6)
    ∗ ((SparseCore.T (τ := τ) c).loc main_arg7 ↦{fullShare} V main_arg7)
    ∗ ((SparseCore.T (τ := τ) c).loc main_arg8 ↦{fullShare} V main_arg8)
    ∗ ((SparseCore.T (τ := τ) c).loc main_arg9 ↦{fullShare} V main_arg9)
    ∗ ((SparseCore.T (τ := τ) c).loc main_arg10 ↦{fullShare} V main_arg10)
    ∗ ((SparseCore.T (τ := τ) c).loc main_arg11 ↦{fullShare} V main_arg11)
    ∗ ((SparseCore.T (τ := τ) c).loc main_arg12 ↦{fullShare} V main_arg12)
    ∗ ((SparseCore.T (τ := τ) c).loc main_arg13 ↦{fullShare} V main_arg13)
    ∗ ((SparseCore.T (τ := τ) c).loc main_arg14 ↦{fullShare} V main_arg14)
    ∗ ((SparseCore.T (τ := τ) c).loc main_arg15 ↦{fullShare} V main_arg15)
    ∗ ((SparseCore.T (τ := τ) c).loc main_arg16 ↦{fullShare} V main_arg16)
    ∗ ((SparseCore.T (τ := τ) c).loc main_arg17 ↦{fullShare} V main_arg17)
    ∗ ((SparseCore.T (τ := τ) c).loc main_arg18 ↦{fullShare} V main_arg18)
    ∗ ((SparseCore.T (τ := τ) c).loc main_arg19 ↦{fullShare} V main_arg19)
    ∗ ((SparseCore.T (τ := τ) c).loc main_v3 ↦{fullShare} r))

set_option maxHeartbeats 1000000 in
/-- The pipeline's arrays at any contents are the windows' arrays one by one, each whole at the full share. -/
theorem arrays_chain (c : Dev nD) (Fa : (w : Fin cfg1.W) → Buf (Elt F) ((cfg1.win w).arr.view.loc (SparseCore.T (τ := τ) c))) :
    ((dat m fs c).arrays Fa : sProp 𝕄)
      = iprop(((SparseCore.T (τ := τ) c).loc main_v2 ↦{fullShare} (Fa 0 : Buf (Elt F) ((SparseCore.T (τ := τ) c).loc main_v2)))
        ∗ ((SparseCore.T (τ := τ) c).loc main_arg0 ↦{fullShare} (Fa 1 : Buf (Elt F) ((SparseCore.T (τ := τ) c).loc main_arg0)))
        ∗ ((SparseCore.T (τ := τ) c).loc main_arg2 ↦{fullShare} (Fa 2 : Buf (Elt F) ((SparseCore.T (τ := τ) c).loc main_arg2)))
        ∗ ((SparseCore.T (τ := τ) c).loc main_arg3 ↦{fullShare} (Fa 3 : Buf (Elt F) ((SparseCore.T (τ := τ) c).loc main_arg3)))
        ∗ ((SparseCore.T (τ := τ) c).loc main_arg4 ↦{fullShare} (Fa 4 : Buf (Elt F) ((SparseCore.T (τ := τ) c).loc main_arg4)))
        ∗ ((SparseCore.T (τ := τ) c).loc main_arg5 ↦{fullShare} (Fa 5 : Buf (Elt F) ((SparseCore.T (τ := τ) c).loc main_arg5)))
        ∗ ((SparseCore.T (τ := τ) c).loc main_arg6 ↦{fullShare} (Fa 6 : Buf (Elt F) ((SparseCore.T (τ := τ) c).loc main_arg6)))
        ∗ ((SparseCore.T (τ := τ) c).loc main_arg7 ↦{fullShare} (Fa 7 : Buf (Elt F) ((SparseCore.T (τ := τ) c).loc main_arg7)))
        ∗ ((SparseCore.T (τ := τ) c).loc main_arg8 ↦{fullShare} (Fa 8 : Buf (Elt F) ((SparseCore.T (τ := τ) c).loc main_arg8)))
        ∗ ((SparseCore.T (τ := τ) c).loc main_arg9 ↦{fullShare} (Fa 9 : Buf (Elt F) ((SparseCore.T (τ := τ) c).loc main_arg9)))
        ∗ ((SparseCore.T (τ := τ) c).loc main_arg10 ↦{fullShare} (Fa 10 : Buf (Elt F) ((SparseCore.T (τ := τ) c).loc main_arg10)))
        ∗ ((SparseCore.T (τ := τ) c).loc main_arg11 ↦{fullShare} (Fa 11 : Buf (Elt F) ((SparseCore.T (τ := τ) c).loc main_arg11)))
        ∗ ((SparseCore.T (τ := τ) c).loc main_arg12 ↦{fullShare} (Fa 12 : Buf (Elt F) ((SparseCore.T (τ := τ) c).loc main_arg12)))
        ∗ ((SparseCore.T (τ := τ) c).loc main_arg13 ↦{fullShare} (Fa 13 : Buf (Elt F) ((SparseCore.T (τ := τ) c).loc main_arg13)))
        ∗ ((SparseCore.T (τ := τ) c).loc main_arg14 ↦{fullShare} (Fa 14 : Buf (Elt F) ((SparseCore.T (τ := τ) c).loc main_arg14)))
        ∗ ((SparseCore.T (τ := τ) c).loc main_arg15 ↦{fullShare} (Fa 15 : Buf (Elt F) ((SparseCore.T (τ := τ) c).loc main_arg15)))
        ∗ ((SparseCore.T (τ := τ) c).loc main_arg16 ↦{fullShare} (Fa 16 : Buf (Elt F) ((SparseCore.T (τ := τ) c).loc main_arg16)))
        ∗ ((SparseCore.T (τ := τ) c).loc main_arg17 ↦{fullShare} (Fa 17 : Buf (Elt F) ((SparseCore.T (τ := τ) c).loc main_arg17)))
        ∗ ((SparseCore.T (τ := τ) c).loc main_arg18 ↦{fullShare} (Fa 18 : Buf (Elt F) ((SparseCore.T (τ := τ) c).loc main_arg18)))
        ∗ ((SparseCore.T (τ := τ) c).loc main_arg19 ↦{fullShare} (Fa 19 : Buf (Elt F) ((SparseCore.T (τ := τ) c).loc main_arg19)))
        ∗ ((SparseCore.T (τ := τ) c).loc main_v3 ↦{fullShare} (Fa 20 : Buf (Elt F) ((SparseCore.T (τ := τ) c).loc main_v3)))) := by
  have e := Pipeline.arrays_eq cfgs (fun _ c => dat m fs c) 0 c arr_whole1 (share_full m fs c) Fa
  rw [e, bigSep_W1]
  try rfl

/-- What the result array holds when the region is left: what the library computes from the proof data. -/
def denseOut (c : Dev nD) : Buf (Elt F) ((SparseCore.T (τ := τ) c).loc main_v3) := (dat m fs c).arrAt 20 cfg1.N

/-- Each window's array as the region finds it, by name. -/
theorem A1_0 (c : Dev nD) : (dat m fs c).A 0 = VR m fs c main_v2 := (A_eq m fs c 0).trans rfl
theorem A1_1 (c : Dev nD) : (dat m fs c).A 1 = VR m fs c main_arg0 := (A_eq m fs c 1).trans rfl
theorem A1_2 (c : Dev nD) : (dat m fs c).A 2 = VR m fs c main_arg2 := (A_eq m fs c 2).trans rfl
theorem A1_3 (c : Dev nD) : (dat m fs c).A 3 = VR m fs c main_arg3 := (A_eq m fs c 3).trans rfl
theorem A1_4 (c : Dev nD) : (dat m fs c).A 4 = VR m fs c main_arg4 := (A_eq m fs c 4).trans rfl
theorem A1_5 (c : Dev nD) : (dat m fs c).A 5 = VR m fs c main_arg5 := (A_eq m fs c 5).trans rfl
theorem A1_6 (c : Dev nD) : (dat m fs c).A 6 = VR m fs c main_arg6 := (A_eq m fs c 6).trans rfl
theorem A1_7 (c : Dev nD) : (dat m fs c).A 7 = VR m fs c main_arg7 := (A_eq m fs c 7).trans rfl
theorem A1_8 (c : Dev nD) : (dat m fs c).A 8 = VR m fs c main_arg8 := (A_eq m fs c 8).trans rfl
theorem A1_9 (c : Dev nD) : (dat m fs c).A 9 = VR m fs c main_arg9 := (A_eq m fs c 9).trans rfl
theorem A1_10 (c : Dev nD) : (dat m fs c).A 10 = VR m fs c main_arg10 := (A_eq m fs c 10).trans rfl
theorem A1_11 (c : Dev nD) : (dat m fs c).A 11 = VR m fs c main_arg11 := (A_eq m fs c 11).trans rfl
theorem A1_12 (c : Dev nD) : (dat m fs c).A 12 = VR m fs c main_arg12 := (A_eq m fs c 12).trans rfl
theorem A1_13 (c : Dev nD) : (dat m fs c).A 13 = VR m fs c main_arg13 := (A_eq m fs c 13).trans rfl
theorem A1_14 (c : Dev nD) : (dat m fs c).A 14 = VR m fs c main_arg14 := (A_eq m fs c 14).trans rfl
theorem A1_15 (c : Dev nD) : (dat m fs c).A 15 = VR m fs c main_arg15 := (A_eq m fs c 15).trans rfl
theorem A1_16 (c : Dev nD) : (dat m fs c).A 16 = VR m fs c main_arg16 := (A_eq m fs c 16).trans rfl
theorem A1_17 (c : Dev nD) : (dat m fs c).A 17 = VR m fs c main_arg17 := (A_eq m fs c 17).trans rfl
theorem A1_18 (c : Dev nD) : (dat m fs c).A 18 = VR m fs c main_arg18 := (A_eq m fs c 18).trans rfl
theorem A1_19 (c : Dev nD) : (dat m fs c).A 19 = VR m fs c main_arg19 := (A_eq m fs c 19).trans rfl
theorem A1_20 (c : Dev nD) : (dat m fs c).A 20 = VR m fs c main_v3 := (A_eq m fs c 20).trans rfl

/-- An operand's array is never written back. -/
theorem arrAtN_0 (c : Dev nD) : (dat m fs c).arrAt 0 cfg1.N = VR m fs c main_v2 :=
  ((dat m fs c).arrAt_in 0 (show win1_0.isOut = false from rfl) _).trans (A1_0 m fs c)
theorem arrAtN_1 (c : Dev nD) : (dat m fs c).arrAt 1 cfg1.N = VR m fs c main_arg0 :=
  ((dat m fs c).arrAt_in 1 (show win1_1.isOut = false from rfl) _).trans (A1_1 m fs c)
theorem arrAtN_2 (c : Dev nD) : (dat m fs c).arrAt 2 cfg1.N = VR m fs c main_arg2 :=
  ((dat m fs c).arrAt_in 2 (show win1_2.isOut = false from rfl) _).trans (A1_2 m fs c)
theorem arrAtN_3 (c : Dev nD) : (dat m fs c).arrAt 3 cfg1.N = VR m fs c main_arg3 :=
  ((dat m fs c).arrAt_in 3 (show win1_3.isOut = false from rfl) _).trans (A1_3 m fs c)
theorem arrAtN_4 (c : Dev nD) : (dat m fs c).arrAt 4 cfg1.N = VR m fs c main_arg4 :=
  ((dat m fs c).arrAt_in 4 (show win1_4.isOut = false from rfl) _).trans (A1_4 m fs c)
theorem arrAtN_5 (c : Dev nD) : (dat m fs c).arrAt 5 cfg1.N = VR m fs c main_arg5 :=
  ((dat m fs c).arrAt_in 5 (show win1_5.isOut = false from rfl) _).trans (A1_5 m fs c)
theorem arrAtN_6 (c : Dev nD) : (dat m fs c).arrAt 6 cfg1.N = VR m fs c main_arg6 :=
  ((dat m fs c).arrAt_in 6 (show win1_6.isOut = false from rfl) _).trans (A1_6 m fs c)
theorem arrAtN_7 (c : Dev nD) : (dat m fs c).arrAt 7 cfg1.N = VR m fs c main_arg7 :=
  ((dat m fs c).arrAt_in 7 (show win1_7.isOut = false from rfl) _).trans (A1_7 m fs c)
theorem arrAtN_8 (c : Dev nD) : (dat m fs c).arrAt 8 cfg1.N = VR m fs c main_arg8 :=
  ((dat m fs c).arrAt_in 8 (show win1_8.isOut = false from rfl) _).trans (A1_8 m fs c)
theorem arrAtN_9 (c : Dev nD) : (dat m fs c).arrAt 9 cfg1.N = VR m fs c main_arg9 :=
  ((dat m fs c).arrAt_in 9 (show win1_9.isOut = false from rfl) _).trans (A1_9 m fs c)
theorem arrAtN_10 (c : Dev nD) : (dat m fs c).arrAt 10 cfg1.N = VR m fs c main_arg10 :=
  ((dat m fs c).arrAt_in 10 (show win1_10.isOut = false from rfl) _).trans (A1_10 m fs c)
theorem arrAtN_11 (c : Dev nD) : (dat m fs c).arrAt 11 cfg1.N = VR m fs c main_arg11 :=
  ((dat m fs c).arrAt_in 11 (show win1_11.isOut = false from rfl) _).trans (A1_11 m fs c)
theorem arrAtN_12 (c : Dev nD) : (dat m fs c).arrAt 12 cfg1.N = VR m fs c main_arg12 :=
  ((dat m fs c).arrAt_in 12 (show win1_12.isOut = false from rfl) _).trans (A1_12 m fs c)
theorem arrAtN_13 (c : Dev nD) : (dat m fs c).arrAt 13 cfg1.N = VR m fs c main_arg13 :=
  ((dat m fs c).arrAt_in 13 (show win1_13.isOut = false from rfl) _).trans (A1_13 m fs c)
theorem arrAtN_14 (c : Dev nD) : (dat m fs c).arrAt 14 cfg1.N = VR m fs c main_arg14 :=
  ((dat m fs c).arrAt_in 14 (show win1_14.isOut = false from rfl) _).trans (A1_14 m fs c)
theorem arrAtN_15 (c : Dev nD) : (dat m fs c).arrAt 15 cfg1.N = VR m fs c main_arg15 :=
  ((dat m fs c).arrAt_in 15 (show win1_15.isOut = false from rfl) _).trans (A1_15 m fs c)
theorem arrAtN_16 (c : Dev nD) : (dat m fs c).arrAt 16 cfg1.N = VR m fs c main_arg16 :=
  ((dat m fs c).arrAt_in 16 (show win1_16.isOut = false from rfl) _).trans (A1_16 m fs c)
theorem arrAtN_17 (c : Dev nD) : (dat m fs c).arrAt 17 cfg1.N = VR m fs c main_arg17 :=
  ((dat m fs c).arrAt_in 17 (show win1_17.isOut = false from rfl) _).trans (A1_17 m fs c)
theorem arrAtN_18 (c : Dev nD) : (dat m fs c).arrAt 18 cfg1.N = VR m fs c main_arg18 :=
  ((dat m fs c).arrAt_in 18 (show win1_18.isOut = false from rfl) _).trans (A1_18 m fs c)
theorem arrAtN_19 (c : Dev nD) : (dat m fs c).arrAt 19 cfg1.N = VR m fs c main_arg19 :=
  ((dat m fs c).arrAt_in 19 (show win1_19.isOut = false from rfl) _).trans (A1_19 m fs c)

set_option maxHeartbeats 1000000 in
/-- ENTRY: the pipeline's arrays at the proof data's entry contents are the arrays as the region finds them. -/
theorem entry_eq (c : Dev nD) :
    ((dat m fs c).arrays ((dat m fs c).arrAt · 0) : sProp 𝕄) = chainV c (VR m fs c) (VR m fs c main_v3) := by
  rw [arrays_chain]
  simp only [show ∀ w, (dat m fs c).arrAt w 0 = (dat m fs c).A w from fun _ => rfl, A1_0, A1_1, A1_2, A1_3, A1_4, A1_5, A1_6, A1_7, A1_8, A1_9, A1_10, A1_11, A1_12, A1_13, A1_14, A1_15, A1_16, A1_17, A1_18, A1_19, A1_20]

set_option maxHeartbeats 1000000 in
/-- EXIT: the operands' arrays unchanged, the result array at what the proof data compute. -/
theorem exit_eq (c : Dev nD) :
    ((dat m fs c).arrays ((dat m fs c).arrAt · cfg1.N) : sProp 𝕄) = chainV c (VR m fs c) (denseOut m fs c) := by
  rw [arrays_chain]
  rw [arrAtN_0, arrAtN_1, arrAtN_2, arrAtN_3, arrAtN_4, arrAtN_5, arrAtN_6, arrAtN_7, arrAtN_8, arrAtN_9, arrAtN_10, arrAtN_11, arrAtN_12, arrAtN_13, arrAtN_14, arrAtN_15, arrAtN_16, arrAtN_17, arrAtN_18, arrAtN_19]
  rfl

theorem owed_zero (c : Dev nD) (t : Fin (cfg1.N + 1)) : (pdats m fs 0 c).owed t = 0 := by dsimp only [pdats, dat]

set_option maxHeartbeats 1000000 in
/-- The dense stage's region: entered from the windows' arrays as the region finds them and the core's debt, left
    with the operands' arrays unchanged, the result array at what the proof data compute, and the debt unchanged. -/
def reg : Pipeline.RegionSeg (pcfgs (F := F)) adm (pdats m fs) none (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m fs c).loose
  hwaits := Pipeline.hwaits_of_owed_zero _ _ _ _ (K (F := F)).L (K (F := F)).lev 0 fun c t => owed_zero m fs c t
  pre c := iprop(chainV c (VR m fs c) (VR m fs c main_v3) ∗ owesTc (F := F) c)
  post c := iprop(chainV c (VR m fs c) (denseOut m fs c) ∗ owesTc (F := F) c)
  X _ := iprop(emp)
  Y _ := iprop(emp)
  Z _ := iprop(emp)
  hentry c := by
    rw [Pipeline.ownSems0_none, prefHeld_emp]
    iintro ⟨⟨Ha, HO⟩, -, -⟩
    imodintro
    isplitl [Ha]
    · iapply (Entails.of_eq (entry_eq m fs c).symm); iexact Ha
    isplitr; · iempintro
    isplitl [HO]; · iapply (owesAt_intro m fs c 0); iexact HO
    try dsimp only
    isplitr <;> iempintro
  hin c := by
    dsimp only [pdats, dat]
    iintro -; iempintro
  hout c := by
    rw [Pipeline.ownSems0_none, scopedRest_pin]
    try dsimp only
    iintro -
    isplitr; · iempintro
    isplitr <;> iempintro
  hexit c := by
    iintro ⟨Ha, HO, -, -⟩
    imodintro
    isplitl [Ha]
    · iapply (Entails.of_eq (exit_eq m fs c)); iexact Ha
    iapply (owesAt_elim m fs c (Fin.last _)); iexact HO

end Cert.Proof.KB

end
-- ==== Proof.DenseValB.lean ====
/-
  The dense stage's result, read as ONE function of the launch contents: the windows being whole arrays, every
  operand block the body loads is its array as the region finds it, and the one block the pipeline writes back covers
  the result array; so the result array ends holding the interface function of the reshaped counts and the nineteen
  launch operands.
-/
import proofs.«207914_g72782515798130_cont_9to1c4b_353_41_alg».proof.Proof.DenseB
import Idealize.ShloMosaic.Lib.Pipeline.Value

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- The dense stage's result from the counts `f` of device `c` and the launch contents of the nineteen other operands. -/
def outv (c : Dev nD) (f : Buf (Elt F) (cLoc c)) : FVec F S1x2 .f32 :=
  Cert.Proof.IfaceB.kerOut (cnt c f) (m ((SparseCore.T (τ := τ) c).loc main_arg0))
    (m ((SparseCore.T (τ := τ) c).loc main_arg2))
    (m ((SparseCore.T (τ := τ) c).loc main_arg3))
    (m ((SparseCore.T (τ := τ) c).loc main_arg4))
    (m ((SparseCore.T (τ := τ) c).loc main_arg5))
    (m ((SparseCore.T (τ := τ) c).loc main_arg6))
    (m ((SparseCore.T (τ := τ) c).loc main_arg7))
    (m ((SparseCore.T (τ := τ) c).loc main_arg8))
    (m ((SparseCore.T (τ := τ) c).loc main_arg9))
    (m ((SparseCore.T (τ := τ) c).loc main_arg10))
    (m ((SparseCore.T (τ := τ) c).loc main_arg11))
    (m ((SparseCore.T (τ := τ) c).loc main_arg12))
    (m ((SparseCore.T (τ := τ) c).loc main_arg13))
    (m ((SparseCore.T (τ := τ) c).loc main_arg14))
    (m ((SparseCore.T (τ := τ) c).loc main_arg15))
    (m ((SparseCore.T (τ := τ) c).loc main_arg16))
    (m ((SparseCore.T (τ := τ) c).loc main_arg17))
    (m ((SparseCore.T (τ := τ) c).loc main_arg18))
    (m ((SparseCore.T (τ := τ) c).loc main_arg19))

variable (fs : (c : Dev nD) → Buf (Elt F) (cLoc c))

/-! ## A whole window's block is its array -/

theorem emb1_0 (t : Fin cfg1.N) (j : ((cfg1.win 0).xblock (cfg1.grid.coords t)).Idx) : ((cfg1.win 0).blk t).view.emb j = j := by
  funext a; apply Fin.ext
  match a with
    | ⟨0, _⟩ => show win1_0.index t (0 : Fin 2) * 24 + 1 * (j 0).val = (j 0).val; have hx : win1_0.index t (0 : Fin 2) = 0 := rfl; rw [hx]; omega
    | ⟨1, _⟩ => show win1_0.index t (1 : Fin 2) * 128 + 1 * (j 1).val = (j 1).val; have hx : win1_0.index t (1 : Fin 2) = 0 := rfl; rw [hx]; omega

theorem iblk1_0 (c : Dev nD) (t : Fin cfg1.N) : iblk m fs c 0 t = (VR m fs c main_v2 : Vec F S24x128 .f32) := by
  funext j
  show VR m fs c main_v2 (((cfg1.win 0).blk t).view.emb j) = VR m fs c main_v2 j
  rw [emb1_0]

theorem emb1_1 (t : Fin cfg1.N) (j : ((cfg1.win 1).xblock (cfg1.grid.coords t)).Idx) : ((cfg1.win 1).blk t).view.emb j = j := by
  funext a; apply Fin.ext
  match a with
    | ⟨0, _⟩ => show win1_1.index t (0 : Fin 2) * 24 + 1 * (j 0).val = (j 0).val; have hx : win1_1.index t (0 : Fin 2) = 0 := rfl; rw [hx]; omega
    | ⟨1, _⟩ => show win1_1.index t (1 : Fin 2) * 128 + 1 * (j 1).val = (j 1).val; have hx : win1_1.index t (1 : Fin 2) = 0 := rfl; rw [hx]; omega

theorem iblk1_1 (c : Dev nD) (t : Fin cfg1.N) : iblk m fs c 1 t = (VR m fs c main_arg0 : Vec F S24x128 .f32) := by
  funext j
  show VR m fs c main_arg0 (((cfg1.win 1).blk t).view.emb j) = VR m fs c main_arg0 j
  rw [emb1_1]

theorem emb1_2 (t : Fin cfg1.N) (j : ((cfg1.win 2).xblock (cfg1.grid.coords t)).Idx) : ((cfg1.win 2).blk t).view.emb j = j := by
  funext a; apply Fin.ext
  match a with
    | ⟨0, _⟩ => show win1_2.index t (0 : Fin 2) * 128 + 1 * (j 0).val = (j 0).val; have hx : win1_2.index t (0 : Fin 2) = 0 := rfl; rw [hx]; omega
    | ⟨1, _⟩ => show win1_2.index t (1 : Fin 2) * 4 + 1 * (j 1).val = (j 1).val; have hx : win1_2.index t (1 : Fin 2) = 0 := rfl; rw [hx]; omega

theorem iblk1_2 (c : Dev nD) (t : Fin cfg1.N) : iblk m fs c 2 t = (VR m fs c main_arg2 : Vec F S128x4 .f32) := by
  funext j
  show VR m fs c main_arg2 (((cfg1.win 2).blk t).view.emb j) = VR m fs c main_arg2 j
  rw [emb1_2]

theorem emb1_3 (t : Fin cfg1.N) (j : ((cfg1.win 3).xblock (cfg1.grid.coords t)).Idx) : ((cfg1.win 3).blk t).view.emb j = j := by
  funext a; apply Fin.ext
  match a with
    | ⟨0, _⟩ => show win1_3.index t (0 : Fin 1) * 4 + 1 * (j 0).val = (j 0).val; have hx : win1_3.index t (0 : Fin 1) = 0 := rfl; rw [hx]; omega

theorem iblk1_3 (c : Dev nD) (t : Fin cfg1.N) : iblk m fs c 3 t = (VR m fs c main_arg3 : Vec F S4 .f32) := by
  funext j
  show VR m fs c main_arg3 (((cfg1.win 3).blk t).view.emb j) = VR m fs c main_arg3 j
  rw [emb1_3]

theorem emb1_4 (t : Fin cfg1.N) (j : ((cfg1.win 4).xblock (cfg1.grid.coords t)).Idx) : ((cfg1.win 4).blk t).view.emb j = j := by
  funext a; apply Fin.ext
  match a with
    | ⟨0, _⟩ => show win1_4.index t (0 : Fin 2) * 4 + 1 * (j 0).val = (j 0).val; have hx : win1_4.index t (0 : Fin 2) = 0 := rfl; rw [hx]; omega
    | ⟨1, _⟩ => show win1_4.index t (1 : Fin 2) * 4 + 1 * (j 1).val = (j 1).val; have hx : win1_4.index t (1 : Fin 2) = 0 := rfl; rw [hx]; omega

theorem iblk1_4 (c : Dev nD) (t : Fin cfg1.N) : iblk m fs c 4 t = (VR m fs c main_arg4 : Vec F S4x4 .f32) := by
  funext j
  show VR m fs c main_arg4 (((cfg1.win 4).blk t).view.emb j) = VR m fs c main_arg4 j
  rw [emb1_4]

theorem emb1_5 (t : Fin cfg1.N) (j : ((cfg1.win 5).xblock (cfg1.grid.coords t)).Idx) : ((cfg1.win 5).blk t).view.emb j = j := by
  funext a; apply Fin.ext
  match a with
    | ⟨0, _⟩ => show win1_5.index t (0 : Fin 1) * 4 + 1 * (j 0).val = (j 0).val; have hx : win1_5.index t (0 : Fin 1) = 0 := rfl; rw [hx]; omega

theorem iblk1_5 (c : Dev nD) (t : Fin cfg1.N) : iblk m fs c 5 t = (VR m fs c main_arg5 : Vec F S4 .f32) := by
  funext j
  show VR m fs c main_arg5 (((cfg1.win 5).blk t).view.emb j) = VR m fs c main_arg5 j
  rw [emb1_5]

theorem emb1_6 (t : Fin cfg1.N) (j : ((cfg1.win 6).xblock (cfg1.grid.coords t)).Idx) : ((cfg1.win 6).blk t).view.emb j = j := by
  funext a; apply Fin.ext
  match a with
    | ⟨0, _⟩ => show win1_6.index t (0 : Fin 2) * 4 + 1 * (j 0).val = (j 0).val; have hx : win1_6.index t (0 : Fin 2) = 0 := rfl; rw [hx]; omega
    | ⟨1, _⟩ => show win1_6.index t (1 : Fin 2) * 8 + 1 * (j 1).val = (j 1).val; have hx : win1_6.index t (1 : Fin 2) = 0 := rfl; rw [hx]; omega

theorem iblk1_6 (c : Dev nD) (t : Fin cfg1.N) : iblk m fs c 6 t = (VR m fs c main_arg6 : Vec F S4x8 .f32) := by
  funext j
  show VR m fs c main_arg6 (((cfg1.win 6).blk t).view.emb j) = VR m fs c main_arg6 j
  rw [emb1_6]

theorem emb1_7 (t : Fin cfg1.N) (j : ((cfg1.win 7).xblock (cfg1.grid.coords t)).Idx) : ((cfg1.win 7).blk t).view.emb j = j := by
  funext a; apply Fin.ext
  match a with
    | ⟨0, _⟩ => show win1_7.index t (0 : Fin 1) * 8 + 1 * (j 0).val = (j 0).val; have hx : win1_7.index t (0 : Fin 1) = 0 := rfl; rw [hx]; omega

theorem iblk1_7 (c : Dev nD) (t : Fin cfg1.N) : iblk m fs c 7 t = (VR m fs c main_arg7 : Vec F S8 .f32) := by
  funext j
  show VR m fs c main_arg7 (((cfg1.win 7).blk t).view.emb j) = VR m fs c main_arg7 j
  rw [emb1_7]

theorem emb1_8 (t : Fin cfg1.N) (j : ((cfg1.win 8).xblock (cfg1.grid.coords t)).Idx) : ((cfg1.win 8).blk t).view.emb j = j := by
  funext a; apply Fin.ext
  match a with
    | ⟨0, _⟩ => show win1_8.index t (0 : Fin 2) * 8 + 1 * (j 0).val = (j 0).val; have hx : win1_8.index t (0 : Fin 2) = 0 := rfl; rw [hx]; omega
    | ⟨1, _⟩ => show win1_8.index t (1 : Fin 2) * 8 + 1 * (j 1).val = (j 1).val; have hx : win1_8.index t (1 : Fin 2) = 0 := rfl; rw [hx]; omega

theorem iblk1_8 (c : Dev nD) (t : Fin cfg1.N) : iblk m fs c 8 t = (VR m fs c main_arg8 : Vec F S8x8 .f32) := by
  funext j
  show VR m fs c main_arg8 (((cfg1.win 8).blk t).view.emb j) = VR m fs c main_arg8 j
  rw [emb1_8]

theorem emb1_9 (t : Fin cfg1.N) (j : ((cfg1.win 9).xblock (cfg1.grid.coords t)).Idx) : ((cfg1.win 9).blk t).view.emb j = j := by
  funext a; apply Fin.ext
  match a with
    | ⟨0, _⟩ => show win1_9.index t (0 : Fin 1) * 8 + 1 * (j 0).val = (j 0).val; have hx : win1_9.index t (0 : Fin 1) = 0 := rfl; rw [hx]; omega

theorem iblk1_9 (c : Dev nD) (t : Fin cfg1.N) : iblk m fs c 9 t = (VR m fs c main_arg9 : Vec F S8 .f32) := by
  funext j
  show VR m fs c main_arg9 (((cfg1.win 9).blk t).view.emb j) = VR m fs c main_arg9 j
  rw [emb1_9]

theorem emb1_10 (t : Fin cfg1.N) (j : ((cfg1.win 10).xblock (cfg1.grid.coords t)).Idx) : ((cfg1.win 10).blk t).view.emb j = j := by
  funext a; apply Fin.ext
  match a with
    | ⟨0, _⟩ => show win1_10.index t (0 : Fin 2) * 8 + 1 * (j 0).val = (j 0).val; have hx : win1_10.index t (0 : Fin 2) = 0 := rfl; rw [hx]; omega
    | ⟨1, _⟩ => show win1_10.index t (1 : Fin 2) * 16 + 1 * (j 1).val = (j 1).val; have hx : win1_10.index t (1 : Fin 2) = 0 := rfl; rw [hx]; omega

theorem iblk1_10 (c : Dev nD) (t : Fin cfg1.N) : iblk m fs c 10 t = (VR m fs c main_arg10 : Vec F S8x16 .f32) := by
  funext j
  show VR m fs c main_arg10 (((cfg1.win 10).blk t).view.emb j) = VR m fs c main_arg10 j
  rw [emb1_10]

theorem emb1_11 (t : Fin cfg1.N) (j : ((cfg1.win 11).xblock (cfg1.grid.coords t)).Idx) : ((cfg1.win 11).blk t).view.emb j = j := by
  funext a; apply Fin.ext
  match a with
    | ⟨0, _⟩ => show win1_11.index t (0 : Fin 1) * 16 + 1 * (j 0).val = (j 0).val; have hx : win1_11.index t (0 : Fin 1) = 0 := rfl; rw [hx]; omega

theorem iblk1_11 (c : Dev nD) (t : Fin cfg1.N) : iblk m fs c 11 t = (VR m fs c main_arg11 : Vec F S16 .f32) := by
  funext j
  show VR m fs c main_arg11 (((cfg1.win 11).blk t).view.emb j) = VR m fs c main_arg11 j
  rw [emb1_11]

theorem emb1_12 (t : Fin cfg1.N) (j : ((cfg1.win 12).xblock (cfg1.grid.coords t)).Idx) : ((cfg1.win 12).blk t).view.emb j = j := by
  funext a; apply Fin.ext
  match a with
    | ⟨0, _⟩ => show win1_12.index t (0 : Fin 2) * 16 + 1 * (j 0).val = (j 0).val; have hx : win1_12.index t (0 : Fin 2) = 0 := rfl; rw [hx]; omega
    | ⟨1, _⟩ => show win1_12.index t (1 : Fin 2) * 16 + 1 * (j 1).val = (j 1).val; have hx : win1_12.index t (1 : Fin 2) = 0 := rfl; rw [hx]; omega

theorem iblk1_12 (c : Dev nD) (t : Fin cfg1.N) : iblk m fs c 12 t = (VR m fs c main_arg12 : Vec F S16x16 .f32) := by
  funext j
  show VR m fs c main_arg12 (((cfg1.win 12).blk t).view.emb j) = VR m fs c main_arg12 j
  rw [emb1_12]

theorem emb1_13 (t : Fin cfg1.N) (j : ((cfg1.win 13).xblock (cfg1.grid.coords t)).Idx) : ((cfg1.win 13).blk t).view.emb j = j := by
  funext a; apply Fin.ext
  match a with
    | ⟨0, _⟩ => show win1_13.index t (0 : Fin 1) * 16 + 1 * (j 0).val = (j 0).val; have hx : win1_13.index t (0 : Fin 1) = 0 := rfl; rw [hx]; omega

theorem iblk1_13 (c : Dev nD) (t : Fin cfg1.N) : iblk m fs c 13 t = (VR m fs c main_arg13 : Vec F S16 .f32) := by
  funext j
  show VR m fs c main_arg13 (((cfg1.win 13).blk t).view.emb j) = VR m fs c main_arg13 j
  rw [emb1_13]

theorem emb1_14 (t : Fin cfg1.N) (j : ((cfg1.win 14).xblock (cfg1.grid.coords t)).Idx) : ((cfg1.win 14).blk t).view.emb j = j := by
  funext a; apply Fin.ext
  match a with
    | ⟨0, _⟩ => show win1_14.index t (0 : Fin 2) * 16 + 1 * (j 0).val = (j 0).val; have hx : win1_14.index t (0 : Fin 2) = 0 := rfl; rw [hx]; omega
    | ⟨1, _⟩ => show win1_14.index t (1 : Fin 2) * 32 + 1 * (j 1).val = (j 1).val; have hx : win1_14.index t (1 : Fin 2) = 0 := rfl; rw [hx]; omega

theorem iblk1_14 (c : Dev nD) (t : Fin cfg1.N) : iblk m fs c 14 t = (VR m fs c main_arg14 : Vec F S16x32 .f32) := by
  funext j
  show VR m fs c main_arg14 (((cfg1.win 14).blk t).view.emb j) = VR m fs c main_arg14 j
  rw [emb1_14]

theorem emb1_15 (t : Fin cfg1.N) (j : ((cfg1.win 15).xblock (cfg1.grid.coords t)).Idx) : ((cfg1.win 15).blk t).view.emb j = j := by
  funext a; apply Fin.ext
  match a with
    | ⟨0, _⟩ => show win1_15.index t (0 : Fin 1) * 32 + 1 * (j 0).val = (j 0).val; have hx : win1_15.index t (0 : Fin 1) = 0 := rfl; rw [hx]; omega

theorem iblk1_15 (c : Dev nD) (t : Fin cfg1.N) : iblk m fs c 15 t = (VR m fs c main_arg15 : Vec F S32 .f32) := by
  funext j
  show VR m fs c main_arg15 (((cfg1.win 15).blk t).view.emb j) = VR m fs c main_arg15 j
  rw [emb1_15]

theorem emb1_16 (t : Fin cfg1.N) (j : ((cfg1.win 16).xblock (cfg1.grid.coords t)).Idx) : ((cfg1.win 16).blk t).view.emb j = j := by
  funext a; apply Fin.ext
  match a with
    | ⟨0, _⟩ => show win1_16.index t (0 : Fin 2) * 768 + 1 * (j 0).val = (j 0).val; have hx : win1_16.index t (0 : Fin 2) = 0 := rfl; rw [hx]; omega
    | ⟨1, _⟩ => show win1_16.index t (1 : Fin 2) * 128 + 1 * (j 1).val = (j 1).val; have hx : win1_16.index t (1 : Fin 2) = 0 := rfl; rw [hx]; omega

theorem iblk1_16 (c : Dev nD) (t : Fin cfg1.N) : iblk m fs c 16 t = (VR m fs c main_arg16 : Vec F S768x128 .f32) := by
  funext j
  show VR m fs c main_arg16 (((cfg1.win 16).blk t).view.emb j) = VR m fs c main_arg16 j
  rw [emb1_16]

theorem emb1_17 (t : Fin cfg1.N) (j : ((cfg1.win 17).xblock (cfg1.grid.coords t)).Idx) : ((cfg1.win 17).blk t).view.emb j = j := by
  funext a; apply Fin.ext
  match a with
    | ⟨0, _⟩ => show win1_17.index t (0 : Fin 1) * 128 + 1 * (j 0).val = (j 0).val; have hx : win1_17.index t (0 : Fin 1) = 0 := rfl; rw [hx]; omega

theorem iblk1_17 (c : Dev nD) (t : Fin cfg1.N) : iblk m fs c 17 t = (VR m fs c main_arg17 : Vec F S128 .f32) := by
  funext j
  show VR m fs c main_arg17 (((cfg1.win 17).blk t).view.emb j) = VR m fs c main_arg17 j
  rw [emb1_17]

theorem emb1_18 (t : Fin cfg1.N) (j : ((cfg1.win 18).xblock (cfg1.grid.coords t)).Idx) : ((cfg1.win 18).blk t).view.emb j = j := by
  funext a; apply Fin.ext
  match a with
    | ⟨0, _⟩ => show win1_18.index t (0 : Fin 2) * 128 + 1 * (j 0).val = (j 0).val; have hx : win1_18.index t (0 : Fin 2) = 0 := rfl; rw [hx]; omega
    | ⟨1, _⟩ => show win1_18.index t (1 : Fin 2) * 2 + 1 * (j 1).val = (j 1).val; have hx : win1_18.index t (1 : Fin 2) = 0 := rfl; rw [hx]; omega

theorem iblk1_18 (c : Dev nD) (t : Fin cfg1.N) : iblk m fs c 18 t = (VR m fs c main_arg18 : Vec F S128x2 .f32) := by
  funext j
  show VR m fs c main_arg18 (((cfg1.win 18).blk t).view.emb j) = VR m fs c main_arg18 j
  rw [emb1_18]

theorem emb1_19 (t : Fin cfg1.N) (j : ((cfg1.win 19).xblock (cfg1.grid.coords t)).Idx) : ((cfg1.win 19).blk t).view.emb j = j := by
  funext a; apply Fin.ext
  match a with
    | ⟨0, _⟩ => show win1_19.index t (0 : Fin 1) * 2 + 1 * (j 0).val = (j 0).val; have hx : win1_19.index t (0 : Fin 1) = 0 := rfl; rw [hx]; omega

theorem iblk1_19 (c : Dev nD) (t : Fin cfg1.N) : iblk m fs c 19 t = (VR m fs c main_arg19 : Vec F S2 .f32) := by
  funext j
  show VR m fs c main_arg19 (((cfg1.win 19).blk t).view.emb j) = VR m fs c main_arg19 j
  rw [emb1_19]

theorem emb1_20 (t : Fin cfg1.N) (j : ((cfg1.win 20).xblock (cfg1.grid.coords t)).Idx) : ((cfg1.win 20).blk t).view.emb j = j := by
  funext a; apply Fin.ext
  match a with
    | ⟨0, _⟩ => show win1_20.index t (0 : Fin 2) * 1 + 1 * (j 0).val = (j 0).val; have hx : win1_20.index t (0 : Fin 2) = 0 := rfl; rw [hx]; omega
    | ⟨1, _⟩ => show win1_20.index t (1 : Fin 2) * 2 + 1 * (j 1).val = (j 1).val; have hx : win1_20.index t (1 : Fin 2) = 0 := rfl; rw [hx]; omega

theorem iblk1_20 (c : Dev nD) (t : Fin cfg1.N) : iblk m fs c 20 t = (VR m fs c main_v3 : Vec F S1x2 .f32) := by
  funext j
  show VR m fs c main_v3 (((cfg1.win 20).blk t).view.emb j) = VR m fs c main_v3 j
  rw [emb1_20]

/-! ## What the one point writes back, and the result array -/

/-- The interface function of the arrays as the region finds them. -/
def GV (c : Dev nD) : Buf (Elt F) ((SparseCore.T (τ := τ) c).loc main_v3) :=
  Cert.Proof.IfaceB.kerOut (VR m fs c main_v2 : Vec F S24x128 .f32)
    (VR m fs c main_arg0 : Vec F S24x128 .f32)
    (VR m fs c main_arg2 : Vec F S128x4 .f32)
    (VR m fs c main_arg3 : Vec F S4 .f32)
    (VR m fs c main_arg4 : Vec F S4x4 .f32)
    (VR m fs c main_arg5 : Vec F S4 .f32)
    (VR m fs c main_arg6 : Vec F S4x8 .f32)
    (VR m fs c main_arg7 : Vec F S8 .f32)
    (VR m fs c main_arg8 : Vec F S8x8 .f32)
    (VR m fs c main_arg9 : Vec F S8 .f32)
    (VR m fs c main_arg10 : Vec F S8x16 .f32)
    (VR m fs c main_arg11 : Vec F S16 .f32)
    (VR m fs c main_arg12 : Vec F S16x16 .f32)
    (VR m fs c main_arg13 : Vec F S16 .f32)
    (VR m fs c main_arg14 : Vec F S16x32 .f32)
    (VR m fs c main_arg15 : Vec F S32 .f32)
    (VR m fs c main_arg16 : Vec F S768x128 .f32)
    (VR m fs c main_arg17 : Vec F S128 .f32)
    (VR m fs c main_arg18 : Vec F S128x2 .f32)
    (VR m fs c main_arg19 : Vec F S2 .f32)

theorem flushed20_eq (c : Dev nD) (t : Fin cfg1.N) :
    (dat m fs c).flushed 20 t = ((cfg1.win 20).blk t).view.read (Elt F) (GV m fs c) := by
  show (cfg1.win 20).cut (grid1.coords t) ((dat m fs c).after 20 t) = _
  rw [after1_20, out20_eq, iblk1_0, iblk1_1, iblk1_2, iblk1_3, iblk1_4, iblk1_5, iblk1_6, iblk1_7, iblk1_8, iblk1_9, iblk1_10, iblk1_11, iblk1_12, iblk1_13, iblk1_14, iblk1_15, iblk1_16, iblk1_17, iblk1_18, iblk1_19]
  funext j
  show GV m fs c j = GV m fs c (((cfg1.win 20).blk t).view.emb j)
  rw [emb1_20]

/-- Every index of the result array is in the one point's block. -/
theorem cover20_arr (i : S1x2.Idx) : ∃ t : Fin cfg1.N, (cfg1.win 20).flush t = true ∧ i ∈ ((cfg1.win 20).blk t).view.set := by
  refine ⟨t1_0, flush1_20 t1_0, ?_⟩
  show i ∈ ((View.whole main_v3).slice (win1_20.rect t1_0)).set
  rw [View.set_slice_whole, Rect.mem_set_unit]
  intro a
  match a with
  | ⟨0, _⟩ => show win1_20.index t1_0 (0 : Fin 2) * 1 ≤ (i 0).val ∧ (i 0).val < win1_20.index t1_0 (0 : Fin 2) * 1 + 1; have hx : win1_20.index t1_0 (0 : Fin 2) = 0 := rfl; have hi : (i 0).val < 1 := (i 0).isLt; rw [hx]; omega
  | ⟨1, _⟩ => show win1_20.index t1_0 (1 : Fin 2) * 2 ≤ (i 1).val ∧ (i 1).val < win1_20.index t1_0 (1 : Fin 2) * 2 + 2; have hx : win1_20.index t1_0 (1 : Fin 2) = 0 := rfl; have hi : (i 1).val < 2 := (i 1).isLt; rw [hx]; omega

/-- The result array when the region is left. -/
theorem denseOut_GV (c : Dev nD) : denseOut m fs c = GV m fs c :=
  (dat m fs c).arrAt_eq_of_cover 20 (GV m fs c) (fun t _ => flushed20_eq m fs c t) cover20_arr

/-- The same, over the launch contents. -/
theorem denseOut_eq (c : Dev nD) : denseOut m fs c = (outv m c (fs c) : Buf (Elt F) ((SparseCore.T (τ := τ) c).loc main_v3)) := by
  rw [denseOut_GV]
  unfold GV outv
  rw [VR_v2, VR_ne m fs c (show main_arg0 ≠ main_v2 by decide), VR_ne m fs c (show main_arg2 ≠ main_v2 by decide), VR_ne m fs c (show main_arg3 ≠ main_v2 by decide), VR_ne m fs c (show main_arg4 ≠ main_v2 by decide), VR_ne m fs c (show main_arg5 ≠ main_v2 by decide), VR_ne m fs c (show main_arg6 ≠ main_v2 by decide), VR_ne m fs c (show main_arg7 ≠ main_v2 by decide), VR_ne m fs c (show main_arg8 ≠ main_v2 by decide), VR_ne m fs c (show main_arg9 ≠ main_v2 by decide), VR_ne m fs c (show main_arg10 ≠ main_v2 by decide), VR_ne m fs c (show main_arg11 ≠ main_v2 by decide), VR_ne m fs c (show main_arg12 ≠ main_v2 by decide), VR_ne m fs c (show main_arg13 ≠ main_v2 by decide), VR_ne m fs c (show main_arg14 ≠ main_v2 by decide), VR_ne m fs c (show main_arg15 ≠ main_v2 by decide), VR_ne m fs c (show main_arg16 ≠ main_v2 by decide), VR_ne m fs c (show main_arg17 ≠ main_v2 by decide), VR_ne m fs c (show main_arg18 ≠ main_v2 by decide), VR_ne m fs c (show main_arg19 ≠ main_v2 by decide)]

end Cert.Proof.KB

end
-- ==== Proof.MainB.lean ====
/-
  @main on the TensorCore of a device, the launch element that funds it, and how the final memory is read.

  @main builds an array of zeros (a constant, broadcast), calls the sparse kernel on the edge array and the zeros
  (the call hands the SparseCore the edge array, the zeros and the result array, and takes them back with the
  kernel's guarantee `Good` of the result), reshapes the result to 24 × 128, and runs the dense stage as one kernel
  region on the reshaped counts and the nineteen launch operands. The region's result array ends holding the
  interface function `kerOut` of those twenty arrays; every argument of @main is unchanged.
-/
import proofs.«207914_g72782515798130_cont_9to1c4b_353_41_alg».proof.Proof.DenseValB
set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The pipelines at their (absent) prefetched tables. -/
abbrev cfgsP : Fin 1 → Pipeline.Cfg sig Λ₀ := Pipeline.pin (pcfgs (F := F)) adm

/-- The dense stage's staging cells are pairwise distinct. -/
theorem cellOf_inj' : Function.Injective (Pipeline.cellOf (nD := nD) (τ := τ) (cfgsP (F := F))) := cellOf_inj

/-- What the launch deals the TensorCore of `d` for the dense stage: its staging cells' ghost state and the duty
    tokens of its transfers. -/
def G (d : Dev nD) : sProp 𝕄 :=
  iprop(Pipeline.cellsGhost (cfgsP (F := F)) ER 0 d ∗ Pipeline.toksInit (cfgsP (F := F)) ER 0 d)

/-- The launch element: the handshakes' rounds, the staging cells' rounds, no counter yet. -/
def u₀ : UU := (initOf (K (F := F)).hsCells (K (F := F)).hsToks,
  (initOf (Pipeline.cells (cfgsP (F := F)) cellOf_inj') (Pipeline.launchToks (cfgsP (F := F)) cellOf_inj'), 1))

theorem bigSep_fin1 (Φ : Fin 1 → sProp 𝕄) : bigSep Finset.univ Φ = Φ 0 := by
  rw [show (Finset.univ : Finset (Fin 1)) = {0} from by decide, bigSep_singleton]

theorem bigSep_emp' {I : Type} (s : Finset I) : (bigSep s fun _ => iprop(emp)) = (iprop(emp) : sProp 𝕄) := bigSep_emp_const s

variable (Good : (d : Dev nD) → Buf (Elt F) (cLoc d) → Prop)

/-- The staging cells' rounds fund every device's share. -/
theorem ghost_deal :
    (BI.own (((Emb.inl : Emb UR (UR × Counters)).trans (embR : Emb (UR × Counters) 𝕄))
        (initOf (Pipeline.cells (cfgsP (F := F)) cellOf_inj') (Pipeline.launchToks (cfgsP (F := F)) cellOf_inj'))) : sProp 𝕄)
      ⊢ iprop(|==> bigSep Finset.univ fun d : Dev nD => G (F := F) d) := by
  show (BI.own (ER (initOf (Pipeline.cells (cfgsP (F := F)) cellOf_inj') (Pipeline.launchToks (cfgsP (F := F)) cellOf_inj'))) : sProp 𝕄) ⊢ _
  have e1 : (bigSep Finset.univ fun c : Dev nD => bigSep Finset.univ fun p : Fin 1 => Pipeline.cellsGhost (cfgsP (F := F)) ER p c : sProp 𝕄)
      = bigSep Finset.univ fun c : Dev nD => Pipeline.cellsGhost (cfgsP (F := F)) ER 0 c :=
    bigSep_congr fun c _ => bigSep_fin1 _
  have e2 : (bigSep Finset.univ fun c : Dev nD => bigSep Finset.univ fun p : Fin 1 => (Pipeline.toksInit (cfgsP (F := F)) ER p c : sProp 𝕄))
      = bigSep Finset.univ fun c : Dev nD => Pipeline.toksInit (cfgsP (F := F)) ER 0 c :=
    bigSep_congr fun c _ => bigSep_fin1 _
  iintro Hu
  imod (Pipeline.fund_ghost (cfgsP (F := F)) ER cellOf_inj') $$ Hu with ⟨Hg, Ht⟩
  imodintro
  unfold G
  rw [bigSep_sep']
  isplitl [Hg]
  · iapply (Entails.of_eq e1); iexact Hg
  · iapply (Entails.of_eq e2); iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Good).x q thr) := by
  unfold u₀
  iintro Hu
  ihave H := (ownU_pair _ _) $$ Hu
  icases H with ⟨HH, HR⟩
  ihave HR' := (own_pair_emb _ _ _) $$ HR
  icases HR' with ⟨HR, -⟩
  imod (ghost_deal (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- @main's twenty arguments. -/
abbrev argRefs : Finset (Ref sig .tc) := {main_arg0, main_arg1, main_arg2, main_arg3, main_arg4, main_arg5, main_arg6, main_arg7, main_arg8, main_arg9, main_arg10, main_arg11, main_arg12, main_arg13, main_arg14, main_arg15, main_arg16, main_arg17, main_arg18, main_arg19}

theorem argRefs_chain (Φ : Ref sig .tc → sProp 𝕄) :
    bigSep argRefs Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_arg10 ∗ Φ main_arg11 ∗ Φ main_arg12 ∗ Φ main_arg13 ∗ Φ main_arg14 ∗ Φ main_arg15 ∗ Φ main_arg16 ∗ Φ main_arg17 ∗ Φ main_arg18 ∗ Φ main_arg19) := by
  rw [bigSep_eq_bigSepL_of_eq [main_arg0, main_arg1, main_arg2, main_arg3, main_arg4, main_arg5, main_arg6, main_arg7, main_arg8, main_arg9, main_arg10, main_arg11, main_arg12, main_arg13, main_arg14, main_arg15, main_arg16, main_arg17, main_arg18, main_arg19] (by decide) (by decide)]
  rfl

/-- What @main leaves the claim on device `d`: the result array at the dense stage's function of the kernel's
    counts and the launch operands, the counts being as the kernel guarantees; every argument at its launch contents. -/
abbrev FIN (d : Dev nD) : sProp 𝕄 :=
  iprop(∃ f, ⌜Good d f⌝ ∗ ((SparseCore.T (τ := τ) d).loc main_v3 ↦{fullShare} (outv m d f : Buf (Elt F) ((SparseCore.T (τ := τ) d).loc main_v3)))
    ∗ bigSep argRefs fun b => (SparseCore.T (τ := τ) d).loc b ↦{fullShare} m ((SparseCore.T (τ := τ) d).loc b))

def fq (d : Dev nD) (s' : Phys nD τ sig (Elt F)) : Prop :=
  ∃ f, Good d f ∧ s'.mem.mem ((SparseCore.T (τ := τ) d).loc main_v3) = (outv m d f : Buf (Elt F) ((SparseCore.T (τ := τ) d).loc main_v3))
    ∧ ∀ b ∈ argRefs, s'.mem.mem ((SparseCore.T (τ := τ) d).loc b) = m ((SparseCore.T (τ := τ) d).loc b)

theorem hfin (d : Dev nD) (s' : Phys nD τ sig (Elt F)) : iprop(FIN m Good d ∗ SI s') ⊢ (⌜fq m Good d s'⌝ : sProp 𝕄) := by
  iintro ⟨⟨%f, %hG, Hv3, Hargs⟩, HSI⟩
  ihave Hr := (pointsTo_read_all argRefs (fun b => (SparseCore.T (τ := τ) d).loc b) (fun b => m ((SparseCore.T (τ := τ) d).loc b)) s') $$ [Hargs HSI]
  · isplitl [Hargs] <;> iassumption
  icases Hr with ⟨%ha, HSI⟩
  ihave H := (SI_pointsTo_agree (st := s') (ℓ := (SparseCore.T (τ := τ) d).loc main_v3) (I := Finset.univ) (q := fullShare)
      (f := (outv m d f : Buf (Elt F) ((SparseCore.T (τ := τ) d).loc main_v3)))) $$ [HSI Hv3]
  · isplitl [HSI] <;> iassumption
  icases H with %hv
  ipureintro
  exact ⟨f, hG, funext fun i => hv i (Finset.mem_univ i), fun b hb => ha b hb⟩

/-! ## @main's buffers and host operations -/

/-- The TensorCore's unscoped buffers one by one: the dense stage's windows' arrays, then the four others. -/
theorem tcBufs_eq (d : Dev nD) (W : (b : Ref sig .tc) → Buf (Elt F) ((SparseCore.T (τ := τ) d).loc b)) :
    (unscopedBufs d W : sProp 𝕄)
      = iprop((((SparseCore.T (τ := τ) d).loc main_v2 ↦{fullShare} W main_v2)
          ∗ ((SparseCore.T (τ := τ) d).loc main_arg0 ↦{fullShare} W main_arg0)
          ∗ ((SparseCore.T (τ := τ) d).loc main_arg2 ↦{fullShare} W main_arg2)
          ∗ ((SparseCore.T (τ := τ) d).loc main_arg3 ↦{fullShare} W main_arg3)
          ∗ ((SparseCore.T (τ := τ) d).loc main_arg4 ↦{fullShare} W main_arg4)
          ∗ ((SparseCore.T (τ := τ) d).loc main_arg5 ↦{fullShare} W main_arg5)
          ∗ ((SparseCore.T (τ := τ) d).loc main_arg6 ↦{fullShare} W main_arg6)
          ∗ ((SparseCore.T (τ := τ) d).loc main_arg7 ↦{fullShare} W main_arg7)
          ∗ ((SparseCore.T (τ := τ) d).loc main_arg8 ↦{fullShare} W main_arg8)
          ∗ ((SparseCore.T (τ := τ) d).loc main_arg9 ↦{fullShare} W main_arg9)
          ∗ ((SparseCore.T (τ := τ) d).loc main_arg10 ↦{fullShare} W main_arg10)
          ∗ ((SparseCore.T (τ := τ) d).loc main_arg11 ↦{fullShare} W main_arg11)
          ∗ ((SparseCore.T (τ := τ) d).loc main_arg12 ↦{fullShare} W main_arg12)
          ∗ ((SparseCore.T (τ := τ) d).loc main_arg13 ↦{fullShare} W main_arg13)
          ∗ ((SparseCore.T (τ := τ) d).loc main_arg14 ↦{fullShare} W main_arg14)
          ∗ ((SparseCore.T (τ := τ) d).loc main_arg15 ↦{fullShare} W main_arg15)
          ∗ ((SparseCore.T (τ := τ) d).loc main_arg16 ↦{fullShare} W main_arg16)
          ∗ ((SparseCore.T (τ := τ) d).loc main_arg17 ↦{fullShare} W main_arg17)
          ∗ ((SparseCore.T (τ := τ) d).loc main_arg18 ↦{fullShare} W main_arg18)
          ∗ ((SparseCore.T (τ := τ) d).loc main_arg19 ↦{fullShare} W main_arg19)
          ∗ ((SparseCore.T (τ := τ) d).loc main_v3 ↦{fullShare} W main_v3))
        ∗ (((SparseCore.T (τ := τ) d).loc main_arg1 ↦{fullShare} W main_arg1) ∗ ((SparseCore.T (τ := τ) d).loc main_cst ↦{fullShare} W main_cst) ∗ ((SparseCore.T (τ := τ) d).loc main_v0 ↦{fullShare} W main_v0) ∗ ((SparseCore.T (τ := τ) d).loc main_v1 ↦{fullShare} W main_v1))) := by
  have e1 : (unscopedBufs d W : sProp 𝕄) = _ := Pipeline.unscopedBufs_split cfgs 0 winFacts1.arr_unscoped winFacts1.arr_inj d W
  have e2 : (Pipeline.unscopedRest (Ix := HIx 1) (Name := ℕ) (U := UU) (Lvl := ℕ) (Val := Elt F) (cfgs 0).spec d W : sProp 𝕄) = _ :=
    unscopedRest1_eq (Ix := HIx 1) (Val := Elt F) (Name := ℕ) (U := UU) (Lvl := ℕ) d W
  rw [e1, e2, bigSep_W1]

abbrev cst' : DevRef τ sig := Proc.devRef .tc (main_cst : Ref sig .tc)
abbrev z' : DevRef τ sig := Proc.devRef .tc (main_v0 : Ref sig .tc)
abbrev c' : DevRef τ sig := Proc.devRef .tc (main_v1 : Ref sig .tc)
abbrev v2' : DevRef τ sig := Proc.devRef .tc (main_v2 : Ref sig .tc)

abbrev op1 : HloOp τ sig (Elt F) := StableHlo.nullary main_cst (constant (F := F) S_ .f32 0x00000000#32)
abbrev op2 : HloOp τ sig (Elt F) :=
  StableHlo.unary main_cst main_v0 (broadcastInDim S9216 ![] bcast_S_S9216 : (⟨S_, .f32⟩ : BufTy).Contents (Elt F) → (⟨S9216, .f32⟩ : BufTy).Contents (Elt F))
abbrev opR : HloOp τ sig (Elt F) := StableHlo.reshape main_v1 main_v2 rfl shapeCasts_S3072_S24x128

theorem held1 (d : Dev nD) (a : DevRef τ sig) (W : Valuation τ sig (Elt F)) :
    (held (T d) {a} W : sProp 𝕄) = ((d, a) ↦{fullShare} W a) := by
  unfold held; rw [bigSep_singleton]; try rfl

theorem held2 (d : Dev nD) {a b : DevRef τ sig} (h : a ≠ b) (W : Valuation τ sig (Elt F)) :
    (held (T d) {a, b} W : sProp 𝕄) = iprop(((d, a) ↦{fullShare} W a) ∗ ((d, b) ↦{fullShare} W b)) := by
  unfold held
  rw [SparseCore.bigSep_insert' (by rw [Finset.mem_singleton]; exact h), bigSep_singleton]; try rfl

theorem pt_congr (ℓ : Loc nD τ sig) {f g : Buf (Elt F) ℓ} (h : f = g) : (ℓ ↦{fullShare} f : sProp 𝕄) ⊢ ℓ ↦{fullShare} g := by
  subst h; exact .rfl

/-- The launch valuation; after the constant; after the broadcast; after the call, the result array at `f`. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)
def V3 (d : Dev nD) (f : Buf (Elt F) (cLoc d)) : Valuation τ sig (Elt F) := Function.update (V0 m d) c' f

theorem V1_z (d : Dev nD) : V1 m d z' = V0 m d z' := StableHlo.nullary_result_ne _ _ _ _ (show main_v0 ≠ main_cst by decide)
theorem V2_z (d : Dev nD) : V2 m d z' = (Z d : Buf (Elt F) (zLoc d)) := by
  show (op2 (F := F)).result ((op1 (F := F)).result (V0 m d)) (Proc.devRef .tc main_v0) = _
  rw [StableHlo.unary_result', StableHlo.nullary_result']
  rfl
theorem V3_c (d : Dev nD) (f : Buf (Elt F) (cLoc d)) : V3 m d f c' = f := Function.update_self ..
theorem V3_v2 (d : Dev nD) (f : Buf (Elt F) (cLoc d)) : V3 m d f v2' = V0 m d v2' := Function.update_of_ne (show v2' ≠ c' by decide) ..
theorem resh_v2 (d : Dev nD) (f : Buf (Elt F) (cLoc d)) :
    (opR (F := F)).result (V3 m d f) v2' = (cnt d f : Buf (Elt F) ((SparseCore.T (τ := τ) d).loc main_v2)) := by
  show (opR (F := F)).result (V3 m d f) (Proc.devRef .tc main_v2) = _
  rw [StableHlo.reshape_result', V3_c]
  rfl

/-- What the call takes for its one SparseCore, and what it hands back. -/
theorem st0_eq (d : Dev nD) : (bigSep Finset.univ fun c : Fin ((K (F := F)).nCore 0) => (P m Good).st 0 d c) = given m d := by
  show (bigSep (Finset.univ : Finset (Fin 1)) fun _ => given m d) = _
  rw [bigSep_fin1]
theorem dn0_eq (d : Dev nD) : (bigSep Finset.univ fun c : Fin ((K (F := F)).nCore 0) => (P m Good).dn 0 d c) = back m Good d := by
  show (bigSep (Finset.univ : Finset (Fin 1)) fun _ => back m Good d) = _
  rw [bigSep_fin1]

/-- After the call the TensorCore owes nothing: its state holds its debt at zero, and takes it back. -/
theorem tcSt_owes (d : Dev nD) (n : ℕ) (hn : n = 1) :
    ((K (F := F)).tcSt EH d n : sProp 𝕄) ⊢ iprop(owesTc (F := F) d ∗ (owesTc (F := F) d -∗ (K (F := F)).tcSt EH d 1)) := by
  subst hn
  unfold SparseCore.Cfg.tcSt
  rw [(K (F := F)).Otc_end d (le_refl 1)]
  iintro ⟨HO, Hrest⟩
  isplitl [HO]; · iexact HO
  iintro HO
  isplitl [HO]; · iexact HO
  iexact Hrest

/-! ## The dense stage's region inside @main -/

variable (fs : (c : Dev nD) → Buf (Elt F) (cLoc c))

/-- The windows' arrays one by one at the launch contents, the counts' at `g`, the result's at `r`. -/
abbrev plain (d : Dev nD) (g : Buf (Elt F) ((SparseCore.T (τ := τ) d).loc main_v2)) (r : Buf (Elt F) ((SparseCore.T (τ := τ) d).loc main_v3)) : sProp 𝕄 :=
  iprop(((SparseCore.T (τ := τ) d).loc main_v2 ↦{fullShare} g)
    ∗ ((SparseCore.T (τ := τ) d).loc main_arg0 ↦{fullShare} m ((SparseCore.T (τ := τ) d).loc main_arg0))
    ∗ ((SparseCore.T (τ := τ) d).loc main_arg2 ↦{fullShare} m ((SparseCore.T (τ := τ) d).loc main_arg2))
    ∗ ((SparseCore.T (τ := τ) d).loc main_arg3 ↦{fullShare} m ((SparseCore.T (τ := τ) d).loc main_arg3))
    ∗ ((SparseCore.T (τ := τ) d).loc main_arg4 ↦{fullShare} m ((SparseCore.T (τ := τ) d).loc main_arg4))
    ∗ ((SparseCore.T (τ := τ) d).loc main_arg5 ↦{fullShare} m ((SparseCore.T (τ := τ) d).loc main_arg5))
    ∗ ((SparseCore.T (τ := τ) d).loc main_arg6 ↦{fullShare} m ((SparseCore.T (τ := τ) d).loc main_arg6))
    ∗ ((SparseCore.T (τ := τ) d).loc main_arg7 ↦{fullShare} m ((SparseCore.T (τ := τ) d).loc main_arg7))
    ∗ ((SparseCore.T (τ := τ) d).loc main_arg8 ↦{fullShare} m ((SparseCore.T (τ := τ) d).loc main_arg8))
    ∗ ((SparseCore.T (τ := τ) d).loc main_arg9 ↦{fullShare} m ((SparseCore.T (τ := τ) d).loc main_arg9))
    ∗ ((SparseCore.T (τ := τ) d).loc main_arg10 ↦{fullShare} m ((SparseCore.T (τ := τ) d).loc main_arg10))
    ∗ ((SparseCore.T (τ := τ) d).loc main_arg11 ↦{fullShare} m ((SparseCore.T (τ := τ) d).loc main_arg11))
    ∗ ((SparseCore.T (τ := τ) d).loc main_arg12 ↦{fullShare} m ((SparseCore.T (τ := τ) d).loc main_arg12))
    ∗ ((SparseCore.T (τ := τ) d).loc main_arg13 ↦{fullShare} m ((SparseCore.T (τ := τ) d).loc main_arg13))
    ∗ ((SparseCore.T (τ := τ) d).loc main_arg14 ↦{fullShare} m ((SparseCore.T (τ := τ) d).loc main_arg14))
    ∗ ((SparseCore.T (τ := τ) d).loc main_arg15 ↦{fullShare} m ((SparseCore.T (τ := τ) d).loc main_arg15))
    ∗ ((SparseCore.T (τ := τ) d).loc main_arg16 ↦{fullShare} m ((SparseCore.T (τ := τ) d).loc main_arg16))
    ∗ ((SparseCore.T (τ := τ) d).loc main_arg17 ↦{fullShare} m ((SparseCore.T (τ := τ) d).loc main_arg17))
    ∗ ((SparseCore.T (τ := τ) d).loc main_arg18 ↦{fullShare} m ((SparseCore.T (τ := τ) d).loc main_arg18))
    ∗ ((SparseCore.T (τ := τ) d).loc main_arg19 ↦{fullShare} m ((SparseCore.T (τ := τ) d).loc main_arg19))
    ∗ ((SparseCore.T (τ := τ) d).loc main_v3 ↦{fullShare} r))

theorem chainV_VR (d : Dev nD) (r : Buf (Elt F) ((SparseCore.T (τ := τ) d).loc main_v3)) :
    (chainV d (VR m fs d) r : sProp 𝕄) = plain m d (cnt d (fs d)) r := by
  show iprop(((SparseCore.T (τ := τ) d).loc main_v2 ↦{fullShare} VR m fs d main_v2) ∗ ((SparseCore.T (τ := τ) d).loc main_arg0 ↦{fullShare} VR m fs d main_arg0) ∗ ((SparseCore.T (τ := τ) d).loc main_arg2 ↦{fullShare} VR m fs d main_arg2) ∗ ((SparseCore.T (τ := τ) d).loc main_arg3 ↦{fullShare} VR m fs d main_arg3) ∗ ((SparseCore.T (τ := τ) d).loc main_arg4 ↦{fullShare} VR m fs d main_arg4) ∗ ((SparseCore.T (τ := τ) d).loc main_arg5 ↦{fullShare} VR m fs d main_arg5) ∗ ((SparseCore.T (τ := τ) d).loc main_arg6 ↦{fullShare} VR m fs d main_arg6) ∗ ((SparseCore.T (τ := τ) d).loc main_arg7 ↦{fullShare} VR m fs d main_arg7) ∗ ((SparseCore.T (τ := τ) d).loc main_arg8 ↦{fullShare} VR m fs d main_arg8) ∗ ((SparseCore.T (τ := τ) d).loc main_arg9 ↦{fullShare} VR m fs d main_arg9) ∗ ((SparseCore.T (τ := τ) d).loc main_arg10 ↦{fullShare} VR m fs d main_arg10) ∗ ((SparseCore.T (τ := τ) d).loc main_arg11 ↦{fullShare} VR m fs d main_arg11) ∗ ((SparseCore.T (τ := τ) d).loc main_arg12 ↦{fullShare} VR m fs d main_arg12) ∗ ((SparseCore.T (τ := τ) d).loc main_arg13 ↦{fullShare} VR m fs d main_arg13) ∗ ((SparseCore.T (τ := τ) d).loc main_arg14 ↦{fullShare} VR m fs d main_arg14) ∗ ((SparseCore.T (τ := τ) d).loc main_arg15 ↦{fullShare} VR m fs d main_arg15) ∗ ((SparseCore.T (τ := τ) d).loc main_arg16 ↦{fullShare} VR m fs d main_arg16) ∗ ((SparseCore.T (τ := τ) d).loc main_arg17 ↦{fullShare} VR m fs d main_arg17) ∗ ((SparseCore.T (τ := τ) d).loc main_arg18 ↦{fullShare} VR m fs d main_arg18) ∗ ((SparseCore.T (τ := τ) d).loc main_arg19 ↦{fullShare} VR m fs d main_arg19) ∗ ((SparseCore.T (τ := τ) d).loc main_v3 ↦{fullShare} r)) = _
  rw [VR_v2, VR_ne m fs d (show main_arg0 ≠ main_v2 by decide), VR_ne m fs d (show main_arg2 ≠ main_v2 by decide), VR_ne m fs d (show main_arg3 ≠ main_v2 by decide), VR_ne m fs d (show main_arg4 ≠ main_v2 by decide), VR_ne m fs d (show main_arg5 ≠ main_v2 by decide), VR_ne m fs d (show main_arg6 ≠ main_v2 by decide), VR_ne m fs d (show main_arg7 ≠ main_v2 by decide), VR_ne m fs d (show main_arg8 ≠ main_v2 by decide), VR_ne m fs d (show main_arg9 ≠ main_v2 by decide), VR_ne m fs d (show main_arg10 ≠ main_v2 by decide), VR_ne m fs d (show main_arg11 ≠ main_v2 by decide), VR_ne m fs d (show main_arg12 ≠ main_v2 by decide), VR_ne m fs d (show main_arg13 ≠ main_v2 by decide), VR_ne m fs d (show main_arg14 ≠ main_v2 by decide), VR_ne m fs d (show main_arg15 ≠ main_v2 by decide), VR_ne m fs d (show main_arg16 ≠ main_v2 by decide), VR_ne m fs d (show main_arg17 ≠ main_v2 by decide), VR_ne m fs d (show main_arg18 ≠ main_v2 by decide), VR_ne m fs d (show main_arg19 ≠ main_v2 by decide)]

/-- The dense stage's call: the region rule at the dense stage's proof data, under the lifting of the program's
    signature to the launch's. -/
theorem wp_dense (κ : GSem nD τ sig → ℕ) (d : Dev nD) (Φ : PUnit → sProp 𝕄) :
    iprop((K (F := F)).ctx EH (P m Good) κ ∗ boundary (SparseCore.T (τ := τ) d) ∗ plain m d (cnt d (fs d)) (m ((SparseCore.T (τ := τ) d).loc main_v3)) ∗ owesTc (F := F) d ∗ G (F := F) d
        ∗ (iprop(boundary (SparseCore.T (τ := τ) d) ∗ plain m d (cnt d (fs d)) (outv m d (fs d) : Buf (Elt F) ((SparseCore.T (τ := τ) d).loc main_v3)) ∗ owesTc (F := F) d) -∗ Φ ⟨⟩))
      ⊢ wp frame (wpE ((K (F := F)).defs (D (F := F))) 𝒱 (SparseCore.T (τ := τ) d) none) Set.univ
          (Prog.lift (.customCall (SparseCore.inner (Pipeline.entry 0)) ())) Φ := by
  have epre : (chainV d (VR m fs d) (VR m fs d main_v3) : sProp 𝕄) = plain m d (cnt d (fs d)) (m ((SparseCore.T (τ := τ) d).loc main_v3)) := by
    rw [chainV_VR, VR_ne m fs d (show main_v3 ≠ main_v2 by decide)]
  have epost : (chainV d (VR m fs d) (denseOut m fs d) : sProp 𝕄) = plain m d (cnt d (fs d)) (outv m d (fs d) : Buf (Elt F) ((SparseCore.T (τ := τ) d).loc main_v3)) := by
    rw [chainV_VR, denseOut_eq]
  unfold G
  iintro ⟨#Hctx, Hb, Hpre, HO, ⟨Hcg, Htk⟩, Hk⟩
  ihave Hlev := (SparseCore.Cfg.ctx_levAts κ) $$ Hctx
  iapply ((K (F := F)).wp_liftProg (D (F := F)) 𝒱 (SparseCore.T (τ := τ) d) Set.univ none
      (Prog.op (TpuEff.customCall (Pipeline.entry 0) ()) (fun _ => Prog.ret PUnit.unit) : Prog (TpuEff nD τ sig (Elt F) (ΛP (F := F)) .tc) PUnit) Φ)
  iapply (Pipeline.RegionSeg.wp (pcfgs (F := F)) adm (pdats m fs) none cellOf_inj' ER (defs₀ (F := F)) 𝒱₀ (K (F := F)).L (K (F := F)).lev
      (reg m fs) d none (fun u hu => nomatch hu) (fun _ => Prog.ret PUnit.unit) Φ)
  isplitl [Hk]
  · iintro ⟨Hb, Hpost⟩
    ihave Hpost' := (show ((reg m fs).post d : sProp 𝕄) ⊢ iprop(chainV d (VR m fs d) (denseOut m fs d) ∗ owesTc (F := F) d) from .rfl) $$ Hpost
    icases Hpost' with ⟨Hch, HO⟩
    ihave Hch' := (Entails.of_eq epost) $$ Hch
    rw [wp_ret]; imodintro
    iapply Hk
    isplitl [Hb]; · iexact Hb
    isplitl [Hch']; · iexact Hch'
    iexact HO
  isplitl [Hb]; · iexact Hb
  isplitl [Hpre HO]
  · iapply (show iprop(chainV d (VR m fs d) (VR m fs d main_v3) ∗ owesTc (F := F) d) ⊢ ((reg m fs).pre d : sProp 𝕄) from .rfl)
    isplitl [Hpre]
    · iapply (Entails.of_eq epre.symm); iexact Hpre
    · iexact HO
  isplitl [Hlev]; · iexact Hlev
  isplitl [Hcg]; · iexact Hcg
  iexact Htk

/-! ## @main -/

/-- @main on device `d`'s TensorCore. -/
theorem hmain (κ : GSem nD τ sig → ℕ) (d : Dev nD) :
    iprop((K (F := F)).ctx EH (P m Good) κ ∗ (K (F := F)).tcSt EH d 0 ∗ (K (F := F)).tcRes m ρ d ∗ G (F := F) d)
      ⊢ wp frame (wpE ((K (F := F)).defs (D (F := F))) 𝒱 (SparseCore.T (τ := τ) d) none) Set.univ (main d)
          fun _ => iprop((K (F := F)).tcSt EH d 1 ∗ FIN m Good d) := by
  unfold SparseCore.Cfg.tcRes
  rw [tcBufs_eq d]
  simp only [main, wp_bind, wp_pure]
  iintro ⟨#Hctx, Hst, ⟨Hb, ⟨⟨Hw0, Hw1, Hw2, Hw3, Hw4, Hw5, Hw6, Hw7, Hw8, Hw9, Hw10, Hw11, Hw12, Hw13, Hw14, Hw15, Hw16, Hw17, Hw18, Hw19, Hw20⟩, He, Hcst, Hz, Hc⟩, -, -⟩, HG⟩
  -- the constant
  iapply (wp_hlo_within 𝒱 (SparseCore.T (τ := τ) d) none Set.univ (op := op1 (F := F)) (S := {cst'}) (Finset.Subset.refl _) (V := V0 m d)) $$ [Hb Hcst]
  · isplitl [Hb]; · iexact Hb
    rw [held1]; iexact Hcst
  iintro ⟨Hb, Hh⟩
  ihave Hcst := (Entails.of_eq (held1 d cst' _)) $$ Hh
  rw [wp_ret]; imodintro
  -- its broadcast: the zeros
  iapply (wp_hlo_within 𝒱 (SparseCore.T (τ := τ) d) none Set.univ (op := op2 (F := F)) (S := {cst', z'}) (Finset.Subset.refl _) (V := V1 m d)) $$ [Hb Hcst Hz]
  · isplitl [Hb]; · iexact Hb
    rw [held2 d (show cst' ≠ z' by decide), V1_z]
    isplitl [Hcst]; · iexact Hcst
    iexact Hz
  iintro ⟨Hb, Hh⟩
  ihave Hh' := (Entails.of_eq (held2 d (show cst' ≠ z' by decide) _)) $$ Hh
  icases Hh' with ⟨Hcst, Hz⟩
  ihave Hz := (pt_congr _ (V2_z m d)) $$ Hz
  rw [wp_ret]; imodintro
  -- the sparse kernel's call
  iapply ((K (F := F)).wp_run (D (F := F)) 𝒱 (EH := EH) (P := P m Good) κ d 0) $$ [Hst He Hz Hc Hb Hcst HG Hw0 Hw1 Hw2 Hw3 Hw4 Hw5 Hw6 Hw7 Hw8 Hw9 Hw10 Hw11 Hw12 Hw13 Hw14 Hw15 Hw16 Hw17 Hw18 Hw19 Hw20]
  isplitr; · iexact Hctx
  isplitl [Hst]; · iexact Hst
  isplitl [He Hz Hc]
  · rw [st0_eq]
    isplitl [He]; · iexact He
    isplitl [Hz]; · iexact Hz
    iexists _; iexact Hc
  iintro ⟨Hst, Hdn⟩
  ihave Hdn' := (Entails.of_eq (dn0_eq m Good d)) $$ Hdn
  icases Hdn' with ⟨He, Hz, %f, %hG, Hc⟩
  obtain ⟨fs, rfl⟩ : ∃ fs : (c : Dev nD) → Buf (Elt F) (cLoc c), fs d = f :=
    ⟨Function.update (fun c => m (cLoc c)) d f, Function.update_self ..⟩
  -- the reshape
  iapply (wp_hlo_within 𝒱 (SparseCore.T (τ := τ) d) none Set.univ (op := opR (F := F)) (S := {c', v2'}) (Finset.Subset.refl _) (V := V3 m d (fs d))) $$ [Hb Hc Hw0]
  · isplitl [Hb]; · iexact Hb
    rw [held2 d (show c' ≠ v2' by decide), V3_c, V3_v2]
    isplitl [Hc]; · iexact Hc
    iexact Hw0
  iintro ⟨Hb, Hh⟩
  ihave Hh' := (Entails.of_eq (held2 d (show c' ≠ v2' by decide) _)) $$ Hh
  icases Hh' with ⟨Hc, Hw0⟩
  ihave Hw0 := (pt_congr _ (resh_v2 m d (fs d))) $$ Hw0
  rw [wp_ret]; imodintro
  -- the dense stage
  ihave Hst' := (tcSt_owes (F := F) d ((0 : Fin 1).val + 1) rfl) $$ Hst
  icases Hst' with ⟨HO, Hback⟩
  iapply (wp_dense m Good fs κ d _) $$ [Hb HO HG Hback He Hz Hc Hcst Hw0 Hw1 Hw2 Hw3 Hw4 Hw5 Hw6 Hw7 Hw8 Hw9 Hw10 Hw11 Hw12 Hw13 Hw14 Hw15 Hw16 Hw17 Hw18 Hw19 Hw20]
  isplitr; · iexact Hctx
  isplitl [Hb]; · iexact Hb
  isplitl [Hw0 Hw1 Hw2 Hw3 Hw4 Hw5 Hw6 Hw7 Hw8 Hw9 Hw10 Hw11 Hw12 Hw13 Hw14 Hw15 Hw16 Hw17 Hw18 Hw19 Hw20]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    iexact Hw20
  isplitl [HO]; · iexact HO
  isplitl [HG]; · iexact HG
  iintro ⟨Hb, ⟨Hw0, Hw1, Hw2, Hw3, Hw4, Hw5, Hw6, Hw7, Hw8, Hw9, Hw10, Hw11, Hw12, Hw13, Hw14, Hw15, Hw16, Hw17, Hw18, Hw19, Hw20⟩, HO⟩
  imodintro
  isplitl [HO Hback]
  · iapply Hback; iexact HO
  iexists (fs d)
  isplitr; · ipureintro; exact hG
  isplitl [Hw20]; · iexact Hw20
  rw [argRefs_chain]
  isplitl [Hw1]; · iexact Hw1
  isplitl [He]; · iexact He
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  isplitl [Hw17]; · iexact Hw17
  isplitl [Hw18]; · iexact Hw18
  iexact Hw19

end Cert.Proof.KB

end
-- ==== Proof.KIRunB.lean ====
/-
  The whole program's run, for any float instance: every weakly fair execution of the TensorCore's @main, the two
  sequencers and the thirty-two vector subcores terminates without a fault; the twenty argument arrays end as they
  began, and the result array ends at the dense stage's function of the sparse kernel's result array, of which the
  property `Good` holds.
-/
import proofs.«207914_g72782515798130_cont_9to1c4b_353_41_alg».proof.Proof.TileBodyB
import proofs.«207914_g72782515798130_cont_9to1c4b_353_41_alg».proof.Proof.MainB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)
variable (Good : (d : Dev nD) → Buf (Elt F) (cLoc d) → Prop)

/-- What the run guarantees of the final memory, device by device. -/
def QC : PUnit × MemSt nD τ sig (Elt F) → Prop := fun r => ∀ d : Dev nD,
  ∃ f, Good d f ∧ r.2.mem ((SparseCore.T d).loc main_v3) = outv m d f
    ∧ ∀ b ∈ argRefs, r.2.mem ((SparseCore.T d).loc b) = m ((SparseCore.T d).loc b)

theorem run_main (hI : TileInv m Good) :
    θ_run (Cert.Kernel.defs (F := F)) (Cert.Kernel.threads (F := F)) ⟨m, fun _ => 0, ρ⟩ (QC m Good) :=
  SparseCore.Cfg.θ_run_sc (K := K (F := F)) (D := D (F := F)) (𝒱 := 𝒱) (EH := EH) (P := P m Good) facts v₀
    (fun q hq => match q with | 0 => nomatch hq)
    (fun q _ => match q with | 0 => tileObl m Good facts hI)
    (fun q _ => match q with | 0 => SparseCore.Cfg.VecSplit.of_plain (vecSplit m Good))
    m ρ main (G (F := F)) (FIN m Good) (u₀ (F := F)) (sep_elim_left.trans (hu₀ m Good)) (hmain m ρ Good) (fq m Good) (hfin m Good)
    (QC m Good) (fun _ h => h)

end Cert.Proof.KB

end
-- ==== Proof.TileIdx.lean ====
/-
  The index vector of the sparse kernel's first loop.

  In one trip the kernel reads sixteen source words `s` and sixteen destination words `d` (one edge per lane)
  and addresses, in lane `l`, entry `576 l + 24 d_l + s_l` of the accumulator: lane `l` has its own copy of the
  24 x 24 table, 576 entries long. With every word between 0 and 23 the arithmetic does not wrap and the
  entry lies inside the accumulator's 9216 entries.
-/
import proofs.«207914_g72782515798130_cont_9to1c4b_353_41_alg».proof.Proof.Gen.KernelIdeal.Skeleton
import Idealize.ShloMosaic.Lib.ValueIdx
import Idealize.ShloMosaic.Lib.ValueLayout

noncomputable section

namespace Cert.Proof.KI

open Cert.KernelIdeal Cert.KernelIdeal.Gen Idealize.ShloMosaic Idealize.ShloMosaic.ValueIdx

variable {F : FTy → Type} [FloatOps F]

/-- Lane `l` of the index vector, as a number: `576 l + 24 d_l + s_l`, the words being at most 23. -/
theorem pay2_toNat (s d : Vec F S1x16 .i32) (l : Fin 16) (hs : (s (ix2 (0 : Fin 1) l)).toNat ≤ 23)
    (hd : (d (ix2 (0 : Fin 1) l)).toNat ≤ 23) :
    (k0_pay2 (F := F) s d (ix1 l)).toNat
      = 576 * l.val + 24 * (d (ix2 (0 : Fin 1) l)).toNat + (s (ix2 (0 : Fin 1) l)).toNat := by
  have e : k0_pay2 (F := F) s d (ix1 l)
      = (BitVec.ofNat 32 (0 * 16 + l.val) * 576#32 + shapeCast S16 d _ (ix1 l) * 24#32)
        + shapeCast S16 s _ (ix1 l) := rfl
  rw [e, shapeCast_1a_a_apply, shapeCast_1a_a_apply]
  generalize d (ix2 (0 : Fin 1) l) = dw at hd ⊢
  generalize s (ix2 (0 : Fin 1) l) = sw at hs ⊢
  rw [BitVec.toNat_add, BitVec.toNat_add, BitVec.toNat_mul, BitVec.toNat_mul, BitVec.toNat_ofNat]
  have := l.isLt
  simp only [BitVec.toNat_ofNat]
  omega

/-- With every word between 0 and 23, every lane's index is inside the accumulator: the side condition the
    indexed store assumes. -/
theorem chk_of_words (L : grid0.Coords) (s d : Vec F S1x16 .i32) (hs : ∀ j, (s j).toNat ≤ 23)
    (hd : ∀ j, (d j).toNat ≤ 23) : k0_chk1 L (k0_pay2 (F := F) s d) := by
  intro _ a x
  obtain rfl : a = 0 := Subsingleton.elim _ _
  obtain ⟨l, rfl⟩ : ∃ l : Fin 16, x = ix1 l := ⟨x 0, eq_ix1 x⟩
  show (k0_pay2 (F := F) s d (ix1 l)).toNat < 9216
  rw [pay2_toNat s d l (hs _) (hd _)]
  have h1 := l.isLt
  have h2 := hs (ix2 (0 : Fin 1) l)
  have h3 := hd (ix2 (0 : Fin 1) l)
  omega

end Cert.Proof.KI

end
-- ==== Proof.TileChk.lean ====
/-
  The side condition of the sparse kernel's indexed store, from the range of the edge words.

  Every index word the first loop computes is `576 l + 24 d + s` for a lane `l < 16` and two words `d`, `s` of
  the edge array; with all edge words between 0 and 23 it is below 9216, whatever the float instance.
-/
import proofs.«207914_g72782515798130_cont_9to1c4b_353_41_alg».proof.Proof.TileBody
import proofs.«207914_g72782515798130_cont_9to1c4b_353_41_alg».proof.Proof.TileIdx

noncomputable section

namespace Cert.Proof.KI

open Cert.KernelIdeal Cert.KernelIdeal.Gen Idealize.ShloMosaic

variable {F : FTy → Type} [FloatOps F] (m : (ℓ : Loc nD τ sig) → Buf (Elt F) ℓ)

/-- A word the first loop loads from its copy of the edge array is a word of the edge array. -/
theorem loaded_word_le (hwords : ∀ d j, (m (eLoc d) j).toNat ≤ 23) (d : Dev nD) (r : LoadRect S2x512)
    (j : r.shape.Idx) :
    (View.readAt (Elt F) (Memref.whole cc0_scratch0 : Memref sig .scVector .vmem S2x512 .i32).view r (E0 m d) j).toNat ≤ 23 :=
  hwords d _

/-- Every index the first loop computes lies inside the accumulator. -/
theorem chk_of_hwords (hwords : ∀ d j, (m (eLoc d) j).toNat ≤ 23) (d : Dev nD) (L : grid0.Coords)
    (k0_h1 : k0_cond1 L = 1#1) (k : Fin k0_t1_loop.trips) : k0_chk1 L (idxv m d L k0_h1 k) := by
  unfold idxv
  refine chk_of_words L _ _ ?_ ?_
  · intro j; exact loaded_word_le m hwords d _ _
  · intro j; exact loaded_word_le m hwords d _ _

end Cert.Proof.KI

end
-- ==== Proof.TileIdxB.lean ====
/-
  The index vector of the sparse kernel's first loop.

  In one trip the kernel reads sixteen source words `s` and sixteen destination words `d` (one edge per lane)
  and addresses, in lane `l`, entry `576 l + 24 d_l + s_l` of the accumulator: lane `l` has its own copy of the
  24 x 24 table, 576 entries long. With every word between 0 and 23 the arithmetic does not wrap and the
  entry lies inside the accumulator's 9216 entries.
-/
import proofs.«207914_g72782515798130_cont_9to1c4b_353_41_alg».proof.Proof.Gen.Kernel.Skeleton
import Idealize.ShloMosaic.Lib.ValueIdx
import Idealize.ShloMosaic.Lib.ValueLayout

noncomputable section

namespace Cert.Proof.KB

open Cert.Kernel Cert.Kernel.Gen Idealize.ShloMosaic Idealize.ShloMosaic.ValueIdx

variable {F : FTy → Type} [FloatOps F]

/-- Lane `l` of the index vector, as a number: `576 l + 24 d_l + s_l`, the words being at most 23. -/
theorem pay2_toNat (s d : Vec F S1x16 .i32) (l : Fin 16) (hs : (s (ix2 (0 : Fin 1) l)).toNat ≤ 23)
    (hd : (d (ix2 (0 : Fin 1) l)).toNat ≤ 23) :
    (k0_pay2 (F := F) s d (ix1 l)).toNat
      = 576 * l.val + 24 * (d (ix2 (0 : Fin 1) l)).toNat + (s (ix2 (0 : Fin 1) l)).toNat := by
  have e : k0_pay2 (F := F) s d (ix1 l)
      = (BitVec.ofNat 32 (0 * 16 + l.val) * 576#32 + shapeCast S16 d _ (ix1 l) * 24#32)
        + shapeCast S16 s _ (ix1 l) := rfl
  rw [e, shapeCast_1a_a_apply, shapeCast_1a_a_apply]
  generalize d (ix2 (0 : Fin 1) l) = dw at hd ⊢
  generalize s (ix2 (0 : Fin 1) l) = sw at hs ⊢
  rw [BitVec.toNat_add, BitVec.toNat_add, BitVec.toNat_mul, BitVec.toNat_mul, BitVec.toNat_ofNat]
  have := l.isLt
  simp only [BitVec.toNat_ofNat]
  omega

/-- With every word between 0 and 23, every lane's index is inside the accumulator: the side condition the
    indexed store assumes. -/
theorem chk_of_words (L : grid0.Coords) (s d : Vec F S1x16 .i32) (hs : ∀ j, (s j).toNat ≤ 23)
    (hd : ∀ j, (d j).toNat ≤ 23) : k0_chk1 L (k0_pay2 (F := F) s d) := by
  intro _ a x
  obtain rfl : a = 0 := Subsingleton.elim _ _
  obtain ⟨l, rfl⟩ : ∃ l : Fin 16, x = ix1 l := ⟨x 0, eq_ix1 x⟩
  show (k0_pay2 (F := F) s d (ix1 l)).toNat < 9216
  rw [pay2_toNat s d l (hs _) (hd _)]
  have h1 := l.isLt
  have h2 := hs (ix2 (0 : Fin 1) l)
  have h3 := hd (ix2 (0 : Fin 1) l)
  omega

end Cert.Proof.KB

end
-- ==== Proof.TileChkB.lean ====
/-
  The side condition of the sparse kernel's indexed store, from the range of the edge words.

  Every index word the first loop computes is `576 l + 24 d + s` for a lane `l < 16` and two words `d`, `s` of
  the edge array; with all edge words between 0 and 23 it is below 9216, whatever the float instance.
-/
import proofs.«207914_g72782515798130_cont_9to1c4b_353_41_alg».proof.Proof.TileBodyB
import proofs.«207914_g72782515798130_cont_9to1c4b_353_41_alg».proof.Proof.TileIdxB

noncomputable section

namespace Cert.Proof.KB

open Cert.Kernel Cert.Kernel.Gen Idealize.ShloMosaic

variable {F : FTy → Type} [FloatOps F] (m : (ℓ : Loc nD τ sig) → Buf (Elt F) ℓ)

/-- A word the first loop loads from its copy of the edge array is a word of the edge array. -/
theorem loaded_word_le (hwords : ∀ d j, (m (eLoc d) j).toNat ≤ 23) (d : Dev nD) (r : LoadRect S2x512)
    (j : r.shape.Idx) :
    (View.readAt (Elt F) (Memref.whole cc0_scratch0 : Memref sig .scVector .vmem S2x512 .i32).view r (E0 m d) j).toNat ≤ 23 :=
  hwords d _

/-- Every index the first loop computes lies inside the accumulator. -/
theorem chk_of_hwords (hwords : ∀ d j, (m (eLoc d) j).toNat ≤ 23) (d : Dev nD) (L : grid0.Coords)
    (k0_h1 : k0_cond1 L = 1#1) (k : Fin k0_t1_loop.trips) : k0_chk1 L (idxv m d L k0_h1 k) := by
  unfold idxv
  refine chk_of_words L _ _ ?_ ?_
  · intro j; exact loaded_word_le m hwords d _ _
  · intro j; exact loaded_word_le m hwords d _ _

end Cert.Proof.KB

end
-- ==== Proof.PreFacts.lean ====
/-
  What the input-domain precondition says, entry by entry: every float input entry is a real number (its
  absolute value is below plus infinity), and every edge word lies between 0 and 23.
-/
import proofs.«207914_g72782515798130_cont_9to1c4b_353_41_alg».proof.Pre_input_domain
import Idealize.ShloMosaic.Lib.ValueIdx
import Idealize.ShloMosaic.Lib.IdealHost
import Idealize.ShloMosaic.Lib.ReduceAll
import Idealize.ShloMosaic.Lib.Affine
import Idealize.ShloMosaic.PureOps.Ideal.Laws

noncomputable section

namespace Cert.Proof.PreFacts

open Idealize.ShloMosaic Idealize.ShloMosaic.ValueIdx
open Cert.Pre_input_domain

instance : Subsingleton (⟨0, ![]⟩ : Shape).Idx := ⟨fun _ _ => funext fun d => d.elim0⟩

/-- An extended real whose absolute value is below plus infinity is a real. -/
theorem real_of_abs_lt_inf (a : EReal)
    (h : FloatOps.cmpf (F := Ideal) (φ := .f32) .olt (FloatOps.hostAbsf (F := Ideal) (φ := .f32) a)
          (FloatOps.ofBits (F := Ideal) .f32 0x7F800000#32) = 1#1) :
    ∃ r : ℝ, a = (r : EReal) := by
  have htop : Ideal.ofBits .f32 0x7F800000#32 = (⊤ : EReal) := by simp [Ideal.ofBits, Ideal.ieee]
  have hb : ∀ b : Bool, BitVec.ofBool b = 1#1 → b = true := by decide
  have h' : BitVec.ofBool (decide (max a (-a) < Ideal.ofBits .f32 0x7F800000#32)) = 1#1 := h
  have hlt : max a (-a) < Ideal.ofBits .f32 0x7F800000#32 := of_decide_eq_true (hb _ h')
  rw [htop] at hlt
  have h1 : a ≠ ⊤ := by
    rintro rfl
    rw [max_eq_left le_top] at hlt
    exact lt_irrefl _ hlt
  have h2 : a ≠ ⊥ := by
    rintro rfl
    rw [EReal.neg_bot, max_eq_right bot_le] at hlt
    exact lt_irrefl _ hlt
  exact ⟨a.toReal, (EReal.coe_toReal h1 h2).symm⟩

/-- A block all of whose entries have absolute value below plus infinity is real-valued. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1)
    (i : s.Idx) : ∃ r : ℝ, x i = (r : EReal) := by
  have hi := Host.reduce_andi_all _ _ hr hu ix0 e i
  rw [cmpf_apply, broadcastInDim_scalar_apply] at hi
  exact real_of_abs_lt_inf (x i) hi

theorem andi_apply {s : Shape} {w : ℕ} (a b : IVec s w) (i : s.Idx) : andi a b i = IntOp.andi (a i) (b i) := rfl

theorem cmpi_apply {s : Shape} {w : ℕ} (p : CmpIPredicate) (a b : IVec s w) (i : s.Idx) :
    cmpi p a b i = IntOp.cmpi p (a i) (b i) := rfl

/-- A signed 32-bit word between 0 and 23 is at most 23 as a natural number. -/
theorem toNat_le_of_toInt (x : BitVec 32) (h0 : (0#32 : BitVec 32).toInt ≤ x.toInt)
    (h1 : x.toInt ≤ (23#32 : BitVec 32).toInt) : x.toNat ≤ 23 := by
  have e0 : (0#32 : BitVec 32).toInt = 0 := by decide
  have e1 : (23#32 : BitVec 32).toInt = 23 := by decide
  rw [e0] at h0
  rw [e1] at h1
  have hc := BitVec.toInt_eq_toNat_cond x
  have hlt := x.isLt
  split at hc <;> omega

/-- The precondition, entry by entry. -/
theorem pre_facts [Cert.Pre_input_domain.Facts] (x : FVec Ideal S24x128 .f32) (ei : IVec S2x512 32)
    (W1 : FVec Ideal S128x4 .f32) (b1 : FVec Ideal S4 .f32) (W2 : FVec Ideal S4x4 .f32) (b2 : FVec Ideal S4 .f32) (W3 : FVec Ideal S4x8 .f32) (b3 : FVec Ideal S8 .f32) (W4 : FVec Ideal S8x8 .f32) (b4 : FVec Ideal S8 .f32) (W5 : FVec Ideal S8x16 .f32) (b5 : FVec Ideal S16 .f32) (W6 : FVec Ideal S16x16 .f32) (b6 : FVec Ideal S16 .f32) (W7 : FVec Ideal S16x32 .f32) (b7 : FVec Ideal S32 .f32) (fcW1 : FVec Ideal S768x128 .f32) (fcb1 : FVec Ideal S128 .f32) (fcW2 : FVec Ideal S128x2 .f32) (fcb2 : FVec Ideal S2 .f32)
    (hpre : Cert.Pre_input_domain.fn (F := Ideal) x ei W1 b1 W2 b2 W3 b3 W4 b4 W5 b5 W6 b6 W7 b7 fcW1 fcb1 fcW2 fcb2 = fun _ => 1#1) :
    (∀ i, ∃ r : ℝ, x i = (r : EReal)) ∧
      (∀ i, ∃ r : ℝ, W1 i = (r : EReal)) ∧
      (∀ i, ∃ r : ℝ, b1 i = (r : EReal)) ∧
      (∀ i, ∃ r : ℝ, W2 i = (r : EReal)) ∧
      (∀ i, ∃ r : ℝ, b2 i = (r : EReal)) ∧
      (∀ i, ∃ r : ℝ, W3 i = (r : EReal)) ∧
      (∀ i, ∃ r : ℝ, b3 i = (r : EReal)) ∧
      (∀ i, ∃ r : ℝ, W4 i = (r : EReal)) ∧
      (∀ i, ∃ r : ℝ, b4 i = (r : EReal)) ∧
      (∀ i, ∃ r : ℝ, W5 i = (r : EReal)) ∧
      (∀ i, ∃ r : ℝ, b5 i = (r : EReal)) ∧
      (∀ i, ∃ r : ℝ, W6 i = (r : EReal)) ∧
      (∀ i, ∃ r : ℝ, b6 i = (r : EReal)) ∧
      (∀ i, ∃ r : ℝ, W7 i = (r : EReal)) ∧
      (∀ i, ∃ r : ℝ, b7 i = (r : EReal)) ∧
      (∀ i, ∃ r : ℝ, fcW1 i = (r : EReal)) ∧
      (∀ i, ∃ r : ℝ, fcb1 i = (r : EReal)) ∧
      (∀ i, ∃ r : ℝ, fcW2 i = (r : EReal)) ∧
      (∀ i, ∃ r : ℝ, fcb2 i = (r : EReal)) ∧
      (∀ i, (ei i).toNat ≤ 23) := by
  have h0 := congrFun hpre ix0
  simp only [Cert.Pre_input_domain.fn, fn_part1, fn_part2, fn_part3, fn_part4, fn_part5, andi_apply,
    IntOp.andi_eq_one] at h0
  obtain ⟨⟨⟨⟨⟨⟨⟨⟨⟨⟨⟨⟨⟨⟨⟨⟨⟨⟨⟨h_x, h_W1⟩, h_b1⟩, h_W2⟩, h_b2⟩, h_W3⟩, h_b3⟩, h_W4⟩, h_b4⟩, h_W5⟩, h_b5⟩, h_W6⟩, h_b6⟩, h_W7⟩, h_b7⟩, h_fcW1⟩, h_fcb1⟩, h_fcW2⟩, h_fcb2⟩, h_ei⟩ := h0
  refine ⟨allReal_of_all _ _ _ _ h_x,
    allReal_of_all _ _ _ _ h_W1,
    allReal_of_all _ _ _ _ h_b1,
    allReal_of_all _ _ _ _ h_W2,
    allReal_of_all _ _ _ _ h_b2,
    allReal_of_all _ _ _ _ h_W3,
    allReal_of_all _ _ _ _ h_b3,
    allReal_of_all _ _ _ _ h_W4,
    allReal_of_all _ _ _ _ h_b4,
    allReal_of_all _ _ _ _ h_W5,
    allReal_of_all _ _ _ _ h_b5,
    allReal_of_all _ _ _ _ h_W6,
    allReal_of_all _ _ _ _ h_b6,
    allReal_of_all _ _ _ _ h_W7,
    allReal_of_all _ _ _ _ h_b7,
    allReal_of_all _ _ _ _ h_fcW1,
    allReal_of_all _ _ _ _ h_fcb1,
    allReal_of_all _ _ _ _ h_fcW2,
    allReal_of_all _ _ _ _ h_fcb2,
    fun i => ?_⟩
  have hi := Host.reduce_andi_all _ _ _ _ ix0 h_ei i
  rw [andi_apply, cmpi_apply, cmpi_apply, broadcastInDim_scalar_apply, broadcastInDim_scalar_apply,
    IntOp.andi_eq_one, IntOp.cmpi_sge, IntOp.cmpi_sle] at hi
  exact toNat_le_of_toInt (ei i) hi.1 hi.2

end Cert.Proof.PreFacts

end
-- ==== Proof.PreWords.lean ====
/-
  The integer half of the input-domain precondition, for any reading of the floats: every edge word lies between
  0 and 23. The precondition is one conjunction; its last conjunct compares the edge words with 0 and with 23 and
  does not look at a float.
-/
import proofs.«207914_g72782515798130_cont_9to1c4b_353_41_alg».proof.Proof.PreFacts

noncomputable section

namespace Cert.Proof.PreWords

open Idealize.ShloMosaic Idealize.ShloMosaic.ValueIdx
open Cert.Pre_input_domain Cert.Proof.PreFacts

/-- Under the precondition every edge word is at most 23 as a natural number. -/
theorem pre_words {F : FTy → Type} [FloatOps F] [Cert.Pre_input_domain.Facts] (x : FVec F S24x128 .f32) (ei : IVec S2x512 32)
    (W1 : FVec F S128x4 .f32) (b1 : FVec F S4 .f32) (W2 : FVec F S4x4 .f32) (b2 : FVec F S4 .f32) (W3 : FVec F S4x8 .f32) (b3 : FVec F S8 .f32) (W4 : FVec F S8x8 .f32) (b4 : FVec F S8 .f32) (W5 : FVec F S8x16 .f32) (b5 : FVec F S16 .f32) (W6 : FVec F S16x16 .f32) (b6 : FVec F S16 .f32) (W7 : FVec F S16x32 .f32) (b7 : FVec F S32 .f32) (fcW1 : FVec F S768x128 .f32) (fcb1 : FVec F S128 .f32) (fcW2 : FVec F S128x2 .f32) (fcb2 : FVec F S2 .f32)
    (hpre : Cert.Pre_input_domain.fn (F := F) x ei W1 b1 W2 b2 W3 b3 W4 b4 W5 b5 W6 b6 W7 b7 fcW1 fcb1 fcW2 fcb2 = fun _ => 1#1) :
    ∀ i, (ei i).toNat ≤ 23 := by
  have h0 := congrFun hpre ix0
  simp only [Cert.Pre_input_domain.fn, fn_part1, fn_part2, fn_part3, fn_part4, fn_part5, andi_apply,
    IntOp.andi_eq_one] at h0
  have h_ei := h0.2
  intro i
  have hi := Host.reduce_andi_all _ _ _ _ ix0 h_ei i
  rw [andi_apply, cmpi_apply, cmpi_apply, broadcastInDim_scalar_apply, broadcastInDim_scalar_apply,
    IntOp.andi_eq_one, IntOp.cmpi_sge, IntOp.cmpi_sle] at hi
  exact toNat_le_of_toInt (ei i) hi.1 hi.2

end Cert.Proof.PreWords

end
-- ==== Proof.GcnSpec.lean ====
/-
  The graph convolution network of this certificate as plain functions over finite index types into the
  extended reals, in the two arrangements the two programs compute it in, and nothing else: no program is
  imported here.

  * `refLayer`: one layer as a sum over the edge list. The degree of a node is the number of listed edges
    that end in it, `dis v = 1 / sqrt (deg v)` where the degree is positive (else `0`), an edge `e` carries the
    row `(h W)[src e]` scaled by `dis (src e) * dis (dst e)`, and a node adds up what the edges ending in it
    carry, adds the bias and takes the positive part.
  * `kerLayer`: the same layer from a matrix `C` of edge counts: `deg d = (sum_s C d s) + 1`,
    `u d = 1 / sqrt (deg d)`, `P = C + I`, and `out = max ((P ((h W) u)) u + b) 0`.
  * the two output layers (`fc1Ker` sums over the 24 x 32 block column by column, `fc1Ref` over the 768
    flattened positions; `fc2`) and the log-softmax over two entries (`logSoftmax2`).
  * `kerNet`, `refNet`: the seven layers and the output stage composed.

  The division, square root, exponential and logarithm are the extended-real operations `Ideal.div`,
  `Ideal.sqrt`, `Ideal.exp`, `Ideal.log` that both programs' operations mean.
-/
import Idealize.ShloMosaic.PureOps.Ideal

noncomputable section

namespace Cert.Proof.Gcn

open Idealize.ShloMosaic
open scoped BigOperators

variable {E K N : ℕ}

/-- `(h W) i k`: the product of the feature block with a weight block. -/
def dense (h : Fin 24 → Fin K → EReal) (W : Fin K → Fin N → EReal) (i : Fin 24) (k : Fin N) : EReal :=
  ∑ j : Fin K, h i j * W j k

/-! ### The edge-list arrangement -/

/-- The degree of node `v`: one for each listed edge that ends in `v`. -/
def refDeg (dst : Fin E → Fin 24) (v : Fin 24) : EReal :=
  ∑ _e ∈ Finset.univ.filter (fun e : Fin E => dst e = v), (1 : EReal)

/-- `1 / sqrt (deg v)` where the degree is positive, else `0`. -/
def refDis (dst : Fin E → Fin 24) (v : Fin 24) : EReal :=
  if 0 < refDeg dst v then Ideal.div 1 (Ideal.sqrt (refDeg dst v)) else 0

/-- One layer, as a sum over the edges that end in each node. -/
def refLayer (src dst : Fin E → Fin 24) (h : Fin 24 → Fin K → EReal) (W : Fin K → Fin N → EReal)
    (b : Fin N → EReal) : Fin 24 → Fin N → EReal :=
  fun d k =>
    max ((∑ e ∈ Finset.univ.filter (fun e : Fin E => dst e = d),
            dense h W (src e) k * (refDis dst (src e) * refDis dst (dst e))) + b k) 0

/-! ### The count-matrix arrangement -/

/-- The degree of node `d` from the count matrix: its row sum, plus one for the loop at `d`. -/
def kerDeg (C : Fin 24 → Fin 24 → EReal) (d : Fin 24) : EReal := (∑ s : Fin 24, C d s) + 1

/-- `1 / sqrt (deg d)`. -/
def kerU (C : Fin 24 → Fin 24 → EReal) (d : Fin 24) : EReal := Ideal.div 1 (Ideal.sqrt (kerDeg C d))

/-- The count matrix with the loops added: `C + I`. -/
def kerP (C : Fin 24 → Fin 24 → EReal) (d s : Fin 24) : EReal := C d s + (if d = s then 1 else 0)

/-- One layer, as two matrix products and two scalings by `u`. -/
def kerLayer (C : Fin 24 → Fin 24 → EReal) (h : Fin 24 → Fin K → EReal) (W : Fin K → Fin N → EReal)
    (b : Fin N → EReal) : Fin 24 → Fin N → EReal :=
  fun d k => max ((∑ s : Fin 24, kerP C d s * (dense h W s k * kerU C s)) * kerU C d + b k) 0

/-! ### The output stage -/

/-- The first output layer, summed as the count-matrix program sums it: over the 24 nodes first, then over
    the 32 features; position `(n, j)` of the block meets row `32 n + j` of the weights. -/
def fc1Ker (h : Fin 24 → Fin 32 → EReal) (W : Fin 768 → Fin 128 → EReal) (b : Fin 128 → EReal) : Fin 128 → EReal :=
  fun k => (∑ j : Fin 32, ∑ n : Fin 24, h n j * W ⟨32 * n.val + j.val, by omega⟩ k) + b k

/-- The first output layer, summed over the 768 positions of the flattened block: position `i` is entry
    `(i / 32, i % 32)`. -/
def fc1Ref (h : Fin 24 → Fin 32 → EReal) (W : Fin 768 → Fin 128 → EReal) (b : Fin 128 → EReal) : Fin 128 → EReal :=
  fun k => (∑ i : Fin 768, h ⟨i.val / 32, by omega⟩ ⟨i.val % 32, by omega⟩ * W i k) + b k

/-- The second output layer. -/
def fc2 (z : Fin 128 → EReal) (W : Fin 128 → Fin 2 → EReal) (b : Fin 2 → EReal) : Fin 2 → EReal :=
  fun c => (∑ k : Fin 128, z k * W k c) + b c

/-- The log-softmax of two entries: each entry minus the larger one, minus the logarithm of the sum of the
    exponentials of those differences. -/
def logSoftmax2 (z : Fin 2 → EReal) : Fin 2 → EReal :=
  fun c => (z c - max (z 0) (z 1)) - Ideal.log (∑ c' : Fin 2, Ideal.exp (z c' - max (z 0) (z 1)))

/-! ### The whole network -/

/-- The network in the count-matrix arrangement. -/
def kerNet (C : Fin 24 → Fin 24 → EReal) (x : Fin 24 → Fin 128 → EReal)
    (W1 : Fin 128 → Fin 4 → EReal) (b1 : Fin 4 → EReal) (W2 : Fin 4 → Fin 4 → EReal) (b2 : Fin 4 → EReal)
    (W3 : Fin 4 → Fin 8 → EReal) (b3 : Fin 8 → EReal) (W4 : Fin 8 → Fin 8 → EReal) (b4 : Fin 8 → EReal)
    (W5 : Fin 8 → Fin 16 → EReal) (b5 : Fin 16 → EReal) (W6 : Fin 16 → Fin 16 → EReal) (b6 : Fin 16 → EReal)
    (W7 : Fin 16 → Fin 32 → EReal) (b7 : Fin 32 → EReal)
    (fcW1 : Fin 768 → Fin 128 → EReal) (fcb1 : Fin 128 → EReal) (fcW2 : Fin 128 → Fin 2 → EReal)
    (fcb2 : Fin 2 → EReal) : Fin 2 → EReal :=
  logSoftmax2 (fc2 (fc1Ker
    (kerLayer C (kerLayer C (kerLayer C (kerLayer C (kerLayer C (kerLayer C (kerLayer C x W1 b1) W2 b2) W3 b3)
      W4 b4) W5 b5) W6 b6) W7 b7) fcW1 fcb1) fcW2 fcb2)

/-- The network in the edge-list arrangement. -/
def refNet (src dst : Fin E → Fin 24) (x : Fin 24 → Fin 128 → EReal)
    (W1 : Fin 128 → Fin 4 → EReal) (b1 : Fin 4 → EReal) (W2 : Fin 4 → Fin 4 → EReal) (b2 : Fin 4 → EReal)
    (W3 : Fin 4 → Fin 8 → EReal) (b3 : Fin 8 → EReal) (W4 : Fin 8 → Fin 8 → EReal) (b4 : Fin 8 → EReal)
    (W5 : Fin 8 → Fin 16 → EReal) (b5 : Fin 16 → EReal) (W6 : Fin 16 → Fin 16 → EReal) (b6 : Fin 16 → EReal)
    (W7 : Fin 16 → Fin 32 → EReal) (b7 : Fin 32 → EReal)
    (fcW1 : Fin 768 → Fin 128 → EReal) (fcb1 : Fin 128 → EReal) (fcW2 : Fin 128 → Fin 2 → EReal)
    (fcb2 : Fin 2 → EReal) : Fin 2 → EReal :=
  logSoftmax2 (fc2 (fc1Ref
    (refLayer src dst (refLayer src dst (refLayer src dst (refLayer src dst (refLayer src dst
      (refLayer src dst (refLayer src dst x W1 b1) W2 b2) W3 b3) W4 b4) W5 b5) W6 b6) W7 b7) fcW1 fcb1) fcW2 fcb2)

end Cert.Proof.Gcn

end
-- ==== Proof.LibKerLayout.lean ====
/-
  Reading the dense stage's vector operations at an index: the plain matrix product into a zero block, the
  column and row broadcasts, the casts that add or drop a unit axis, the flattening cast of the output weights,
  the one-axis sums and the two-entry maximum, each as a statement about the entry at given coordinates; and
  one graph convolution layer written with those operations (`layerV`), read at `(d, k)`.
-/
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.Proof.KerLayout

open Idealize.ShloMosaic Idealize.ShloMosaic.ValueIdx
open scoped BigOperators

/-! ### The matrix product -/

/-- On the left operand's row axis a plain product's index map reads the result's row. -/
theorem plain_lhsIdx_zero (M K N : ℕ) (i : (⟨2, ![M, N]⟩ : Shape).Idx) (q : (DotDims.plain M K N).contr.Idx) :
    ((DotDims.plain M K N).lhsIdx i q 0).val = (i 0).val := by
  unfold DotDims.lhsIdx
  rw [dif_neg (by simp [DotDims.plain] : ¬(0 : Fin (⟨2, ![M, K]⟩ : Shape).rank) ∈ (DotDims.plain M K N).lhsBatch),
    dif_pos (by simp [DotDims.plain] :
      (0 : Fin (⟨2, ![M, K]⟩ : Shape).rank) ∈ (DotDims.plain M K N).lhsNonContracting)]
  rfl

/-- On the right operand's column axis a plain product's index map reads the result's column. -/
theorem plain_rhsIdx_one (M K N : ℕ) (i : (⟨2, ![M, N]⟩ : Shape).Idx) (q : (DotDims.plain M K N).contr.Idx) :
    ((DotDims.plain M K N).rhsIdx i q 1).val = (i 1).val := by
  unfold DotDims.rhsIdx
  rw [dif_neg (by simp [DotDims.plain] : ¬(1 : Fin (⟨2, ![K, N]⟩ : Shape).rank) ∈ (DotDims.plain M K N).rhsBatch),
    dif_pos (by simp [DotDims.plain] :
      (1 : Fin (⟨2, ![K, N]⟩ : Shape).rank) ∈ (DotDims.plain M K N).rhsNonContracting)]
  rfl

/-- A plain `M × K` by `K × N` product into the zero block, at `(p, q)`: the sum over `k` of the products. -/
theorem matmul_plain_apply (M K N : ℕ) (prec : Option ContractPrecision)
    (lhs : FVec Ideal ⟨2, ![M, K]⟩ .f32) (rhs : FVec Ideal ⟨2, ![K, N]⟩ .f32) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_zero M K N (ix2 p q) _
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => exact plain_rhsIdx_one M K N (ix2 p q) _)
  rw [el, er]

/-! ### Broadcasts and casts -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- The `[768, 128]` weights cast to `[24, 32, 128]` read, at `(p, q, r)`, row `32 p + q` at `r`. -/
theorem shapeCast_768x128_apply (x : (⟨2, ![768, 128]⟩ : Shape).Idx → α)
    (h : (⟨2, ![768, 128]⟩ : Shape).ShapeCasts ⟨3, ![24, 32, 128]⟩) (p : Fin 24) (q : Fin 32) (r : Fin 128) :
    shapeCast ⟨3, ![24, 32, 128]⟩ x h (ix3 p q r) = x (ix2 (⟨32 * p.val + q.val, by omega⟩ : Fin 768) r) :=
  shapeCast_apply x h _ _ (by
    rw [Shape.rowMajor_val_three, Shape.rowMajor_val_two]
    show (32 * p.val + q.val) * 128 + r.val = (p.val * 32 + q.val) * 128 + r.val
    omega)

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-! ### The pointwise functions at an index -/

theorem sqrt_apply {s : Shape} (x : FVec Ideal s .f32) (i : s.Idx) : sqrt x i = Ideal.sqrt (x i) := rfl

theorem exp_apply {s : Shape} (x : FVec Ideal s .f32) (i : s.Idx) : exp x i = Ideal.exp (x i) := rfl

theorem log_apply {s : Shape} (x : FVec Ideal s .f32) (i : s.Idx) : log x i = Ideal.log (x i) := rfl

/-- The diagonal: the row number compared with the column number, as a float. -/
theorem diag_apply (h0 : (⟨2, ![24, 24]⟩ : Shape).Iotas .tc 32 [0]) (h1 : (⟨2, ![24, 24]⟩ : Shape).Iotas .tc 32 [1])
    (hlt : 1 < 32) (d s : Fin 24) :
    (sitofp .f32 (extui 32 (cmpi .eq (iota .tc ⟨2, ![24, 24]⟩ 32 [0] h0) (iota .tc ⟨2, ![24, 24]⟩ 32 [1] h1)) hlt)
        : FVec Ideal ⟨2, ![24, 24]⟩ .f32) (ix2 d s)
      = if d = s then 1 else 0 := by
  rw [sitofp_apply, extui_apply]
  show ((((IntOp.cmpi .eq (iota .tc ⟨2, ![24, 24]⟩ 32 [0] h0 (ix2 d s)) (iota .tc ⟨2, ![24, 24]⟩ 32 [1] h1 (ix2 d s))).setWidth 32).toInt : ℝ) : EReal) = _
  rw [iota_single_apply, iota_single_apply]
  show ((((BitVec.ofBool (BitVec.ofNat 32 d.val == BitVec.ofNat 32 s.val)).setWidth 32).toInt : ℝ) : EReal) = _
  have e0 : ((BitVec.ofBool false).setWidth 32).toInt = 0 := by decide
  have e1 : ((BitVec.ofBool true).setWidth 32).toInt = 1 := by decide
  by_cases hds : d = s
  · subst hds
    rw [beq_self_eq_true, e1, if_pos rfl, Int.cast_one, EReal.coe_one]
  · have hne : BitVec.ofNat 32 d.val ≠ BitVec.ofNat 32 s.val := by
      intro h
      have h' := congrArg BitVec.toNat h
      simp only [BitVec.toNat_ofNat] at h'
      have hd := d.isLt
      have hs := s.isLt
      rw [Nat.mod_eq_of_lt (by omega), Nat.mod_eq_of_lt (by omega)] at h'
      exact hds (Fin.ext h')
    rw [beq_eq_false_iff_ne.2 hne, e0, if_neg hds, Int.cast_zero, EReal.coe_zero]

/-! ### Sums along one axis, and the maximum of two entries -/

/-- The sum along axis 1 of an `[a, b]` block, at `p`. -/
theorem sum_axis1_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ x 0x00000000#32 h hφ hacc (ix1 p) = ∑ q : Fin b, x (ix2 p q) := by
  refine (Ideal.multiReduction_add_single x _ h hφ hacc (ix1 p)).trans ?_
  refine Finset.sum_congr rfl fun q _ => congrArg x (funext fun ax => Fin.ext ?_)
  match ax with
  | ⟨0, _⟩ => rfl
  | ⟨1, _⟩ => rfl

/-- The sum along axis 0 of an `[a, b]` block, at `q`. -/
theorem sum_axis0_apply {a b : ℕ} (x : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ x 0x00000000#32 h hφ hacc (ix1 q) = ∑ p : Fin a, x (ix2 p q) := by
  refine (Ideal.multiReduction_add_single x _ h hφ hacc (ix1 q)).trans ?_
  refine Finset.sum_congr rfl fun p _ => congrArg x (funext fun ax => Fin.ext ?_)
  match ax with
  | ⟨0, _⟩ => rfl
  | ⟨1, _⟩ => rfl

/-- The sum along axis 0 of an `[a, b, c]` block, at `(q, r)`. -/
theorem sum_axis0_rank3_apply {a b c : ℕ} (x : FVec Ideal ⟨3, ![a, b, c]⟩ .f32)
    (h : (⟨3, ![a, b, c]⟩ : Shape).Reduces [0] ⟨2, ![b, c]⟩) (hφ : FKind.Formats .f32)
    (hacc : (0x00000000#32 : BitVec 32) = 0x00000000#32) (q : Fin b) (r : Fin c) :
    multiReduction .add [0] ⟨2, ![b, c]⟩ x 0x00000000#32 h hφ hacc (ix2 q r) = ∑ p : Fin a, x (ix3 p q r) := by
  refine (Ideal.multiReduction_add_single x _ h hφ hacc (ix2 q r)).trans ?_
  refine Finset.sum_congr rfl fun p _ => congrArg x (funext fun ax => Fin.ext ?_)
  match ax with
  | ⟨0, _⟩ => rfl
  | ⟨1, _⟩ => rfl
  | ⟨2, _⟩ => rfl

/-- The word of minus infinity is the bottom of the extended reals. -/
theorem ofBits_neg_inf_f32 : FloatOps.ofBits (F := Ideal) .f32 0xFF800000#32 = (⊥ : EReal) := by
  simp [Ideal.ofBits, Ideal.ieee]

/-- The running maximum over two entries, from minus infinity, is the larger of the two. -/
theorem fold_max_fin2 (f : Fin 2 → EReal) : (Finset.univ : Finset (Fin 2)).fold max (⊥ : EReal) f = max (f 0) (f 1) := by
  have hu : (Finset.univ : Finset (Fin 2)) = insert (0 : Fin 2) {1} := by decide
  rw [hu, Finset.fold_insert (by decide : (0 : Fin 2) ∉ ({1} : Finset (Fin 2))), Finset.fold_singleton, max_bot_right]

/-- The maximum along axis 1 of a `[1, 2]` block, from minus infinity: the larger of its two entries. -/
theorem max_axis1_apply (x : FVec Ideal ⟨2, ![1, 2]⟩ .f32)
    (h : (⟨2, ![1, 2]⟩ : Shape).Reduces [1] ⟨1, ![1]⟩) (hφ : FKind.Formats .f32)
    (hacc : (0xFF800000#32 : BitVec 32) = 0xFF800000#32) (u : Fin 1) :
    multiReduction .maximumf [1] ⟨1, ![1]⟩ x 0xFF800000#32 h hφ hacc (ix1 u)
      = max (x (ix2 u (0 : Fin 2))) (x (ix2 u (1 : Fin 2))) := by
  refine (Ideal.multiReduction_maximumf_single x _ h hφ hacc (ix1 u)).trans ?_
  rw [ofBits_neg_inf_f32]
  have h0 : h.lift (ix1 u) (0 : Fin 2) = ix2 u (0 : Fin 2) :=
    funext fun ax => Fin.ext (by match ax with | ⟨0, _⟩ => rfl | ⟨1, _⟩ => rfl)
  have h1 : h.lift (ix1 u) (1 : Fin 2) = ix2 u (1 : Fin 2) :=
    funext fun ax => Fin.ext (by match ax with | ⟨0, _⟩ => rfl | ⟨1, _⟩ => rfl)
  refine (fold_max_fin2 (x ∘ h.lift (ix1 u))).trans ?_
  exact congrArg₂ max (congrArg x h0) (congrArg x h1)

/-! ### One layer as vector operations -/

/-- One layer of the dense stage: `max ((P ((h W) u)) u + b) 0` with the column `u` broadcast along the rows' entries
    and the bias row broadcast down the rows. -/
def layerV {K N : ℕ} (v9 : FVec Ideal ⟨2, ![24, 1]⟩ .f32) (v15 : FVec Ideal ⟨2, ![24, 24]⟩ .f32)
    (h : FVec Ideal ⟨2, ![24, K]⟩ .f32) (W : FVec Ideal ⟨2, ![K, N]⟩ .f32) (b : FVec Ideal ⟨1, ![N]⟩ .f32)
    (hb9 : (⟨2, ![24, 1]⟩ : Shape).Broadcasts ⟨2, ![24, N]⟩) (hsc : (⟨1, ![N]⟩ : Shape).ShapeCasts ⟨2, ![1, N]⟩)
    (hbb : (⟨2, ![1, N]⟩ : Shape).Broadcasts ⟨2, ![24, N]⟩) : FVec Ideal ⟨2, ![24, N]⟩ .f32 :=
  maximumf
    (addf
      (mulf
        (matmul (DotDims.plain 24 24 N) (some .fp32) v15
          (mulf (matmul (DotDims.plain 24 K N) (some .fp32) h W (constant (F := Ideal) ⟨2, ![24, N]⟩ .f32 0x00000000#32))
            (broadcastTo ⟨2, ![24, N]⟩ v9 hb9))
          (constant (F := Ideal) ⟨2, ![24, N]⟩ .f32 0x00000000#32))
        (broadcastTo ⟨2, ![24, N]⟩ v9 hb9))
      (broadcastTo ⟨2, ![24, N]⟩ (shapeCast ⟨2, ![1, N]⟩ b hsc) hbb))
    (broadcast ⟨2, ![24, N]⟩ (Scalar.ofBits (F := Ideal) .f32 0x00000000#32))

/-- The layer at `(d, k)`, as sums over the nodes and the features. -/
theorem layerV_apply {K N : ℕ} (v9 : FVec Ideal ⟨2, ![24, 1]⟩ .f32) (v15 : FVec Ideal ⟨2, ![24, 24]⟩ .f32)
    (h : FVec Ideal ⟨2, ![24, K]⟩ .f32) (W : FVec Ideal ⟨2, ![K, N]⟩ .f32) (b : FVec Ideal ⟨1, ![N]⟩ .f32)
    (hb9 : (⟨2, ![24, 1]⟩ : Shape).Broadcasts ⟨2, ![24, N]⟩) (hsc : (⟨1, ![N]⟩ : Shape).ShapeCasts ⟨2, ![1, N]⟩)
    (hbb : (⟨2, ![1, N]⟩ : Shape).Broadcasts ⟨2, ![24, N]⟩) (d : Fin 24) (k : Fin N) :
    layerV v9 v15 h W b hb9 hsc hbb (ix2 d k)
      = max ((∑ s : Fin 24, v15 (ix2 d s) * ((∑ j : Fin K, h (ix2 s j) * W (ix2 j k)) * v9 (ix2 s (0 : Fin 1))))
              * v9 (ix2 d (0 : Fin 1)) + b (ix1 k)) 0 := by
  unfold layerV
  rw [maximumf_apply, addf_apply, mulf_apply, matmul_plain_apply, broadcast_apply, broadcastTo_a1_ab_apply,
    broadcastTo_1b_ab_apply, shapeCast_a_1a_apply]
  have hz : (Scalar.ofBits (F := Ideal) .f32 0x00000000#32 : EReal) = 0 := Ideal.ofBits_zero_f32
  rw [hz]
  refine congrArg (fun A : EReal => max (A * v9 (ix2 d (0 : Fin 1)) + b (ix1 k)) 0) ?_
  refine Finset.sum_congr rfl fun s _ => ?_
  rw [mulf_apply, matmul_plain_apply, broadcastTo_a1_ab_apply]

end Cert.Proof.KerLayout

end
-- ==== Proof.KerValue.lean ====
/-
  The dense stage's stored value is the network in the count-matrix arrangement.

  The dense stage works from the first 24 columns of the count block (`countOf`). Its column of inverse square
  roots is `kerU` of that matrix, its matrix with the loops added is `kerP`, each of its seven layers is `kerLayer`,
  its two output layers are `fc1Ker` and `fc2`, and what it stores is the log-softmax of the two results: entry by
  entry, by reading each vector operation at an index.
-/
import proofs.«207914_g72782515798130_cont_9to1c4b_353_41_alg».proof.Proof.Iface
import proofs.«207914_g72782515798130_cont_9to1c4b_353_41_alg».proof.Proof.GcnSpec
import proofs.«207914_g72782515798130_cont_9to1c4b_353_41_alg».proof.Proof.LibKerLayout

noncomputable section

namespace Cert.Proof.KerValue

open Idealize.ShloMosaic Idealize.ShloMosaic.ValueIdx
open Cert.KernelIdeal Cert.KernelIdeal.Gen
open Cert.Proof.Gcn Cert.Proof.KerLayout
open scoped BigOperators

/-- The count matrix the dense stage reads: the first 24 columns of the count block. -/
def countOf (v0 : Vec Ideal S24x128 .f32) : Fin 24 → Fin 24 → EReal :=
  fun d s => v0 (ix2 d ⟨s.val, by omega⟩)

/-- A rank-two block as a function of its two coordinates. -/
def mat {a b : ℕ} (x : (⟨2, ![a, b]⟩ : Shape).Idx → EReal) : Fin a → Fin b → EReal := fun i j => x (ix2 i j)

/-- A rank-one block as a function of its coordinate. -/
def row {a : ℕ} (x : (⟨1, ![a]⟩ : Shape).Idx → EReal) : Fin a → EReal := fun i => x (ix1 i)

/-! ### The three values computed once: the count matrix, the inverse square roots, the matrix with loops -/

theorem pay2_apply (v0 : Vec Ideal S24x128 .f32) (d s : Fin 24) :
    k1_pay2 v0 (ix2 d s) = countOf v0 d s := by
  unfold k1_pay2 countOf
  simp only [shapeCast_self]
  exact extractStridedSlice_apply ![0, 0] v0 _ (ix2 d s) (ix2 d ⟨s.val, by omega⟩) (fun a => by
    match a with
    | ⟨0, _⟩ => exact (Nat.zero_add _).symm
    | ⟨1, _⟩ => exact (Nat.zero_add _).symm)

theorem pay3_apply (v0 : Vec Ideal S24x128 .f32) (d : Fin 24) (u : Fin 1) :
    k1_pay3 v0 (ix2 d u) = kerU (countOf v0) d := by
  unfold k1_pay3 kerU kerDeg
  have hone : (Scalar.ofBits (F := Ideal) .f32 0x3F800000#32 : EReal) = 1 := Ideal.ofBits_one_f32
  simp only [divf_apply, broadcast_apply, sqrt_apply, addf_apply, shapeCast_a_a1_apply, hone]
  exact congrArg (fun t : EReal => Ideal.div 1 (Ideal.sqrt (t + 1)))
    ((sum_axis1_apply (k1_pay2 v0) _ _ _ d).trans (Finset.sum_congr rfl fun s _ => pay2_apply v0 d s))

theorem pay4_apply (v0 : Vec Ideal S24x128 .f32) (d s : Fin 24) :
    k1_pay4 v0 (ix2 d s) = kerP (countOf v0) d s := by
  unfold k1_pay4 kerP
  simp only [addf_apply, pay2_apply]
  exact congrArg (fun t : EReal => countOf v0 d s + t) (diag_apply _ _ _ d s)

/-! ### The seven layers -/

/-- A layer of the dense stage is `kerLayer` of the count matrix, as a function of the two coordinates. -/
theorem layerV_fun {K N : ℕ} (v0 : Vec Ideal S24x128 .f32)
    (h : FVec Ideal ⟨2, ![24, K]⟩ .f32) (W : FVec Ideal ⟨2, ![K, N]⟩ .f32) (b : FVec Ideal ⟨1, ![N]⟩ .f32)
    (hb9 : (⟨2, ![24, 1]⟩ : Shape).Broadcasts ⟨2, ![24, N]⟩) (hsc : (⟨1, ![N]⟩ : Shape).ShapeCasts ⟨2, ![1, N]⟩)
    (hbb : (⟨2, ![1, N]⟩ : Shape).Broadcasts ⟨2, ![24, N]⟩) :
    mat (layerV (k1_pay3 v0) (k1_pay4 v0) h W b hb9 hsc hbb)
      = kerLayer (countOf v0) (mat h) (mat W) (row b) := by
  funext n j
  show layerV (k1_pay3 v0) (k1_pay4 v0) h W b hb9 hsc hbb (ix2 n j) = _
  rw [layerV_apply]
  unfold kerLayer dense mat row
  simp only [pay3_apply, pay4_apply]

/-! ### The output stage -/

/-- The two output layers as vector operations, before the last bias. -/
def fcV (h : FVec Ideal S24x32 .f32) (v109 : FVec Ideal S768x128 .f32) (v116 : FVec Ideal S128 .f32)
    (v119 : FVec Ideal S128x2 .f32) : FVec Ideal S1x2 .f32 :=
  matmul (DotDims.plain 1 128 2) (some .fp32)
    (addf
      (shapeCast S1x128
        (multiReduction .add [0] S128
          (multiReduction .add [0] S32x128
            (mulf
              (broadcastTo S24x32x128 (shapeCast S24x32x1 h Facts₀.shapeCasts_S24x32_S24x32x1)
                Facts₀.broadcasts_S24x32x1_S24x32x128)
              (shapeCast S24x32x128 v109 Facts₀.shapeCasts_S768x128_S24x32x128))
            0x00000000#32 Facts₀.reduces_S24x32x128_S32x128 (.inl rfl) rfl)
          0x00000000#32 Facts₀.reduces_S32x128_S128 (.inl rfl) rfl)
        Facts₀.shapeCasts_S128_S1x128)
      (shapeCast S1x128 v116 Facts₀.shapeCasts_S128_S1x128))
    v119 (constant (F := Ideal) S1x2 .f32 0x00000000#32)

theorem fcV_apply (h : FVec Ideal S24x32 .f32) (v109 : FVec Ideal S768x128 .f32) (v116 : FVec Ideal S128 .f32)
    (v119 : FVec Ideal S128x2 .f32) (u : Fin 1) (c : Fin 2) :
    fcV h v109 v116 v119 (ix2 u c)
      = ∑ k : Fin 128, fc1Ker (mat h) (mat v109) (row v116) k * v119 (ix2 k c) := by
  unfold fcV fc1Ker mat row
  rw [matmul_plain_apply]
  refine Finset.sum_congr rfl fun k _ => ?_
  simp only [addf_apply, shapeCast_a_1a_apply]
  refine congrArg (fun t : EReal => (t + v116 (ix1 k)) * v119 (ix2 k c)) ?_
  refine (sum_axis0_apply _ _ _ _ k).trans (Finset.sum_congr rfl fun j _ => ?_)
  refine (sum_axis0_rank3_apply _ _ _ _ j k).trans (Finset.sum_congr rfl fun n _ => ?_)
  simp only [mulf_apply, broadcastTo_ab1_abc_apply, shapeCast_ab_ab1_apply, shapeCast_768x128_apply]

/-- What the dense stage stores, from the last matrix product and the last bias: the log-softmax of their sum. -/
theorem pay1_apply (v120 : FVec Ideal S1x2 .f32) (v121 : Vec Ideal S2 .f32) (c : Fin 2) :
    k1_pay1 v120 v121 (ix2 (0 : Fin 1) c)
      = logSoftmax2 (fun c' => v120 (ix2 (0 : Fin 1) c') + v121 (ix1 c')) c := by
  unfold k1_pay1 logSoftmax2
  simp only [subf_apply, addf_apply, exp_apply, log_apply, broadcastTo_a1_ab_apply, shapeCast_a_a1_apply,
    shapeCast_a_1a_apply]
  have hM : multiReduction .maximumf [1] S1 (addf v120 (shapeCast S1x2 v121 Facts₀.shapeCasts_S2_S1x2))
        0xFF800000#32 Facts₀.reduces_S1x2_S1 (.inl rfl) rfl (ix1 (0 : Fin 1))
      = max (v120 (ix2 (0 : Fin 1) (0 : Fin 2)) + v121 (ix1 (0 : Fin 2)))
          (v120 (ix2 (0 : Fin 1) (1 : Fin 2)) + v121 (ix1 (1 : Fin 2))) :=
    (max_axis1_apply _ _ _ _ (0 : Fin 1)).trans (by simp only [addf_apply, shapeCast_a_1a_apply])
  refine congrArg₂ (fun m s : EReal => v120 (ix2 (0 : Fin 1) c) + v121 (ix1 c) - m - Ideal.log s) hM ?_
  refine (sum_axis1_apply _ _ _ _ (0 : Fin 1)).trans (Finset.sum_congr rfl fun x _ => ?_)
  simp only [subf_apply, addf_apply, exp_apply, broadcastTo_a1_ab_apply, shapeCast_a_a1_apply, shapeCast_a_1a_apply]
  exact congrArg (fun m : EReal => Ideal.exp (v120 (ix2 (0 : Fin 1) x) + v121 (ix1 x) - m)) hM

/-! ### The whole dense stage -/

set_option maxHeartbeats 2000000 in
/-- The dense stage's stored value is seven layers, the output stage and the log-softmax, composed. -/
theorem kerOut_eq_layers (v0 : Vec Ideal S24x128 .f32) (v16 : Vec Ideal S24x128 .f32) (v17 : Vec Ideal S128x4 .f32)
    (v24 : Vec Ideal S4 .f32) (v30 : Vec Ideal S4x4 .f32) (v37 : Vec Ideal S4 .f32) (v43 : Vec Ideal S4x8 .f32)
    (v50 : Vec Ideal S8 .f32) (v56 : Vec Ideal S8x8 .f32) (v63 : Vec Ideal S8 .f32) (v69 : Vec Ideal S8x16 .f32)
    (v76 : Vec Ideal S16 .f32) (v82 : Vec Ideal S16x16 .f32) (v89 : Vec Ideal S16 .f32) (v95 : Vec Ideal S16x32 .f32)
    (v102 : Vec Ideal S32 .f32) (v109 : Vec Ideal S768x128 .f32) (v116 : Vec Ideal S128 .f32)
    (v119 : Vec Ideal S128x2 .f32) (v121 : Vec Ideal S2 .f32) :
    Cert.Proof.Iface.kerOut v0 v16 v17 v24 v30 v37 v43 v50 v56 v63 v69 v76 v82 v89 v95 v102 v109 v116 v119 v121
      = k1_pay1
          (fcV
            (layerV (k1_pay3 v0) (k1_pay4 v0)
              (layerV (k1_pay3 v0) (k1_pay4 v0)
                (layerV (k1_pay3 v0) (k1_pay4 v0)
                  (layerV (k1_pay3 v0) (k1_pay4 v0)
                    (layerV (k1_pay3 v0) (k1_pay4 v0)
                      (layerV (k1_pay3 v0) (k1_pay4 v0)
                        (layerV (k1_pay3 v0) (k1_pay4 v0) v16 v17 v24
                          Facts₀.broadcasts_S24x1_S24x4 Facts₀.shapeCasts_S4_S1x4 Facts₀.broadcasts_S1x4_S24x4)
                        v30 v37 Facts₀.broadcasts_S24x1_S24x4 Facts₀.shapeCasts_S4_S1x4 Facts₀.broadcasts_S1x4_S24x4)
                      v43 v50 Facts₀.broadcasts_S24x1_S24x8 Facts₀.shapeCasts_S8_S1x8 Facts₀.broadcasts_S1x8_S24x8)
                    v56 v63 Facts₀.broadcasts_S24x1_S24x8 Facts₀.shapeCasts_S8_S1x8 Facts₀.broadcasts_S1x8_S24x8)
                  v69 v76 Facts₀.broadcasts_S24x1_S24x16 Facts₀.shapeCasts_S16_S1x16 Facts₀.broadcasts_S1x16_S24x16)
                v82 v89 Facts₀.broadcasts_S24x1_S24x16 Facts₀.shapeCasts_S16_S1x16 Facts₀.broadcasts_S1x16_S24x16)
              v95 v102 Facts₀.broadcasts_S24x1_S24x32 Facts₀.shapeCasts_S32_S1x32 Facts₀.broadcasts_S1x32_S24x32)
            v109 v116 v119)
          v121 := rfl

/-- The dense stage's stored value, entry by entry, is the network in the count-matrix arrangement. -/
theorem kerOut_apply (v0 : Vec Ideal S24x128 .f32) (v16 : Vec Ideal S24x128 .f32) (v17 : Vec Ideal S128x4 .f32)
    (v24 : Vec Ideal S4 .f32) (v30 : Vec Ideal S4x4 .f32) (v37 : Vec Ideal S4 .f32) (v43 : Vec Ideal S4x8 .f32)
    (v50 : Vec Ideal S8 .f32) (v56 : Vec Ideal S8x8 .f32) (v63 : Vec Ideal S8 .f32) (v69 : Vec Ideal S8x16 .f32)
    (v76 : Vec Ideal S16 .f32) (v82 : Vec Ideal S16x16 .f32) (v89 : Vec Ideal S16 .f32) (v95 : Vec Ideal S16x32 .f32)
    (v102 : Vec Ideal S32 .f32) (v109 : Vec Ideal S768x128 .f32) (v116 : Vec Ideal S128 .f32)
    (v119 : Vec Ideal S128x2 .f32) (v121 : Vec Ideal S2 .f32) (c : Fin 2) :
    Cert.Proof.Iface.kerOut v0 v16 v17 v24 v30 v37 v43 v50 v56 v63 v69 v76 v82 v89 v95 v102 v109 v116 v119 v121
        (ix2 (0 : Fin 1) c)
      = kerNet (countOf v0) (fun n j => v16 (ix2 n j)) (fun j k => v17 (ix2 j k)) (fun k => v24 (ix1 k))
          (fun j k => v30 (ix2 j k)) (fun k => v37 (ix1 k)) (fun j k => v43 (ix2 j k)) (fun k => v50 (ix1 k))
          (fun j k => v56 (ix2 j k)) (fun k => v63 (ix1 k)) (fun j k => v69 (ix2 j k)) (fun k => v76 (ix1 k))
          (fun j k => v82 (ix2 j k)) (fun k => v89 (ix1 k)) (fun j k => v95 (ix2 j k)) (fun k => v102 (ix1 k))
          (fun j k => v109 (ix2 j k)) (fun k => v116 (ix1 k)) (fun j k => v119 (ix2 j k)) (fun k => v121 (ix1 k)) c := by
  rw [kerOut_eq_layers, pay1_apply]
  show logSoftmax2 _ c
      = kerNet (countOf v0) (mat v16) (mat v17) (row v24) (mat v30) (row v37) (mat v43) (row v50) (mat v56) (row v63)
          (mat v69) (row v76) (mat v82) (row v89) (mat v95) (row v102) (mat v109) (row v116) (mat v119) (row v121) c
  unfold kerNet
  refine congrArg (fun z => logSoftmax2 z c) (funext fun c' => ?_)
  rw [fcV_apply, layerV_fun, layerV_fun, layerV_fun, layerV_fun, layerV_fun, layerV_fun, layerV_fun]
  rfl

end Cert.Proof.KerValue

end
-- ==== Proof.LibGcnAlgebra.lean ====
/-
  The mathematics of this certificate: on real-valued data the count-matrix arrangement of a graph
  convolution layer and its edge-list arrangement are the same function, and the layer's result is real-valued
  again, so the seven layers chain; the output stage is the same sum in two orders.

  The route: every finite extended real is the image of a real, a layer of either arrangement on images of
  reals is the image of one real model `layerR`, and the comparison happens among reals, where products
  distribute over sums. The regrouping itself: a sum over the edges that end in `d` of a function of the
  edge's source is the sum over the nodes `s` of that function, counted with the number of edges `s → d`.
-/
import proofs.«207914_g72782515798130_cont_9to1c4b_353_41_alg».proof.Proof.GcnSpec

noncomputable section

namespace Cert.Proof.Gcn

open Idealize.ShloMosaic
open scoped BigOperators

/-! ### Moving between the reals and the extended reals -/

/-- The image of a finite sum of reals is the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The image of the larger of two reals is the larger of the images. -/
theorem coe_max (x y : ℝ) : ((max x y : ℝ) : EReal) = max (x : EReal) (y : EReal) :=
  EReal.coe_strictMono.monotone.map_max

/-- `1 / sqrt r` for a positive real `r`, computed with the extended-real operations. -/
theorem div_one_sqrt_coe {r : ℝ} (hr : 0 < r) :
    Ideal.div 1 (Ideal.sqrt (r : EReal)) = ((1 / Real.sqrt r : ℝ) : EReal) := by
  have h0 : Real.sqrt r ≠ 0 := (Real.sqrt_pos.2 hr).ne'
  rw [Ideal.sqrt_coe, if_neg (not_lt.2 hr.le), Ideal.div_coe h0, one_mul]

/-- A block of extended reals all of whose entries are reals. -/
def IsReal2 {α β : Type*} (h : α → β → EReal) : Prop := ∀ i j, ∃ r : ℝ, h i j = (r : EReal)

/-- A row of extended reals all of whose entries are reals. -/
def IsReal1 {α : Type*} (b : α → EReal) : Prop := ∀ i, ∃ r : ℝ, b i = (r : EReal)

theorem IsReal2.exists_fun {α β : Type*} {h : α → β → EReal} (hh : IsReal2 h) :
    ∃ hr : α → β → ℝ, h = fun i j => ((hr i j : ℝ) : EReal) :=
  ⟨fun i j => (hh i j).choose, funext fun i => funext fun j => (hh i j).choose_spec⟩

theorem IsReal1.exists_fun {α : Type*} {b : α → EReal} (hb : IsReal1 b) :
    ∃ br : α → ℝ, b = fun i => ((br i : ℝ) : EReal) :=
  ⟨fun i => (hb i).choose, funext fun i => (hb i).choose_spec⟩

/-! ### The real model of one layer -/

variable {E K N : ℕ}

/-- The degree of node `d`: the edges that end in it, plus its loop. -/
def degR (c : Fin 24 → Fin 24 → ℕ) (d : Fin 24) : ℝ := (∑ s : Fin 24, (c d s : ℝ)) + 1

/-- `1 / sqrt (deg d)`. -/
def uR (c : Fin 24 → Fin 24 → ℕ) (d : Fin 24) : ℝ := 1 / Real.sqrt (degR c d)

/-- The product of the feature block with a weight block. -/
def denseR (h : Fin 24 → Fin K → ℝ) (W : Fin K → Fin N → ℝ) (i : Fin 24) (k : Fin N) : ℝ :=
  ∑ j : Fin K, h i j * W j k

/-- One layer among reals. -/
def layerR (c : Fin 24 → Fin 24 → ℕ) (h : Fin 24 → Fin K → ℝ) (W : Fin K → Fin N → ℝ) (b : Fin N → ℝ) :
    Fin 24 → Fin N → ℝ :=
  fun d k =>
    max ((∑ s : Fin 24, ((c d s : ℝ) + if d = s then 1 else 0) * (denseR h W s k * uR c s)) * uR c d + b k) 0

theorem degR_pos (c : Fin 24 → Fin 24 → ℕ) (d : Fin 24) : 0 < degR c d := by
  have : 0 ≤ ∑ s : Fin 24, (c d s : ℝ) := Finset.sum_nonneg fun s _ => Nat.cast_nonneg _
  unfold degR; linarith

theorem dense_coe (h : Fin 24 → Fin K → ℝ) (W : Fin K → Fin N → ℝ) (i : Fin 24) (k : Fin N) :
    dense (fun i j => ((h i j : ℝ) : EReal)) (fun j k => ((W j k : ℝ) : EReal)) i k
      = ((denseR h W i k : ℝ) : EReal) := by
  unfold dense denseR
  rw [coe_sum]
  exact Finset.sum_congr rfl fun j _ => (EReal.coe_mul _ _).symm

/-! ### The count-matrix arrangement on reals -/

section Ker

variable {C : Fin 24 → Fin 24 → EReal} {c : Fin 24 → Fin 24 → ℕ}

theorem kerDeg_coe (hC : ∀ d s, C d s = ((c d s : ℕ) : EReal)) (d : Fin 24) :
    kerDeg C d = ((degR c d : ℝ) : EReal) := by
  unfold kerDeg degR
  rw [EReal.coe_add, coe_sum, EReal.coe_one]
  congr 1
  exact Finset.sum_congr rfl fun s _ => by rw [hC d s, EReal.coe_natCast]

theorem kerU_coe (hC : ∀ d s, C d s = ((c d s : ℕ) : EReal)) (d : Fin 24) :
    kerU C d = ((uR c d : ℝ) : EReal) := by
  unfold kerU uR
  rw [kerDeg_coe hC d, div_one_sqrt_coe (degR_pos c d)]

theorem kerP_coe (hC : ∀ d s, C d s = ((c d s : ℕ) : EReal)) (d s : Fin 24) :
    kerP C d s = ((((c d s : ℝ) + if d = s then 1 else 0 : ℝ)) : EReal) := by
  unfold kerP
  rw [EReal.coe_add, hC d s, EReal.coe_natCast]
  congr 1
  split_ifs <;> simp

theorem kerLayer_coe (hC : ∀ d s, C d s = ((c d s : ℕ) : EReal)) (h : Fin 24 → Fin K → ℝ)
    (W : Fin K → Fin N → ℝ) (b : Fin N → ℝ) :
    kerLayer C (fun i j => ((h i j : ℝ) : EReal)) (fun j k => ((W j k : ℝ) : EReal))
        (fun k => ((b k : ℝ) : EReal))
      = fun d k => ((layerR c h W b d k : ℝ) : EReal) := by
  funext d k
  unfold kerLayer layerR
  rw [coe_max, EReal.coe_add, EReal.coe_mul, coe_sum, EReal.coe_zero, kerU_coe hC d]
  congr 3
  refine Finset.sum_congr rfl fun s _ => ?_
  rw [EReal.coe_mul, EReal.coe_mul, kerP_coe hC d s, dense_coe, kerU_coe hC s]

end Ker

/-! ### The edge-list arrangement on reals -/

section Ref

variable {src dst : Fin E → Fin 24} {c : Fin 24 → Fin 24 → ℕ}

/-- The regrouping: a sum over the edges that end in `d` of a function of the edge's source, by source. -/
theorem sum_regroup
    (hcount : ∀ d s, (Finset.univ.filter fun e : Fin E => dst e = d ∧ src e = s).card
        = c d s + if d = s then 1 else 0)
    (d : Fin 24) (G : Fin 24 → ℝ) :
    ∑ e ∈ Finset.univ.filter (fun e : Fin E => dst e = d), G (src e)
      = ∑ s : Fin 24, ((c d s : ℝ) + if d = s then 1 else 0) * G s := by
  rw [← Finset.sum_fiberwise' (Finset.univ.filter (fun e : Fin E => dst e = d)) src G]
  refine Finset.sum_congr rfl fun s _ => ?_
  rw [Finset.sum_const, nsmul_eq_mul, Finset.filter_filter, hcount d s]
  congr 1
  push_cast
  split_ifs <;> simp

theorem refDeg_coe
    (hcount : ∀ d s, (Finset.univ.filter fun e : Fin E => dst e = d ∧ src e = s).card
        = c d s + if d = s then 1 else 0)
    (v : Fin 24) : refDeg dst v = ((degR c v : ℝ) : EReal) := by
  have h1 := sum_regroup hcount v (fun _ => (1 : ℝ))
  unfold refDeg degR
  have h2 : (∑ s : Fin 24, (c v s : ℝ)) + 1
      = ∑ _e ∈ Finset.univ.filter (fun e : Fin E => dst e = v), (1 : ℝ) := by
    rw [h1]
    simp [Finset.sum_add_distrib]
  rw [h2, coe_sum]
  exact Finset.sum_congr rfl fun _ _ => EReal.coe_one.symm

theorem refDis_coe
    (hcount : ∀ d s, (Finset.univ.filter fun e : Fin E => dst e = d ∧ src e = s).card
        = c d s + if d = s then 1 else 0)
    (v : Fin 24) : refDis dst v = ((uR c v : ℝ) : EReal) := by
  unfold refDis uR
  rw [refDeg_coe hcount v, if_pos (EReal.coe_pos.2 (degR_pos c v)), div_one_sqrt_coe (degR_pos c v)]

theorem refLayer_coe
    (hcount : ∀ d s, (Finset.univ.filter fun e : Fin E => dst e = d ∧ src e = s).card
        = c d s + if d = s then 1 else 0)
    (h : Fin 24 → Fin K → ℝ) (W : Fin K → Fin N → ℝ) (b : Fin N → ℝ) :
    refLayer src dst (fun i j => ((h i j : ℝ) : EReal)) (fun j k => ((W j k : ℝ) : EReal))
        (fun k => ((b k : ℝ) : EReal))
      = fun d k => ((layerR c h W b d k : ℝ) : EReal) := by
  funext d k
  unfold refLayer layerR
  rw [coe_max, EReal.coe_add, EReal.coe_zero]
  congr 2
  -- the edge sum, among reals
  have hsum : ∑ e ∈ Finset.univ.filter (fun e : Fin E => dst e = d),
        dense (fun i j => ((h i j : ℝ) : EReal)) (fun j k => ((W j k : ℝ) : EReal)) (src e) k
          * (refDis dst (src e) * refDis dst (dst e))
      = ((∑ e ∈ Finset.univ.filter (fun e : Fin E => dst e = d),
          (fun s => denseR h W s k * (uR c s * uR c d)) (src e) : ℝ) : EReal) := by
    rw [coe_sum]
    refine Finset.sum_congr rfl fun e he => ?_
    have hde : dst e = d := (Finset.mem_filter.1 he).2
    rw [dense_coe, refDis_coe hcount, refDis_coe hcount, hde, EReal.coe_mul, EReal.coe_mul]
  rw [hsum]
  congr 1
  refine (sum_regroup hcount d (fun s => denseR h W s k * (uR c s * uR c d))).trans ?_
  rw [Finset.sum_mul]
  refine Finset.sum_congr rfl fun s _ => ?_
  ring

end Ref

/-! ### One layer: the two arrangements agree, and the result is real-valued -/

theorem layer_eq {src dst : Fin E → Fin 24} {c : Fin 24 → Fin 24 → ℕ} {C : Fin 24 → Fin 24 → EReal}
    (hcount : ∀ d s, (Finset.univ.filter fun e : Fin E => dst e = d ∧ src e = s).card
        = c d s + if d = s then 1 else 0)
    (hC : ∀ d s, C d s = ((c d s : ℕ) : EReal))
    {h : Fin 24 → Fin K → EReal} {W : Fin K → Fin N → EReal} {b : Fin N → EReal}
    (hh : IsReal2 h) (hW : IsReal2 W) (hb : IsReal1 b) :
    kerLayer C h W b = refLayer src dst h W b ∧ IsReal2 (kerLayer C h W b) := by
  obtain ⟨hr, rfl⟩ := hh.exists_fun
  obtain ⟨Wr, rfl⟩ := hW.exists_fun
  obtain ⟨br, rfl⟩ := hb.exists_fun
  rw [kerLayer_coe hC, refLayer_coe hcount]
  exact ⟨rfl, fun i j => ⟨_, rfl⟩⟩

/-! ### The output stage: the same sum in two orders -/

theorem fc1Ker_eq_fc1Ref (h : Fin 24 → Fin 32 → EReal) (W : Fin 768 → Fin 128 → EReal) (b : Fin 128 → EReal) :
    fc1Ker h W b = fc1Ref h W b := by
  funext k
  unfold fc1Ker fc1Ref
  congr 1
  rw [Finset.sum_comm]
  rw [← Fintype.sum_prod_type' (fun (n : Fin 24) (j : Fin 32) => h n j * W ⟨32 * n.val + j.val, by omega⟩ k)]
  refine Fintype.sum_equiv (finProdFinEquiv (m := 24) (n := 32)) _ _ ?_
  rintro ⟨n, j⟩
  have hn : n.val < 24 := n.isLt
  have hj : j.val < 32 := j.isLt
  have e1 : (⟨(j.val + 32 * n.val) / 32, by omega⟩ : Fin 24) = n := Fin.ext (by simp only; omega)
  have e2 : (⟨(j.val + 32 * n.val) % 32, by omega⟩ : Fin 32) = j := Fin.ext (by simp only; omega)
  have e3 : (⟨32 * n.val + j.val, by omega⟩ : Fin 768) = ⟨j.val + 32 * n.val, by omega⟩ := Fin.ext (by simp only; omega)
  show h n j * W ⟨32 * n.val + j.val, _⟩ k
      = h ⟨(j.val + 32 * n.val) / 32, _⟩ ⟨(j.val + 32 * n.val) % 32, _⟩ * W ⟨j.val + 32 * n.val, _⟩ k
  rw [e1, e2, e3]

/-! ### The whole network -/

theorem kerNet_eq_refNet {src dst : Fin E → Fin 24} {c : Fin 24 → Fin 24 → ℕ} {C : Fin 24 → Fin 24 → EReal}
    (hcount : ∀ d s, (Finset.univ.filter fun e : Fin E => dst e = d ∧ src e = s).card
        = c d s + if d = s then 1 else 0)
    (hC : ∀ d s, C d s = ((c d s : ℕ) : EReal))
    {x : Fin 24 → Fin 128 → EReal}
    {W1 : Fin 128 → Fin 4 → EReal} {b1 : Fin 4 → EReal} {W2 : Fin 4 → Fin 4 → EReal} {b2 : Fin 4 → EReal}
    {W3 : Fin 4 → Fin 8 → EReal} {b3 : Fin 8 → EReal} {W4 : Fin 8 → Fin 8 → EReal} {b4 : Fin 8 → EReal}
    {W5 : Fin 8 → Fin 16 → EReal} {b5 : Fin 16 → EReal} {W6 : Fin 16 → Fin 16 → EReal} {b6 : Fin 16 → EReal}
    {W7 : Fin 16 → Fin 32 → EReal} {b7 : Fin 32 → EReal}
    (fcW1 : Fin 768 → Fin 128 → EReal) (fcb1 : Fin 128 → EReal) (fcW2 : Fin 128 → Fin 2 → EReal)
    (fcb2 : Fin 2 → EReal)
    (hx : IsReal2 x) (hW1 : IsReal2 W1) (hb1 : IsReal1 b1) (hW2 : IsReal2 W2) (hb2 : IsReal1 b2)
    (hW3 : IsReal2 W3) (hb3 : IsReal1 b3) (hW4 : IsReal2 W4) (hb4 : IsReal1 b4)
    (hW5 : IsReal2 W5) (hb5 : IsReal1 b5) (hW6 : IsReal2 W6) (hb6 : IsReal1 b6)
    (hW7 : IsReal2 W7) (hb7 : IsReal1 b7) :
    kerNet C x W1 b1 W2 b2 W3 b3 W4 b4 W5 b5 W6 b6 W7 b7 fcW1 fcb1 fcW2 fcb2
      = refNet src dst x W1 b1 W2 b2 W3 b3 W4 b4 W5 b5 W6 b6 W7 b7 fcW1 fcb1 fcW2 fcb2 := by
  obtain ⟨e1, r1⟩ := layer_eq hcount hC hx hW1 hb1
  obtain ⟨e2, r2⟩ := layer_eq hcount hC r1 hW2 hb2
  obtain ⟨e3, r3⟩ := layer_eq hcount hC r2 hW3 hb3
  obtain ⟨e4, r4⟩ := layer_eq hcount hC r3 hW4 hb4
  obtain ⟨e5, r5⟩ := layer_eq hcount hC r4 hW5 hb5
  obtain ⟨e6, r6⟩ := layer_eq hcount hC r5 hW6 hb6
  obtain ⟨e7, _⟩ := layer_eq hcount hC r6 hW7 hb7
  unfold kerNet refNet
  rw [fc1Ker_eq_fc1Ref, e7, e6, e5, e4, e3, e2, e1]

end Cert.Proof.Gcn

end
-- ==== Proof.RefEdges.lean ====
/-
  The edge list the reference works from, as two functions into the nodes.

  The reference appends one self loop per node to the 512 given edges, so its list has 536 entries: entry
  `e < 512` is the given edge `e` (row 0 of the edge array its source word, row 1 its destination word), and entry
  `512 + v` is the loop at node `v`. `node ei r e` is the node that row `r` names at entry `e`. A word is reduced
  modulo 24 only so that the function is total: where every word lies between 0 and 23 it is the word itself.
-/
import Idealize.ShloMosaic.Lib.ValueIdx

noncomputable section

namespace Cert.Proof.RefEdges

open Idealize.ShloMosaic Idealize.ShloMosaic.ValueIdx

/-- The node row `r` of the extended edge list names at entry `e`. -/
def node (ei : IVec ⟨2, ![2, 512]⟩ 32) (r : Fin 2) (e : Fin 536) : Fin 24 :=
  if h : e.val < 512 then ⟨(ei (ix2 r ⟨e.val, h⟩)).toNat % 24, Nat.mod_lt _ (by decide)⟩ else ⟨e.val - 512, by omega⟩

/-- The source node of entry `e` of the extended edge list. -/
def src (ei : IVec ⟨2, ![2, 512]⟩ 32) : Fin 536 → Fin 24 := node ei 0

/-- The destination node of entry `e` of the extended edge list. -/
def dst (ei : IVec ⟨2, ![2, 512]⟩ 32) : Fin 536 → Fin 24 := node ei 1

/-- On a given edge, with the word in range, the node is the word. -/
theorem node_val_of_lt (ei : IVec ⟨2, ![2, 512]⟩ 32) (r : Fin 2) (e : Fin 536) (h : e.val < 512)
    (hw : (ei (ix2 r ⟨e.val, h⟩)).toNat ≤ 23) : (node ei r e).val = (ei (ix2 r ⟨e.val, h⟩)).toNat := by
  unfold node; rw [dif_pos h]; exact Nat.mod_eq_of_lt (by omega)

/-- On a self loop the node is the loop's number. -/
theorem node_val_of_ge (ei : IVec ⟨2, ![2, 512]⟩ 32) (r : Fin 2) (e : Fin 536) (h : ¬ e.val < 512) :
    (node ei r e).val = e.val - 512 := by
  unfold node; rw [dif_neg h]

end Cert.Proof.RefEdges

end
-- ==== Proof.LibHostIndexed.lean ====
/-
  The host's indexed operations read at an index, at the exact (extended-real) float instance, for the
  shapes in which a list of `E` edges addresses `N` nodes: the index array has one column (`[E, 1]`), the
  operand is a vector `[N]` or a matrix `[N, K]` whose rows are addressed.

  * a two-piece concatenation of vectors reads the first piece below its length and the second piece after;
  * a gather reads the operand at the (signed, clamped) index word; with the word in range, at that node;
  * an accumulating scatter leaves at node `v` the operand's entry plus the sum of the updates of the
    entries whose index word names `v`; an entry whose word names no node adds nothing anywhere;
  * the index normalisation that precedes every such operation (a negative word is shifted up by `N`) is the
    identity on a word between `0` and `N - 1`.
-/
import Idealize.ShloMosaic.Lib.ValueIdx
import Idealize.ShloMosaic.Lib.Pipeline.Value
import Idealize.ShloMosaic.PureOps.Ideal.Laws

noncomputable section

open scoped BigOperators

namespace Cert.Proof.LibHostIndexed

open Idealize.ShloMosaic Idealize.ShloMosaic.ValueIdx

/-! ## Gathers through a one-column index array -/

section Gather
variable {α : Type}

/-- The dimension numbers with which entries of a vector `[N]` are gathered through an index array `[E, 1]`:
    no offset axis, the operand's only axis collapsed and named by the index vector's single component. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at entry `e`: the operand at the index word of `e`, read signed and clamped into
    `[0, N - 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- With the index word of `e` naming node `v`, the gathered vector at `e` is the operand at `v`. -/
theorem gather_vec_at {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (v : Fin N)
    (hv : (idx (ix2 e (0 : Fin 1))).toInt = (v.val : Int)) :
    Host.gather (gatherVecDims N E wf) x idx (ix1 e) = x (ix1 v) := by
  rw [gather_vec_apply hN wf x idx e]
  congr 2
  refine Fin.ext ?_
  show min (idx (ix2 e (0 : Fin 1))).toInt.toNat (N - 1) = v.val
  rw [hv]; have := v.isLt; simp only [Int.toNat_natCast]; omega

/-- The dimension numbers with which rows of a matrix `[N, K]` are gathered through an index array `[E, 1]`:
    the result's second axis is the offset axis (a whole row, slice sizes `[1, K]`), the operand's row axis is
    collapsed and named by the index vector's single component. -/
abbrev gatherRowDims (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The gathered rows at entry `e`, column `k`: the operand's column `k` in the row the index word of `e`
    names, read signed and clamped into `[0, N - 1]`. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowDims N K E wf) x idx (ix2 e k)
      = x (ix2 (⟨min (idx (ix2 e (0 : Fin 1))).toInt.toNat (N - 1), by omega⟩ : Fin N) k) := by
  unfold Host.gather
  congr 1
  funext a
  refine Fin.ext ?_
  have h1 : (1 : Fin 2) ∉ (gatherRowDims N K E wf).startIndexMap := by
    show (1 : Fin 2) ∉ [(0 : Fin 2)]; decide
  have hk1 : (1 : Fin 2) ∈ (gatherRowDims N K E wf).sKept :=
    (GatherDims.mem_sKept _ _).mpr ⟨by show (1 : Fin 2) ∉ [(0 : Fin 2)]; decide, List.not_mem_nil⟩
  match a with
  | ⟨0, _⟩ =>
    show (gatherRowDims N K E wf).start (ix2 e k) idx 0 + (gatherRowDims N K E wf).batchCoord (ix2 e k) 0
      + (gatherRowDims N K E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N K E wf).startIndexMap from List.mem_singleton.mpr rfl)]
    have hsi : (gatherRowDims N K E wf).siIdx (ix2 e k) ⟨List.idxOf (0 : Fin 2) (gatherRowDims N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowDims N K E wf).start (ix2 e k) idx 1 + (gatherRowDims N K E wf).batchCoord (ix2 e k) 1
      + (gatherRowDims N K E wf).offCoord (ix2 e k) 1 = k.val
    rw [GatherDims.batchCoord_eq_zero _ _ _ List.not_mem_nil]
    unfold GatherDims.start
    rw [dif_neg h1]
    unfold GatherDims.offCoord
    rw [dif_pos hk1]
    simp only [Nat.add_zero, Nat.zero_add]
    rfl

/-- With the index word of `e` naming node `v`, the gathered rows at `e` are the operand's row `v`. -/
theorem gather_row_at {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) (v : Fin N)
    (hv : (idx (ix2 e (0 : Fin 1))).toInt = (v.val : Int)) :
    Host.gather (gatherRowDims N K E wf) x idx (ix2 e k) = x (ix2 v k) := by
  rw [gather_row_apply hN wf x idx e k]
  congr 2
  refine Fin.ext ?_
  show min (idx (ix2 e (0 : Fin 1))).toInt.toNat (N - 1) = v.val
  rw [hv]; have := v.isLt; simp only [Int.toNat_natCast]; omega

end Gather

/-! ## A two-piece concatenation of vectors -/

section Concat
variable {α : Type}

/-- Below the first piece's length a concatenation of two vectors reads the first piece. -/
theorem concat_vec_left {n n₁ n₂ : Nat} (a : (⟨1, ![n₁]⟩ : Shape).Idx → α) (b : (⟨1, ![n₂]⟩ : Shape).Idx → α)
    (h : Shape.Concatenates [(⟨1, ![n₁]⟩ : Shape), ⟨1, ![n₂]⟩] ⟨1, ![n]⟩ 0) (e : Fin n) (he : e.val < n₁) :
    concatenate ⟨1, ![n]⟩ 0 [⟨⟨1, ![n₁]⟩, a⟩, ⟨⟨1, ![n₂]⟩, b⟩] h (ix1 e) = a (ix1 ⟨e.val, he⟩) :=
  concatenate_pair_apply_left (0 : Fin 1) a b h (ix1 e) rfl (ix1 ⟨e.val, he⟩)
    (fun c => by obtain rfl : c = 0 := Subsingleton.elim _ _; rfl)

/-- From the first piece's length on it reads the second piece, that length less. -/
theorem concat_vec_right {n n₁ n₂ : Nat} (a : (⟨1, ![n₁]⟩ : Shape).Idx → α) (b : (⟨1, ![n₂]⟩ : Shape).Idx → α)
    (h : Shape.Concatenates [(⟨1, ![n₁]⟩ : Shape), ⟨1, ![n₂]⟩] ⟨1, ![n]⟩ 0) (e : Fin n) (he : n₁ ≤ e.val)
    (he₂ : e.val - n₁ < n₂) :
    concatenate ⟨1, ![n]⟩ 0 [⟨⟨1, ![n₁]⟩, a⟩, ⟨⟨1, ![n₂]⟩, b⟩] h (ix1 e) = b (ix1 ⟨e.val - n₁, he₂⟩) :=
  concatenate_pair_apply_right (0 : Fin 1) a b h (ix1 e) rfl rfl (ix1 ⟨e.val - n₁, he₂⟩)
    (fun c hc => absurd (Subsingleton.elim _ _) hc)
    (by show e.val - n₁ + n₁ = e.val; omega)

end Concat

/-! ## The index normalisation: a negative word is shifted up by the number of nodes -/

section Words

/-- A 32-bit word whose unsigned value is below `2 ^ 31` reads the same signed. -/
theorem toInt_of_small (x : BitVec 32) (hx : x.toNat < 2 ^ 31) : x.toInt = (x.toNat : Int) :=
  BitVec.toInt_eq_toNat_of_lt (by omega)

/-- On a word between `0` and `2 ^ 31 - 1` the test "is negative" fails, so the normalisation
    `select (x < 0) (x + n) x` leaves the word as it is. -/
theorem select_neg_shift (x n : BitVec 32) (hx : x.toNat < 2 ^ 31) :
    Scalar.select (IntOp.cmpi .slt x 0#32) (IntOp.addi x n) x = x := by
  have h0 : IntOp.cmpi .slt x 0#32 = 0#1 := by
    show BitVec.ofBool (x.slt 0#32) = 0#1
    have hs : x.slt 0#32 = false := by
      rw [BitVec.slt_eq_decide, toInt_of_small x hx, BitVec.toInt_zero]
      exact decide_eq_false (by omega)
    rw [hs]; rfl
  rw [h0]; exact select_zero _ _

end Words

/-! ## Accumulating scatters through a one-column index array -/

section Scatter

/-- The dimension numbers with which a vector of `E` updates is added into a vector `[N]` through an index array
    `[E, 1]`: no window axis, the operand's only axis inserted and named by the index vector's single component. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at node `v` exactly when its index word, read signed, is `v`. -/
theorem scatter_vec_resultIdx {N E w : Nat} (wf : ScatterDims.WF ⟨1, ![N]⟩ ⟨2, ![E, 1]⟩ ⟨1, ![E]⟩ [] [0] [0] 1)
    (idx : IVec ⟨2, ![E, 1]⟩ w) (e : Fin E) (v : Fin N) :
    (scatterVecDims N E wf).resultIdx? (ix1 e) idx = some (ix1 v)
      ↔ (idx (ix2 e (0 : Fin 1))).toInt = (v.val : Int) := by
  have hstart : (scatterVecDims N E wf).start (ix1 e) idx (0 : Fin 1) = (idx (ix2 e (0 : Fin 1))).toInt := by
    unfold ScatterDims.start
    rw [dif_pos (show (0 : Fin 1) ∈ (scatterVecDims N E wf).scatterDimsToOperandDims from List.mem_singleton.mpr rfl)]
    have hsi : (scatterVecDims N E wf).siIdx (ix1 e)
        ⟨List.idxOf (0 : Fin 1) (scatterVecDims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVecDims N E wf).window (ix1 e) (0 : Fin 1) = 0 := by
    unfold ScatterDims.window
    rw [dif_neg (by show (0 : Fin 1) ∉ (⟨1, ![N]⟩ : Shape).kept [(0 : Fin 1)]; simp [Shape.kept])]
  unfold ScatterDims.resultIdx?
  split
  · next h =>
    rw [Option.some.injEq]
    constructor
    · intro hf
      have h0 := congrArg (fun f => (f (0 : Fin 1)).val) hf
      simp only [hstart, hwin] at h0
      have hb := (h 0).1
      rw [hstart, hwin] at hb
      show (idx (ix2 e (0 : Fin 1))).toInt = (v.val : Int)
      have h0' : ((idx (ix2 e (0 : Fin 1))).toInt + ((0 : Nat) : Int)).toNat = v.val := h0
      omega
    · intro hv
      funext a
      obtain rfl : a = 0 := Subsingleton.elim _ _
      refine Fin.ext ?_
      show ((scatterVecDims N E wf).start (ix1 e) idx 0 + ((scatterVecDims N E wf).window (ix1 e) 0 : Nat)).toNat = v.val
      rw [hstart, hwin, hv]; simp
  · next h =>
    constructor
    · intro hf; exact absurd hf (by simp)
    · intro hv
      exfalso; apply h
      intro a
      obtain rfl : a = 0 := Subsingleton.elim _ _
      rw [hstart, hwin, hv]
      have := v.isLt
      refine ⟨by simp, ?_⟩
      show ((v.val : Int) + ((0 : Nat) : Int)) < ((N : Nat) : Int)
      omega

/-- The scattered vector at node `v`: the operand's entry plus the sum of the updates of the entries whose
    index word names `v`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (scatterVecDims N E wf) x idx upd (ix1 v)
      = x (ix1 v) + ∑ e ∈ Finset.univ.filter (fun e : Fin E => (idx (ix2 e (0 : Fin 1))).toInt = (v.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (scatter_vec_resultIdx wf idx e v).mpr he.2⟩
  · intro e₁ _ e₂ _ h
    exact congrFun h 0
  · intro j hj
    obtain ⟨e, rfl⟩ : ∃ e : Fin E, j = ix1 e := ⟨j 0, eq_ix1 j⟩
    rw [Finset.mem_filter] at hj
    exact ⟨e, Finset.mem_filter.mpr ⟨Finset.mem_univ _, (scatter_vec_resultIdx wf idx e v).mp hj.2⟩, rfl⟩
  · intro e _; rfl

/-- With every index word naming a node (`f e`), the scattered vector at `v` is the operand's entry plus the
    sum of the updates of the entries with `f e = v`. -/
theorem scatterAdd_vec_at {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (f : Fin E → Fin N) (hf : ∀ e, (idx (ix2 e (0 : Fin 1))).toInt = ((f e).val : Int)) (v : Fin N) :
    Ideal.hostScatterAdd (scatterVecDims N E wf) x idx upd (ix1 v)
      = x (ix1 v) + ∑ e ∈ Finset.univ.filter (fun e : Fin E => f e = v), upd (ix1 e) := by
  rw [scatterAdd_vec_apply wf x idx upd v]
  congr 2
  refine Finset.filter_congr (fun e _ => ?_)
  rw [hf e]
  constructor
  · intro h; exact Fin.ext (by exact_mod_cast h)
  · intro h; rw [h]

/-- The dimension numbers with which `E` rows of updates are added into a matrix `[N, K]` through an index array
    `[E, 1]`: the updates' second axis is the window axis (a whole row), the operand's row axis is inserted and
    named by the index vector's single component. -/
abbrev scatterRowDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update `(e, k')` lands at `(v, k)` exactly when the index word of `e`, read signed, is `v` and `k' = k`. -/
theorem scatter_row_resultIdx {N K E w : Nat}
    (wf : ScatterDims.WF ⟨2, ![N, K]⟩ ⟨2, ![E, 1]⟩ ⟨2, ![E, K]⟩ [1] [0] [0] 1)
    (idx : IVec ⟨2, ![E, 1]⟩ w) (e : Fin E) (k' : Fin K) (v : Fin N) (k : Fin K) :
    (scatterRowDims N K E wf).resultIdx? (ix2 e k') idx = some (ix2 v k)
      ↔ (idx (ix2 e (0 : Fin 1))).toInt = (v.val : Int) ∧ k' = k := by
  have hstart0 : (scatterRowDims N K E wf).start (ix2 e k') idx (0 : Fin 2) = (idx (ix2 e (0 : Fin 1))).toInt := by
    unfold ScatterDims.start
    rw [dif_pos (show (0 : Fin 2) ∈ (scatterRowDims N K E wf).scatterDimsToOperandDims from List.mem_singleton.mpr rfl)]
    have hsi : (scatterRowDims N K E wf).siIdx (ix2 e k')
        ⟨List.idxOf (0 : Fin 2) (scatterRowDims N K E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hstart1 : (scatterRowDims N K E wf).start (ix2 e k') idx (1 : Fin 2) = 0 := by
    unfold ScatterDims.start
    rw [dif_neg (by show (1 : Fin 2) ∉ [(0 : Fin 2)]; decide)]
  have hwin0 : (scatterRowDims N K E wf).window (ix2 e k') (0 : Fin 2) = 0 := by
    unfold ScatterDims.window
    rw [dif_neg (by show (0 : Fin 2) ∉ (⟨2, ![N, K]⟩ : Shape).kept [(0 : Fin 2)]; simp [Shape.kept])]
  have hwin1 : (scatterRowDims N K E wf).window (ix2 e k') (1 : Fin 2) = k'.val := by
    unfold ScatterDims.window
    rw [dif_pos (by show (1 : Fin 2) ∈ (⟨2, ![N, K]⟩ : Shape).kept [(0 : Fin 2)]; simp [Shape.kept])]
    rfl
  unfold ScatterDims.resultIdx?
  split
  · next h =>
    rw [Option.some.injEq]
    constructor
    · intro hf
      have h0 := congrArg (fun f => (f (0 : Fin 2)).val) hf
      have h1 := congrArg (fun f => (f (1 : Fin 2)).val) hf
      simp only [hstart0, hwin0, hstart1, hwin1] at h0 h1
      have hb := (h 0).1
      rw [hstart0, hwin0] at hb
      have h0' : ((idx (ix2 e (0 : Fin 1))).toInt + ((0 : Nat) : Int)).toNat = v.val := h0
      have h1' : ((0 : Int) + ((k'.val : Nat) : Int)).toNat = k.val := h1
      refine ⟨by omega, Fin.ext (by omega)⟩
    · rintro ⟨hv, rfl⟩
      funext a
      refine Fin.ext ?_
      match a with
      | ⟨0, _⟩ =>
        show ((scatterRowDims N K E wf).start (ix2 e k') idx 0 + ((scatterRowDims N K E wf).window (ix2 e k') 0 : Nat)).toNat = v.val
        rw [hstart0, hwin0, hv]; simp
      | ⟨1, _⟩ =>
        show ((scatterRowDims N K E wf).start (ix2 e k') idx 1 + ((scatterRowDims N K E wf).window (ix2 e k') 1 : Nat)).toNat = k'.val
        rw [hstart1, hwin1]; simp
  · next h =>
    constructor
    · intro hf; exact absurd hf (by simp)
    · rintro ⟨hv, rfl⟩
      exfalso; apply h
      intro a
      match a with
      | ⟨0, _⟩ =>
        show 0 ≤ (scatterRowDims N K E wf).start (ix2 e k') idx 0 + ((scatterRowDims N K E wf).window (ix2 e k') 0 : Nat)
          ∧ (scatterRowDims N K E wf).start (ix2 e k') idx 0 + ((scatterRowDims N K E wf).window (ix2 e k') 0 : Nat) < ((N : Nat) : Int)
        rw [hstart0, hwin0, hv]
        have := v.isLt
        omega
      | ⟨1, _⟩ =>
        show 0 ≤ (scatterRowDims N K E wf).start (ix2 e k') idx 1 + ((scatterRowDims N K E wf).window (ix2 e k') 1 : Nat)
          ∧ (scatterRowDims N K E wf).start (ix2 e k') idx 1 + ((scatterRowDims N K E wf).window (ix2 e k') 1 : Nat) < ((K : Nat) : Int)
        rw [hstart1, hwin1]
        have := k'.isLt
        omega

/-- The scattered matrix at `(v, k)`: the operand's entry plus the sum, over the entries whose index word names
    `v`, of their updates' column `k`. -/
theorem scatterAdd_row_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (v : Fin N) (k : Fin K) :
    Ideal.hostScatterAdd (scatterRowDims N K E wf) x idx upd (ix2 v k)
      = x (ix2 v k) + ∑ e ∈ Finset.univ.filter (fun e : Fin E => (idx (ix2 e (0 : Fin 1))).toInt = (v.val : Int)),
          upd (ix2 e k) := by
  unfold Ideal.hostScatterAdd
  congr 1
  symm
  refine Finset.sum_bij (fun e _ => ix2 e k) ?_ ?_ ?_ ?_
  · intro e he
    rw [Finset.mem_filter] at he ⊢
    exact ⟨Finset.mem_univ _, (scatter_row_resultIdx wf idx e k v k).mpr ⟨he.2, rfl⟩⟩
  · intro e₁ _ e₂ _ h
    exact congrFun h 0
  · intro j hj
    obtain ⟨e, k', rfl⟩ : ∃ (e : Fin E) (k' : Fin K), j = ix2 e k' := ⟨j 0, j 1, eq_ix2 j⟩
    rw [Finset.mem_filter] at hj
    obtain ⟨hv, hk⟩ := (scatter_row_resultIdx wf idx e k' v k).mp hj.2
    exact ⟨e, Finset.mem_filter.mpr ⟨Finset.mem_univ _, hv⟩, by rw [hk]⟩
  · intro e _; rfl

/-- With every index word naming a node (`f e`), the scattered matrix at `(v, k)` is the operand's entry plus the
    sum, over the entries with `f e = v`, of their updates' column `k`. -/
theorem scatterAdd_row_at {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (f : Fin E → Fin N) (hf : ∀ e, (idx (ix2 e (0 : Fin 1))).toInt = ((f e).val : Int)) (v : Fin N) (k : Fin K) :
    Ideal.hostScatterAdd (scatterRowDims N K E wf) x idx upd (ix2 v k)
      = x (ix2 v k) + ∑ e ∈ Finset.univ.filter (fun e : Fin E => f e = v), upd (ix2 e k) := by
  rw [scatterAdd_row_apply wf x idx upd v k]
  congr 2
  refine Finset.filter_congr (fun e _ => ?_)
  rw [hf e]
  constructor
  · intro h; exact Fin.ext (by exact_mod_cast h)
  · intro h; rw [h]

end Scatter

/-! ## The two float constants the degree computation uses -/

section Consts

/-- The word `0x3F800000` is the number one. -/
theorem ofBits_one_f32 : Ideal.ofBits .f32 0x3F800000#32 = 1 := by
  simp [Ideal.ofBits, Ideal.ieee, -EReal.coe_mul]; norm_num

/-- The zero word, as the exact instance's constant. -/
theorem const_zero_f32 : (FloatOps.ofBits (F := Ideal) .f32 0x00000000#32) = (0 : EReal) := Ideal.ofBits_zero_f32

/-- The word of one, as the exact instance's constant. -/
theorem const_one_f32 : (FloatOps.ofBits (F := Ideal) .f32 0x3F800000#32) = (1 : EReal) := ofBits_one_f32

end Consts

/-! ## A maximum-reduction over a pair -/

section MaxPair

/-- The word `0xFF800000` is minus infinity. -/
theorem const_neginf_f32 : (FloatOps.ofBits (F := Ideal) .f32 0xFF800000#32) = (⊥ : EReal) := by
  show Ideal.ofBits .f32 0xFF800000#32 = ⊥
  simp [Ideal.ofBits, Ideal.ieee]

/-- A `[1, 2]` array has the two indices `(0, 0)` and `(0, 1)`. -/
theorem idx12_cases (i : (⟨2, ![1, 2]⟩ : Shape).Idx) :
    i = ix2 (0 : Fin 1) (0 : Fin 2) ∨ i = ix2 (0 : Fin 1) (1 : Fin 2) := by
  have h0 : (i 0).val = 0 := by have := idx2_lt0 i; omega
  have h1 : (i 1).val = 0 ∨ (i 1).val = 1 := by have := idx2_lt1 i; omega
  rcases h1 with h | h
  · left; funext a; refine Fin.ext ?_
    match a with
    | ⟨0, _⟩ => exact h0
    | ⟨1, _⟩ => exact h
  · right; funext a; refine Fin.ext ?_
    match a with
    | ⟨0, _⟩ => exact h0
    | ⟨1, _⟩ => exact h

/-- The host's maximum-reduction of a `[1, 2]` array along its second axis, from minus infinity, is the larger of
    the two entries. -/
theorem reduce_max_pair (x : (⟨2, ![1, 2]⟩ : Shape).Idx → EReal) (init : (⟨0, ![]⟩ : Shape).Idx → EReal)
    (h : Shape.ReducesTo ⟨2, ![1, 2]⟩ [1] ⟨1, ![1]⟩) (hu : 0 < (⟨0, ![]⟩ : Shape).numel)
    (hinit : init (Shape.Idx.first hu) = ⊥) (j : (⟨1, ![1]⟩ : Shape).Idx) :
    Host.reduce (FloatOps.maximumf (F := Ideal) (φ := .f32)) x init h hu j
      = max (x (ix2 (0 : Fin 1) (0 : Fin 2))) (x (ix2 (0 : Fin 1) (1 : Fin 2))) := by
  rw [Host.reduce_eq_fold, hinit]
  have hmem : ∀ i : (⟨2, ![1, 2]⟩ : Shape).Idx, i ∈ Finset.univ.filter (fun i => h.drop i = j) := by
    intro i
    rw [Finset.mem_filter]
    refine ⟨Finset.mem_univ _, ?_⟩
    funext a
    obtain rfl : a = 0 := Subsingleton.elim _ _
    refine Fin.ext ?_
    have h1 : (h.drop i 0).val < 1 := (h.drop i 0).isLt
    have h2 : (j 0).val < 1 := (j 0).isLt
    omega
  show (Finset.univ.filter fun i => h.drop i = j).fold max (⊥ : EReal) x = _
  apply le_antisymm
  · rw [Finset.fold_max_le]
    refine ⟨bot_le, fun i _ => ?_⟩
    rcases idx12_cases i with rfl | rfl
    · exact le_max_left _ _
    · exact le_max_right _ _
  · rw [Finset.le_fold_max]
    right
    rcases le_total (x (ix2 (0 : Fin 1) (0 : Fin 2))) (x (ix2 (0 : Fin 1) (1 : Fin 2))) with hle | hle
    · exact ⟨ix2 (0 : Fin 1) (1 : Fin 2), hmem _, by rw [max_eq_right hle]⟩
    · exact ⟨ix2 (0 : Fin 1) (0 : Fin 2), hmem _, by rw [max_eq_left hle]⟩

end MaxPair

end Cert.Proof.LibHostIndexed

end
-- ==== Proof.RefValueNorm.lean ====
/-
  The part of a layer that depends on the edge array alone, read off the reference's operations index by index.

  The reference extends the 512 given edges by one self loop per node (536 entries). Entry by entry its source
  and destination words are the nodes `RefEdges.src`, `RefEdges.dst`; every index array it builds from them
  (a negative word shifted up by 24, then one column) holds those nodes; the scatter of ones over the
  destinations is the degree `refDeg`, the guarded reciprocal square root is `refDis`, and the per-entry factor
  is `refDis (src e) * refDis (dst e)`.
-/
import proofs.«207914_g72782515798130_cont_9to1c4b_353_41_alg».proof.Proof.RefReadP
import proofs.«207914_g72782515798130_cont_9to1c4b_353_41_alg».proof.Proof.GcnSpec
import proofs.«207914_g72782515798130_cont_9to1c4b_353_41_alg».proof.Proof.RefEdges
import proofs.«207914_g72782515798130_cont_9to1c4b_353_41_alg».proof.Proof.LibHostIndexed

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

variable (x1 : IVec S2x512 32)

/-! ### The two word vectors of the extended edge list -/

/-- Row `r` of the edge array, flattened, at position `e` is the array's entry `(r, e)`. -/
theorem idx_row0 (e : Fin 512) : idx_main_v0 (idx_main_v1 (ix1 e)) = ix2 (0 : Fin 2) e := by
  funext a; refine Fin.ext ?_
  match a with
  | ⟨0, _⟩ => rfl
  | ⟨1, _⟩ => exact Nat.mod_eq_of_lt e.isLt

theorem idx_row1 (e : Fin 512) : idx_main_v2 (idx_main_v3 (ix1 e)) = ix2 (1 : Fin 2) e := by
  funext a; refine Fin.ext ?_
  match a with
  | ⟨0, _⟩ => rfl
  | ⟨1, _⟩ => exact Nat.mod_eq_of_lt e.isLt

/-- The source word of entry `e` is the source node of `e`. -/
theorem v5_toNat (hei : ∀ i, (x1 i).toNat ≤ 23) (e : Fin 536) :
    (val_main_v5 (F := Ideal) x1 (ix1 e)).toNat = (RefEdges.src x1 e).val := by
  unfold val_main_v5
  by_cases h : e.val < 512
  · rw [concat_vec_left _ _ _ e h, val_main_v1_apply, val_main_v0_apply, idx_row0 ⟨e.val, h⟩]
    exact (RefEdges.node_val_of_lt x1 0 e h (hei _)).symm
  · rw [concat_vec_right _ _ _ e (by omega) (by have := e.isLt; omega), val_main_v4_apply]
    rw [RefEdges.src, RefEdges.node_val_of_ge x1 0 e h]
    show (BitVec.ofNat 32 (e.val - 512)).toNat = e.val - 512
    rw [BitVec.toNat_ofNat]; have := e.isLt; omega

/-- The destination word of entry `e` is the destination node of `e`. -/
theorem v6_toNat (hei : ∀ i, (x1 i).toNat ≤ 23) (e : Fin 536) :
    (val_main_v6 (F := Ideal) x1 (ix1 e)).toNat = (RefEdges.dst x1 e).val := by
  unfold val_main_v6
  by_cases h : e.val < 512
  · rw [concat_vec_left _ _ _ e h, val_main_v3_apply, val_main_v2_apply, idx_row1 ⟨e.val, h⟩]
    exact (RefEdges.node_val_of_lt x1 1 e h (hei _)).symm
  · rw [concat_vec_right _ _ _ e (by omega) (by have := e.isLt; omega), val_main_v4_apply]
    rw [RefEdges.dst, RefEdges.node_val_of_ge x1 1 e h]
    show (BitVec.ofNat 32 (e.val - 512)).toNat = e.val - 512
    rw [BitVec.toNat_ofNat]; have := e.isLt; omega

theorem v5_toInt (hei : ∀ i, (x1 i).toNat ≤ 23) (e : Fin 536) :
    (val_main_v5 (F := Ideal) x1 (ix1 e)).toInt = ((RefEdges.src x1 e).val : Int) := by
  have h := v5_toNat x1 hei e
  rw [toInt_of_small _ (by rw [h]; have := (RefEdges.src x1 e).isLt; omega), h]

theorem v6_toInt (hei : ∀ i, (x1 i).toNat ≤ 23) (e : Fin 536) :
    (val_main_v6 (F := Ideal) x1 (ix1 e)).toInt = ((RefEdges.dst x1 e).val : Int) := by
  have h := v6_toNat x1 hei e
  rw [toInt_of_small _ (by rw [h]; have := (RefEdges.dst x1 e).isLt; omega), h]

/-! ### The five index arrays of a layer -/

/-- The normalised dst word of entry `e` (`v12`) is the word itself: it is not negative. -/
theorem v12_eq (hei : ∀ i, (x1 i).toNat ≤ 23) (e : Fin 536) :
    val_main_v12 (F := Ideal) x1 (ix1 e) = val_main_v6 (F := Ideal) x1 (ix1 e) := by
  rw [val_main_v12_apply, val_main_v9_apply, val_main_v8_apply, val_main_c_apply, val_main_v11_apply]
  exact select_neg_shift _ _ (by rw [v6_toNat x1 hei e]; have := (RefEdges.dst x1 e).isLt; omega)

/-- The index array `v13` holds, at entry `e`, the dst node of `e`. -/
theorem v13_toInt (hei : ∀ i, (x1 i).toNat ≤ 23) (e : Fin 536) :
    (val_main_v13 (F := Ideal) x1 (ix2 e (0 : Fin 1))).toInt = ((RefEdges.dst x1 e).val : Int) := by
  rw [val_main_v13_apply]
  have hi : idx_main_v13 (ix2 e (0 : Fin 1)) = ix1 e := by
    funext a; match a with | ⟨0, _⟩ => rfl
  rw [hi, v12_eq x1 hei e]
  exact v6_toInt x1 hei e

/-- The normalised src word of entry `e` (`v26`) is the word itself: it is not negative. -/
theorem v26_eq (hei : ∀ i, (x1 i).toNat ≤ 23) (e : Fin 536) :
    val_main_v26 (F := Ideal) x1 (ix1 e) = val_main_v5 (F := Ideal) x1 (ix1 e) := by
  rw [val_main_v26_apply, val_main_v23_apply, val_main_v22_apply, val_main_c_5_apply, val_main_v25_apply]
  exact select_neg_shift _ _ (by rw [v5_toNat x1 hei e]; have := (RefEdges.src x1 e).isLt; omega)

/-- The index array `v27` holds, at entry `e`, the src node of `e`. -/
theorem v27_toInt (hei : ∀ i, (x1 i).toNat ≤ 23) (e : Fin 536) :
    (val_main_v27 (F := Ideal) x1 (ix2 e (0 : Fin 1))).toInt = ((RefEdges.src x1 e).val : Int) := by
  rw [val_main_v27_apply]
  have hi : idx_main_v27 (ix2 e (0 : Fin 1)) = ix1 e := by
    funext a; match a with | ⟨0, _⟩ => rfl
  rw [hi, v26_eq x1 hei e]
  exact v5_toInt x1 hei e

/-- The normalised dst word of entry `e` (`v33`) is the word itself: it is not negative. -/
theorem v33_eq (hei : ∀ i, (x1 i).toNat ≤ 23) (e : Fin 536) :
    val_main_v33 (F := Ideal) x1 (ix1 e) = val_main_v6 (F := Ideal) x1 (ix1 e) := by
  rw [val_main_v33_apply, val_main_v30_apply, val_main_v29_apply, val_main_c_7_apply, val_main_v32_apply]
  exact select_neg_shift _ _ (by rw [v6_toNat x1 hei e]; have := (RefEdges.dst x1 e).isLt; omega)

/-- The index array `v34` holds, at entry `e`, the dst node of `e`. -/
theorem v34_toInt (hei : ∀ i, (x1 i).toNat ≤ 23) (e : Fin 536) :
    (val_main_v34 (F := Ideal) x1 (ix2 e (0 : Fin 1))).toInt = ((RefEdges.dst x1 e).val : Int) := by
  rw [val_main_v34_apply]
  have hi : idx_main_v34 (ix2 e (0 : Fin 1)) = ix1 e := by
    funext a; match a with | ⟨0, _⟩ => rfl
  rw [hi, v33_eq x1 hei e]
  exact v6_toInt x1 hei e

/-- The normalised src word of entry `e` (`v42`) is the word itself: it is not negative. -/
theorem v42_eq (hei : ∀ i, (x1 i).toNat ≤ 23) (e : Fin 536) :
    val_main_v42 (F := Ideal) x1 (ix1 e) = val_main_v5 (F := Ideal) x1 (ix1 e) := by
  rw [val_main_v42_apply, val_main_v39_apply, val_main_v38_apply, val_main_c_9_apply, val_main_v41_apply]
  exact select_neg_shift _ _ (by rw [v5_toNat x1 hei e]; have := (RefEdges.src x1 e).isLt; omega)

/-- The index array `v43` holds, at entry `e`, the src node of `e`. -/
theorem v43_toInt (hei : ∀ i, (x1 i).toNat ≤ 23) (e : Fin 536) :
    (val_main_v43 (F := Ideal) x1 (ix2 e (0 : Fin 1))).toInt = ((RefEdges.src x1 e).val : Int) := by
  rw [val_main_v43_apply]
  have hi : idx_main_v43 (ix2 e (0 : Fin 1)) = ix1 e := by
    funext a; match a with | ⟨0, _⟩ => rfl
  rw [hi, v42_eq x1 hei e]
  exact v5_toInt x1 hei e

/-- The normalised dst word of entry `e` (`v53`) is the word itself: it is not negative. -/
theorem v53_eq (hei : ∀ i, (x1 i).toNat ≤ 23) (e : Fin 536) :
    val_main_v53 (F := Ideal) x1 (ix1 e) = val_main_v6 (F := Ideal) x1 (ix1 e) := by
  rw [val_main_v53_apply, val_main_v50_apply, val_main_v49_apply, val_main_c_12_apply, val_main_v52_apply]
  exact select_neg_shift _ _ (by rw [v6_toNat x1 hei e]; have := (RefEdges.dst x1 e).isLt; omega)

/-- The index array `v54` holds, at entry `e`, the dst node of `e`. -/
theorem v54_toInt (hei : ∀ i, (x1 i).toNat ≤ 23) (e : Fin 536) :
    (val_main_v54 (F := Ideal) x1 (ix2 e (0 : Fin 1))).toInt = ((RefEdges.dst x1 e).val : Int) := by
  rw [val_main_v54_apply]
  have hi : idx_main_v54 (ix2 e (0 : Fin 1)) = ix1 e := by
    funext a; match a with | ⟨0, _⟩ => rfl
  rw [hi, v53_eq x1 hei e]
  exact v6_toInt x1 hei e

/-! ### Degree, its guarded reciprocal square root, and the per-entry factor -/

/-- The scatter of ones over the destinations is the degree. -/
theorem v15_deg (hei : ∀ i, (x1 i).toNat ≤ 23) (v : Fin 24) :
    val_main_v15 (F := Ideal) x1 (ix1 v) = refDeg (RefEdges.dst x1) v := by
  unfold val_main_v15
  refine (scatterAdd_vec_at (N := 24) (E := 536) scatter_S24_S536x1_S536_n_0_0_1.wf _ _ _ (RefEdges.dst x1)
    (v13_toInt x1 hei) v).trans ?_
  rw [val_main_v7_apply, val_main_cst_apply, const_zero_f32, zero_add]
  unfold refDeg
  refine Finset.sum_congr rfl (fun e _ => ?_)
  rw [val_main_v14_apply, val_main_cst_1_apply, const_one_f32]

/-- Where the degree is positive its reciprocal square root, else zero. -/
theorem v21_dis (hei : ∀ i, (x1 i).toNat ≤ 23) (v : Fin 24) :
    val_main_v21 (F := Ideal) x1 (ix1 v) = refDis (RefEdges.dst x1) v := by
  rw [val_main_v21_apply, val_main_v17_apply, val_main_v20_apply, val_main_v18_apply, val_main_v19_apply,
    val_main_cst_3_apply, val_main_v16_apply, val_main_cst_2_apply, val_main_call0_v1_apply,
    val_main_call0_v0_apply, val_main_cst_4_apply, v15_deg x1 hei v, const_zero_f32, const_one_f32,
    Ideal.cmpf_def, Ideal.hostDivf_def, Ideal.hostUnary_sqrt_def]
  have hc : Ideal.cmp .ogt (refDeg (RefEdges.dst x1) v) 0
      = BitVec.ofBool (decide (0 < refDeg (RefEdges.dst x1) v)) := rfl
  rw [hc]
  unfold refDis
  by_cases h : 0 < refDeg (RefEdges.dst x1) v
  · rw [if_pos h, decide_eq_true h]; exact select_one _ _
  · rw [if_neg h, decide_eq_false h]; exact select_zero _ _

/-- The factor entry `e` carries: the product of the two nodes' reciprocal square roots. -/
theorem v36_norm (hei : ∀ i, (x1 i).toNat ≤ 23) (e : Fin 536) :
    val_main_v36 (F := Ideal) x1 (ix1 e)
      = refDis (RefEdges.dst x1) (RefEdges.src x1 e) * refDis (RefEdges.dst x1) (RefEdges.dst x1 e) := by
  have h28 : val_main_v28 (F := Ideal) x1 (ix1 e) = refDis (RefEdges.dst x1) (RefEdges.src x1 e) := by
    unfold val_main_v28
    exact (gather_vec_at (N := 24) (E := 536) (by decide) gather_S24_S536x1_S536_n_0_n_n_0_1_1.wf _ _ e
      (RefEdges.src x1 e) (v27_toInt x1 hei e)).trans (v21_dis x1 hei _)
  have h35 : val_main_v35 (F := Ideal) x1 (ix1 e) = refDis (RefEdges.dst x1) (RefEdges.dst x1 e) := by
    unfold val_main_v35
    exact (gather_vec_at (N := 24) (E := 536) (by decide) gather_S24_S536x1_S536_n_0_n_n_0_1_1.wf _ _ e
      (RefEdges.dst x1 e) (v34_toInt x1 hei e)).trans (v21_dis x1 hei _)
  rw [val_main_v36_apply, Ideal.mulf_def, h28, h35]

end Cert.Proof.RefValue

end
-- ==== Proof.RefValueLayer1.lean ====
/-
  Layer 1 of the reference (128 features in, 4 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- The layer's matrix product at `(n, k)`. -/
theorem v37_dense (x0 : Vec Ideal S24x128 .f32) (x2 : Vec Ideal S128x4 .f32) (n : Fin 24) (k : Fin 4) :
    val_main_v37 (F := Ideal) x0 x2 (ix2 n k) = dense (fun n j => x0 (ix2 n j)) (fun j k => x2 (ix2 j k)) n k := by
  rw [val_main_v37_apply]
  unfold dense
  refine Finset.sum_congr rfl (fun j _ => ?_)
  have hl : lidx_main_v37 (ix2 n k) j = ix2 n j := by
    funext a; match a with | ⟨0, _⟩ => rfl | ⟨1, _⟩ => rfl
  have hr : ridx_main_v37 (ix2 n k) j = ix2 j k := by
    funext a; match a with | ⟨0, _⟩ => rfl | ⟨1, _⟩ => rfl
  rw [hl, hr]

/-- Layer 1 is `refLayer` of its input block, weights and bias over the extended edge list. -/
theorem layer1 (x0 : Vec Ideal S24x128 .f32) (x1 : IVec S2x512 32) (x2 : Vec Ideal S128x4 .f32) (x3 : Vec Ideal S4 .f32) (hei : ∀ i, (x1 i).toNat ≤ 23) (v : Fin 24) (k : Fin 4) :
    val_main_v59 (F := Ideal) x0 x1 x2 x3 (ix2 v k)
      = refLayer (RefEdges.src x1) (RefEdges.dst x1) (fun n j => x0 (ix2 n j)) (fun j k => x2 (ix2 j k)) (fun k => x3 (ix1 k)) v k := by
  -- what entry `e` contributes to column `k`
  have hmul : ∀ e : Fin 536, val_main_v47 (F := Ideal) x0 x1 x2 (ix2 e k)
      = dense (fun n j => x0 (ix2 n j)) (fun j k => x2 (ix2 j k)) (RefEdges.src x1 e) k
        * (refDis (RefEdges.dst x1) (RefEdges.src x1 e) * refDis (RefEdges.dst x1) (RefEdges.dst x1 e)) := by
    intro e
    have hg : val_main_v44 (F := Ideal) x0 x1 x2 (ix2 e k) = val_main_v37 (F := Ideal) x0 x2 (ix2 (RefEdges.src x1 e) k) := by
      unfold val_main_v44
      exact gather_row_at (N := 24) (K := 4) (E := 536) (by decide) gather_S24x4_S536x1_S536x4_1_0_n_n_0_1_14.wf _ _ e k
        (RefEdges.src x1 e) (v43_toInt x1 hei e)
    have hb : val_main_v46 (F := Ideal) x1 (ix2 e k) = val_main_v36 (F := Ideal) x1 (ix1 e) := by
      rw [val_main_v46_apply, val_main_v45_apply]
      have hi : idx_main_v45 (idx_main_v46 (ix2 e k)) = ix1 e := by
        funext a; match a with | ⟨0, _⟩ => rfl
      rw [hi]
    rw [val_main_v47_apply, Ideal.mulf_def, hg, hb, v37_dense, v36_norm x1 hei e]
  -- the sum over the entries that end in `v`
  have hsc : val_main_v55 (F := Ideal) x0 x1 x2 (ix2 v k)
      = ∑ e ∈ Finset.univ.filter (fun e : Fin 536 => RefEdges.dst x1 e = v),
          dense (fun n j => x0 (ix2 n j)) (fun j k => x2 (ix2 j k)) (RefEdges.src x1 e) k
            * (refDis (RefEdges.dst x1) (RefEdges.src x1 e) * refDis (RefEdges.dst x1) (RefEdges.dst x1 e)) := by
    unfold val_main_v55
    refine (scatterAdd_row_at (N := 24) (K := 4) (E := 536) scatter_S24x4_S536x1_S536x4_1_0_0_1.wf _ _ _ (RefEdges.dst x1)
      (v54_toInt x1 hei) v k).trans ?_
    rw [val_main_v48_apply, val_main_cst_11_apply, const_zero_f32, zero_add]
    exact Finset.sum_congr rfl (fun e _ => hmul e)
  -- the bias, broadcast over the rows
  have hbias : val_main_v57 (F := Ideal) x3 (ix2 v k) = x3 (ix1 k) := by
    rw [val_main_v57_apply, val_main_v56_apply]
    have hi : idx_main_v56 (idx_main_v57 (ix2 v k)) = ix1 k := by
      funext a; match a with | ⟨0, _⟩ => rfl
    rw [hi]
  rw [val_main_v59_apply, val_main_v58_apply, val_main_call1_v0_apply, val_main_call1_cst_apply, const_zero_f32,
    Ideal.maximumf_def, Ideal.addf_def, hsc, hbias]
  rfl

end Cert.Proof.RefValue

end
-- ==== Proof.RefValueLayer2.lean ====
/-
  Layer 2 of the reference (4 features in, 4 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v96_eq (x1 : IVec S2x512 32) : val_main_v96 (F := Ideal) x1 = val_main_v36 (F := Ideal) x1 := rfl
theorem v103_eq (x1 : IVec S2x512 32) : val_main_v103 (F := Ideal) x1 = val_main_v43 (F := Ideal) x1 := rfl
theorem v114_eq (x1 : IVec S2x512 32) : val_main_v114 (F := Ideal) x1 = val_main_v54 (F := Ideal) x1 := rfl

/-- The layer's matrix product at `(n, k)`. -/
theorem v97_dense (x0 : Vec Ideal S24x128 .f32) (x1 : IVec S2x512 32) (x2 : Vec Ideal S128x4 .f32) (x3 : Vec Ideal S4 .f32) (x4 : Vec Ideal S4x4 .f32) (n : Fin 24) (k : Fin 4) :
    val_main_v97 (F := Ideal) x0 x1 x2 x3 x4 (ix2 n k) = dense (fun n j => val_main_v59 (F := Ideal) x0 x1 x2 x3 (ix2 n j)) (fun j k => x4 (ix2 j k)) n k := by
  rw [val_main_v97_apply]
  unfold dense
  refine Finset.sum_congr rfl (fun j _ => ?_)
  have hl : lidx_main_v97 (ix2 n k) j = ix2 n j := by
    funext a; match a with | ⟨0, _⟩ => rfl | ⟨1, _⟩ => rfl
  have hr : ridx_main_v97 (ix2 n k) j = ix2 j k := by
    funext a; match a with | ⟨0, _⟩ => rfl | ⟨1, _⟩ => rfl
  rw [hl, hr]

/-- Layer 2 is `refLayer` of its input block, weights and bias over the extended edge list. -/
theorem layer2 (x0 : Vec Ideal S24x128 .f32) (x1 : IVec S2x512 32) (x2 : Vec Ideal S128x4 .f32) (x3 : Vec Ideal S4 .f32) (x4 : Vec Ideal S4x4 .f32) (x5 : Vec Ideal S4 .f32) (hei : ∀ i, (x1 i).toNat ≤ 23) (v : Fin 24) (k : Fin 4) :
    val_main_v119 (F := Ideal) x0 x1 x2 x3 x4 x5 (ix2 v k)
      = refLayer (RefEdges.src x1) (RefEdges.dst x1) (fun n j => val_main_v59 (F := Ideal) x0 x1 x2 x3 (ix2 n j)) (fun j k => x4 (ix2 j k)) (fun k => x5 (ix1 k)) v k := by
  -- what entry `e` contributes to column `k`
  have hmul : ∀ e : Fin 536, val_main_v107 (F := Ideal) x0 x1 x2 x3 x4 (ix2 e k)
      = dense (fun n j => val_main_v59 (F := Ideal) x0 x1 x2 x3 (ix2 n j)) (fun j k => x4 (ix2 j k)) (RefEdges.src x1 e) k
        * (refDis (RefEdges.dst x1) (RefEdges.src x1 e) * refDis (RefEdges.dst x1) (RefEdges.dst x1 e)) := by
    intro e
    have hg : val_main_v104 (F := Ideal) x0 x1 x2 x3 x4 (ix2 e k) = val_main_v97 (F := Ideal) x0 x1 x2 x3 x4 (ix2 (RefEdges.src x1 e) k) := by
      unfold val_main_v104
      exact gather_row_at (N := 24) (K := 4) (E := 536) (by decide) gather_S24x4_S536x1_S536x4_1_0_n_n_0_1_14.wf _ _ e k
        (RefEdges.src x1 e) (by rw [v103_eq x1]; exact v43_toInt x1 hei e)
    have hb : val_main_v106 (F := Ideal) x1 (ix2 e k) = val_main_v36 (F := Ideal) x1 (ix1 e) := by
      rw [val_main_v106_apply, val_main_v105_apply]
      have hi : idx_main_v105 (idx_main_v106 (ix2 e k)) = ix1 e := by
        funext a; match a with | ⟨0, _⟩ => rfl
      rw [hi, v96_eq x1]
    rw [val_main_v107_apply, Ideal.mulf_def, hg, hb, v97_dense, v36_norm x1 hei e]
  -- the sum over the entries that end in `v`
  have hsc : val_main_v115 (F := Ideal) x0 x1 x2 x3 x4 (ix2 v k)
      = ∑ e ∈ Finset.univ.filter (fun e : Fin 536 => RefEdges.dst x1 e = v),
          dense (fun n j => val_main_v59 (F := Ideal) x0 x1 x2 x3 (ix2 n j)) (fun j k => x4 (ix2 j k)) (RefEdges.src x1 e) k
            * (refDis (RefEdges.dst x1) (RefEdges.src x1 e) * refDis (RefEdges.dst x1) (RefEdges.dst x1 e)) := by
    unfold val_main_v115
    refine (scatterAdd_row_at (N := 24) (K := 4) (E := 536) scatter_S24x4_S536x1_S536x4_1_0_0_1.wf _ _ _ (RefEdges.dst x1)
      (fun e => by rw [v114_eq x1]; exact v54_toInt x1 hei e) v k).trans ?_
    rw [val_main_v108_apply, val_main_cst_27_apply, const_zero_f32, zero_add]
    exact Finset.sum_congr rfl (fun e _ => hmul e)
  -- the bias, broadcast over the rows
  have hbias : val_main_v117 (F := Ideal) x5 (ix2 v k) = x5 (ix1 k) := by
    rw [val_main_v117_apply, val_main_v116_apply]
    have hi : idx_main_v116 (idx_main_v117 (ix2 v k)) = ix1 k := by
      funext a; match a with | ⟨0, _⟩ => rfl
    rw [hi]
  rw [val_main_v119_apply, val_main_v118_apply, val_main_call3_v0_apply, val_main_call3_cst_apply, const_zero_f32,
    Ideal.maximumf_def, Ideal.addf_def, hsc, hbias]
  rfl

end Cert.Proof.RefValue

end
-- ==== Proof.RefValueLayer3.lean ====
/-
  Layer 3 of the reference (4 features in, 8 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v156_eq (x1 : IVec S2x512 32) : val_main_v156 (F := Ideal) x1 = val_main_v36 (F := Ideal) x1 := rfl
theorem v163_eq (x1 : IVec S2x512 32) : val_main_v163 (F := Ideal) x1 = val_main_v43 (F := Ideal) x1 := rfl
theorem v174_eq (x1 : IVec S2x512 32) : val_main_v174 (F := Ideal) x1 = val_main_v54 (F := Ideal) x1 := rfl

/-- The layer's matrix product at `(n, k)`. -/
theorem v157_dense (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (n : Fin 24) (k : Fin 8) :
    val_main_v157 (F := Ideal) x0 x1 x2 x3 x4 x5 x6 (ix2 n k) = dense (fun n j => val_main_v119 (F := Ideal) x0 x1 x2 x3 x4 x5 (ix2 n j)) (fun j k => x6 (ix2 j k)) n k := by
  rw [val_main_v157_apply]
  unfold dense
  refine Finset.sum_congr rfl (fun j _ => ?_)
  have hl : lidx_main_v157 (ix2 n k) j = ix2 n j := by
    funext a; match a with | ⟨0, _⟩ => rfl | ⟨1, _⟩ => rfl
  have hr : ridx_main_v157 (ix2 n k) j = ix2 j k := by
    funext a; match a with | ⟨0, _⟩ => rfl | ⟨1, _⟩ => rfl
  rw [hl, hr]

/-- Layer 3 is `refLayer` of its input block, weights and bias over the extended edge list. -/
theorem layer3 (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (hei : ∀ i, (x1 i).toNat ≤ 23) (v : Fin 24) (k : Fin 8) :
    val_main_v179 (F := Ideal) x0 x1 x2 x3 x4 x5 x6 x7 (ix2 v k)
      = refLayer (RefEdges.src x1) (RefEdges.dst x1) (fun n j => val_main_v119 (F := Ideal) x0 x1 x2 x3 x4 x5 (ix2 n j)) (fun j k => x6 (ix2 j k)) (fun k => x7 (ix1 k)) v k := by
  -- what entry `e` contributes to column `k`
  have hmul : ∀ e : Fin 536, val_main_v167 (F := Ideal) x0 x1 x2 x3 x4 x5 x6 (ix2 e k)
      = dense (fun n j => val_main_v119 (F := Ideal) x0 x1 x2 x3 x4 x5 (ix2 n j)) (fun j k => x6 (ix2 j k)) (RefEdges.src x1 e) k
        * (refDis (RefEdges.dst x1) (RefEdges.src x1 e) * refDis (RefEdges.dst x1) (RefEdges.dst x1 e)) := by
    intro e
    have hg : val_main_v164 (F := Ideal) x0 x1 x2 x3 x4 x5 x6 (ix2 e k) = val_main_v157 (F := Ideal) x0 x1 x2 x3 x4 x5 x6 (ix2 (RefEdges.src x1 e) k) := by
      unfold val_main_v164
      exact gather_row_at (N := 24) (K := 8) (E := 536) (by decide) gather_S24x8_S536x1_S536x8_1_0_n_n_0_1_18.wf _ _ e k
        (RefEdges.src x1 e) (by rw [v163_eq x1]; exact v43_toInt x1 hei e)
    have hb : val_main_v166 (F := Ideal) x1 (ix2 e k) = val_main_v36 (F := Ideal) x1 (ix1 e) := by
      rw [val_main_v166_apply, val_main_v165_apply]
      have hi : idx_main_v165 (idx_main_v166 (ix2 e k)) = ix1 e := by
        funext a; match a with | ⟨0, _⟩ => rfl
      rw [hi, v156_eq x1]
    rw [val_main_v167_apply, Ideal.mulf_def, hg, hb, v157_dense, v36_norm x1 hei e]
  -- the sum over the entries that end in `v`
  have hsc : val_main_v175 (F := Ideal) x0 x1 x2 x3 x4 x5 x6 (ix2 v k)
      = ∑ e ∈ Finset.univ.filter (fun e : Fin 536 => RefEdges.dst x1 e = v),
          dense (fun n j => val_main_v119 (F := Ideal) x0 x1 x2 x3 x4 x5 (ix2 n j)) (fun j k => x6 (ix2 j k)) (RefEdges.src x1 e) k
            * (refDis (RefEdges.dst x1) (RefEdges.src x1 e) * refDis (RefEdges.dst x1) (RefEdges.dst x1 e)) := by
    unfold val_main_v175
    refine (scatterAdd_row_at (N := 24) (K := 8) (E := 536) scatter_S24x8_S536x1_S536x8_1_0_0_1.wf _ _ _ (RefEdges.dst x1)
      (fun e => by rw [v174_eq x1]; exact v54_toInt x1 hei e) v k).trans ?_
    rw [val_main_v168_apply, val_main_cst_43_apply, const_zero_f32, zero_add]
    exact Finset.sum_congr rfl (fun e _ => hmul e)
  -- the bias, broadcast over the rows
  have hbias : val_main_v177 (F := Ideal) x7 (ix2 v k) = x7 (ix1 k) := by
    rw [val_main_v177_apply, val_main_v176_apply]
    have hi : idx_main_v176 (idx_main_v177 (ix2 v k)) = ix1 k := by
      funext a; match a with | ⟨0, _⟩ => rfl
    rw [hi]
  rw [val_main_v179_apply, val_main_v178_apply, val_main_call5_v0_apply, val_main_call5_cst_apply, const_zero_f32,
    Ideal.maximumf_def, Ideal.addf_def, hsc, hbias]
  rfl

end Cert.Proof.RefValue

end
-- ==== Proof.RefValueLayer4.lean ====
/-
  Layer 4 of the reference (8 features in, 8 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v216_eq (x1 : IVec S2x512 32) : val_main_v216 (F := Ideal) x1 = val_main_v36 (F := Ideal) x1 := rfl
theorem v223_eq (x1 : IVec S2x512 32) : val_main_v223 (F := Ideal) x1 = val_main_v43 (F := Ideal) x1 := rfl
theorem v234_eq (x1 : IVec S2x512 32) : val_main_v234 (F := Ideal) x1 = val_main_v54 (F := Ideal) x1 := rfl

/-- The layer's matrix product at `(n, k)`. -/
theorem v217_dense (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (n : Fin 24) (k : Fin 8) :
    val_main_v217 (F := Ideal) x0 x1 x2 x3 x4 x5 x6 x7 x8 (ix2 n k) = dense (fun n j => val_main_v179 (F := Ideal) x0 x1 x2 x3 x4 x5 x6 x7 (ix2 n j)) (fun j k => x8 (ix2 j k)) n k := by
  rw [val_main_v217_apply]
  unfold dense
  refine Finset.sum_congr rfl (fun j _ => ?_)
  have hl : lidx_main_v217 (ix2 n k) j = ix2 n j := by
    funext a; match a with | ⟨0, _⟩ => rfl | ⟨1, _⟩ => rfl
  have hr : ridx_main_v217 (ix2 n k) j = ix2 j k := by
    funext a; match a with | ⟨0, _⟩ => rfl | ⟨1, _⟩ => rfl
  rw [hl, hr]

/-- Layer 4 is `refLayer` of its input block, weights and bias over the extended edge list. -/
theorem layer4 (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (hei : ∀ i, (x1 i).toNat ≤ 23) (v : Fin 24) (k : Fin 8) :
    val_main_v239 (F := Ideal) x0 x1 x2 x3 x4 x5 x6 x7 x8 x9 (ix2 v k)
      = refLayer (RefEdges.src x1) (RefEdges.dst x1) (fun n j => val_main_v179 (F := Ideal) x0 x1 x2 x3 x4 x5 x6 x7 (ix2 n j)) (fun j k => x8 (ix2 j k)) (fun k => x9 (ix1 k)) v k := by
  -- what entry `e` contributes to column `k`
  have hmul : ∀ e : Fin 536, val_main_v227 (F := Ideal) x0 x1 x2 x3 x4 x5 x6 x7 x8 (ix2 e k)
      = dense (fun n j => val_main_v179 (F := Ideal) x0 x1 x2 x3 x4 x5 x6 x7 (ix2 n j)) (fun j k => x8 (ix2 j k)) (RefEdges.src x1 e) k
        * (refDis (RefEdges.dst x1) (RefEdges.src x1 e) * refDis (RefEdges.dst x1) (RefEdges.dst x1 e)) := by
    intro e
    have hg : val_main_v224 (F := Ideal) x0 x1 x2 x3 x4 x5 x6 x7 x8 (ix2 e k) = val_main_v217 (F := Ideal) x0 x1 x2 x3 x4 x5 x6 x7 x8 (ix2 (RefEdges.src x1 e) k) := by
      unfold val_main_v224
      exact gather_row_at (N := 24) (K := 8) (E := 536) (by decide) gather_S24x8_S536x1_S536x8_1_0_n_n_0_1_18.wf _ _ e k
        (RefEdges.src x1 e) (by rw [v223_eq x1]; exact v43_toInt x1 hei e)
    have hb : val_main_v226 (F := Ideal) x1 (ix2 e k) = val_main_v36 (F := Ideal) x1 (ix1 e) := by
      rw [val_main_v226_apply, val_main_v225_apply]
      have hi : idx_main_v225 (idx_main_v226 (ix2 e k)) = ix1 e := by
        funext a; match a with | ⟨0, _⟩ => rfl
      rw [hi, v216_eq x1]
    rw [val_main_v227_apply, Ideal.mulf_def, hg, hb, v217_dense, v36_norm x1 hei e]
  -- the sum over the entries that end in `v`
  have hsc : val_main_v235 (F := Ideal) x0 x1 x2 x3 x4 x5 x6 x7 x8 (ix2 v k)
      = ∑ e ∈ Finset.univ.filter (fun e : Fin 536 => RefEdges.dst x1 e = v),
          dense (fun n j => val_main_v179 (F := Ideal) x0 x1 x2 x3 x4 x5 x6 x7 (ix2 n j)) (fun j k => x8 (ix2 j k)) (RefEdges.src x1 e) k
            * (refDis (RefEdges.dst x1) (RefEdges.src x1 e) * refDis (RefEdges.dst x1) (RefEdges.dst x1 e)) := by
    unfold val_main_v235
    refine (scatterAdd_row_at (N := 24) (K := 8) (E := 536) scatter_S24x8_S536x1_S536x8_1_0_0_1.wf _ _ _ (RefEdges.dst x1)
      (fun e => by rw [v234_eq x1]; exact v54_toInt x1 hei e) v k).trans ?_
    rw [val_main_v228_apply, val_main_cst_59_apply, const_zero_f32, zero_add]
    exact Finset.sum_congr rfl (fun e _ => hmul e)
  -- the bias, broadcast over the rows
  have hbias : val_main_v237 (F := Ideal) x9 (ix2 v k) = x9 (ix1 k) := by
    rw [val_main_v237_apply, val_main_v236_apply]
    have hi : idx_main_v236 (idx_main_v237 (ix2 v k)) = ix1 k := by
      funext a; match a with | ⟨0, _⟩ => rfl
    rw [hi]
  rw [val_main_v239_apply, val_main_v238_apply, val_main_call7_v0_apply, val_main_call7_cst_apply, const_zero_f32,
    Ideal.maximumf_def, Ideal.addf_def, hsc, hbias]
  rfl

end Cert.Proof.RefValue

end
-- ==== Proof.RefValueLayer5.lean ====
/-
  Layer 5 of the reference (8 features in, 16 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v276_eq (x1 : IVec S2x512 32) : val_main_v276 (F := Ideal) x1 = val_main_v36 (F := Ideal) x1 := rfl
theorem v283_eq (x1 : IVec S2x512 32) : val_main_v283 (F := Ideal) x1 = val_main_v43 (F := Ideal) x1 := rfl
theorem v294_eq (x1 : IVec S2x512 32) : val_main_v294 (F := Ideal) x1 = val_main_v54 (F := Ideal) x1 := rfl

/-- The layer's matrix product at `(n, k)`. -/
theorem v277_dense (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (n : Fin 24) (k : Fin 16) :
    val_main_v277 (F := Ideal) x0 x1 x2 x3 x4 x5 x6 x7 x8 x9 x10 (ix2 n k) = dense (fun n j => val_main_v239 (F := Ideal) x0 x1 x2 x3 x4 x5 x6 x7 x8 x9 (ix2 n j)) (fun j k => x10 (ix2 j k)) n k := by
  rw [val_main_v277_apply]
  unfold dense
  refine Finset.sum_congr rfl (fun j _ => ?_)
  have hl : lidx_main_v277 (ix2 n k) j = ix2 n j := by
    funext a; match a with | ⟨0, _⟩ => rfl | ⟨1, _⟩ => rfl
  have hr : ridx_main_v277 (ix2 n k) j = ix2 j k := by
    funext a; match a with | ⟨0, _⟩ => rfl | ⟨1, _⟩ => rfl
  rw [hl, hr]

/-- Layer 5 is `refLayer` of its input block, weights and bias over the extended edge list. -/
theorem layer5 (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (hei : ∀ i, (x1 i).toNat ≤ 23) (v : Fin 24) (k : Fin 16) :
    val_main_v299 (F := Ideal) x0 x1 x2 x3 x4 x5 x6 x7 x8 x9 x10 x11 (ix2 v k)
      = refLayer (RefEdges.src x1) (RefEdges.dst x1) (fun n j => val_main_v239 (F := Ideal) x0 x1 x2 x3 x4 x5 x6 x7 x8 x9 (ix2 n j)) (fun j k => x10 (ix2 j k)) (fun k => x11 (ix1 k)) v k := by
  -- what entry `e` contributes to column `k`
  have hmul : ∀ e : Fin 536, val_main_v287 (F := Ideal) x0 x1 x2 x3 x4 x5 x6 x7 x8 x9 x10 (ix2 e k)
      = dense (fun n j => val_main_v239 (F := Ideal) x0 x1 x2 x3 x4 x5 x6 x7 x8 x9 (ix2 n j)) (fun j k => x10 (ix2 j k)) (RefEdges.src x1 e) k
        * (refDis (RefEdges.dst x1) (RefEdges.src x1 e) * refDis (RefEdges.dst x1) (RefEdges.dst x1 e)) := by
    intro e
    have hg : val_main_v284 (F := Ideal) x0 x1 x2 x3 x4 x5 x6 x7 x8 x9 x10 (ix2 e k) = val_main_v277 (F := Ideal) x0 x1 x2 x3 x4 x5 x6 x7 x8 x9 x10 (ix2 (RefEdges.src x1 e) k) := by
      unfold val_main_v284
      exact gather_row_at (N := 24) (K := 16) (E := 536) (by decide) gather_S24x16_S536x1_S536x16_1_0_n_n_0_1_116.wf _ _ e k
        (RefEdges.src x1 e) (by rw [v283_eq x1]; exact v43_toInt x1 hei e)
    have hb : val_main_v286 (F := Ideal) x1 (ix2 e k) = val_main_v36 (F := Ideal) x1 (ix1 e) := by
      rw [val_main_v286_apply, val_main_v285_apply]
      have hi : idx_main_v285 (idx_main_v286 (ix2 e k)) = ix1 e := by
        funext a; match a with | ⟨0, _⟩ => rfl
      rw [hi, v276_eq x1]
    rw [val_main_v287_apply, Ideal.mulf_def, hg, hb, v277_dense, v36_norm x1 hei e]
  -- the sum over the entries that end in `v`
  have hsc : val_main_v295 (F := Ideal) x0 x1 x2 x3 x4 x5 x6 x7 x8 x9 x10 (ix2 v k)
      = ∑ e ∈ Finset.univ.filter (fun e : Fin 536 => RefEdges.dst x1 e = v),
          dense (fun n j => val_main_v239 (F := Ideal) x0 x1 x2 x3 x4 x5 x6 x7 x8 x9 (ix2 n j)) (fun j k => x10 (ix2 j k)) (RefEdges.src x1 e) k
            * (refDis (RefEdges.dst x1) (RefEdges.src x1 e) * refDis (RefEdges.dst x1) (RefEdges.dst x1 e)) := by
    unfold val_main_v295
    refine (scatterAdd_row_at (N := 24) (K := 16) (E := 536) scatter_S24x16_S536x1_S536x16_1_0_0_1.wf _ _ _ (RefEdges.dst x1)
      (fun e => by rw [v294_eq x1]; exact v54_toInt x1 hei e) v k).trans ?_
    rw [val_main_v288_apply, val_main_cst_75_apply, const_zero_f32, zero_add]
    exact Finset.sum_congr rfl (fun e _ => hmul e)
  -- the bias, broadcast over the rows
  have hbias : val_main_v297 (F := Ideal) x11 (ix2 v k) = x11 (ix1 k) := by
    rw [val_main_v297_apply, val_main_v296_apply]
    have hi : idx_main_v296 (idx_main_v297 (ix2 v k)) = ix1 k := by
      funext a; match a with | ⟨0, _⟩ => rfl
    rw [hi]
  rw [val_main_v299_apply, val_main_v298_apply, val_main_call9_v0_apply, val_main_call9_cst_apply, const_zero_f32,
    Ideal.maximumf_def, Ideal.addf_def, hsc, hbias]
  rfl

end Cert.Proof.RefValue

end
-- ==== Proof.RefValueLayer6.lean ====
/-
  Layer 6 of the reference (16 features in, 16 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v336_eq (x1 : IVec S2x512 32) : val_main_v336 (F := Ideal) x1 = val_main_v36 (F := Ideal) x1 := rfl
theorem v343_eq (x1 : IVec S2x512 32) : val_main_v343 (F := Ideal) x1 = val_main_v43 (F := Ideal) x1 := rfl
theorem v354_eq (x1 : IVec S2x512 32) : val_main_v354 (F := Ideal) x1 = val_main_v54 (F := Ideal) x1 := rfl

/-- The layer's matrix product at `(n, k)`. -/
theorem v337_dense (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (n : Fin 24) (k : Fin 16) :
    val_main_v337 (F := Ideal) x0 x1 x2 x3 x4 x5 x6 x7 x8 x9 x10 x11 x12 (ix2 n k) = dense (fun n j => val_main_v299 (F := Ideal) x0 x1 x2 x3 x4 x5 x6 x7 x8 x9 x10 x11 (ix2 n j)) (fun j k => x12 (ix2 j k)) n k := by
  rw [val_main_v337_apply]
  unfold dense
  refine Finset.sum_congr rfl (fun j _ => ?_)
  have hl : lidx_main_v337 (ix2 n k) j = ix2 n j := by
    funext a; match a with | ⟨0, _⟩ => rfl | ⟨1, _⟩ => rfl
  have hr : ridx_main_v337 (ix2 n k) j = ix2 j k := by
    funext a; match a with | ⟨0, _⟩ => rfl | ⟨1, _⟩ => rfl
  rw [hl, hr]

/-- Layer 6 is `refLayer` of its input block, weights and bias over the extended edge list. -/
theorem layer6 (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (hei : ∀ i, (x1 i).toNat ≤ 23) (v : Fin 24) (k : Fin 16) :
    val_main_v359 (F := Ideal) x0 x1 x2 x3 x4 x5 x6 x7 x8 x9 x10 x11 x12 x13 (ix2 v k)
      = refLayer (RefEdges.src x1) (RefEdges.dst x1) (fun n j => val_main_v299 (F := Ideal) x0 x1 x2 x3 x4 x5 x6 x7 x8 x9 x10 x11 (ix2 n j)) (fun j k => x12 (ix2 j k)) (fun k => x13 (ix1 k)) v k := by
  -- what entry `e` contributes to column `k`
  have hmul : ∀ e : Fin 536, val_main_v347 (F := Ideal) x0 x1 x2 x3 x4 x5 x6 x7 x8 x9 x10 x11 x12 (ix2 e k)
      = dense (fun n j => val_main_v299 (F := Ideal) x0 x1 x2 x3 x4 x5 x6 x7 x8 x9 x10 x11 (ix2 n j)) (fun j k => x12 (ix2 j k)) (RefEdges.src x1 e) k
        * (refDis (RefEdges.dst x1) (RefEdges.src x1 e) * refDis (RefEdges.dst x1) (RefEdges.dst x1 e)) := by
    intro e
    have hg : val_main_v344 (F := Ideal) x0 x1 x2 x3 x4 x5 x6 x7 x8 x9 x10 x11 x12 (ix2 e k) = val_main_v337 (F := Ideal) x0 x1 x2 x3 x4 x5 x6 x7 x8 x9 x10 x11 x12 (ix2 (RefEdges.src x1 e) k) := by
      unfold val_main_v344
      exact gather_row_at (N := 24) (K := 16) (E := 536) (by decide) gather_S24x16_S536x1_S536x16_1_0_n_n_0_1_116.wf _ _ e k
        (RefEdges.src x1 e) (by rw [v343_eq x1]; exact v43_toInt x1 hei e)
    have hb : val_main_v346 (F := Ideal) x1 (ix2 e k) = val_main_v36 (F := Ideal) x1 (ix1 e) := by
      rw [val_main_v346_apply, val_main_v345_apply]
      have hi : idx_main_v345 (idx_main_v346 (ix2 e k)) = ix1 e := by
        funext a; match a with | ⟨0, _⟩ => rfl
      rw [hi, v336_eq x1]
    rw [val_main_v347_apply, Ideal.mulf_def, hg, hb, v337_dense, v36_norm x1 hei e]
  -- the sum over the entries that end in `v`
  have hsc : val_main_v355 (F := Ideal) x0 x1 x2 x3 x4 x5 x6 x7 x8 x9 x10 x11 x12 (ix2 v k)
      = ∑ e ∈ Finset.univ.filter (fun e : Fin 536 => RefEdges.dst x1 e = v),
          dense (fun n j => val_main_v299 (F := Ideal) x0 x1 x2 x3 x4 x5 x6 x7 x8 x9 x10 x11 (ix2 n j)) (fun j k => x12 (ix2 j k)) (RefEdges.src x1 e) k
            * (refDis (RefEdges.dst x1) (RefEdges.src x1 e) * refDis (RefEdges.dst x1) (RefEdges.dst x1 e)) := by
    unfold val_main_v355
    refine (scatterAdd_row_at (N := 24) (K := 16) (E := 536) scatter_S24x16_S536x1_S536x16_1_0_0_1.wf _ _ _ (RefEdges.dst x1)
      (fun e => by rw [v354_eq x1]; exact v54_toInt x1 hei e) v k).trans ?_
    rw [val_main_v348_apply, val_main_cst_91_apply, const_zero_f32, zero_add]
    exact Finset.sum_congr rfl (fun e _ => hmul e)
  -- the bias, broadcast over the rows
  have hbias : val_main_v357 (F := Ideal) x13 (ix2 v k) = x13 (ix1 k) := by
    rw [val_main_v357_apply, val_main_v356_apply]
    have hi : idx_main_v356 (idx_main_v357 (ix2 v k)) = ix1 k := by
      funext a; match a with | ⟨0, _⟩ => rfl
    rw [hi]
  rw [val_main_v359_apply, val_main_v358_apply, val_main_call11_v0_apply, val_main_call11_cst_apply, const_zero_f32,
    Ideal.maximumf_def, Ideal.addf_def, hsc, hbias]
  rfl

end Cert.Proof.RefValue

end
-- ==== Proof.RefValueLayer7.lean ====
/-
  Layer 7 of the reference (16 features in, 32 out), read off its operations index by index: the rows of the
  feature block times the weight block are gathered at the entries' source nodes, scaled by the entries'
  factor, added up at the entries' destination nodes, the bias is added and the positive part taken. That is
  `refLayer` over the extended edge list.
-/
import proofs.«207914_g72782515798130_cont_9to1c4b_353_41_alg».proof.Proof.RefValueNorm

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- This layer recomputes the per-entry factor and the two index arrays from the edge array by the same
    operations as the first layer: they are the same vectors. -/
theorem v396_eq (x1 : IVec S2x512 32) : val_main_v396 (F := Ideal) x1 = val_main_v36 (F := Ideal) x1 := rfl
theorem v403_eq (x1 : IVec S2x512 32) : val_main_v403 (F := Ideal) x1 = val_main_v43 (F := Ideal) x1 := rfl
theorem v414_eq (x1 : IVec S2x512 32) : val_main_v414 (F := Ideal) x1 = val_main_v54 (F := Ideal) x1 := rfl

/-- The layer's matrix product at `(n, k)`. -/
theorem v397_dense (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (n : Fin 24) (k : Fin 32) :
    val_main_v397 (F := Ideal) x0 x1 x2 x3 x4 x5 x6 x7 x8 x9 x10 x11 x12 x13 x14 (ix2 n k) = dense (fun n j => val_main_v359 (F := Ideal) x0 x1 x2 x3 x4 x5 x6 x7 x8 x9 x10 x11 x12 x13 (ix2 n j)) (fun j k => x14 (ix2 j k)) n k := by
  rw [val_main_v397_apply]
  unfold dense
  refine Finset.sum_congr rfl (fun j _ => ?_)
  have hl : lidx_main_v397 (ix2 n k) j = ix2 n j := by
    funext a; match a with | ⟨0, _⟩ => rfl | ⟨1, _⟩ => rfl
  have hr : ridx_main_v397 (ix2 n k) j = ix2 j k := by
    funext a; match a with | ⟨0, _⟩ => rfl | ⟨1, _⟩ => rfl
  rw [hl, hr]

/-- Layer 7 is `refLayer` of its input block, weights and bias over the extended edge list. -/
theorem layer7 (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (hei : ∀ i, (x1 i).toNat ≤ 23) (v : Fin 24) (k : Fin 32) :
    val_main_v419 (F := Ideal) x0 x1 x2 x3 x4 x5 x6 x7 x8 x9 x10 x11 x12 x13 x14 x15 (ix2 v k)
      = refLayer (RefEdges.src x1) (RefEdges.dst x1) (fun n j => val_main_v359 (F := Ideal) x0 x1 x2 x3 x4 x5 x6 x7 x8 x9 x10 x11 x12 x13 (ix2 n j)) (fun j k => x14 (ix2 j k)) (fun k => x15 (ix1 k)) v k := by
  -- what entry `e` contributes to column `k`
  have hmul : ∀ e : Fin 536, val_main_v407 (F := Ideal) x0 x1 x2 x3 x4 x5 x6 x7 x8 x9 x10 x11 x12 x13 x14 (ix2 e k)
      = dense (fun n j => val_main_v359 (F := Ideal) x0 x1 x2 x3 x4 x5 x6 x7 x8 x9 x10 x11 x12 x13 (ix2 n j)) (fun j k => x14 (ix2 j k)) (RefEdges.src x1 e) k
        * (refDis (RefEdges.dst x1) (RefEdges.src x1 e) * refDis (RefEdges.dst x1) (RefEdges.dst x1 e)) := by
    intro e
    have hg : val_main_v404 (F := Ideal) x0 x1 x2 x3 x4 x5 x6 x7 x8 x9 x10 x11 x12 x13 x14 (ix2 e k) = val_main_v397 (F := Ideal) x0 x1 x2 x3 x4 x5 x6 x7 x8 x9 x10 x11 x12 x13 x14 (ix2 (RefEdges.src x1 e) k) := by
      unfold val_main_v404
      exact gather_row_at (N := 24) (K := 32) (E := 536) (by decide) gather_S24x32_S536x1_S536x32_1_0_n_n_0_1_132.wf _ _ e k
        (RefEdges.src x1 e) (by rw [v403_eq x1]; exact v43_toInt x1 hei e)
    have hb : val_main_v406 (F := Ideal) x1 (ix2 e k) = val_main_v36 (F := Ideal) x1 (ix1 e) := by
      rw [val_main_v406_apply, val_main_v405_apply]
      have hi : idx_main_v405 (idx_main_v406 (ix2 e k)) = ix1 e := by
        funext a; match a with | ⟨0, _⟩ => rfl
      rw [hi, v396_eq x1]
    rw [val_main_v407_apply, Ideal.mulf_def, hg, hb, v397_dense, v36_norm x1 hei e]
  -- the sum over the entries that end in `v`
  have hsc : val_main_v415 (F := Ideal) x0 x1 x2 x3 x4 x5 x6 x7 x8 x9 x10 x11 x12 x13 x14 (ix2 v k)
      = ∑ e ∈ Finset.univ.filter (fun e : Fin 536 => RefEdges.dst x1 e = v),
          dense (fun n j => val_main_v359 (F := Ideal) x0 x1 x2 x3 x4 x5 x6 x7 x8 x9 x10 x11 x12 x13 (ix2 n j)) (fun j k => x14 (ix2 j k)) (RefEdges.src x1 e) k
            * (refDis (RefEdges.dst x1) (RefEdges.src x1 e) * refDis (RefEdges.dst x1) (RefEdges.dst x1 e)) := by
    unfold val_main_v415
    refine (scatterAdd_row_at (N := 24) (K := 32) (E := 536) scatter_S24x32_S536x1_S536x32_1_0_0_1.wf _ _ _ (RefEdges.dst x1)
      (fun e => by rw [v414_eq x1]; exact v54_toInt x1 hei e) v k).trans ?_
    rw [val_main_v408_apply, val_main_cst_107_apply, const_zero_f32, zero_add]
    exact Finset.sum_congr rfl (fun e _ => hmul e)
  -- the bias, broadcast over the rows
  have hbias : val_main_v417 (F := Ideal) x15 (ix2 v k) = x15 (ix1 k) := by
    rw [val_main_v417_apply, val_main_v416_apply]
    have hi : idx_main_v416 (idx_main_v417 (ix2 v k)) = ix1 k := by
      funext a; match a with | ⟨0, _⟩ => rfl
    rw [hi]
  rw [val_main_v419_apply, val_main_v418_apply, val_main_call13_v0_apply, val_main_call13_cst_apply, const_zero_f32,
    Ideal.maximumf_def, Ideal.addf_def, hsc, hbias]
  rfl

end Cert.Proof.RefValue

end
-- ==== Proof.RefValue.lean ====
/-
  The reference's result as the network in the edge-list arrangement.

  The seven layers compose (each layer's lemma is stated over the previous layer's output block); the block is
  then flattened row by row, multiplied into the first output layer, the second output layer follows, and the
  log-softmax of the two resulting entries is each entry minus the larger one, minus the logarithm of the sum of
  the exponentials of those differences.
-/
import proofs.«207914_g72782515798130_cont_9to1c4b_353_41_alg».proof.Proof.RefValueLayer1
import proofs.«207914_g72782515798130_cont_9to1c4b_353_41_alg».proof.Proof.RefValueLayer2
import proofs.«207914_g72782515798130_cont_9to1c4b_353_41_alg».proof.Proof.RefValueLayer3
import proofs.«207914_g72782515798130_cont_9to1c4b_353_41_alg».proof.Proof.RefValueLayer4
import proofs.«207914_g72782515798130_cont_9to1c4b_353_41_alg».proof.Proof.RefValueLayer5
import proofs.«207914_g72782515798130_cont_9to1c4b_353_41_alg».proof.Proof.RefValueLayer6
import proofs.«207914_g72782515798130_cont_9to1c4b_353_41_alg».proof.Proof.RefValueLayer7

noncomputable section

open scoped BigOperators

namespace Cert.Proof.RefValue

open Idealize.ShloMosaic Idealize.ShloMosaic.ValueIdx
open Cert.ReferenceIdeal Cert.ReferenceIdeal.Gen Cert.ReferenceIdeal.ReadP
open Cert.Proof.LibHostIndexed Cert.Proof.Gcn

/-- The seventh layer's output block is the seven layers of `refLayer` composed. -/
theorem layers_value (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (hei : ∀ i, (x1 i).toNat ≤ 23) (n : Fin 24) (j : Fin 32) :
    val_main_v419 (F := Ideal) x0 x1 x2 x3 x4 x5 x6 x7 x8 x9 x10 x11 x12 x13 x14 x15 (ix2 n j) = refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k))) (fun j k => x6 (ix2 j k)) (fun k => x7 (ix1 k))) (fun j k => x8 (ix2 j k)) (fun k => x9 (ix1 k))) (fun j k => x10 (ix2 j k)) (fun k => x11 (ix1 k))) (fun j k => x12 (ix2 j k)) (fun k => x13 (ix1 k))) (fun j k => x14 (ix2 j k)) (fun k => x15 (ix1 k)) n j := by
  have e1 : (fun n j => val_main_v59 (F := Ideal) x0 x1 x2 x3 (ix2 n j)) = refLayer (RefEdges.src x1) (RefEdges.dst x1) (fun n j => x0 (ix2 n j)) (fun j k => x2 (ix2 j k)) (fun k => x3 (ix1 k)) :=
    funext fun n => funext fun j => layer1 x0 x1 x2 x3 hei n j
  have e2 : (fun n j => val_main_v119 (F := Ideal) x0 x1 x2 x3 x4 x5 (ix2 n j)) = refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k)) :=
    funext fun n => funext fun j => (layer2 x0 x1 x2 x3 x4 x5 hei n j).trans (by rw [e1])
  have e3 : (fun n j => val_main_v179 (F := Ideal) x0 x1 x2 x3 x4 x5 x6 x7 (ix2 n j)) = refLayer (RefEdges.src x1) (RefEdges.dst x1) (refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k))) (fun j k => x6 (ix2 j k)) (fun k => x7 (ix1 k)) :=
    funext fun n => funext fun j => (layer3 x0 x1 x2 x3 x4 x5 x6 x7 hei n j).trans (by rw [e2])
  have e4 : (fun n j => val_main_v239 (F := Ideal) x0 x1 x2 x3 x4 x5 x6 x7 x8 x9 (ix2 n j)) = refLayer (RefEdges.src x1) (RefEdges.dst x1) (refLayer (RefEdges.src x1) (RefEdges.dst x1) (refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k))) (fun j k => x6 (ix2 j k)) (fun k => x7 (ix1 k))) (fun j k => x8 (ix2 j k)) (fun k => x9 (ix1 k)) :=
    funext fun n => funext fun j => (layer4 x0 x1 x2 x3 x4 x5 x6 x7 x8 x9 hei n j).trans (by rw [e3])
  have e5 : (fun n j => val_main_v299 (F := Ideal) x0 x1 x2 x3 x4 x5 x6 x7 x8 x9 x10 x11 (ix2 n j)) = refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k))) (fun j k => x6 (ix2 j k)) (fun k => x7 (ix1 k))) (fun j k => x8 (ix2 j k)) (fun k => x9 (ix1 k))) (fun j k => x10 (ix2 j k)) (fun k => x11 (ix1 k)) :=
    funext fun n => funext fun j => (layer5 x0 x1 x2 x3 x4 x5 x6 x7 x8 x9 x10 x11 hei n j).trans (by rw [e4])
  have e6 : (fun n j => val_main_v359 (F := Ideal) x0 x1 x2 x3 x4 x5 x6 x7 x8 x9 x10 x11 x12 x13 (ix2 n j)) = refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (refLayer (RefEdges.src x1) (RefEdges.dst x1) (fun n j => x0 (ix2 n j)) (fun j k => x2 (ix2 j k)) (fun k => x3 (ix1 k))) (fun j k => x4 (ix2 j k)) (fun k => x5 (ix1 k))) (fun j k => x6 (ix2 j k)) (fun k => x7 (ix1 k))) (fun j k => x8 (ix2 j k)) (fun k => x9 (ix1 k))) (fun j k => x10 (ix2 j k)) (fun k => x11 (ix1 k))) (fun j k => x12 (ix2 j k)) (fun k => x13 (ix1 k)) :=
    funext fun n => funext fun j => (layer6 x0 x1 x2 x3 x4 x5 x6 x7 x8 x9 x10 x11 x12 x13 hei n j).trans (by rw [e5])
  exact (layer7 x0 x1 x2 x3 x4 x5 x6 x7 x8 x9 x10 x11 x12 x13 x14 x15 hei n j).trans (by rw [e6])

/-- The first output layer over the flattened block. -/
theorem fc1_value (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (x16 : Vec Ideal S768x128 .f32) (x17 : Vec Ideal S128 .f32) (h : Fin 24 → Fin 32 → EReal)
    (hh : ∀ n j, val_main_v419 (F := Ideal) x0 x1 x2 x3 x4 x5 x6 x7 x8 x9 x10 x11 x12 x13 x14 x15 (ix2 n j) = h n j) (k : Fin 128) :
    val_main_v422 (F := Ideal) x0 x1 x2 x3 x4 x5 x6 x7 x8 x9 x10 x11 x12 x13 x14 x15 x16 x17 (ix1 k) = fc1Ref h (fun j k => x16 (ix2 j k)) (fun k => x17 (ix1 k)) k := by
  rw [val_main_v422_apply, val_main_v421_apply, Ideal.addf_def]
  unfold fc1Ref
  refine congrArg (· + x17 (ix1 k)) (Finset.sum_congr rfl (fun i _ => ?_))
  have hl : idx_main_v420 (lidx_main_v421 (ix1 k) i)
      = ix2 (⟨i.val / 32, by have := i.isLt; omega⟩ : Fin 24) (⟨i.val % 32, by omega⟩ : Fin 32) := by
    funext a; match a with | ⟨0, _⟩ => rfl | ⟨1, _⟩ => rfl
  have hr : ridx_main_v421 (ix1 k) i = ix2 i k := by
    funext a; match a with | ⟨0, _⟩ => rfl | ⟨1, _⟩ => rfl
  rw [val_main_v420_apply, hl, hr, hh]

/-- The second output layer. -/
theorem fc2_value (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (x16 : Vec Ideal S768x128 .f32) (x17 : Vec Ideal S128 .f32) (x18 : Vec Ideal S128x2 .f32) (x19 : Vec Ideal S2 .f32) (z : Fin 128 → EReal)
    (hz : ∀ k, val_main_v422 (F := Ideal) x0 x1 x2 x3 x4 x5 x6 x7 x8 x9 x10 x11 x12 x13 x14 x15 x16 x17 (ix1 k) = z k) (c : Fin 2) :
    val_main_v424 (F := Ideal) x0 x1 x2 x3 x4 x5 x6 x7 x8 x9 x10 x11 x12 x13 x14 x15 x16 x17 x18 x19 (ix1 c) = fc2 z (fun j k => x18 (ix2 j k)) (fun k => x19 (ix1 k)) c := by
  rw [val_main_v424_apply, val_main_v423_apply, Ideal.addf_def]
  unfold fc2
  refine congrArg (· + x19 (ix1 c)) (Finset.sum_congr rfl (fun k _ => ?_))
  have hl : lidx_main_v423 (ix1 c) k = ix1 k := by
    funext a; match a with | ⟨0, _⟩ => rfl
  have hr : ridx_main_v423 (ix1 c) k = ix2 k c := by
    funext a; match a with | ⟨0, _⟩ => rfl | ⟨1, _⟩ => rfl
  rw [hl, hr, hz]

/-- The log-softmax of the two entries. -/
theorem lsm_value (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (x16 : Vec Ideal S768x128 .f32) (x17 : Vec Ideal S128 .f32) (x18 : Vec Ideal S128x2 .f32) (x19 : Vec Ideal S2 .f32) (z : Fin 2 → EReal)
    (hz : ∀ c, val_main_v424 (F := Ideal) x0 x1 x2 x3 x4 x5 x6 x7 x8 x9 x10 x11 x12 x13 x14 x15 x16 x17 x18 x19 (ix1 c) = z c) (c : Fin 2) :
    val_main_v426 (F := Ideal) x0 x1 x2 x3 x4 x5 x6 x7 x8 x9 x10 x11 x12 x13 x14 x15 x16 x17 x18 x19 (ix2 (0 : Fin 1) c) = logSoftmax2 z c := by
  -- the two entries as a `[1, 2]` array
  have h425 : ∀ c : Fin 2, val_main_v425 (F := Ideal) x0 x1 x2 x3 x4 x5 x6 x7 x8 x9 x10 x11 x12 x13 x14 x15 x16 x17 x18 x19 (ix2 (0 : Fin 1) c) = z c := by
    intro c
    rw [val_main_v425_apply]
    have hi : idx_main_v425 (ix2 (0 : Fin 1) c) = ix1 c := by
      funext a; refine Fin.ext ?_
      match a with
      | ⟨0, _⟩ => show 0 * 2 + c.val = c.val; omega
    rw [hi, hz]
  -- the larger entry
  have hmax : ∀ jj : S1.Idx, val_main_call14_v2 (F := Ideal) x0 x1 x2 x3 x4 x5 x6 x7 x8 x9 x10 x11 x12 x13 x14 x15 x16 x17 x18 x19 jj = max (z 0) (z 1) := by
    intro jj
    have h0 : val_main_call14_v0 (F := Ideal) x0 x1 x2 x3 x4 x5 x6 x7 x8 x9 x10 x11 x12 x13 x14 x15 x16 x17 x18 x19 jj = max (z 0) (z 1) := by
      unfold val_main_call14_v0
      refine (reduce_max_pair _ _ reducesTo_S1x2_S1_d1 h_S_ ?_ jj).trans ?_
      · rw [val_main_call14_cst_apply, const_neginf_f32]
      · rw [h425 0, h425 1]
    rw [val_main_call14_v2_apply, val_main_call14_v1_apply, val_main_call14_cst_0_apply, const_neginf_f32,
      Ideal.maximumf_def, h0]
    exact max_eq_right bot_le
  -- each entry minus the larger one
  have hsub : ∀ c : Fin 2, val_main_call14_v5 (F := Ideal) x0 x1 x2 x3 x4 x5 x6 x7 x8 x9 x10 x11 x12 x13 x14 x15 x16 x17 x18 x19 (ix2 (0 : Fin 1) c) = z c - max (z 0) (z 1) := by
    intro c
    rw [val_main_call14_v5_apply, val_main_call14_v4_apply, val_main_call14_v3_apply, hmax, h425 c, Ideal.subf_def]
  -- the sum of the exponentials
  have hsum : ∀ jj : S1.Idx, val_main_call14_v7 (F := Ideal) x0 x1 x2 x3 x4 x5 x6 x7 x8 x9 x10 x11 x12 x13 x14 x15 x16 x17 x18 x19 jj = ∑ c' : Fin 2, Ideal.exp (z c' - max (z 0) (z 1)) := by
    intro jj
    rw [val_main_call14_v7_apply, val_main_call14_cst_1_apply, const_zero_f32, zero_add]
    refine Finset.sum_congr rfl (fun k _ => ?_)
    have hi : idx_main_call14_v7 jj k = ix2 (0 : Fin 1) k := by
      funext a; refine Fin.ext ?_
      match a with
      | ⟨0, _⟩ => show (jj 0).val = 0; have h1 : (jj 0).val < 1 := (jj 0).isLt; omega
      | ⟨1, _⟩ => rfl
    rw [val_main_call14_v6_apply, hi, hsub k, Ideal.hostUnary_exp_def]
  rw [val_main_v426_apply, val_main_call14_v10_apply, val_main_call14_v9_apply, val_main_call14_v8_apply, hsum,
    hsub c, Ideal.hostUnary_log_def, Ideal.subf_def]
  rfl

/-- The reference's result is the network in the edge-list arrangement over the extended edge list. -/
theorem ref_value (x0 : Vec Ideal S24x128 .f32) (x1 : IVec S2x512 32) (x2 : Vec Ideal S128x4 .f32) (x3 : Vec Ideal S4 .f32) (x4 : Vec Ideal S4x4 .f32) (x5 : Vec Ideal S4 .f32) (x6 : Vec Ideal S4x8 .f32) (x7 : Vec Ideal S8 .f32) (x8 : Vec Ideal S8x8 .f32) (x9 : Vec Ideal S8 .f32) (x10 : Vec Ideal S8x16 .f32) (x11 : Vec Ideal S16 .f32) (x12 : Vec Ideal S16x16 .f32) (x13 : Vec Ideal S16 .f32) (x14 : Vec Ideal S16x32 .f32) (x15 : Vec Ideal S32 .f32) (x16 : Vec Ideal S768x128 .f32) (x17 : Vec Ideal S128 .f32) (x18 : Vec Ideal S128x2 .f32) (x19 : Vec Ideal S2 .f32) (hei : ∀ i, (x1 i).toNat ≤ 23) (c : Fin 2) :
    val_main_v426 (F := Ideal) x0 x1 x2 x3 x4 x5 x6 x7 x8 x9 x10 x11 x12 x13 x14 x15 x16 x17 x18 x19 (ix2 (0 : Fin 1) c)
      = refNet (E := 536) (RefEdges.src x1) (RefEdges.dst x1) (fun n j => x0 (ix2 n j)) (fun j k => x2 (ix2 j k)) (fun k => x3 (ix1 k)) (fun j k => x4 (ix2 j k)) (fun k => x5 (ix1 k)) (fun j k => x6 (ix2 j k)) (fun k => x7 (ix1 k)) (fun j k => x8 (ix2 j k)) (fun k => x9 (ix1 k)) (fun j k => x10 (ix2 j k)) (fun k => x11 (ix1 k)) (fun j k => x12 (ix2 j k)) (fun k => x13 (ix1 k)) (fun j k => x14 (ix2 j k)) (fun k => x15 (ix1 k)) (fun j k => x16 (ix2 j k)) (fun k => x17 (ix1 k)) (fun j k => x18 (ix2 j k)) (fun k => x19 (ix1 k)) c := by
  unfold refNet
  exact lsm_value x0 x1 x2 x3 x4 x5 x6 x7 x8 x9 x10 x11 x12 x13 x14 x15 x16 x17 x18 x19 _
    (fun c => fc2_value x0 x1 x2 x3 x4 x5 x6 x7 x8 x9 x10 x11 x12 x13 x14 x15 x16 x17 x18 x19 _
      (fun k => fc1_value x0 x1 x2 x3 x4 x5 x6 x7 x8 x9 x10 x11 x12 x13 x14 x15 x16 x17 _ (fun n j => layers_value x0 x1 x2 x3 x4 x5 x6 x7 x8 x9 x10 x11 x12 x13 x14 x15 hei n j) k) c) c

end Cert.Proof.RefValue

end
-- ==== Proof.RefCount.lean ====
/-
  The extended edge list against the edge counts.

  Among the 536 entries of the reference's list, those that go from node `s` to node `d` are the given edges
  from `s` to `d` (`edgeCount`) and, when `d = s`, the one self loop at that node.
-/
import proofs.«207914_g72782515798130_cont_9to1c4b_353_41_alg».proof.Proof.Iface
import proofs.«207914_g72782515798130_cont_9to1c4b_353_41_alg».proof.Proof.RefEdges

noncomputable section

namespace Cert.Proof.RefCount

open Idealize.ShloMosaic Idealize.ShloMosaic.ValueIdx
open Cert.Proof

/-- The entries from `s` to `d`: the given edges from `s` to `d`, and the self loop when `d = s`. -/
theorem ref_count (ei : IVec ⟨2, ![2, 512]⟩ 32) (hei : ∀ i, (ei i).toNat ≤ 23) (d s : Fin 24) :
    (Finset.univ.filter fun e : Fin 536 => RefEdges.dst ei e = d ∧ RefEdges.src ei e = s).card
      = Cert.Proof.Iface.edgeCount ei d s + if d = s then 1 else 0 := by
  classical
  have hsplit := Finset.card_filter_add_card_filter_not
    (s := Finset.univ.filter fun e : Fin 536 => RefEdges.dst ei e = d ∧ RefEdges.src ei e = s)
    (fun e : Fin 536 => e.val < 512)
  rw [← hsplit, Finset.filter_filter, Finset.filter_filter]
  congr 1
  · -- the given edges
    unfold Cert.Proof.Iface.edgeCount
    symm
    refine Finset.card_bij (fun (e : Fin 512) _ => (⟨e.val, by have := e.isLt; omega⟩ : Fin 536)) ?_ ?_ ?_
    · intro e he
      rw [Finset.mem_filter] at he ⊢
      refine ⟨Finset.mem_univ _, ⟨?_, ?_⟩, e.isLt⟩
      · exact Fin.ext ((RefEdges.node_val_of_lt ei 1 ⟨e.val, by have := e.isLt; omega⟩ e.isLt (hei _)).trans he.2.1)
      · exact Fin.ext ((RefEdges.node_val_of_lt ei 0 ⟨e.val, by have := e.isLt; omega⟩ e.isLt (hei _)).trans he.2.2)
    · intro a _ b _ h
      have h' := congrArg Fin.val h
      exact Fin.ext h'
    · intro e he
      rw [Finset.mem_filter] at he
      obtain ⟨_, ⟨hd, hs⟩, hlt⟩ := he
      refine ⟨⟨e.val, hlt⟩, ?_, rfl⟩
      rw [Finset.mem_filter]
      refine ⟨Finset.mem_univ _, ?_, ?_⟩
      · rw [← hd]; exact (RefEdges.node_val_of_lt ei 1 e hlt (hei _)).symm
      · rw [← hs]; exact (RefEdges.node_val_of_lt ei 0 e hlt (hei _)).symm
  · -- the self loops
    by_cases hds : d = s
    · subst hds
      rw [if_pos rfl, Finset.card_eq_one]
      refine ⟨⟨512 + d.val, by have := d.isLt; omega⟩, ?_⟩
      ext e
      rw [Finset.mem_filter, Finset.mem_singleton]
      constructor
      · rintro ⟨_, ⟨hd, _⟩, hge⟩
        have h1 := RefEdges.node_val_of_ge ei 1 e hge
        have hd' : (RefEdges.node ei 1 e).val = d.val := congrArg Fin.val hd
        refine Fin.ext ?_
        show e.val = 512 + d.val
        omega
      · rintro rfl
        have hge : ¬ (512 + d.val < 512) := by omega
        refine ⟨Finset.mem_univ _, ⟨Fin.ext ?_, Fin.ext ?_⟩, hge⟩
        · exact (RefEdges.node_val_of_ge ei 1 _ hge).trans (by show 512 + d.val - 512 = d.val; omega)
        · exact (RefEdges.node_val_of_ge ei 0 _ hge).trans (by show 512 + d.val - 512 = d.val; omega)
    · rw [if_neg hds, Finset.card_eq_zero, Finset.filter_eq_empty_iff]
      rintro e _ ⟨⟨hd, hs⟩, hge⟩
      apply hds
      refine Fin.ext ?_
      have h1 := RefEdges.node_val_of_ge ei 1 e hge
      have h0 := RefEdges.node_val_of_ge ei 0 e hge
      have hd' : (RefEdges.node ei 1 e).val = d.val := congrArg Fin.val hd
      have hs' : (RefEdges.node ei 0 e).val = s.val := congrArg Fin.val hs
      omega

end Cert.Proof.RefCount

end
-- ==== Proof.ValueBridge.lean ====
/-
  The value bridge: under the input-domain precondition, and with the count block holding the edge counts, the
  dense stage's stored value is the reference's result.

  The dense stage computes the network in the count-matrix arrangement, the reference computes it in the
  edge-list arrangement over the given edges followed by the 24 loops, the precondition makes every float
  input entry a real and every edge word a node, the number of listed edges from `s` to `d` is the edge count
  plus the loop, and on real-valued data the two arrangements agree.
-/
import proofs.«207914_g72782515798130_cont_9to1c4b_353_41_alg».proof.Proof.Gen.Pre_input_domain
import proofs.«207914_g72782515798130_cont_9to1c4b_353_41_alg».proof.Proof.KerValue
import proofs.«207914_g72782515798130_cont_9to1c4b_353_41_alg».proof.Proof.LibGcnAlgebra
import proofs.«207914_g72782515798130_cont_9to1c4b_353_41_alg».proof.Proof.PreFacts
import proofs.«207914_g72782515798130_cont_9to1c4b_353_41_alg».proof.Proof.RefValue
import proofs.«207914_g72782515798130_cont_9to1c4b_353_41_alg».proof.Proof.RefCount

noncomputable section

namespace Cert.Proof.Value

open Idealize.ShloMosaic Idealize.ShloMosaic.ValueIdx
open Cert.KernelIdeal

theorem bridge (ei : IVec S2x512 32) (Cb : FVec Ideal S24x128 .f32) (x : FVec Ideal S24x128 .f32)
    (W1 : FVec Ideal S128x4 .f32) (b1 : FVec Ideal S4 .f32) (W2 : FVec Ideal S4x4 .f32) (b2 : FVec Ideal S4 .f32)
    (W3 : FVec Ideal S4x8 .f32) (b3 : FVec Ideal S8 .f32) (W4 : FVec Ideal S8x8 .f32) (b4 : FVec Ideal S8 .f32)
    (W5 : FVec Ideal S8x16 .f32) (b5 : FVec Ideal S16 .f32) (W6 : FVec Ideal S16x16 .f32) (b6 : FVec Ideal S16 .f32)
    (W7 : FVec Ideal S16x32 .f32) (b7 : FVec Ideal S32 .f32) (fcW1 : FVec Ideal S768x128 .f32)
    (fcb1 : FVec Ideal S128 .f32) (fcW2 : FVec Ideal S128x2 .f32) (fcb2 : FVec Ideal S2 .f32)
    (hpre : Cert.Pre_input_domain.fn (F := Ideal) x ei W1 b1 W2 b2 W3 b3 W4 b4 W5 b5 W6 b6 W7 b7 fcW1 fcb1 fcW2 fcb2
        = fun _ => 1#1)
    (hC : ∀ d s : Fin 24, Cb (ix2 d ⟨s.val, by omega⟩) = ((Cert.Proof.Iface.edgeCount ei d s : ℕ) : EReal)) :
    Cert.Proof.Iface.kerOut (F := Ideal) Cb x W1 b1 W2 b2 W3 b3 W4 b4 W5 b5 W6 b6 W7 b7 fcW1 fcb1 fcW2 fcb2
      = Cert.ReferenceIdeal.ReadP.val_main_v426 (F := Ideal) x ei W1 b1 W2 b2 W3 b3 W4 b4 W5 b5 W6 b6 W7 b7 fcW1 fcb1
          fcW2 fcb2 := by
  obtain ⟨hx, hW1, hb1, hW2, hb2, hW3, hb3, hW4, hb4, hW5, hb5, hW6, hb6, hW7, hb7, _, _, _, _, hei⟩ :=
    Cert.Proof.PreFacts.pre_facts x ei W1 b1 W2 b2 W3 b3 W4 b4 W5 b5 W6 b6 W7 b7 fcW1 fcb1 fcW2 fcb2 hpre
  funext j
  obtain ⟨u, c, rfl⟩ : ∃ (u : Fin 1) (c : Fin 2), j = ix2 u c := ⟨j 0, j 1, eq_ix2 j⟩
  obtain rfl : u = 0 := Subsingleton.elim _ _
  rw [Cert.Proof.KerValue.kerOut_apply,
    Cert.Proof.RefValue.ref_value x ei W1 b1 W2 b2 W3 b3 W4 b4 W5 b5 W6 b6 W7 b7 fcW1 fcb1 fcW2 fcb2 hei c]
  refine congrFun (Cert.Proof.Gcn.kerNet_eq_refNet (Cert.Proof.RefCount.ref_count ei hei) hC _ _ _ _
    (fun i j => hx (ix2 i j)) (fun i j => hW1 (ix2 i j)) (fun k => hb1 (ix1 k))
    (fun i j => hW2 (ix2 i j)) (fun k => hb2 (ix1 k)) (fun i j => hW3 (ix2 i j)) (fun k => hb3 (ix1 k))
    (fun i j => hW4 (ix2 i j)) (fun k => hb4 (ix1 k)) (fun i j => hW5 (ix2 i j)) (fun k => hb5 (ix1 k))
    (fun i j => hW6 (ix2 i j)) (fun k => hb6 (ix1 k)) (fun i j => hW7 (ix2 i j)) (fun k => hb7 (ix1 k))) c

end Cert.Proof.Value

end
-- ==== Proof.TileRed.lean ====
/-
  The sparse kernel's second loop at the extended reals. The accumulator holds sixteen planes (one per lane, 576
  entries apart) of a 24 x 24 table; trip `r` adds the sixteen planes' row `r` into row `r` of the result (128 entries
  apart), columns 0 .. 15 by one store and columns 8 .. 23 by another. After `n` trips the rows below `n` hold the
  plane sums (`redInv`); and when each plane holds its lane's edge counts, the finished result holds the edge counts
  (`red_good`): the edges `16 j + l` over the lanes `l` and the steps `j` are all 512 edges.
-/
import proofs.«207914_g72782515798130_cont_9to1c4b_353_41_alg».proof.Proof.TilePay
import proofs.«207914_g72782515798130_cont_9to1c4b_353_41_alg».proof.Proof.Gen.KernelIdeal
import Idealize.ShloMosaic.Lib.ValueIdx
import Idealize.ShloMosaic.Lib.WritesUnit
import Idealize.ShloMosaic.PureOps.Ideal.Laws
import proofs.«207914_g72782515798130_cont_9to1c4b_353_41_alg».proof.Proof.Iface

noncomputable section

namespace Cert.Proof.KI

open Cert.KernelIdeal Cert.KernelIdeal.Gen Idealize.ShloMosaic Idealize.ShloMosaic.ValueIdx
open scoped BigOperators

/-- Sixteen consecutive accumulator entries read at offset `o`: lane `c` reads entry `o + c`. -/
theorem acc_read (off : Fin 1 → ℕ) (inb : ∀ a, off a + S16.size a ≤ S9216.size a)
    (f : S9216.Idx → Elt Ideal .f32) (c : Fin 16) (o : ℕ) (ho : off = ![o]) (hlt : o + c.val < 9216) :
    (Memref.whole cc0_scratch1 : Memref sig .scVector .vmem S9216 .f32).view.readAt (Elt Ideal)
        (Rect.unit (s := S9216) off S16.size inb).toLoadRect f (ix1 c)
      = f (ix1 (⟨o + c.val, hlt⟩ : Fin 9216)) := by
  subst ho
  simp only [View.readAt_apply, Memref.view_whole, View.read_whole]
  refine congrArg f (funext fun a => Fin.ext ?_)
  match a with
  | ⟨0, _⟩ =>
    show o + 1 * c.val = o + c.val
    omega

theorem off3c (k : Fin k0_t2_loop.trips) (j : Fin 2) (r : Fin 24) (hk : k.val = r.val) :
    k0_off3 k (BitVec.ofNat 32 (8 * j.val)) = ![24 * r.val + 8 * j.val] := by rw [k0_off3_eq, hk]

theorem off4c (k : Fin k0_t2_loop.trips) (p : Fin 15) (j : Fin 2) (r : Fin 24) (hk : k.val = r.val) :
    k0_off4 k (BitVec.ofNat 32 (576 + 576 * p.val)) (BitVec.ofNat 32 (8 * j.val))
      = ![576 * p.val + 24 * r.val + 8 * j.val + 576] := by rw [k0_off4_eq, hk]

theorem off5c (k : Fin k0_t2_loop.trips) (j : Fin 2) (r : Fin 24) (hk : k.val = r.val) :
    k0_off5 k (BitVec.ofNat 32 (8 * j.val)) = ![128 * r.val + 8 * j.val] := by rw [k0_off5_eq, hk]

/-- A sum over sixteen terms, written out from the left. -/
theorem sum_fin16 {M : Type*} [AddCommMonoid M] (F : Fin 16 → M) :
    ∑ l, F l = F 0 + F 1 + F 2 + F 3 + F 4 + F 5 + F 6 + F 7 + F 8 + F 9 + F 10 + F 11 + F 12 + F 13 + F 14 + F 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

/-- The three chained sums of the second loop add up sixteen vectors. -/
theorem sum16_0 (a : Fin 16 → FVec Ideal S16 .f32) (i : S16.Idx) :
    k0_pay5 (k0_pay4 (k0_pay3 (a 0) (a 1) (a 2) (a 3) (a 4) (a 5)) (a 6) (a 7) (a 8) (a 9) (a 10) (a 11) (a 12))
        (a 13) (a 14) (a 15) i = ∑ l : Fin 16, a l i := by
  rw [sum_fin16]; rfl

theorem sum16_8 (a : Fin 16 → FVec Ideal S16 .f32) (i : S16.Idx) :
    k0_pay8 (k0_pay7 (k0_pay6 (a 0) (a 1) (a 2)) (a 3) (a 4) (a 5) (a 6) (a 7) (a 8) (a 9))
        (a 10) (a 11) (a 12) (a 13) (a 14) (a 15) i = ∑ l : Fin 16, a l i := by
  rw [sum_fin16]; rfl

/-- Lane `c` of the first store of trip `r`: the sixteen planes' entries at row `r`, column `c`, added up. -/
theorem pay0_apply (L : grid0.Coords) (k0_h1 : k0_cond1 L = 1#1) (k : Fin k0_t2_loop.trips) (r : Fin 24)
    (hk : k.val = r.val) (f : S9216.Idx → Elt Ideal .f32) (c : Fin 16) :
    pay0 (F := Ideal) L k0_h1 k f (ix1 c)
      = ∑ l : Fin 16, f (ix1 (⟨576 * l.val + 24 * r.val + c.val, by omega⟩ : Fin 9216)) := by
  refine (sum16_0 ![((Memref.whole cc0_scratch1 : Memref sig .scVector .vmem S9216 .f32).view.readAt (Elt Ideal) (Rect.unit (s := S9216) (k0_off3 k 0#32) S16.size (k0_off3_inb L k k0_h1 0)).toLoadRect f),
      ((Memref.whole cc0_scratch1 : Memref sig .scVector .vmem S9216 .f32).view.readAt (Elt Ideal) (Rect.unit (s := S9216) (k0_off4 k 576#32 0#32) S16.size (k0_off4_inb L k k0_h1 0 0)).toLoadRect f),
      ((Memref.whole cc0_scratch1 : Memref sig .scVector .vmem S9216 .f32).view.readAt (Elt Ideal) (Rect.unit (s := S9216) (k0_off4 k 1152#32 0#32) S16.size (k0_off4_inb L k k0_h1 1 0)).toLoadRect f),
      ((Memref.whole cc0_scratch1 : Memref sig .scVector .vmem S9216 .f32).view.readAt (Elt Ideal) (Rect.unit (s := S9216) (k0_off4 k 1728#32 0#32) S16.size (k0_off4_inb L k k0_h1 2 0)).toLoadRect f),
      ((Memref.whole cc0_scratch1 : Memref sig .scVector .vmem S9216 .f32).view.readAt (Elt Ideal) (Rect.unit (s := S9216) (k0_off4 k 2304#32 0#32) S16.size (k0_off4_inb L k k0_h1 3 0)).toLoadRect f),
      ((Memref.whole cc0_scratch1 : Memref sig .scVector .vmem S9216 .f32).view.readAt (Elt Ideal) (Rect.unit (s := S9216) (k0_off4 k 2880#32 0#32) S16.size (k0_off4_inb L k k0_h1 4 0)).toLoadRect f),
      ((Memref.whole cc0_scratch1 : Memref sig .scVector .vmem S9216 .f32).view.readAt (Elt Ideal) (Rect.unit (s := S9216) (k0_off4 k 3456#32 0#32) S16.size (k0_off4_inb L k k0_h1 5 0)).toLoadRect f),
      ((Memref.whole cc0_scratch1 : Memref sig .scVector .vmem S9216 .f32).view.readAt (Elt Ideal) (Rect.unit (s := S9216) (k0_off4 k 4032#32 0#32) S16.size (k0_off4_inb L k k0_h1 6 0)).toLoadRect f),
      ((Memref.whole cc0_scratch1 : Memref sig .scVector .vmem S9216 .f32).view.readAt (Elt Ideal) (Rect.unit (s := S9216) (k0_off4 k 4608#32 0#32) S16.size (k0_off4_inb L k k0_h1 7 0)).toLoadRect f),
      ((Memref.whole cc0_scratch1 : Memref sig .scVector .vmem S9216 .f32).view.readAt (Elt Ideal) (Rect.unit (s := S9216) (k0_off4 k 5184#32 0#32) S16.size (k0_off4_inb L k k0_h1 8 0)).toLoadRect f),
      ((Memref.whole cc0_scratch1 : Memref sig .scVector .vmem S9216 .f32).view.readAt (Elt Ideal) (Rect.unit (s := S9216) (k0_off4 k 5760#32 0#32) S16.size (k0_off4_inb L k k0_h1 9 0)).toLoadRect f),
      ((Memref.whole cc0_scratch1 : Memref sig .scVector .vmem S9216 .f32).view.readAt (Elt Ideal) (Rect.unit (s := S9216) (k0_off4 k 6336#32 0#32) S16.size (k0_off4_inb L k k0_h1 10 0)).toLoadRect f),
      ((Memref.whole cc0_scratch1 : Memref sig .scVector .vmem S9216 .f32).view.readAt (Elt Ideal) (Rect.unit (s := S9216) (k0_off4 k 6912#32 0#32) S16.size (k0_off4_inb L k k0_h1 11 0)).toLoadRect f),
      ((Memref.whole cc0_scratch1 : Memref sig .scVector .vmem S9216 .f32).view.readAt (Elt Ideal) (Rect.unit (s := S9216) (k0_off4 k 7488#32 0#32) S16.size (k0_off4_inb L k k0_h1 12 0)).toLoadRect f),
      ((Memref.whole cc0_scratch1 : Memref sig .scVector .vmem S9216 .f32).view.readAt (Elt Ideal) (Rect.unit (s := S9216) (k0_off4 k 8064#32 0#32) S16.size (k0_off4_inb L k k0_h1 13 0)).toLoadRect f),
      ((Memref.whole cc0_scratch1 : Memref sig .scVector .vmem S9216 .f32).view.readAt (Elt Ideal) (Rect.unit (s := S9216) (k0_off4 k 8640#32 0#32) S16.size (k0_off4_inb L k k0_h1 14 0)).toLoadRect f)] (ix1 c)).trans (Finset.sum_congr rfl fun l _ => ?_)
  fin_cases l
  · exact (acc_read _ _ f c _ (off3c k 0 r hk) (by omega)).trans (congrArg f (congrArg ix1 (Fin.ext (by simp))))
  · exact (acc_read _ _ f c _ (off4c k 0 0 r hk) (by omega)).trans (congrArg f (congrArg ix1 (Fin.ext (by simp; omega))))
  · exact (acc_read _ _ f c _ (off4c k 1 0 r hk) (by omega)).trans (congrArg f (congrArg ix1 (Fin.ext (by simp; omega))))
  · exact (acc_read _ _ f c _ (off4c k 2 0 r hk) (by omega)).trans (congrArg f (congrArg ix1 (Fin.ext (by simp; omega))))
  · exact (acc_read _ _ f c _ (off4c k 3 0 r hk) (by omega)).trans (congrArg f (congrArg ix1 (Fin.ext (by simp; omega))))
  · exact (acc_read _ _ f c _ (off4c k 4 0 r hk) (by omega)).trans (congrArg f (congrArg ix1 (Fin.ext (by simp; omega))))
  · exact (acc_read _ _ f c _ (off4c k 5 0 r hk) (by omega)).trans (congrArg f (congrArg ix1 (Fin.ext (by simp; omega))))
  · exact (acc_read _ _ f c _ (off4c k 6 0 r hk) (by omega)).trans (congrArg f (congrArg ix1 (Fin.ext (by simp; omega))))
  · exact (acc_read _ _ f c _ (off4c k 7 0 r hk) (by omega)).trans (congrArg f (congrArg ix1 (Fin.ext (by simp; omega))))
  · exact (acc_read _ _ f c _ (off4c k 8 0 r hk) (by omega)).trans (congrArg f (congrArg ix1 (Fin.ext (by simp; omega))))
  · exact (acc_read _ _ f c _ (off4c k 9 0 r hk) (by omega)).trans (congrArg f (congrArg ix1 (Fin.ext (by simp; omega))))
  · exact (acc_read _ _ f c _ (off4c k 10 0 r hk) (by omega)).trans (congrArg f (congrArg ix1 (Fin.ext (by simp; omega))))
  · exact (acc_read _ _ f c _ (off4c k 11 0 r hk) (by omega)).trans (congrArg f (congrArg ix1 (Fin.ext (by simp; omega))))
  · exact (acc_read _ _ f c _ (off4c k 12 0 r hk) (by omega)).trans (congrArg f (congrArg ix1 (Fin.ext (by simp; omega))))
  · exact (acc_read _ _ f c _ (off4c k 13 0 r hk) (by omega)).trans (congrArg f (congrArg ix1 (Fin.ext (by simp; omega))))
  · exact (acc_read _ _ f c _ (off4c k 14 0 r hk) (by omega)).trans (congrArg f (congrArg ix1 (Fin.ext (by simp; omega))))

/-- Lane `c` of the second store of trip `r`: the sixteen planes' entries at row `r`, column `8 + c`, added up. -/
theorem pay8_apply (L : grid0.Coords) (k0_h1 : k0_cond1 L = 1#1) (k : Fin k0_t2_loop.trips) (r : Fin 24)
    (hk : k.val = r.val) (f : S9216.Idx → Elt Ideal .f32) (c : Fin 16) :
    pay8 (F := Ideal) L k0_h1 k f (ix1 c)
      = ∑ l : Fin 16, f (ix1 (⟨576 * l.val + 24 * r.val + 8 + c.val, by omega⟩ : Fin 9216)) := by
  refine (sum16_8 ![((Memref.whole cc0_scratch1 : Memref sig .scVector .vmem S9216 .f32).view.readAt (Elt Ideal) (Rect.unit (s := S9216) (k0_off3 k 8#32) S16.size (k0_off3_inb L k k0_h1 1)).toLoadRect f),
      ((Memref.whole cc0_scratch1 : Memref sig .scVector .vmem S9216 .f32).view.readAt (Elt Ideal) (Rect.unit (s := S9216) (k0_off4 k 576#32 8#32) S16.size (k0_off4_inb L k k0_h1 0 1)).toLoadRect f),
      ((Memref.whole cc0_scratch1 : Memref sig .scVector .vmem S9216 .f32).view.readAt (Elt Ideal) (Rect.unit (s := S9216) (k0_off4 k 1152#32 8#32) S16.size (k0_off4_inb L k k0_h1 1 1)).toLoadRect f),
      ((Memref.whole cc0_scratch1 : Memref sig .scVector .vmem S9216 .f32).view.readAt (Elt Ideal) (Rect.unit (s := S9216) (k0_off4 k 1728#32 8#32) S16.size (k0_off4_inb L k k0_h1 2 1)).toLoadRect f),
      ((Memref.whole cc0_scratch1 : Memref sig .scVector .vmem S9216 .f32).view.readAt (Elt Ideal) (Rect.unit (s := S9216) (k0_off4 k 2304#32 8#32) S16.size (k0_off4_inb L k k0_h1 3 1)).toLoadRect f),
      ((Memref.whole cc0_scratch1 : Memref sig .scVector .vmem S9216 .f32).view.readAt (Elt Ideal) (Rect.unit (s := S9216) (k0_off4 k 2880#32 8#32) S16.size (k0_off4_inb L k k0_h1 4 1)).toLoadRect f),
      ((Memref.whole cc0_scratch1 : Memref sig .scVector .vmem S9216 .f32).view.readAt (Elt Ideal) (Rect.unit (s := S9216) (k0_off4 k 3456#32 8#32) S16.size (k0_off4_inb L k k0_h1 5 1)).toLoadRect f),
      ((Memref.whole cc0_scratch1 : Memref sig .scVector .vmem S9216 .f32).view.readAt (Elt Ideal) (Rect.unit (s := S9216) (k0_off4 k 4032#32 8#32) S16.size (k0_off4_inb L k k0_h1 6 1)).toLoadRect f),
      ((Memref.whole cc0_scratch1 : Memref sig .scVector .vmem S9216 .f32).view.readAt (Elt Ideal) (Rect.unit (s := S9216) (k0_off4 k 4608#32 8#32) S16.size (k0_off4_inb L k k0_h1 7 1)).toLoadRect f),
      ((Memref.whole cc0_scratch1 : Memref sig .scVector .vmem S9216 .f32).view.readAt (Elt Ideal) (Rect.unit (s := S9216) (k0_off4 k 5184#32 8#32) S16.size (k0_off4_inb L k k0_h1 8 1)).toLoadRect f),
      ((Memref.whole cc0_scratch1 : Memref sig .scVector .vmem S9216 .f32).view.readAt (Elt Ideal) (Rect.unit (s := S9216) (k0_off4 k 5760#32 8#32) S16.size (k0_off4_inb L k k0_h1 9 1)).toLoadRect f),
      ((Memref.whole cc0_scratch1 : Memref sig .scVector .vmem S9216 .f32).view.readAt (Elt Ideal) (Rect.unit (s := S9216) (k0_off4 k 6336#32 8#32) S16.size (k0_off4_inb L k k0_h1 10 1)).toLoadRect f),
      ((Memref.whole cc0_scratch1 : Memref sig .scVector .vmem S9216 .f32).view.readAt (Elt Ideal) (Rect.unit (s := S9216) (k0_off4 k 6912#32 8#32) S16.size (k0_off4_inb L k k0_h1 11 1)).toLoadRect f),
      ((Memref.whole cc0_scratch1 : Memref sig .scVector .vmem S9216 .f32).view.readAt (Elt Ideal) (Rect.unit (s := S9216) (k0_off4 k 7488#32 8#32) S16.size (k0_off4_inb L k k0_h1 12 1)).toLoadRect f),
      ((Memref.whole cc0_scratch1 : Memref sig .scVector .vmem S9216 .f32).view.readAt (Elt Ideal) (Rect.unit (s := S9216) (k0_off4 k 8064#32 8#32) S16.size (k0_off4_inb L k k0_h1 13 1)).toLoadRect f),
      ((Memref.whole cc0_scratch1 : Memref sig .scVector .vmem S9216 .f32).view.readAt (Elt Ideal) (Rect.unit (s := S9216) (k0_off4 k 8640#32 8#32) S16.size (k0_off4_inb L k k0_h1 14 1)).toLoadRect f)] (ix1 c)).trans (Finset.sum_congr rfl fun l _ => ?_)
  fin_cases l
  · exact (acc_read _ _ f c _ (off3c k 1 r hk) (by omega)).trans (congrArg f (congrArg ix1 (Fin.ext (by simp))))
  · exact (acc_read _ _ f c _ (off4c k 0 1 r hk) (by omega)).trans (congrArg f (congrArg ix1 (Fin.ext (by simp; omega))))
  · exact (acc_read _ _ f c _ (off4c k 1 1 r hk) (by omega)).trans (congrArg f (congrArg ix1 (Fin.ext (by simp; omega))))
  · exact (acc_read _ _ f c _ (off4c k 2 1 r hk) (by omega)).trans (congrArg f (congrArg ix1 (Fin.ext (by simp; omega))))
  · exact (acc_read _ _ f c _ (off4c k 3 1 r hk) (by omega)).trans (congrArg f (congrArg ix1 (Fin.ext (by simp; omega))))
  · exact (acc_read _ _ f c _ (off4c k 4 1 r hk) (by omega)).trans (congrArg f (congrArg ix1 (Fin.ext (by simp; omega))))
  · exact (acc_read _ _ f c _ (off4c k 5 1 r hk) (by omega)).trans (congrArg f (congrArg ix1 (Fin.ext (by simp; omega))))
  · exact (acc_read _ _ f c _ (off4c k 6 1 r hk) (by omega)).trans (congrArg f (congrArg ix1 (Fin.ext (by simp; omega))))
  · exact (acc_read _ _ f c _ (off4c k 7 1 r hk) (by omega)).trans (congrArg f (congrArg ix1 (Fin.ext (by simp; omega))))
  · exact (acc_read _ _ f c _ (off4c k 8 1 r hk) (by omega)).trans (congrArg f (congrArg ix1 (Fin.ext (by simp; omega))))
  · exact (acc_read _ _ f c _ (off4c k 9 1 r hk) (by omega)).trans (congrArg f (congrArg ix1 (Fin.ext (by simp; omega))))
  · exact (acc_read _ _ f c _ (off4c k 10 1 r hk) (by omega)).trans (congrArg f (congrArg ix1 (Fin.ext (by simp; omega))))
  · exact (acc_read _ _ f c _ (off4c k 11 1 r hk) (by omega)).trans (congrArg f (congrArg ix1 (Fin.ext (by simp; omega))))
  · exact (acc_read _ _ f c _ (off4c k 12 1 r hk) (by omega)).trans (congrArg f (congrArg ix1 (Fin.ext (by simp; omega))))
  · exact (acc_read _ _ f c _ (off4c k 13 1 r hk) (by omega)).trans (congrArg f (congrArg ix1 (Fin.ext (by simp; omega))))
  · exact (acc_read _ _ f c _ (off4c k 14 1 r hk) (by omega)).trans (congrArg f (congrArg ix1 (Fin.ext (by simp; omega))))

/-! ### The second loop's invariant -/

/-- The result scratch as a whole. -/
abbrev vRed : View sig .scVector .vmem S3072 .f32 :=
  (Memref.whole cc0_scratch2 : Memref sig .scVector .vmem S3072 .f32).view

/-- After `n` trips the result's rows below `n` hold, at column `s`, the sixteen planes' entries `(r, s)` added up. -/
def redInv (f : S9216.Idx → Elt Ideal .f32) (n : ℕ) (g : S3072.Idx → Elt Ideal .f32) : Prop :=
  ∀ r s : Fin 24, r.val < n →
    g (ix1 (⟨128 * r.val + s.val, by omega⟩ : Fin 3072))
      = ∑ l : Fin 16, f (ix1 (⟨576 * l.val + 24 * r.val + s.val, by omega⟩ : Fin 9216))

theorem redInv_zero (f : S9216.Idx → Elt Ideal .f32) (g : S3072.Idx → Elt Ideal .f32) : redInv f 0 g :=
  fun _ _ h => absurd h (Nat.not_lt_zero _)

theorem redInv_step (L : grid0.Coords) (k0_h1 : k0_cond1 L = 1#1) (k : Fin k0_t2_loop.trips)
    (f : S9216.Idx → Elt Ideal .f32) (g : S3072.Idx → Elt Ideal .f32) (h : redInv f k.val g) :
    redInv f (k.val + 1) (redStep (F := Ideal) L k0_h1 k f g) := by
  intro r s hr
  have hk24 : k.val < 24 := k.isLt
  show View.read (Elt Ideal) (Memref.whole cc0_scratch2 : Memref sig .scVector .vmem S3072 .f32).view
      (redStep (F := Ideal) L k0_h1 k f g) (ix1 (⟨128 * r.val + s.val, by omega⟩ : Fin 3072)) = _
  unfold redStep
  by_cases hrk : k.val = r.val
  · by_cases hs : 8 ≤ s.val
    · -- columns 8 .. 23: the second store's rectangle, position s - 8
      refine (View.read_writes_cons_unit_of_mem (Val := Elt Ideal) vRed g (k0_off5_inb L k k0_h1 1) (pay8 L k0_h1 k f) _
        (ix1 (⟨128 * r.val + s.val, by omega⟩ : Fin 3072)) (ix1 (⟨s.val - 8, by omega⟩ : Fin 16))
        (off5c k 1 r hrk) (fun a => ?_)).trans ?_
      · match a with
        | ⟨0, _⟩ =>
          show 128 * r.val + s.val = (128 * r.val + 8 * 1) + (s.val - 8)
          omega
      · refine (pay8_apply L k0_h1 k r hrk f ⟨s.val - 8, by omega⟩).trans (Finset.sum_congr rfl fun l _ => ?_)
        exact congrArg f (congrArg ix1 (Fin.ext (by simp; omega)))
    · -- columns 0 .. 7: past the second store's rectangle, under the first's at position s
      refine (View.read_writes_cons_unit_of_not_mem (Val := Elt Ideal) vRed g (k0_off5_inb L k k0_h1 1) (pay8 L k0_h1 k f) _
        (ix1 (⟨128 * r.val + s.val, by omega⟩ : Fin 3072)) (off5c k 1 r hrk) 0 (Or.inl ?_)).trans ?_
      · show 128 * r.val + s.val < 128 * r.val + 8 * 1
        omega
      refine (View.read_writes_cons_unit_of_mem (Val := Elt Ideal) vRed g (k0_off5_inb L k k0_h1 0) (pay0 L k0_h1 k f) _
        (ix1 (⟨128 * r.val + s.val, by omega⟩ : Fin 3072)) (ix1 (⟨s.val, by omega⟩ : Fin 16))
        (off5c k 0 r hrk) (fun a => ?_)).trans ?_
      · match a with
        | ⟨0, _⟩ =>
          show 128 * r.val + s.val = (128 * r.val + 8 * 0) + s.val
          omega
      · exact pay0_apply L k0_h1 k r hrk f ⟨s.val, by omega⟩
  · -- an earlier row: neither store reaches it
    have hlt : r.val < k.val := by omega
    refine (View.read_writes_cons_unit_of_not_mem (Val := Elt Ideal) vRed g (k0_off5_inb L k k0_h1 1) (pay8 L k0_h1 k f) _
      (ix1 (⟨128 * r.val + s.val, by omega⟩ : Fin 3072)) (off5c k 1 ⟨k.val, hk24⟩ rfl) 0 (Or.inl ?_)).trans ?_
    · show 128 * r.val + s.val < 128 * k.val + 8 * 1
      omega
    refine (View.read_writes_cons_unit_of_not_mem (Val := Elt Ideal) vRed g (k0_off5_inb L k k0_h1 0) (pay0 L k0_h1 k f) _
      (ix1 (⟨128 * r.val + s.val, by omega⟩ : Fin 3072)) (off5c k 0 ⟨k.val, hk24⟩ rfl) 0 (Or.inl ?_)).trans ?_
    · show 128 * r.val + s.val < 128 * k.val + 8 * 0
      omega
    exact h r s hlt

/-! ### From the planes to the edge counts -/

/-- The edges of lane `l` (the edges `16 j + l`) from `s` to `r`, counted. -/
def laneCount (ei : IVec S2x512 32) (l : Fin 16) (r s : Fin 24) : ℕ :=
  (Finset.univ.filter fun j : Fin 32 =>
    (ei (ix2 (1 : Fin 2) (⟨16 * j.val + l.val, by omega⟩ : Fin 512))).toNat = r.val
      ∧ (ei (ix2 (0 : Fin 2) (⟨16 * j.val + l.val, by omega⟩ : Fin 512))).toNat = s.val).card

/-- The sixteen lanes' counts add up to the edge count. -/
theorem sum_laneCount (ei : IVec S2x512 32) (r s : Fin 24) :
    ∑ l : Fin 16, laneCount ei l r s = Cert.Proof.Iface.edgeCount ei r s := by
  unfold laneCount Cert.Proof.Iface.edgeCount
  simp only [Finset.card_filter]
  rw [Finset.sum_comm]
  rw [← Fintype.sum_prod_type' (fun (j : Fin 32) (l : Fin 16) =>
    if (ei (ix2 (1 : Fin 2) (⟨16 * j.val + l.val, by omega⟩ : Fin 512))).toNat = r.val
      ∧ (ei (ix2 (0 : Fin 2) (⟨16 * j.val + l.val, by omega⟩ : Fin 512))).toNat = s.val then 1 else 0)]
  refine Fintype.sum_equiv (finProdFinEquiv (m := 32) (n := 16)) _ _ ?_
  rintro ⟨j, l⟩
  have e : (⟨16 * j.val + l.val, by omega⟩ : Fin 512) = finProdFinEquiv (m := 32) (n := 16) (j, l) :=
    Fin.ext (by simp [finProdFinEquiv]; omega)
  show (if _ then 1 else 0) = (if _ then 1 else 0)
  rw [e]

/-- With each plane holding its lane's counts, the finished result holds the edge counts. -/
theorem red_good (ei : IVec S2x512 32) (f : S9216.Idx → Elt Ideal .f32) (g : S3072.Idx → Elt Ideal .f32)
    (hA : ∀ (l : Fin 16) (r s : Fin 24),
      f (ix1 (⟨576 * l.val + 24 * r.val + s.val, by omega⟩ : Fin 9216)) = ((laneCount ei l r s : ℕ) : EReal))
    (hR : redInv f 24 g) (r s : Fin 24) :
    g (ix1 (⟨128 * r.val + s.val, by omega⟩ : Fin 3072)) = ((Cert.Proof.Iface.edgeCount ei r s : ℕ) : EReal) := by
  rw [hR r s r.isLt, ← sum_laneCount ei r s, Nat.cast_sum]
  exact Finset.sum_congr rfl fun l _ => hA l r s

end Cert.Proof.KI

end
-- ==== Proof.LibStoreIdx.lean ====
/-
  The accumulating indexed store of a vector subcore, at the exact (extended-real) float instance.

  The store takes its lanes in ascending order; lane `k` adds its value to the element its index names. With
  exact addition the order does not matter and lanes that name the same element simply accumulate: after
  the store, an element holds its old value plus the sum of the values of the lanes whose index names it.
-/
import Idealize.ShloMosaic.PureOps.Ideal
import Idealize.ShloMosaic.Lib.ValueIdx

noncomputable section

open scoped BigOperators

namespace Cert.Proof.LibStoreIdx

open Idealize.ShloMosaic

variable {s : Shape} {d : Fin 1 → Nat}

/-- One lane of the store: the element lane `k`'s index names takes the lane's value on top. -/
def stepAdd (idxs : Fin s.rank → IVec ⟨1, d⟩ 32) (h : ∀ a x, (idxs a x).toNat < s.size a) (v : Vec Ideal ⟨1, d⟩ .f32)
    (g : Vec Ideal s .f32) (k : Fin (d 0)) : Vec Ideal s .f32 :=
  fun j => if j = idxAt idxs h (Shape.ofLane k) then g (idxAt idxs h (Shape.ofLane k)) + v (Shape.ofLane k) else g j

/-- The unmasked accumulating store is the lanes' steps, in order. -/
theorem storeIdx_eq_foldl (f : Vec Ideal s .f32) (idxs : Fin s.rank → IVec ⟨1, d⟩ 32) (v : Vec Ideal ⟨1, d⟩ .f32)
    (h : ∀ a x, (idxs a x).toNat < s.size a) :
    storeIdx f idxs v (fun _ => 1#1) true h = (List.finRange (d 0)).foldl (stepAdd idxs h v) f := by
  unfold storeIdx
  refine congrArg (fun G => List.foldl G f (List.finRange (d 0))) ?_
  funext g k
  funext j
  unfold stepAdd
  show (if ∀ a, (j a).val = ((idxAt idxs h (Shape.ofLane k)) a).val then
      (if true = true then Elt.idxAdd .f32 (g (idxAt idxs h (Shape.ofLane k))) (v (Shape.ofLane k)) else v (Shape.ofLane k))
    else g j) = _
  rw [if_pos rfl]
  by_cases hji : j = idxAt idxs h (Shape.ofLane k)
  · have hall : ∀ a, (j a).val = ((idxAt idxs h (Shape.ofLane k)) a).val := fun a => by rw [hji]
    rw [if_pos hji, if_pos hall]
    rfl
  · have hnall : ¬ ∀ a, (j a).val = ((idxAt idxs h (Shape.ofLane k)) a).val :=
      fun hh => hji (funext fun a => Fin.ext (hh a))
    rw [if_neg hji, if_neg hnall]

/-- After the steps of the lanes `ls`, an element holds its old value plus the values of the lanes in `ls`
    whose index names it. -/
theorem foldl_stepAdd_apply (idxs : Fin s.rank → IVec ⟨1, d⟩ 32) (h : ∀ a x, (idxs a x).toNat < s.size a)
    (v : Vec Ideal ⟨1, d⟩ .f32) (ls : List (Fin (d 0))) (f : Vec Ideal s .f32) (j : s.Idx) :
    (ls.foldl (stepAdd idxs h v) f) j
      = f j + (ls.map fun k => if idxAt idxs h (Shape.ofLane k) = j then v (Shape.ofLane k) else 0).sum := by
  induction ls generalizing f with
  | nil => simp
  | cons k ls ih =>
    rw [List.foldl_cons, ih, List.map_cons, List.sum_cons]
    unfold stepAdd
    by_cases hji : j = idxAt idxs h (Shape.ofLane k)
    · rw [if_pos hji, if_pos hji.symm, ← hji, add_assoc]
    · rw [if_neg hji, if_neg (fun hh => hji hh.symm), zero_add]

/-- THE STORE AT AN ELEMENT: the old value plus the sum of the values of the lanes whose index names it. -/
theorem storeIdx_add_apply (f : Vec Ideal s .f32) (idxs : Fin s.rank → IVec ⟨1, d⟩ 32) (v : Vec Ideal ⟨1, d⟩ .f32)
    (h : ∀ a x, (idxs a x).toNat < s.size a) (j : s.Idx) :
    storeIdx f idxs v (fun _ => 1#1) true h j
      = f j + ∑ k : Fin (d 0), if idxAt idxs h (Shape.ofLane k) = j then v (Shape.ofLane k) else 0 := by
  rw [storeIdx_eq_foldl, foldl_stepAdd_apply, Fin.sum_univ_def]

end Cert.Proof.LibStoreIdx

end
-- ==== Proof.TileAccCore.lean ====
/-
  One trip of the sparse kernel's first loop, on the accumulator's contents, at the exact float instance.

  The accumulator is sixteen copies (one per lane, 576 entries apart) of a 24 x 24 table; position
  `576 l + 24 r + s` is entry `(r, s)` of lane `l`'s copy. A trip reads one edge per lane and adds one at
  `576 l' + 24 d + s` for lane `l'` with destination word `d` and source word `s`. Since `24 d + s < 576`, only
  lane `l` itself can address lane `l`'s copy: position `(l, r, s)` gains one exactly when lane `l`'s edge goes
  from `s` to `r`. Counting over the trips made so far then goes up by one for that edge.
-/
import proofs.«207914_g72782515798130_cont_9to1c4b_353_41_alg».proof.Proof.LibStoreIdx
import proofs.«207914_g72782515798130_cont_9to1c4b_353_41_alg».proof.Proof.LibHostIndexed
import proofs.«207914_g72782515798130_cont_9to1c4b_353_41_alg».proof.Proof.TileIdx

noncomputable section

open scoped BigOperators

namespace Cert.Proof.KI

open Cert.KernelIdeal Cert.KernelIdeal.Gen Idealize.ShloMosaic Idealize.ShloMosaic.ValueIdx
open Cert.Proof.LibStoreIdx

/-- The value every lane adds is one. -/
theorem pay1_apply (x : S16.Idx) : k0_pay1 (F := Ideal) x = (1 : EReal) := Cert.Proof.LibHostIndexed.ofBits_one_f32

/-- A lane, as an index of the sixteen-lane vector. -/
theorem ofLane_eq (k : Fin 16) : (Shape.ofLane (d := S16.size) k : S16.Idx) = ix1 k := by
  funext a; obtain rfl : a = 0 := Subsingleton.elim _ _; rfl

/-- ONE TRIP'S STORE AT POSITION `(l, r, s)`: the old value, plus one exactly when lane `l`'s destination word is
    `r` and its source word is `s`. -/
theorem store_trip_apply (f : Vec Ideal S9216 .f32) (sv dv : Vec Ideal S1x16 .i32)
    (hs : ∀ j, (sv j).toNat ≤ 23) (hd : ∀ j, (dv j).toNat ≤ 23)
    (h : ∀ a x, ((![k0_pay2 (F := Ideal) sv dv] : Fin 1 → IVec S16 32) a x).toNat < S9216.size a)
    (l : Fin 16) (r s : Fin 24) (hp : 576 * l.val + 24 * r.val + s.val < 9216) :
    storeIdx f ![k0_pay2 (F := Ideal) sv dv] (k0_pay1 (F := Ideal)) (fun _ => 1#1) true h
        (ix1 (⟨576 * l.val + 24 * r.val + s.val, hp⟩ : Fin 9216))
      = f (ix1 (⟨576 * l.val + 24 * r.val + s.val, hp⟩ : Fin 9216))
        + if (dv (ix2 (0 : Fin 1) l)).toNat = r.val ∧ (sv (ix2 (0 : Fin 1) l)).toNat = s.val then 1 else 0 := by
  rw [storeIdx_add_apply]
  refine congrArg (f (ix1 (⟨576 * l.val + 24 * r.val + s.val, hp⟩ : Fin 9216)) + ·) ?_
  -- which lanes address the position
  have key : ∀ k' : Fin 16,
      (idxAt (s := S9216) ![k0_pay2 (F := Ideal) sv dv] h (Shape.ofLane (d := S16.size) k')
          = ix1 (⟨576 * l.val + 24 * r.val + s.val, hp⟩ : Fin 9216))
        ↔ (k' = l ∧ (dv (ix2 (0 : Fin 1) l)).toNat = r.val ∧ (sv (ix2 (0 : Fin 1) l)).toNat = s.val) := by
    intro k'
    have hval : (k0_pay2 (F := Ideal) sv dv (Shape.ofLane (d := S16.size) k')).toNat
        = 576 * k'.val + 24 * (dv (ix2 (0 : Fin 1) k')).toNat + (sv (ix2 (0 : Fin 1) k')).toNat := by
      rw [ofLane_eq]; exact pay2_toNat sv dv k' (hs _) (hd _)
    have hdk := hd (ix2 (0 : Fin 1) k')
    have hsk := hs (ix2 (0 : Fin 1) k')
    have hr := r.isLt
    have hss := s.isLt
    constructor
    · intro he
      have h0 : (k0_pay2 (F := Ideal) sv dv (Shape.ofLane (d := S16.size) k')).toNat
          = 576 * l.val + 24 * r.val + s.val := congrArg (fun i : S9216.Idx => (i 0).val) he
      rw [hval] at h0
      have hk : k' = l := Fin.ext (by omega)
      subst hk
      exact ⟨rfl, by omega, by omega⟩
    · rintro ⟨rfl, h1, h2⟩
      funext a
      obtain rfl : a = 0 := Subsingleton.elim _ _
      refine Fin.ext ?_
      show (k0_pay2 (F := Ideal) sv dv (Shape.ofLane (d := S16.size) k')).toNat = 576 * k'.val + 24 * r.val + s.val
      rw [hval, h1, h2]
  show (∑ k' : Fin 16, if idxAt (s := S9216) ![k0_pay2 (F := Ideal) sv dv] h (Shape.ofLane (d := S16.size) k')
      = ix1 (⟨576 * l.val + 24 * r.val + s.val, hp⟩ : Fin 9216) then k0_pay1 (F := Ideal) (Shape.ofLane (d := S16.size) k') else 0) = _
  by_cases hQ : (dv (ix2 (0 : Fin 1) l)).toNat = r.val ∧ (sv (ix2 (0 : Fin 1) l)).toNat = s.val
  · rw [if_pos hQ]
    rw [Finset.sum_eq_single l]
    · rw [if_pos ((key l).mpr ⟨rfl, hQ⟩)]; exact pay1_apply _
    · intro k' _ hne
      rw [if_neg (fun he => hne ((key k').mp he).1)]
    · intro hl; exact absurd (Finset.mem_univ l) hl
  · rw [if_neg hQ]
    refine Finset.sum_eq_zero (fun k' _ => ?_)
    rw [if_neg (fun he => hQ ((key k').mp he).2)]

/-- Counting over the trips made so far: trip `k` adds the edge it reads in the lane, if it is the one counted. -/
theorem card_trips_succ (P : Fin 32 → Prop) [DecidablePred P] (k : Fin 32) :
    (Finset.univ.filter fun j : Fin 32 => j.val < k.val + 1 ∧ P j).card
      = (Finset.univ.filter fun j : Fin 32 => j.val < k.val ∧ P j).card + if P k then 1 else 0 := by
  by_cases hk : P k
  · rw [if_pos hk]
    have e : (Finset.univ.filter fun j : Fin 32 => j.val < k.val + 1 ∧ P j)
        = insert k (Finset.univ.filter fun j : Fin 32 => j.val < k.val ∧ P j) := by
      ext j
      rw [Finset.mem_insert, Finset.mem_filter, Finset.mem_filter]
      constructor
      · rintro ⟨_, hlt, hp⟩
        by_cases hjk : j = k
        · exact Or.inl hjk
        · refine Or.inr ⟨Finset.mem_univ _, ?_, hp⟩
          have : j.val ≠ k.val := fun hv => hjk (Fin.ext hv)
          omega
      · rintro (rfl | ⟨_, hlt, hp⟩)
        · exact ⟨Finset.mem_univ _, by omega, hk⟩
        · exact ⟨Finset.mem_univ _, by omega, hp⟩
    rw [e, Finset.card_insert_of_notMem]
    rw [Finset.mem_filter]
    rintro ⟨_, hlt, _⟩
    omega
  · rw [if_neg hk, Nat.add_zero]
    refine congrArg Finset.card (Finset.filter_congr (fun j _ => ?_))
    constructor
    · rintro ⟨hlt, hp⟩
      refine ⟨?_, hp⟩
      have : j.val ≠ k.val := fun hv => hk (by rw [← Fin.ext hv]; exact hp)
      omega
    · rintro ⟨hlt, hp⟩
      exact ⟨by omega, hp⟩

end Cert.Proof.KI

end
-- ==== Proof.TileAcc.lean ====
/-
  The sparse kernel's first loop: what the accumulator holds after `k` trips, at the exact float instance.

  Position `576 l + 24 r + s` of the accumulator holds the number of trips `j < k` whose lane-`l` edge (edge
  `16 j + l` of the edge array: row 1 its destination word, row 0 its source word) goes from `s` to `r`. It holds
  of the zeros before the first trip, and a trip keeps it: the indexed store adds one at position `(l, r, s)`
  exactly when lane `l`'s edge of that trip goes from `s` to `r`.
-/
import proofs.«207914_g72782515798130_cont_9to1c4b_353_41_alg».proof.Proof.TileBody
import proofs.«207914_g72782515798130_cont_9to1c4b_353_41_alg».proof.Proof.TileChk
import proofs.«207914_g72782515798130_cont_9to1c4b_353_41_alg».proof.Proof.TileAccCore

noncomputable section

open scoped BigOperators

namespace Cert.Proof.KI

open Cert.KernelIdeal Cert.KernelIdeal.Gen Idealize.ShloMosaic Idealize.ShloMosaic.ValueIdx

variable (m : (ℓ : Loc nD τ sig) → Buf (Elt Ideal) ℓ)

/-- After `k` trips, position `(l, r, s)` holds the number of trips so far whose lane-`l` edge goes from `s` to `r`. -/
def accInv (d : Dev nD) (L : grid0.Coords) (k : ℕ) (f : Buf (Elt Ideal) ((thr d L).loc cc0_scratch1)) : Prop :=
  ∀ (l : Fin 16) (r s : Fin 24),
    f (ix1 (⟨576 * l.val + 24 * r.val + s.val, by have := l.isLt; have := r.isLt; have := s.isLt; omega⟩ : Fin 9216))
      = (((Finset.univ.filter fun j : Fin 32 => j.val < k
          ∧ (m (eLoc d) (ix2 (1 : Fin 2) (⟨16 * j.val + l.val, by have := j.isLt; have := l.isLt; omega⟩ : Fin 512))).toNat = r.val
          ∧ (m (eLoc d) (ix2 (0 : Fin 2) (⟨16 * j.val + l.val, by have := j.isLt; have := l.isLt; omega⟩ : Fin 512))).toNat = s.val).card : ℕ) : EReal)

/-- Lane `l` of the source words trip `k` loads is the source word of edge `16 k + l`. -/
theorem loaded_src (d : Dev nD) (L : grid0.Coords) (k0_h1 : k0_cond1 L = 1#1) (k : Fin k0_t1_loop.trips) (l : Fin 16)
    (hb : 16 * k.val + l.val < 512) :
    View.readAt (Elt Ideal) (Memref.whole cc0_scratch0 : Memref sig .scVector .vmem S2x512 .i32).view
      (Rect.unit (s := S2x512) (k0_off1 k) S1x16.size (k0_off1_inb L k k0_h1)).toLoadRect (E0 m d) (ix2 (0 : Fin 1) l)
      = m (eLoc d) (ix2 (0 : Fin 2) (⟨16 * k.val + l.val, hb⟩ : Fin 512)) := by
  show m (eLoc d) _ = m (eLoc d) _
  congr 1
  funext a
  refine Fin.ext ?_
  match a with
  | ⟨0, _⟩ => show k0_off1 k 0 + 1 * (0 : Fin 1).val = 0; rw [k0_off1_eq]; rfl
  | ⟨1, _⟩ => show k0_off1 k 1 + 1 * l.val = 16 * k.val + l.val; rw [k0_off1_eq]; show 16 * k.val + 1 * l.val = _; omega

/-- Lane `l` of the destination words trip `k` loads is the destination word of edge `16 k + l`. -/
theorem loaded_dst (d : Dev nD) (L : grid0.Coords) (k0_h1 : k0_cond1 L = 1#1) (k : Fin k0_t1_loop.trips) (l : Fin 16)
    (hb : 16 * k.val + l.val < 512) :
    View.readAt (Elt Ideal) (Memref.whole cc0_scratch0 : Memref sig .scVector .vmem S2x512 .i32).view
      (Rect.unit (s := S2x512) (k0_off2 k) S1x16.size (k0_off2_inb L k k0_h1)).toLoadRect (E0 m d) (ix2 (0 : Fin 1) l)
      = m (eLoc d) (ix2 (1 : Fin 2) (⟨16 * k.val + l.val, hb⟩ : Fin 512)) := by
  show m (eLoc d) _ = m (eLoc d) _
  congr 1
  funext a
  refine Fin.ext ?_
  match a with
  | ⟨0, _⟩ => show k0_off2 k 0 + 1 * (0 : Fin 1).val = 1; rw [k0_off2_eq]; rfl
  | ⟨1, _⟩ => show k0_off2 k 1 + 1 * l.val = 16 * k.val + l.val; rw [k0_off2_eq]; show 16 * k.val + 1 * l.val = _; omega

/-- Before the first trip the accumulator is zero everywhere and no trip has been made. -/
theorem acc_a0 (d : Dev nD) (L : grid0.Coords) : accInv m d L 0 (Z0 (F := Ideal) d) := by
  intro l r s
  have hz : ∀ i : S9216.Idx, Z0 (F := Ideal) d i = (0 : EReal) := by
    intro i
    show (broadcastInDim S9216 ![] (by decide) (constant (F := Ideal) S_ .f32 0x00000000#32) i : EReal) = 0
    exact (broadcastInDim_apply _ _ _ i (fun a => a.elim0) (fun a => a.elim0)).trans Ideal.ofBits_zero_f32
  rw [hz]
  have he : (Finset.univ.filter fun j : Fin 32 => j.val < 0
          ∧ (m (eLoc d) (ix2 (1 : Fin 2) (⟨16 * j.val + l.val, by have := j.isLt; have := l.isLt; omega⟩ : Fin 512))).toNat = r.val
          ∧ (m (eLoc d) (ix2 (0 : Fin 2) (⟨16 * j.val + l.val, by have := j.isLt; have := l.isLt; omega⟩ : Fin 512))).toNat = s.val).card = 0 := by
    rw [Finset.card_eq_zero, Finset.filter_eq_empty_iff]
    intro j _ hj
    exact absurd hj.1 (Nat.not_lt_zero _)
  rw [he, Nat.cast_zero]

/-- A trip keeps the invariant, one trip further. -/
theorem acc_astep (hwords : ∀ d j, (m (eLoc d) j).toNat ≤ 23) (d : Dev nD) (L : grid0.Coords)
    (k0_h1 : k0_cond1 L = 1#1) (k : Fin k0_t1_loop.trips)
    (h : ∀ a x, ((![idxv m d L k0_h1 k] : Fin 1 → IVec S16 32) a x).toNat < S9216.size a)
    (f : Buf (Elt Ideal) ((thr d L).loc cc0_scratch1)) (hA : accInv m d L k.val f) :
    accInv m d L (k.val + 1) (accStep m d L k0_h1 k h f) := by
  intro l r s
  have hk32 : k.val < 32 := lt_of_lt_of_le k.isLt k0_t1_abs.2.1
  have hb : 16 * k.val + l.val < 512 := by have := l.isLt; omega
  have hp : 576 * l.val + 24 * r.val + s.val < 9216 := by have := l.isLt; have := r.isLt; have := s.isLt; omega
  -- the trip is the indexed store
  have hstep : accStep m d L k0_h1 k h f
      = storeIdx f ![idxv m d L k0_h1 k] (k0_pay1 (F := Ideal)) (fun _ => 1#1) true h := by
    unfold accStep
    refine (Memref.write_access_whole_univ (Elt Ideal) (cc0_scratch1 : Ref sig .scVector) f _).trans ?_
    exact congrArg (fun g => storeIdx g ![idxv m d L k0_h1 k] (k0_pay1 (F := Ideal)) (fun _ => 1#1) true h)
      (Memref.read_access_whole (Elt Ideal) (cc0_scratch1 : Ref sig .scVector) f)
  rw [hstep]
  have e := store_trip_apply f
    (View.readAt (Elt Ideal) (Memref.whole cc0_scratch0 : Memref sig .scVector .vmem S2x512 .i32).view
      (Rect.unit (s := S2x512) (k0_off1 k) S1x16.size (k0_off1_inb L k k0_h1)).toLoadRect (E0 m d))
    (View.readAt (Elt Ideal) (Memref.whole cc0_scratch0 : Memref sig .scVector .vmem S2x512 .i32).view
      (Rect.unit (s := S2x512) (k0_off2 k) S1x16.size (k0_off2_inb L k k0_h1)).toLoadRect (E0 m d))
    (fun j => loaded_word_le m hwords d _ _) (fun j => loaded_word_le m hwords d _ _) h l r s hp
  refine e.trans ?_
  rw [hA l r s, loaded_src m d L k0_h1 k l hb, loaded_dst m d L k0_h1 k l hb]
  -- counting: trip `k` is the new one
  have hc := card_trips_succ
    (fun j : Fin 32 => (m (eLoc d) (ix2 (1 : Fin 2) (⟨16 * j.val + l.val, by have := j.isLt; have := l.isLt; omega⟩ : Fin 512))).toNat = r.val
      ∧ (m (eLoc d) (ix2 (0 : Fin 2) (⟨16 * j.val + l.val, by have := j.isLt; have := l.isLt; omega⟩ : Fin 512))).toNat = s.val)
    (⟨k.val, hk32⟩ : Fin 32)
  rw [hc, Nat.cast_add]
  congr 1
  split_ifs <;> simp

/-- After all 32 trips, position `(l, r, s)` holds the number of edges `16 j + l` (any `j`) that go from `s` to `r`:
    the bound on the trip is vacuous. -/
theorem accInv_full (d : Dev nD) (L : grid0.Coords) (f : Buf (Elt Ideal) ((thr d L).loc cc0_scratch1))
    (hA : accInv m d L 32 f) (l : Fin 16) (r s : Fin 24) :
    f (ix1 (⟨576 * l.val + 24 * r.val + s.val, by have := l.isLt; have := r.isLt; have := s.isLt; omega⟩ : Fin 9216))
      = (((Finset.univ.filter fun j : Fin 32 =>
          (m (eLoc d) (ix2 (1 : Fin 2) (⟨16 * j.val + l.val, by have := j.isLt; have := l.isLt; omega⟩ : Fin 512))).toNat = r.val
          ∧ (m (eLoc d) (ix2 (0 : Fin 2) (⟨16 * j.val + l.val, by have := j.isLt; have := l.isLt; omega⟩ : Fin 512))).toNat = s.val).card : ℕ) : EReal) := by
  rw [hA l r s]
  exact congrArg (fun n : ℕ => (n : EReal)) (congrArg Finset.card
    (Finset.filter_congr (fun j _ => ⟨fun h => h.2, fun h => ⟨j.isLt, h⟩⟩)))

/-- The first loop makes 32 trips. -/
theorem t1_trips : k0_t1_loop.trips = 32 := by decide

end Cert.Proof.KI

end
-- ==== Proof.TileVal.lean ====
/-
  The sparse kernel's two loops at the extended reals, assembled: the first loop's invariant (each plane of the
  accumulator holds its lane's edge counts so far), the second loop's (the result's finished rows hold the plane
  sums), what the kernel hands back (the edge counts), and the same counts read at the shape the dense stage
  reads them in.
-/
import proofs.«207914_g72782515798130_cont_9to1c4b_353_41_alg».proof.Proof.TileBody
import proofs.«207914_g72782515798130_cont_9to1c4b_353_41_alg».proof.Proof.TileChk
import proofs.«207914_g72782515798130_cont_9to1c4b_353_41_alg».proof.Proof.TileRed
import proofs.«207914_g72782515798130_cont_9to1c4b_353_41_alg».proof.Proof.TileAcc
import proofs.«207914_g72782515798130_cont_9to1c4b_353_41_alg».proof.Proof.Dense
import Idealize.ShloMosaic.Lib.Pipeline.Value

noncomputable section

namespace Cert.Proof.KI

open Cert.KernelIdeal Cert.KernelIdeal.Gen Idealize.ShloMosaic Idealize.ShloMosaic.ValueIdx

/-- The result array holds, at row `r` (128 entries apart) and column `s`, the number of edges from `s` to `r`. -/
def GoodI (m : (ℓ : Loc nD τ sig) → Buf (Elt Ideal) ℓ) (d : Dev nD) (f : Buf (Elt Ideal) (cLoc d)) : Prop :=
  ∀ r s : Fin 24, f (ix1 (⟨128 * r.val + s.val, by omega⟩ : Fin 3072))
    = ((Cert.Proof.Iface.edgeCount (m (eLoc d)) r s : ℕ) : EReal)

variable (m : (ℓ : Loc nD τ sig) → Buf (Elt Ideal) ℓ)

/-- After all 32 trips of the first loop each plane holds its lane's counts. -/
theorem lane_of_acc (d : Dev nD) (L : grid0.Coords) (f : Buf (Elt Ideal) ((thr d L).loc cc0_scratch1))
    (hA : accInv m d L k0_t1_loop.trips f) (l : Fin 16) (r s : Fin 24) :
    f (ix1 (⟨576 * l.val + 24 * r.val + s.val, by omega⟩ : Fin 9216))
      = ((laneCount (m (eLoc d)) l r s : ℕ) : EReal) := by
  refine (hA l r s).trans ?_
  unfold laneCount
  exact congrArg (fun S : Finset (Fin 32) => ((S.card : ℕ) : EReal))
    (Finset.filter_congr fun j _ => ⟨fun h => h.2, fun h => ⟨j.isLt, h⟩⟩)

/-- The copy out of a finished result scratch leaves the edge counts in the result array. -/
theorem good_of (d : Dev nD) (f : S9216.Idx → Elt Ideal .f32) (g : S3072.Idx → Elt Ideal .f32)
    (fc : Buf (Elt Ideal) (cLoc d))
    (hA : ∀ (l : Fin 16) (r s : Fin 24),
      f (ix1 (⟨576 * l.val + 24 * r.val + s.val, by omega⟩ : Fin 9216))
        = ((laneCount (m (eLoc d)) l r s : ℕ) : EReal))
    (hR : redInv f 24 g) :
    GoodI m d (View.write (Elt Ideal) (Memref.whole main_v1_scv : Memref sig .scVector .hbm S3072 .f32).view fc
      (ReadAs.same.apply
        (View.read (Elt Ideal) (Memref.whole cc0_scratch2 : Memref sig .scVector .vmem S3072 .f32).view g))
      Finset.univ) := by
  intro r s
  rw [View.write_whole_univ]
  exact red_good (m (eLoc d)) f g hA hR r s

/-- The two loops' invariants and what they give, at the extended reals. -/
def invI (hwords : ∀ d j, (m (eLoc d) j).toNat ≤ 23) : TileInv (F := Ideal) m (GoodI m) where
  A := accInv m
  chk := chk_of_hwords m hwords
  a0 := acc_a0 m
  astep := fun d L h1 k h f hA => acc_astep m hwords d L h1 k h f hA
  R := fun _ _ n f g => redInv f n g
  r0 := fun _ _ f g => redInv_zero f g
  rstep := fun _ L h1 k f g _ hR => redInv_step L h1 k f g hR
  good := fun d L f g fc hA hR => good_of m d f g fc (lane_of_acc m d L f hA) hR

/-- The edge counts at the shape the dense stage reads them in: row `d`, column `s` of the 24 x 128 block. -/
theorem cnt_good (c : Dev nD) (f : Buf (Elt Ideal) (cLoc c)) (hf : GoodI m c f) :
    ∀ d s : Fin 24, cnt c f (ix2 d ⟨s.val, by omega⟩)
      = ((Cert.Proof.Iface.edgeCount (m (eLoc c)) d s : ℕ) : EReal) := by
  intro d s
  refine (shapeCast_apply (f : Vec Ideal S3072 .f32) _ (ix2 d (⟨s.val, by omega⟩ : Fin 128))
    (ix1 (⟨128 * d.val + s.val, by omega⟩ : Fin 3072)) ?_).trans (hf d s)
  show ((⟨1, ![3072]⟩ : Shape).rowMajor (ix1 (⟨128 * d.val + s.val, by omega⟩ : Fin 3072))).val
      = ((⟨2, ![24, 128]⟩ : Shape).rowMajor (ix2 d (⟨s.val, by omega⟩ : Fin 128))).val
  rw [Shape.rowMajor_val_one, Shape.rowMajor_val_two]
  show 128 * d.val + s.val = d.val * 128 + s.val
  omega

end Cert.Proof.KI

end
-- ==== Proof.lean ====
/-
  The five claims of this certificate.

  The kernel counts edges on a SparseCore — position (d, s) of a 24 × 128 array receives the number of edges from node
  s to node d — and a dense stage on the TensorCore then runs seven graph-convolution layers
  h ← max((P · ((h · W) · u)) · u + b, 0) with P = C + I and u = 1 / sqrt(rowsum(C) + 1), two linear layers and a
  log-softmax. The reference scatters per-edge messages (h · W)[src] · dis[src] · dis[dst] into their destinations,
  with self loops appended. Over the extended reals the two agree because every quantity involved is a real: grouping
  the edges by (destination, source) turns the scattered sum into the matrix product with P, and the two factors u
  distribute over it.

  The three frames: the reference is a straight-line host program (its run read back operation by operation); the two
  kernel programs run by the SparseCore launch rule, the sparse kernel's body on its one working subcore and the
  dense stage's region on the TensorCore, the same text for both float instances. The frames need of the values only
  that every accumulator index the sparse kernel computes is in range, which the precondition's bound on the edge
  words gives.
-/
import proofs.«207914_g72782515798130_cont_9to1c4b_353_41_alg».proof.Defs
import proofs.«207914_g72782515798130_cont_9to1c4b_353_41_alg».proof.Proof.Gen.Kernel
import proofs.«207914_g72782515798130_cont_9to1c4b_353_41_alg».proof.Proof.Gen.KernelIdeal
import proofs.«207914_g72782515798130_cont_9to1c4b_353_41_alg».proof.Proof.Gen.ReferenceIdeal
import proofs.«207914_g72782515798130_cont_9to1c4b_353_41_alg».proof.Proof.Gen.Pre_input_domain
import proofs.«207914_g72782515798130_cont_9to1c4b_353_41_alg».proof.Proof.RefFrame
import proofs.«207914_g72782515798130_cont_9to1c4b_353_41_alg».proof.Proof.RefReadEqP
import proofs.«207914_g72782515798130_cont_9to1c4b_353_41_alg».proof.Proof.KIRun
import proofs.«207914_g72782515798130_cont_9to1c4b_353_41_alg».proof.Proof.KIRunB
import proofs.«207914_g72782515798130_cont_9to1c4b_353_41_alg».proof.Proof.TileChk
import proofs.«207914_g72782515798130_cont_9to1c4b_353_41_alg».proof.Proof.TileChkB
import proofs.«207914_g72782515798130_cont_9to1c4b_353_41_alg».proof.Proof.PreWords
import proofs.«207914_g72782515798130_cont_9to1c4b_353_41_alg».proof.Proof.ValueBridge
import proofs.«207914_g72782515798130_cont_9to1c4b_353_41_alg».proof.Proof.TileVal
import Idealize.ShloMosaic.Adequacy
import Idealize.ShloMosaic.Init

noncomputable section

namespace Cert.Proof

open Idealize.ShloMosaic Idealize.SL.Sem

/-! ## The frames of the two kernel programs -/

/-- For a frame nothing is asked of the values: the invariants are trivial, and every index is in range. -/
def invB (m : (ℓ : Loc Cert.Kernel.nD Cert.Kernel.τ Cert.Kernel.sig) → Buf (Elt Bits) ℓ)
    (hwords : ∀ d j, (m (KB.eLoc d) j).toNat ≤ 23) : KB.TileInv (F := Bits) m (fun _ _ => True) where
  A := fun _ _ _ _ => True
  chk := KB.chk_of_hwords m hwords
  a0 := fun _ _ => trivial
  astep := fun _ _ _ _ _ _ _ => trivial
  R := fun _ _ _ _ _ => True
  r0 := fun _ _ _ _ => trivial
  rstep := fun _ _ _ _ _ _ _ _ => trivial
  good := fun _ _ _ _ _ _ _ => trivial

def invI₀ (m : (ℓ : Loc Cert.KernelIdeal.nD Cert.KernelIdeal.τ Cert.KernelIdeal.sig) → Buf (Elt Ideal) ℓ)
    (hwords : ∀ d j, (m (KI.eLoc d) j).toNat ≤ 23) : KI.TileInv (F := Ideal) m (fun _ _ => True) where
  A := fun _ _ _ _ => True
  chk := KI.chk_of_hwords m hwords
  a0 := fun _ _ => trivial
  astep := fun _ _ _ _ _ _ _ => trivial
  R := fun _ _ _ _ _ => True
  r0 := fun _ _ _ _ => trivial
  rstep := fun _ _ _ _ _ _ _ _ => trivial
  good := fun _ _ _ _ _ _ _ => trivial

theorem frame_p [Cert.Pre_input_domain.Facts] : Cert.frame_Kernel := fun m ρ hpre =>
  (θ_run Cert.Kernel.defs _ _).mono (fun _ h c => by
      obtain ⟨f, -, -, ha⟩ := h c
      exact ⟨ha Cert.Kernel.main_arg0 (by decide), ha Cert.Kernel.main_arg1 (by decide), ha Cert.Kernel.main_arg2 (by decide), ha Cert.Kernel.main_arg3 (by decide), ha Cert.Kernel.main_arg4 (by decide), ha Cert.Kernel.main_arg5 (by decide), ha Cert.Kernel.main_arg6 (by decide), ha Cert.Kernel.main_arg7 (by decide), ha Cert.Kernel.main_arg8 (by decide), ha Cert.Kernel.main_arg9 (by decide), ha Cert.Kernel.main_arg10 (by decide), ha Cert.Kernel.main_arg11 (by decide), ha Cert.Kernel.main_arg12 (by decide), ha Cert.Kernel.main_arg13 (by decide), ha Cert.Kernel.main_arg14 (by decide), ha Cert.Kernel.main_arg15 (by decide), ha Cert.Kernel.main_arg16 (by decide), ha Cert.Kernel.main_arg17 (by decide), ha Cert.Kernel.main_arg18 (by decide), ha Cert.Kernel.main_arg19 (by decide)⟩)
    (KB.run_main (F := Bits) m ρ (fun _ _ => True)
      (invB m fun d => Cert.Proof.PreWords.pre_words (F := Bits) _ _ _ _ _ _ _ _ _ _ _ _ _ _ _ _ _ _ _ _ (hpre d)))

theorem frame_pi [Cert.Pre_input_domain.Facts] : Cert.frame_KernelIdeal := fun m ρ hpre =>
  (θ_run Cert.KernelIdeal.defs _ _).mono (fun _ h c => by
      obtain ⟨f, -, -, ha⟩ := h c
      exact ⟨ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide), ha Cert.KernelIdeal.main_arg11 (by decide), ha Cert.KernelIdeal.main_arg12 (by decide), ha Cert.KernelIdeal.main_arg13 (by decide), ha Cert.KernelIdeal.main_arg14 (by decide), ha Cert.KernelIdeal.main_arg15 (by decide), ha Cert.KernelIdeal.main_arg16 (by decide), ha Cert.KernelIdeal.main_arg17 (by decide), ha Cert.KernelIdeal.main_arg18 (by decide), ha Cert.KernelIdeal.main_arg19 (by decide)⟩)
    (KI.run_main (F := Ideal) m ρ (fun _ _ => True)
      (invI₀ m fun d => Cert.Proof.PreWords.pre_words (F := Ideal) _ _ _ _ _ _ _ _ _ _ _ _ _ _ _ _ _ _ _ _ (hpre d)))

/-! ## The two idealized programs end with equal results -/

theorem algebraic [Cert.Pre_input_domain.Facts] : Cert.algebraic_KernelIdeal_ReferenceIdeal := by
  intro m ρ m' ρ' hpre hagree
  refine ⟨fun c => Cert.ReferenceIdeal.ReadP.val_main_v426 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · have hwords : ∀ d j, (m (KI.eLoc d) j).toNat ≤ 23 := fun d =>
      Cert.Proof.PreWords.pre_words (F := Ideal) _ _ _ _ _ _ _ _ _ _ _ _ _ _ _ _ _ _ _ _ (hpre d)
    refine (θ_run Cert.KernelIdeal.defs _ _).mono (fun _ h c => ?_) (KI.run_main (F := Ideal) m ρ (KI.GoodI m) (KI.invI m hwords))
    obtain ⟨f, hf, hv, ha⟩ := h c
    refine ⟨hv.trans ?_, ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide), ha Cert.KernelIdeal.main_arg11 (by decide), ha Cert.KernelIdeal.main_arg12 (by decide), ha Cert.KernelIdeal.main_arg13 (by decide), ha Cert.KernelIdeal.main_arg14 (by decide), ha Cert.KernelIdeal.main_arg15 (by decide), ha Cert.KernelIdeal.main_arg16 (by decide), ha Cert.KernelIdeal.main_arg17 (by decide), ha Cert.KernelIdeal.main_arg18 (by decide), ha Cert.KernelIdeal.main_arg19 (by decide)⟩
    exact Cert.Proof.Value.bridge _ (KI.cnt c f) _ _ _ _ _ _ _ _ _ _ _ _ _ _ _ _ _ _ _ (hpre c) (KI.cnt_good m c f hf)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v426_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

/-! ## The claim -/

theorem claim : Cert.Claim :=
  ⟨Cert.Kernel.Gen.facts, Cert.KernelIdeal.Gen.facts, Cert.ReferenceIdeal.Gen.facts, Cert.Pre_input_domain.Gen.facts,
    frame_p, frame_pi, Cert.Proof.RefFrame.frame_ri, trivial, algebraic⟩

end Cert.Proof

end
